-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16000000 : Shape := ⟨2, ![2, 16000000]⟩
abbrev S16000000 : Shape := ⟨1, ![16000000]⟩
abbrev S1000000 : Shape := ⟨1, ![1000000]⟩
abbrev S1000000x3 : Shape := ⟨2, ![1000000, 3]⟩
abbrev S3x3 : Shape := ⟨2, ![3, 3]⟩
abbrev S3 : Shape := ⟨1, ![3]⟩
abbrev S6x6 : Shape := ⟨2, ![6, 6]⟩
abbrev S6 : Shape := ⟨1, ![6]⟩
abbrev S6x3 : Shape := ⟨2, ![6, 3]⟩
abbrev S_ : Shape := ⟨0, ![]⟩

class Facts : Prop where
  bcast_S_S16000000 : S_.BroadcastsInDim S16000000 (![] : Fin 0 → Fin S16000000.rank)
  reducesTo_S16000000_S_d0 : S16000000.ReducesTo [0] S_
  h_S_ : 0 < S_.numel
  bcast_S_S1000000x3 : S_.BroadcastsInDim S1000000x3 (![] : Fin 0 → Fin S1000000x3.rank)
  reducesTo_S1000000x3_S_d0_1 : S1000000x3.ReducesTo [0, 1] S_
  bcast_S_S3x3 : S_.BroadcastsInDim S3x3 (![] : Fin 0 → Fin S3x3.rank)
  reducesTo_S3x3_S_d0_1 : S3x3.ReducesTo [0, 1] S_
  bcast_S_S3 : S_.BroadcastsInDim S3 (![] : Fin 0 → Fin S3.rank)
  reducesTo_S3_S_d0 : S3.ReducesTo [0] S_
  bcast_S_S6x6 : S_.BroadcastsInDim S6x6 (![] : Fin 0 → Fin S6x6.rank)
  reducesTo_S6x6_S_d0_1 : S6x6.ReducesTo [0, 1] S_
  bcast_S_S6 : S_.BroadcastsInDim S6 (![] : Fin 0 → Fin S6.rank)
  reducesTo_S6_S_d0 : S6.ReducesTo [0] S_
  bcast_S_S6x3 : S_.BroadcastsInDim S6x3 (![] : Fin 0 → Fin S6x3.rank)
  reducesTo_S6x3_S_d0_1 : S6x3.ReducesTo [0, 1] S_

variable [Facts]

def fn_part2 {F : FTy → Type} [FloatOps F] (main_arg10 : FVec F S3 .f32) (main_v33 : IVec S_ 1) : IVec S_ 1 :=
  let main_v34 : FVec F S3 .f32 := Host.absf main_arg10
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  main_v38

def fn_part1 {F : FTy → Type} [FloatOps F] (main_arg7 : FVec F S6x6 .f32) (main_arg8 : FVec F S6 .f32) (main_arg9 : FVec F S6x3 .f32) (main_arg10 : FVec F S3 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S6x6 .f32 := Host.absf main_arg7
  let main_cst_6 : FVec F S_ .f32 := constant S_ .f32 0x7F800000#32
  let main_v20 : FVec F S6x6 .f32 := broadcastInDim S6x6 ![] bcast_S_S6x6 main_cst_6
  let main_v21 : IVec S6x6 1 := cmpf .olt main_v19 main_v20
  let main_c_7 : IVec S_ 1 := constantI S_ 1 1#1
  let main_v22 : IVec S_ 1 := (fun x v => Host.reduce IntOp.andi x v reducesTo_S6x6_S_d0_1 h_S_) main_v21 main_c_7
  let main_v23 : IVec S_ 1 := andi main_v18 main_v22
  let main_v24 : FVec F S6 .f32 := Host.absf main_arg8
  let main_cst_8 : FVec F S_ .f32 := constant S_ .f32 0x7F800000#32
  let main_v25 : FVec F S6 .f32 := broadcastInDim S6 ![] bcast_S_S6 main_cst_8
  let main_v26 : IVec S6 1 := cmpf .olt main_v24 main_v25
  let main_c_9 : IVec S_ 1 := constantI S_ 1 1#1
  let main_v27 : IVec S_ 1 := (fun x v => Host.reduce IntOp.andi x v reducesTo_S6_S_d0 h_S_) main_v26 main_c_9
  let main_v28 : IVec S_ 1 := andi main_v23 main_v27
  let main_v29 : FVec F S6x3 .f32 := Host.absf main_arg9
  let main_cst_10 : FVec F S_ .f32 := constant S_ .f32 0x7F800000#32
  let main_v30 : FVec F S6x3 .f32 := broadcastInDim S6x3 ![] bcast_S_S6x3 main_cst_10
  let main_v31 : IVec S6x3 1 := cmpf .olt main_v29 main_v30
  let main_c_11 : IVec S_ 1 := constantI S_ 1 1#1
  let main_v32 : IVec S_ 1 := (fun x v => Host.reduce IntOp.andi x v reducesTo_S6x3_S_d0_1 h_S_) main_v31 main_c_11
  let main_v33 : IVec S_ 1 := andi main_v28 main_v32
  fn_part2 (F := F) main_arg10 main_v33

def fn {F : FTy → Type} [FloatOps F] (main_arg0 : IVec S2x16000000 32) (main_arg1 : FVec F S16000000 .f32) (main_arg2 : IVec S1000000 32) (main_arg3 : IVec S1000000 32) (main_arg4 : FVec F S1000000x3 .f32) (main_arg5 : FVec F S3x3 .f32) (main_arg6 : FVec F S3 .f32) (main_arg7 : FVec F S6x6 .f32) (main_arg8 : FVec F S6 .f32) (main_arg9 : FVec F S6x3 .f32) (main_arg10 : FVec F S3 .f32) : IVec S_ 1 :=
  let main_v0 : FVec F S16000000 .f32 := Host.absf main_arg1
  let main_cst : FVec F S_ .f32 := constant S_ .f32 0x7F800000#32
  let main_v1 : FVec F S16000000 .f32 := broadcastInDim S16000000 ![] bcast_S_S16000000 main_cst
  let main_v2 : IVec S16000000 1 := cmpf .olt main_v0 main_v1
  let main_c : IVec S_ 1 := constantI S_ 1 1#1
  let main_v3 : IVec S_ 1 := (fun x v => Host.reduce IntOp.andi x v reducesTo_S16000000_S_d0 h_S_) main_v2 main_c
  let main_v4 : FVec F S1000000x3 .f32 := Host.absf main_arg4
  let main_cst_0 : FVec F S_ .f32 := constant S_ .f32 0x7F800000#32
  let main_v5 : FVec F S1000000x3 .f32 := broadcastInDim S1000000x3 ![] bcast_S_S1000000x3 main_cst_0
  let main_v6 : IVec S1000000x3 1 := cmpf .olt main_v4 main_v5
  let main_c_1 : IVec S_ 1 := constantI S_ 1 1#1
  let main_v7 : IVec S_ 1 := (fun x v => Host.reduce IntOp.andi x v reducesTo_S1000000x3_S_d0_1 h_S_) main_v6 main_c_1
  let main_v8 : IVec S_ 1 := andi main_v3 main_v7
  let main_v9 : FVec F S3x3 .f32 := Host.absf main_arg5
  let main_cst_2 : FVec F S_ .f32 := constant S_ .f32 0x7F800000#32
  let main_v10 : FVec F S3x3 .f32 := broadcastInDim S3x3 ![] bcast_S_S3x3 main_cst_2
  let main_v11 : IVec S3x3 1 := cmpf .olt main_v9 main_v10
  let main_c_3 : IVec S_ 1 := constantI S_ 1 1#1
  let main_v12 : IVec S_ 1 := (fun x v => Host.reduce IntOp.andi x v reducesTo_S3x3_S_d0_1 h_S_) main_v11 main_c_3
  let main_v13 : IVec S_ 1 := andi main_v8 main_v12
  let main_v14 : FVec F S3 .f32 := Host.absf main_arg6
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg7 main_arg8 main_arg9 main_arg10 main_v13 main_v16
-- ==== Kernel.lean ====
abbrev S2x16000000 : Shape := ⟨2, ![2, 16000000]⟩
abbrev S16000000 : Shape := ⟨1, ![16000000]⟩
abbrev S1000000 : Shape := ⟨1, ![1000000]⟩
abbrev S1000000x3 : Shape := ⟨2, ![1000000, 3]⟩
abbrev S3x3 : Shape := ⟨2, ![3, 3]⟩
abbrev S3 : Shape := ⟨1, ![3]⟩
abbrev S6x6 : Shape := ⟨2, ![6, 6]⟩
abbrev S6 : Shape := ⟨1, ![6]⟩
abbrev S6x3 : Shape := ⟨2, ![6, 3]⟩
abbrev S1x16000000 : Shape := ⟨2, ![1, 16000000]⟩
abbrev S_ : Shape := ⟨0, ![]⟩
abbrev S16000000x1 : Shape := ⟨2, ![16000000, 1]⟩
abbrev S8000x3 : Shape := ⟨2, ![8000, 3]⟩
abbrev S16000000x3 : Shape := ⟨2, ![16000000, 3]⟩
abbrev S1x3 : Shape := ⟨2, ![1, 3]⟩
abbrev S1000000x1 : Shape := ⟨2, ![1000000, 1]⟩
abbrev S1000000x6 : Shape := ⟨2, ![1000000, 6]⟩
abbrev S8000x6 : Shape := ⟨2, ![8000, 6]⟩
abbrev S1x6 : Shape := ⟨2, ![1, 6]⟩

abbrev nBuf : Space → Nat
  | .hbm => 95
  | .vmem => 28
  | .smem => 0
  | _ => 0

abbrev bufTy : (tb : Table) → Fin (tcTables nBuf tb) → BufTy
  | .hbm, ⟨0, _⟩ => ⟨S2x16000000, .i32⟩
  | .hbm, ⟨1, _⟩ => ⟨S16000000, .f32⟩
  | .hbm, ⟨2, _⟩ => ⟨S1000000, .i32⟩
  | .hbm, ⟨3, _⟩ => ⟨S1000000, .i32⟩
  | .hbm, ⟨4, _⟩ => ⟨S1000000x3, .f32⟩
  | .hbm, ⟨5, _⟩ => ⟨S3x3, .f32⟩
  | .hbm, ⟨6, _⟩ => ⟨S3, .f32⟩
  | .hbm, ⟨7, _⟩ => ⟨S6x6, .f32⟩
  | .hbm, ⟨8, _⟩ => ⟨S6, .f32⟩
  | .hbm, ⟨9, _⟩ => ⟨S6x3, .f32⟩
  | .hbm, ⟨10, _⟩ => ⟨S3, .f32⟩
  | .hbm, ⟨11, _⟩ => ⟨S1x16000000, .i32⟩
  | .hbm, ⟨12, _⟩ => ⟨S16000000, .i32⟩
  | .hbm, ⟨13, _⟩ => ⟨S1x16000000, .i32⟩
  | .hbm, ⟨14, _⟩ => ⟨S16000000, .i32⟩
  | .hbm, ⟨15, _⟩ => ⟨S_, .f32⟩
  | .hbm, ⟨16, _⟩ => ⟨S1000000, .f32⟩
  | .hbm, ⟨17, _⟩ => ⟨S16000000x1, .i32⟩
  | .hbm, ⟨18, _⟩ => ⟨S1000000, .f32⟩
  | .hbm, ⟨19, _⟩ => ⟨S_, .f32⟩
  | .hbm, ⟨20, _⟩ => ⟨S1000000, .f32⟩
  | .hbm, ⟨21, _⟩ => ⟨S1000000, .i1⟩
  | .hbm, ⟨22, _⟩ => ⟨S_, .f32⟩
  | .hbm, ⟨23, _⟩ => ⟨S1000000, .f32⟩
  | .hbm, ⟨24, _⟩ => ⟨S1000000, .i1⟩
  | .hbm, ⟨25, _⟩ => ⟨S_, .f32⟩
  | .hbm, ⟨26, _⟩ => ⟨S_, .f32⟩
  | .hbm, ⟨27, _⟩ => ⟨S1000000, .f32⟩
  | .hbm, ⟨28, _⟩ => ⟨S1000000, .f32⟩
  | .hbm, ⟨29, _⟩ => ⟨S1000000, .f32⟩
  | .hbm, ⟨30, _⟩ => ⟨S_, .f32⟩
  | .hbm, ⟨31, _⟩ => ⟨S_, .f32⟩
  | .hbm, ⟨32, _⟩ => ⟨S1000000, .f32⟩
  | .hbm, ⟨33, _⟩ => ⟨S1000000, .f32⟩
  | .hbm, ⟨34, _⟩ => ⟨S_, .i32⟩
  | .hbm, ⟨35, _⟩ => ⟨S16000000, .i32⟩
  | .hbm, ⟨36, _⟩ => ⟨S16000000, .i1⟩
  | .hbm, ⟨37, _⟩ => ⟨S_, .i32⟩
  | .hbm, ⟨38, _⟩ => ⟨S16000000, .i32⟩
  | .hbm, ⟨39, _⟩ => ⟨S16000000, .i32⟩
  | .hbm, ⟨40, _⟩ => ⟨S16000000, .i32⟩
  | .hbm, ⟨41, _⟩ => ⟨S16000000x1, .i32⟩
  | .hbm, ⟨42, _⟩ => ⟨S16000000, .f32⟩
  | .hbm, ⟨43, _⟩ => ⟨S16000000, .f32⟩
  | .hbm, ⟨44, _⟩ => ⟨S_, .i32⟩
  | .hbm, ⟨45, _⟩ => ⟨S16000000, .i32⟩
  | .hbm, ⟨46, _⟩ => ⟨S16000000, .i1⟩
  | .hbm, ⟨47, _⟩ => ⟨S_, .i32⟩
  | .hbm, ⟨48, _⟩ => ⟨S16000000, .i32⟩
  | .hbm, ⟨49, _⟩ => ⟨S16000000, .i32⟩
  | .hbm, ⟨50, _⟩ => ⟨S16000000, .i32⟩
  | .hbm, ⟨51, _⟩ => ⟨S16000000x1, .i32⟩
  | .hbm, ⟨52, _⟩ => ⟨S16000000, .f32⟩
  | .hbm, ⟨53, _⟩ => ⟨S16000000, .f32⟩
  | .hbm, ⟨54, _⟩ => ⟨S1000000x3, .f32⟩
  | .hbm, ⟨55, _⟩ => ⟨S16000000x1, .f32⟩
  | .hbm, ⟨56, _⟩ => ⟨S_, .i32⟩
  | .hbm, ⟨57, _⟩ => ⟨S16000000, .i32⟩
  | .hbm, ⟨58, _⟩ => ⟨S16000000, .i1⟩
  | .hbm, ⟨59, _⟩ => ⟨S_, .i32⟩
  | .hbm, ⟨60, _⟩ => ⟨S16000000, .i32⟩
  | .hbm, ⟨61, _⟩ => ⟨S16000000, .i32⟩
  | .hbm, ⟨62, _⟩ => ⟨S16000000, .i32⟩
  | .hbm, ⟨63, _⟩ => ⟨S16000000x1, .i32⟩
  | .hbm, ⟨64, _⟩ => ⟨S16000000x3, .f32⟩
  | .hbm, ⟨65, _⟩ => ⟨S16000000x3, .f32⟩
  | .hbm, ⟨66, _⟩ => ⟨S16000000x3, .f32⟩
  | .hbm, ⟨67, _⟩ => ⟨S_, .f32⟩
  | .hbm, ⟨68, _⟩ => ⟨S1000000x3, .f32⟩
  | .hbm, ⟨69, _⟩ => ⟨S16000000x1, .i32⟩
  | .hbm, ⟨70, _⟩ => ⟨S1000000x3, .f32⟩
  | .hbm, ⟨71, _⟩ => ⟨S1000000x3, .f32⟩
  | .hbm, ⟨72, _⟩ => ⟨S_, .i32⟩
  | .hbm, ⟨73, _⟩ => ⟨S1000000, .i32⟩
  | .hbm, ⟨74, _⟩ => ⟨S1000000, .i1⟩
  | .hbm, ⟨75, _⟩ => ⟨S_, .i32⟩
  | .hbm, ⟨76, _⟩ => ⟨S1000000, .i32⟩
  | .hbm, ⟨77, _⟩ => ⟨S1000000, .i32⟩
  | .hbm, ⟨78, _⟩ => ⟨S1000000, .i32⟩
  | .hbm, ⟨79, _⟩ => ⟨S1000000x1, .i32⟩
  | .hbm, ⟨80, _⟩ => ⟨S1000000x3, .f32⟩
  | .hbm, ⟨81, _⟩ => ⟨S_, .i32⟩
  | .hbm, ⟨82, _⟩ => ⟨S1000000, .i32⟩
  | .hbm, ⟨83, _⟩ => ⟨S1000000, .i1⟩
  | .hbm, ⟨84, _⟩ => ⟨S_, .i32⟩
  | .hbm, ⟨85, _⟩ => ⟨S1000000, .i32⟩
  | .hbm, ⟨86, _⟩ => ⟨S1000000, .i32⟩
  | .hbm, ⟨87, _⟩ => ⟨S1000000, .i32⟩
  | .hbm, ⟨88, _⟩ => ⟨S1000000x1, .i32⟩
  | .hbm, ⟨89, _⟩ => ⟨S1000000x3, .f32⟩
  | .hbm, ⟨90, _⟩ => ⟨S1000000x6, .f32⟩
  | .hbm, ⟨91, _⟩ => ⟨S1000000x3, .f32⟩
  | .hbm, ⟨92, _⟩ => ⟨S1x3, .f32⟩
  | .hbm, ⟨93, _⟩ => ⟨S1x3, .f32⟩
  | .hbm, ⟨94, _⟩ => ⟨S1000000x3, .f32⟩
  | .local _ .vmem, ⟨0, _⟩ => ⟨S8000x3, .f32⟩
  | .local _ .vmem, ⟨1, _⟩ => ⟨S8000x3, .f32⟩
  | .local _ .vmem, ⟨2, _⟩ => ⟨S3x3, .f32⟩
  | .local _ .vmem, ⟨3, _⟩ => ⟨S8000x3, .f32⟩
  | .local _ .vmem, ⟨4, _⟩ => ⟨S8000x3, .f32⟩
  | .local _ .vmem, ⟨5, _⟩ => ⟨S8000x3, .f32⟩
  | .local _ .vmem, ⟨6, _⟩ => ⟨S8000x3, .f32⟩
  | .local _ .vmem, ⟨7, _⟩ => ⟨S3, .f32⟩
  | .local _ .vmem, ⟨8, _⟩ => ⟨S8000x3, .f32⟩
  | .local _ .vmem, ⟨9, _⟩ => ⟨S8000x3, .f32⟩
  | .local _ .vmem, ⟨10, _⟩ => ⟨S8000x6, .f32⟩
  | .local _ .vmem, ⟨11, _⟩ => ⟨S8000x6, .f32⟩
  | .local _ .vmem, ⟨12, _⟩ => ⟨S6x6, .f32⟩
  | .local _ .vmem, ⟨13, _⟩ => ⟨S6, .f32⟩
  | .local _ .vmem, ⟨14, _⟩ => ⟨S6x3, .f32⟩
  | .local _ .vmem, ⟨15, _⟩ => ⟨S3, .f32⟩
  | .local _ .vmem, ⟨16, _⟩ => ⟨S8000x3, .f32⟩
  | .local _ .vmem, ⟨17, _⟩ => ⟨S8000x3, .f32⟩
  | .local _ .vmem, ⟨18, _⟩ => ⟨S1x3, .f32⟩
  | .local _ .vmem, ⟨19, _⟩ => ⟨S1x3, .f32⟩
  | .local _ .vmem, ⟨20, _⟩ => ⟨S1x3, .f32⟩
  | .local _ .vmem, ⟨21, _⟩ => ⟨S1x3, .f32⟩
  | .local _ .vmem, ⟨22, _⟩ => ⟨S8000x3, .f32⟩
  | .local _ .vmem, ⟨23, _⟩ => ⟨S8000x3, .f32⟩
  | .local _ .vmem, ⟨24, _⟩ => ⟨S1x3, .f32⟩
  | .local _ .vmem, ⟨25, _⟩ => ⟨S1x3, .f32⟩
  | .local _ .vmem, ⟨26, _⟩ => ⟨S8000x3, .f32⟩
  | .local _ .vmem, ⟨27, _⟩ => ⟨S8000x3, .f32⟩
  | _, _ => ⟨S2x16000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_c_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_10 : Ref sig .tc := ⟨.hbm, 72, rfl⟩
abbrev main_v45 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_12 : Ref sig .tc := ⟨.hbm, 81, rfl⟩
abbrev main_v52 : Ref sig .tc := ⟨.hbm, 82, rfl⟩
abbrev main_v53 : Ref sig .tc := ⟨.hbm, 83, rfl⟩
abbrev main_c_13 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60_0 : Ref sig .tc := ⟨.hbm, 91, rfl⟩
abbrev main_v60_1 : Ref sig .tc := ⟨.hbm, 92, rfl⟩
abbrev main_v60_2 : Ref sig .tc := ⟨.hbm, 93, rfl⟩
abbrev main_v61 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc2_stg6_0 : Ref sig .tc := ⟨.vmem, 18, rfl⟩
abbrev cc2_stg7_0 : Ref sig .tc := ⟨.vmem, 19, rfl⟩
abbrev cc2_scratch0 : Ref sig .tc := ⟨.vmem, 20, rfl⟩
abbrev cc2_scratch1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc2_sem6_0 : DmaSem sig := 18
abbrev cc2_sem7_0 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![125], ![false]⟩

def k2_cond2 (i : grid2.Coords) : BitVec 1 :=
  let arg0 : BitVec 32 := BitVec.ofNat 32 (i 0).val
  let c124_i32 : BitVec 32 := 124#32
  let v49 : BitVec 1 := Scalar.cmpi .eq arg0 c124_i32
  let v50 : BitVec 32 := Scalar.extui v49
  let c0_i32_27 : BitVec 32 := 0#32
  let v51 : BitVec 1 := Scalar.cmpi .ne v50 c0_i32_27
  v51

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8000x6 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S6x6 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S6 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S6x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x3 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x3 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x3 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8000x3 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S1000000 : S_.BroadcastsInDim S1000000 (![] : Fin 0 → Fin S1000000.rank)
  bcast_S16000000_S16000000x1_0 : S16000000.BroadcastsInDim S16000000x1 (![0] : Fin 1 → Fin S16000000x1.rank)
  bcast_S_S16000000 : S_.BroadcastsInDim S16000000 (![] : Fin 0 → Fin S16000000.rank)
  inb_S8000x3_S8000x3_0_0 : ∀ a, (![0, 0] : Fin 2 → Nat) a + S8000x3.size a ≤ S8000x3.size a
  h_S8000x3 : 0 < S8000x3.numel
  inb_S3x3_S3x3_0_0 : ∀ a, (![0, 0] : Fin 2 → Nat) a + S3x3.size a ≤ S3x3.size a
  h_S3x3 : 0 < S3x3.numel
  bcast_S16000000x1_S16000000x3_0_1 : S16000000x1.BroadcastsInDim S16000000x3 (![0, 1] : Fin 2 → Fin S16000000x3.rank)
  bcast_S_S1000000x3 : S_.BroadcastsInDim S1000000x3 (![] : Fin 0 → Fin S1000000x3.rank)
  shapeCasts_S8000x3_S8000x3 : S8000x3.ShapeCasts S8000x3
  inb_S3_S3_0 : ∀ a, (![0] : Fin 1 → Nat) a + S3.size a ≤ S3.size a
  h_S3 : 0 < S3.numel
  shapeCasts_S3_S1x3 : S3.ShapeCasts S1x3
  broadcasts_S1x3_S8000x3 : S1x3.Broadcasts S8000x3
  bcast_S1000000_S1000000x1_0 : S1000000.BroadcastsInDim S1000000x1 (![0] : Fin 1 → Fin S1000000x1.rank)
  concatenates_S1000000x3_S1000000x3_S1000000x6_d1 : Shape.Concatenates [S1000000x3, S1000000x3] S1000000x6 1
  inb_S1x3_S1x3_0_0 : ∀ a, (![0, 0] : Fin 2 → Nat) a + S1x3.size a ≤ S1x3.size a
  h_S1x3 : 0 < S1x3.numel
  shapeCasts_S1x3_S1x3 : S1x3.ShapeCasts S1x3
  inb_S8000x6_S8000x6_0_0 : ∀ a, (![0, 0] : Fin 2 → Nat) a + S8000x6.size a ≤ S8000x6.size a
  h_S8000x6 : 0 < S8000x6.numel
  shapeCasts_S8000x6_S8000x6 : S8000x6.ShapeCasts S8000x6
  inb_S6x6_S6x6_0_0 : ∀ a, (![0, 0] : Fin 2 → Nat) a + S6x6.size a ≤ S6x6.size a
  h_S6x6 : 0 < S6x6.numel
  inb_S6_S6_0 : ∀ a, (![0] : Fin 1 → Nat) a + S6.size a ≤ S6.size a
  h_S6 : 0 < S6.numel
  shapeCasts_S6_S1x6 : S6.ShapeCasts S1x6
  broadcasts_S1x6_S8000x6 : S1x6.Broadcasts S8000x6
  inb_S6x3_S6x3_0_0 : ∀ a, (![0, 0] : Fin 2 → Nat) a + S6x3.size a ≤ S6x3.size a
  h_S6x3 : 0 < S6x3.numel
  reduces_S8000x3_S3 : S8000x3.Reduces [0] S3
  scatter_S1000000_S16000000x1_S16000000_n_0_0_1_wf : ScatterDims.WF S1000000 S16000000x1 S16000000 [] [0] [0] 1
  gather_S1000000_S16000000x1_S16000000_n_0_n_n_0_1_1_wf : GatherDims.WF S1000000 S16000000x1 S16000000 [] [0] [] [0] [] 1 ![1]
  dot_S8000x3_S3x3_S8000x3_1_0_0_1_n_n_wf : DotDims.WF S8000x3 S3x3 S8000x3 [1] [0] [0] [1] [] []
  gather_S1000000x3_S16000000x1_S16000000x3_1_0_n_n_0_1_13_wf : GatherDims.WF S1000000x3 S16000000x1 S16000000x3 [1] [0] [] [0] [] 1 ![1, 3]
  scatter_S1000000x3_S16000000x1_S16000000x3_1_0_0_1_wf : ScatterDims.WF S1000000x3 S16000000x1 S16000000x3 [1] [0] [0] 1
  gather_S1000000x3_S1000000x1_S1000000x3_1_0_n_n_0_1_13_wf : GatherDims.WF S1000000x3 S1000000x1 S1000000x3 [1] [0] [] [0] [] 1 ![1, 3]
  dot_S8000x6_S6x6_S8000x6_1_0_0_1_n_n_wf : DotDims.WF S8000x6 S6x6 S8000x6 [1] [0] [0] [1] [] []
  dot_S8000x6_S6x3_S8000x3_1_0_0_1_n_n_wf : DotDims.WF S8000x6 S6x3 S8000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S1000000x3.size a
  hwx0_0 : ∀ i : grid0.Coords, EltTy.bits .f32 = 32 ∨ (Rect.block (s := S1000000x3) S8000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3.size a ≤ S3x3.size a
  hwx0_1 : ∀ i : grid0.Coords, EltTy.bits .f32 = 32 ∨ (Rect.block (s := S3x3) S3x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x3.size a ≤ S1000000x3.size a
  hwx0_2 : ∀ i : grid0.Coords, EltTy.bits .f32 = 32 ∨ (Rect.block (s := S1000000x3) S8000x3.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x3.size a ≤ S1000000x3.size a
  hwx1_0 : ∀ i : grid1.Coords, EltTy.bits .f32 = 32 ∨ (Rect.block (s := S1000000x3) S8000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3.size a ≤ S3.size a
  hwx1_1 : ∀ i : grid1.Coords, EltTy.bits .f32 = 32 ∨ (Rect.block (s := S3) S3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x3.size a ≤ S1000000x3.size a
  hwx1_2 : ∀ i : grid1.Coords, EltTy.bits .f32 = 32 ∨ (Rect.block (s := S1000000x3) S8000x3.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x6.size a ≤ S1000000x6.size a
  hwx2_0 : ∀ i : grid2.Coords, EltTy.bits .f32 = 32 ∨ (Rect.block (s := S1000000x6) S8000x6.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S6x6.size a ≤ S6x6.size a
  hwx2_1 : ∀ i : grid2.Coords, EltTy.bits .f32 = 32 ∨ (Rect.block (s := S6x6) S6x6.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S6.size a ≤ S6.size a
  hwx2_2 : ∀ i : grid2.Coords, EltTy.bits .f32 = 32 ∨ (Rect.block (s := S6) S6.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S6x3.size a ≤ S6x3.size a
  hwx2_3 : ∀ i : grid2.Coords, EltTy.bits .f32 = 32 ∨ (Rect.block (s := S6x3) S6x3.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3.size a ≤ S3.size a
  hwx2_4 : ∀ i : grid2.Coords, EltTy.bits .f32 = 32 ∨ (Rect.block (s := S3) S3.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x3.size a ≤ S1000000x3.size a
  hwx2_5 : ∀ i : grid2.Coords, EltTy.bits .f32 = 32 ∨ (Rect.block (s := S1000000x3) S8000x3.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x3.size a ≤ S1x3.size a
  hwx2_6 : ∀ i : grid2.Coords, EltTy.bits .f32 = 32 ∨ (Rect.block (s := S1x3) S1x3.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x3.size a ≤ S1x3.size a
  hwx2_7 : ∀ i : grid2.Coords, EltTy.bits .f32 = 32 ∨ (Rect.block (s := S1x3) S1x3.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x3.size a ≤ S1000000x3.size a
  hwx3_0 : ∀ i : grid3.Coords, EltTy.bits .f32 = 32 ∨ (Rect.block (s := S1000000x3) S8000x3.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x3.size a ≤ S1x3.size a
  hwx3_1 : ∀ i : grid3.Coords, EltTy.bits .f32 = 32 ∨ (Rect.block (s := S1x3) S1x3.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x3.size a ≤ S1x3.size a
  hwx3_2 : ∀ i : grid3.Coords, EltTy.bits .f32 = 32 ∨ (Rect.block (s := S1x3) S1x3.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x3.size a ≤ S1000000x3.size a
  hwx3_3 : ∀ i : grid3.Coords, EltTy.bits .f32 = 32 ∨ (Rect.block (s := S1000000x3) S8000x3.size (cc3_transform_3 i) (hinb3_3 i)).WholeWords (EltTy.packing .f32)

variable [Facts₀]

def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def gather_S1000000_S16000000x1_S16000000_n_0_n_n_0_1_1 : GatherDims S1000000 S16000000x1 S16000000 where
  offsetDims := []
  collapsedSliceDims := [0]
  operandBatchingDims := []
  startIndicesBatchingDims := []
  startIndexMap := [0]
  indexVectorDim := 1
  sliceSizes := ![1]
  wf := gather_S1000000_S16000000x1_S16000000_n_0_n_n_0_1_1_wf
def dot_S8000x3_S3x3_S8000x3_1_0_0_1_n_n : DotDims S8000x3 S3x3 S8000x3 where
  lhsContracting := [1]
  rhsContracting := [0]
  lhsNonContracting := [0]
  rhsNonContracting := [1]
  lhsBatch := []
  rhsBatch := []
  wf := dot_S8000x3_S3x3_S8000x3_1_0_0_1_n_n_wf
def gather_S1000000x3_S16000000x1_S16000000x3_1_0_n_n_0_1_13 : GatherDims S1000000x3 S16000000x1 S16000000x3 where
  offsetDims := [1]
  collapsedSliceDims := [0]
  operandBatchingDims := []
  startIndicesBatchingDims := []
  startIndexMap := [0]
  indexVectorDim := 1
  sliceSizes := ![1, 3]
  wf := gather_S1000000x3_S16000000x1_S16000000x3_1_0_n_n_0_1_13_wf
def scatter_S1000000x3_S16000000x1_S16000000x3_1_0_0_1 : ScatterDims S1000000x3 S16000000x1 S16000000x3 where
  updateWindowDims := [1]
  insertedWindowDims := [0]
  scatterDimsToOperandDims := [0]
  indexVectorDim := 1
  wf := scatter_S1000000x3_S16000000x1_S16000000x3_1_0_0_1_wf
def gather_S1000000x3_S1000000x1_S1000000x3_1_0_n_n_0_1_13 : GatherDims S1000000x3 S1000000x1 S1000000x3 where
  offsetDims := [1]
  collapsedSliceDims := [0]
  operandBatchingDims := []
  startIndicesBatchingDims := []
  startIndexMap := [0]
  indexVectorDim := 1
  sliceSizes := ![1, 3]
  wf := gather_S1000000x3_S1000000x1_S1000000x3_1_0_n_n_0_1_13_wf
def dot_S8000x6_S6x6_S8000x6_1_0_0_1_n_n : DotDims S8000x6 S6x6 S8000x6 where
  lhsContracting := [1]
  rhsContracting := [0]
  lhsNonContracting := [0]
  rhsNonContracting := [1]
  lhsBatch := []
  rhsBatch := []
  wf := dot_S8000x6_S6x6_S8000x6_1_0_0_1_n_n_wf
def dot_S8000x6_S6x3_S8000x3_1_0_0_1_n_n : DotDims S8000x6 S6x3 S8000x3 where
  lhsContracting := [1]
  rhsContracting := [0]
  lhsNonContracting := [0]
  rhsNonContracting := [1]
  lhsBatch := []
  rhsBatch := []
  wf := dot_S8000x6_S6x3_S8000x3_1_0_0_1_n_n_wf

abbrev win0_0 : Pipeline.Window sig grid0 :=
  Pipeline.Window.ofSpec (Memref.whole main_arg4) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S3x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S8000x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S8000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S8000x3.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v59) S8000x6.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S6x6.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S6.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S6x3.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S3.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60_0) S8000x3.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v60_1) S1x3.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60_2) S1x3.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v60_0) S8000x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60_1) S1x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60_2) S1x3.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S8000x3.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S2x16000000 : Shape := ⟨2, ![2, 16000000]⟩
abbrev S16000000 : Shape := ⟨1, ![16000000]⟩
abbrev S1000000 : Shape := ⟨1, ![1000000]⟩
abbrev S1000000x3 : Shape := ⟨2, ![1000000, 3]⟩
abbrev S3x3 : Shape := ⟨2, ![3, 3]⟩
abbrev S3 : Shape := ⟨1, ![3]⟩
abbrev S6x6 : Shape := ⟨2, ![6, 6]⟩
abbrev S6 : Shape := ⟨1, ![6]⟩
abbrev S6x3 : Shape := ⟨2, ![6, 3]⟩
abbrev S1x16000000 : Shape := ⟨2, ![1, 16000000]⟩
abbrev S_ : Shape := ⟨0, ![]⟩
abbrev S16000000x1 : Shape := ⟨2, ![16000000, 1]⟩
abbrev S16000000x3 : Shape := ⟨2, ![16000000, 3]⟩
abbrev S1x3 : Shape := ⟨2, ![1, 3]⟩
abbrev S1000000x1 : Shape := ⟨2, ![1000000, 1]⟩
abbrev S1000000x6 : Shape := ⟨2, ![1000000, 6]⟩
abbrev S1x6 : Shape := ⟨2, ![1, 6]⟩

abbrev nBuf : Space → Nat
  | .hbm => 137
  | .vmem => 0
  | .smem => 0
  | _ => 0

abbrev hbmTy0_0 (i : Nat) : BufTy := match i % 128 with
  | 0 => ⟨S2x16000000, .i32⟩
  | 1 => ⟨S16000000, .f32⟩
  | 2 => ⟨S1000000, .i32⟩
  | 3 => ⟨S1000000, .i32⟩
  | 4 => ⟨S1000000x3, .f32⟩
  | 5 => ⟨S3x3, .f32⟩
  | 6 => ⟨S3, .f32⟩
  | 7 => ⟨S6x6, .f32⟩
  | 8 => ⟨S6, .f32⟩
  | 9 => ⟨S6x3, .f32⟩
  | 10 => ⟨S3, .f32⟩
  | 11 => ⟨S1x16000000, .i32⟩
  | 12 => ⟨S16000000, .i32⟩
  | 13 => ⟨S1x16000000, .i32⟩
  | 14 => ⟨S16000000, .i32⟩
  | 15 => ⟨S_, .f32⟩
  | 16 => ⟨S1000000, .f32⟩
  | 17 => ⟨S16000000x1, .i32⟩
  | 18 => ⟨S1000000, .f32⟩
  | 19 => ⟨S_, .f32⟩
  | 20 => ⟨S1000000, .f32⟩
  | 21 => ⟨S1000000, .i1⟩
  | 22 => ⟨S_, .f32⟩
  | 23 => ⟨S1000000, .f32⟩
  | 24 => ⟨S1000000, .i1⟩
  | 25 => ⟨S_, .f32⟩
  | 26 => ⟨S_, .f32⟩
  | 27 => ⟨S1000000, .f32⟩
  | 28 => ⟨S1000000, .f32⟩
  | 29 => ⟨S1000000, .f32⟩
  | 30 => ⟨S_, .f32⟩
  | 31 => ⟨S_, .f32⟩
  | 32 => ⟨S1000000, .f32⟩
  | 33 => ⟨S1000000, .f32⟩
  | 34 => ⟨S_, .i32⟩
  | 35 => ⟨S16000000, .i32⟩
  | 36 => ⟨S16000000, .i1⟩
  | 37 => ⟨S_, .i32⟩
  | 38 => ⟨S16000000, .i32⟩
  | 39 => ⟨S16000000, .i32⟩
  | 40 => ⟨S16000000, .i32⟩
  | 41 => ⟨S16000000x1, .i32⟩
  | 42 => ⟨S16000000, .f32⟩
  | 43 => ⟨S16000000, .f32⟩
  | 44 => ⟨S_, .i32⟩
  | 45 => ⟨S16000000, .i32⟩
  | 46 => ⟨S16000000, .i1⟩
  | 47 => ⟨S_, .i32⟩
  | 48 => ⟨S16000000, .i32⟩
  | 49 => ⟨S16000000, .i32⟩
  | 50 => ⟨S16000000, .i32⟩
  | 51 => ⟨S16000000x1, .i32⟩
  | 52 => ⟨S16000000, .f32⟩
  | 53 => ⟨S16000000, .f32⟩
  | 54 => ⟨S1000000x3, .f32⟩
  | 55 => ⟨S16000000x1, .f32⟩
  | 56 => ⟨S_, .i32⟩
  | 57 => ⟨S16000000, .i32⟩
  | 58 => ⟨S16000000, .i1⟩
  | 59 => ⟨S_, .i32⟩
  | 60 => ⟨S16000000, .i32⟩
  | 61 => ⟨S16000000, .i32⟩
  | 62 => ⟨S16000000, .i32⟩
  | 63 => ⟨S16000000x1, .i32⟩
  | 64 => ⟨S16000000x3, .f32⟩
  | 65 => ⟨S16000000x3, .f32⟩
  | 66 => ⟨S16000000x3, .f32⟩
  | 67 => ⟨S_, .f32⟩
  | 68 => ⟨S1000000x3, .f32⟩
  | 69 => ⟨S16000000x1, .i32⟩
  | 70 => ⟨S1000000x3, .f32⟩
  | 71 => ⟨S1x3, .f32⟩
  | 72 => ⟨S1000000x3, .f32⟩
  | 73 => ⟨S1000000x3, .f32⟩
  | 74 => ⟨S_, .f32⟩
  | 75 => ⟨S1000000x3, .f32⟩
  | 76 => ⟨S1000000x3, .i1⟩
  | 77 => ⟨S_, .f32⟩
  | 78 => ⟨S1000000x3, .f32⟩
  | 79 => ⟨S1000000x3, .f32⟩
  | 80 => ⟨S1000000x3, .f32⟩
  | 81 => ⟨S_, .i32⟩
  | 82 => ⟨S1000000, .i32⟩
  | 83 => ⟨S1000000, .i1⟩
  | 84 => ⟨S_, .i32⟩
  | 85 => ⟨S1000000, .i32⟩
  | 86 => ⟨S1000000, .i32⟩
  | 87 => ⟨S1000000, .i32⟩
  | 88 => ⟨S1000000x1, .i32⟩
  | 89 => ⟨S1000000x3, .f32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000x3, .f32⟩
  | 99 => ⟨S1000000x6, .f32⟩
  | 100 => ⟨S1000000x6, .f32⟩
  | 101 => ⟨S1x6, .f32⟩
  | 102 => ⟨S1000000x6, .f32⟩
  | 103 => ⟨S1000000x6, .f32⟩
  | 104 => ⟨S_, .f32⟩
  | 105 => ⟨S1000000x6, .f32⟩
  | 106 => ⟨S1000000x6, .i1⟩
  | 107 => ⟨S_, .f32⟩
  | 108 => ⟨S1000000x6, .f32⟩
  | 109 => ⟨S1000000x6, .f32⟩
  | 110 => ⟨S1000000x6, .f32⟩
  | 111 => ⟨S1000000x3, .f32⟩
  | 112 => ⟨S1x3, .f32⟩
  | 113 => ⟨S1000000x3, .f32⟩
  | 114 => ⟨S1000000x3, .f32⟩
  | 115 => ⟨S_, .f32⟩
  | 116 => ⟨S1000000x3, .f32⟩
  | 117 => ⟨S1000000x3, .i1⟩
  | 118 => ⟨S_, .f32⟩
  | 119 => ⟨S1000000x3, .f32⟩
  | 120 => ⟨S1000000x3, .f32⟩
  | 121 => ⟨S1000000x3, .f32⟩
  | 122 => ⟨S_, .f32⟩
  | 123 => ⟨S3, .f32⟩
  | 124 => ⟨S_, .f32⟩
  | 125 => ⟨S3, .f32⟩
  | 126 => ⟨S3, .f32⟩
  | 127 => ⟨S1x3, .f32⟩
  | _ => ⟨S2x16000000, .i32⟩

abbrev hbmTy0_1 (i : Nat) : BufTy := match i % 128 with
  | 0 => ⟨S1000000x3, .f32⟩
  | 1 => ⟨S1000000x3, .f32⟩
  | 2 => ⟨S1000000x3, .f32⟩
  | 3 => ⟨S_, .f32⟩
  | 4 => ⟨S3, .f32⟩
  | 5 => ⟨S1x3, .f32⟩
  | 6 => ⟨S1x3, .f32⟩
  | 7 => ⟨S1000000x3, .f32⟩
  | 8 => ⟨S1000000x3, .f32⟩
  | _ => ⟨S2x16000000, .i32⟩

abbrev hbmTy (i : Nat) : BufTy := match i / 128 with
  | 0 => hbmTy0_0 i
  | 1 => hbmTy0_1 i
  | _ => ⟨S2x16000000, .i32⟩

abbrev bufTy : (tb : Table) → Fin (tcTables nBuf tb) → BufTy
  | .hbm, ⟨i, _⟩ => hbmTy i
  | _, _ => ⟨S2x16000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_c_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_cst_0 : Ref sig .tc := ⟨.hbm, 77, rfl⟩
abbrev main_call2_v2 : Ref sig .tc := ⟨.hbm, 78, rfl⟩
abbrev main_call2_v3 : Ref sig .tc := ⟨.hbm, 79, rfl⟩
abbrev main_v47 : Ref sig .tc := ⟨.hbm, 80, rfl⟩
abbrev main_c_10 : Ref sig .tc := ⟨.hbm, 81, rfl⟩
abbrev main_v48 : Ref sig .tc := ⟨.hbm, 82, rfl⟩
abbrev main_v49 : Ref sig .tc := ⟨.hbm, 83, rfl⟩
abbrev main_c_11 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_12 : Ref sig .tc := ⟨.hbm, 90, rfl⟩
abbrev main_v55 : Ref sig .tc := ⟨.hbm, 91, rfl⟩
abbrev main_v56 : Ref sig .tc := ⟨.hbm, 92, rfl⟩
abbrev main_c_13 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_call3_cst : Ref sig .tc := ⟨.hbm, 104, rfl⟩
abbrev main_call3_v0 : Ref sig .tc := ⟨.hbm, 105, rfl⟩
abbrev main_call3_v1 : Ref sig .tc := ⟨.hbm, 106, rfl⟩
abbrev main_call3_cst_0 : Ref sig .tc := ⟨.hbm, 107, rfl⟩
abbrev main_call3_v2 : Ref sig .tc := ⟨.hbm, 108, rfl⟩
abbrev main_call3_v3 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_call4_cst : Ref sig .tc := ⟨.hbm, 115, rfl⟩
abbrev main_call4_v0 : Ref sig .tc := ⟨.hbm, 116, rfl⟩
abbrev main_call4_v1 : Ref sig .tc := ⟨.hbm, 117, rfl⟩
abbrev main_call4_cst_0 : Ref sig .tc := ⟨.hbm, 118, rfl⟩
abbrev main_call4_v2 : Ref sig .tc := ⟨.hbm, 119, rfl⟩
abbrev main_call4_v3 : Ref sig .tc := ⟨.hbm, 120, rfl⟩
abbrev main_v72 : Ref sig .tc := ⟨.hbm, 121, rfl⟩
abbrev main_call5_cst : Ref sig .tc := ⟨.hbm, 122, rfl⟩
abbrev main_call5_v0 : Ref sig .tc := ⟨.hbm, 123, rfl⟩
abbrev main_call5_cst_0 : Ref sig .tc := ⟨.hbm, 124, rfl⟩
abbrev main_call5_v1 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_call5_v5 : Ref sig .tc := ⟨.hbm, 129, rfl⟩
abbrev main_call5_v6 : Ref sig .tc := ⟨.hbm, 130, rfl⟩
abbrev main_call5_cst_1 : Ref sig .tc := ⟨.hbm, 131, rfl⟩
abbrev main_call5_v7 : Ref sig .tc := ⟨.hbm, 132, rfl⟩
abbrev main_call5_v8 : Ref sig .tc := ⟨.hbm, 133, rfl⟩
abbrev main_call5_v9 : Ref sig .tc := ⟨.hbm, 134, rfl⟩
abbrev main_call5_v10 : Ref sig .tc := ⟨.hbm, 135, rfl⟩
abbrev main_v73 : Ref sig .tc := ⟨.hbm, 136, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S1000000 : S_.BroadcastsInDim S1000000 (![] : Fin 0 → Fin S1000000.rank)
  bcast_S16000000_S16000000x1_0 : S16000000.BroadcastsInDim S16000000x1 (![0] : Fin 1 → Fin S16000000x1.rank)
  bcast_S_S16000000 : S_.BroadcastsInDim S16000000 (![] : Fin 0 → Fin S16000000.rank)
  bcast_S16000000x1_S16000000x3_0_1 : S16000000x1.BroadcastsInDim S16000000x3 (![0, 1] : Fin 2 → Fin S16000000x3.rank)
  bcast_S_S1000000x3 : S_.BroadcastsInDim S1000000x3 (![] : Fin 0 → Fin S1000000x3.rank)
  bcast_S3_S1x3_1 : S3.BroadcastsInDim S1x3 (![1] : Fin 1 → Fin S1x3.rank)
  bcast_S1x3_S1000000x3_0_1 : S1x3.BroadcastsInDim S1000000x3 (![0, 1] : Fin 2 → Fin S1000000x3.rank)
  bcast_S1000000_S1000000x1_0 : S1000000.BroadcastsInDim S1000000x1 (![0] : Fin 1 → Fin S1000000x1.rank)
  concatenates_S1000000x3_S1000000x3_S1000000x6_d1 : Shape.Concatenates [S1000000x3, S1000000x3] S1000000x6 1
  bcast_S6_S1x6_1 : S6.BroadcastsInDim S1x6 (![1] : Fin 1 → Fin S1x6.rank)
  bcast_S1x6_S1000000x6_0_1 : S1x6.BroadcastsInDim S1000000x6 (![0, 1] : Fin 2 → Fin S1000000x6.rank)
  bcast_S_S1000000x6 : S_.BroadcastsInDim S1000000x6 (![] : Fin 0 → Fin S1000000x6.rank)
  reducesTo_S1000000x3_S3_d0 : S1000000x3.ReducesTo [0] S3
  h_S_ : 0 < S_.numel
  bcast_S_S3 : S_.BroadcastsInDim S3 (![] : Fin 0 → Fin S3.rank)
  scatter_S1000000_S16000000x1_S16000000_n_0_0_1_wf : ScatterDims.WF S1000000 S16000000x1 S16000000 [] [0] [0] 1
  gather_S1000000_S16000000x1_S16000000_n_0_n_n_0_1_1_wf : GatherDims.WF S1000000 S16000000x1 S16000000 [] [0] [] [0] [] 1 ![1]
  dot_S1000000x3_S3x3_S1000000x3_1_0_0_1_n_n_wf : DotDims.WF S1000000x3 S3x3 S1000000x3 [1] [0] [0] [1] [] []
  gather_S1000000x3_S16000000x1_S16000000x3_1_0_n_n_0_1_13_wf : GatherDims.WF S1000000x3 S16000000x1 S16000000x3 [1] [0] [] [0] [] 1 ![1, 3]
  scatter_S1000000x3_S16000000x1_S16000000x3_1_0_0_1_wf : ScatterDims.WF S1000000x3 S16000000x1 S16000000x3 [1] [0] [0] 1
  gather_S1000000x3_S1000000x1_S1000000x3_1_0_n_n_0_1_13_wf : GatherDims.WF S1000000x3 S1000000x1 S1000000x3 [1] [0] [] [0] [] 1 ![1, 3]
  dot_S1000000x6_S6x6_S1000000x6_1_0_0_1_n_n_wf : DotDims.WF S1000000x6 S6x6 S1000000x6 [1] [0] [0] [1] [] []
  dot_S1000000x6_S6x3_S1000000x3_1_0_0_1_n_n_wf : DotDims.WF S1000000x6 S6x3 S1000000x3 [1] [0] [0] [1] [] []

variable [Facts₀]

def scatter_S1000000_S16000000x1_S16000000_n_0_0_1 : ScatterDims S1000000 S16000000x1 S16000000 where
  updateWindowDims := []
  insertedWindowDims := [0]
  scatterDimsToOperandDims := [0]
  indexVectorDim := 1
  wf := scatter_S1000000_S16000000x1_S16000000_n_0_0_1_wf
def gather_S1000000_S16000000x1_S16000000_n_0_n_n_0_1_1 : GatherDims S1000000 S16000000x1 S16000000 where
  offsetDims := []
  collapsedSliceDims := [0]
  operandBatchingDims := []
  startIndicesBatchingDims := []
  startIndexMap := [0]
  indexVectorDim := 1
  sliceSizes := ![1]
  wf := gather_S1000000_S16000000x1_S16000000_n_0_n_n_0_1_1_wf
def dot_S1000000x3_S3x3_S1000000x3_1_0_0_1_n_n : DotDims S1000000x3 S3x3 S1000000x3 where
  lhsContracting := [1]
  rhsContracting := [0]
  lhsNonContracting := [0]
  rhsNonContracting := [1]
  lhsBatch := []
  rhsBatch := []
  wf := dot_S1000000x3_S3x3_S1000000x3_1_0_0_1_n_n_wf
def gather_S1000000x3_S16000000x1_S16000000x3_1_0_n_n_0_1_13 : GatherDims S1000000x3 S16000000x1 S16000000x3 where
  offsetDims := [1]
  collapsedSliceDims := [0]
  operandBatchingDims := []
  startIndicesBatchingDims := []
  startIndexMap := [0]
  indexVectorDim := 1
  sliceSizes := ![1, 3]
  wf := gather_S1000000x3_S16000000x1_S16000000x3_1_0_n_n_0_1_13_wf
def scatter_S1000000x3_S16000000x1_S16000000x3_1_0_0_1 : ScatterDims S1000000x3 S16000000x1 S16000000x3 where
  updateWindowDims := [1]
  insertedWindowDims := [0]
  scatterDimsToOperandDims := [0]
  indexVectorDim := 1
  wf := scatter_S1000000x3_S16000000x1_S16000000x3_1_0_0_1_wf
def gather_S1000000x3_S1000000x1_S1000000x3_1_0_n_n_0_1_13 : GatherDims S1000000x3 S1000000x1 S1000000x3 where
  offsetDims := [1]
  collapsedSliceDims := [0]
  operandBatchingDims := []
  startIndicesBatchingDims := []
  startIndexMap := [0]
  indexVectorDim := 1
  sliceSizes := ![1, 3]
  wf := gather_S1000000x3_S1000000x1_S1000000x3_1_0_n_n_0_1_13_wf
def dot_S1000000x6_S6x6_S1000000x6_1_0_0_1_n_n : DotDims S1000000x6 S6x6 S1000000x6 where
  lhsContracting := [1]
  rhsContracting := [0]
  lhsNonContracting := [0]
  rhsNonContracting := [1]
  lhsBatch := []
  rhsBatch := []
  wf := dot_S1000000x6_S6x6_S1000000x6_1_0_0_1_n_n_wf
def dot_S1000000x6_S6x3_S1000000x3_1_0_0_1_n_n : DotDims S1000000x6 S6x3 S1000000x3 where
  lhsContracting := [1]
  rhsContracting := [0]
  lhsNonContracting := [0]
  rhsNonContracting := [1]
  lhsBatch := []
  rhsBatch := []
  wf := dot_S1000000x6_S6x3_S1000000x3_1_0_0_1_n_n_wf

class Facts : Prop extends Facts₀ where

variable [Facts]
-- ==== Proof.KRegion0b.lean ====
import proofs.«109717_j65541200937586_2_alg».proof.Proof.Gen.Kernel.Launch
import proofs.«109717_j65541200937586_2_alg».proof.Proof.Gen.Kernel.Skeleton
import proofs.«109717_j65541200937586_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # Region 0 of the kernel program: the body's triple, the pipeline's proof data and the body obligation

Stated at a parameter `V`, the TensorCore's buffer contents when the region is entered, and generic in the float
instance. One control case; a grid of 125 points over blocks of 8000 rows; the body loads its input blocks, computes,
and stores the output block whole. -/

-- membership in a rectangle of 8000 rows: the elaborator's structural look recurses once per coordinate of the long axis
set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block of the embedding, whose index moves with the point): its current staging buffer holds
    its block at every point, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the 3×3 weight, whose index map is constant: fetched at the first point only): at a point where it
    is not fetched the block index has not moved, and the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S8000x3 := Rect.unit (s := S8000x3) ![0, 0] S8000x3.size inb_S8000x3_S8000x3_0_0
abbrev r0_1 : Rect S3x3 := Rect.unit (s := S3x3) ![0, 0] S3x3.size inb_S3x3_S3x3_0_0

/-! ## What the body leaves in the output window's buffer -/

/-- Window 2's staging buffer after the body, from the input windows' blocks: its one store as a piece. -/
def out0_2 (x0 : Vec F S8000x3 .f32) (x1 : Vec F S3x3 .f32) : Vec F S8000x3 .f32 :=
  View.canon [⟨r0_0, k0_pay1 (View.ld x0 r0_0) (View.ld x1 r0_1)⟩]

/-- The store is the whole buffer, so it covers it. -/
theorem cover0_2 (p0 : Vec F S8000x3 .f32) (y : S8000x3.Idx) :
    ∃ pc ∈ ([⟨r0_0, p0⟩] : List (View.Piece (Elt F) S8000x3 .f32)), y ∈ pc.1.set :=
  View.cover_of_tiled [⟨r0_0, p0⟩] S8000x3.size (by rfl) y

/-! ## The output block as the payload of the input blocks -/

private theorem zeros2 : (![0, 0] : Fin 2 → Nat) = fun _ => 0 := funext fun a => by fin_cases a <;> rfl

/-- Each load reads a whole buffer and the one store writes the whole buffer: the output's buffer after the body is the
    payload of the inputs' contents. -/
theorem out0_2_eq (x0 : Vec F S8000x3 .f32) (x1 : Vec F S3x3 .f32) : out0_2 x0 x1 = k0_pay1 x0 x1 := by
  unfold out0_2
  rw [View.canon_unit_zero zeros2]
  simp only [View.ld_unit_zero (S := S8000x3) zeros2, View.ld_unit_zero (S := S3x3) zeros2]

/-! ## The body's triple -/

set_option maxHeartbeats 1000000 in
/-- The kernel body on whole staging memrefs, the inputs' at read contents `x0`, `x1` and the output's at anything, runs
    to the continuation holding the inputs' as they were and the output's at `out0_2` of the inputs'. -/
theorem sound_kernel0 (c : Dev nD) (E : Set ℕ) (i : grid0.Coords)
    (arg1 : Memref sig .tc .vmem S8000x3 .f32) (harg1 : arg1.IsWhole) (arg2 : Memref sig .tc .vmem S3x3 .f32) (harg2 : arg2.IsWhole)
    (arg3 : Memref sig .tc .vmem S8000x3 .f32) (harg3 : arg3.IsWhole)
    (x0 : Vec F S8000x3 .f32) (x1 : Vec F S3x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.KFrame

end
-- ==== Proof.KRegion1b.lean ====
import proofs.«109717_j65541200937586_2_alg».proof.Proof.Gen.Kernel.Launch
import proofs.«109717_j65541200937586_2_alg».proof.Proof.Gen.Kernel.Skeleton
import proofs.«109717_j65541200937586_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # Region 1 of the kernel program: the body's triple, the pipeline's proof data and the body obligation

Stated at a parameter `V`, the TensorCore's buffer contents when the region is entered, and generic in the float
instance. One control case; a grid of 125 points over blocks of 8000 rows; the body loads its input blocks, computes,
and stores the output block whole. -/

-- membership in a rectangle of 8000 rows: the elaborator's structural look recurses once per coordinate of the long axis
set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block of the aggregated features, whose index moves with the point): its current staging
    buffer holds its block at every point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias of length 3, whose index map is constant: fetched at the first point only): at a point where
    it is not fetched the block index has not moved, and the buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S8000x3 := Rect.unit (s := S8000x3) ![0, 0] S8000x3.size inb_S8000x3_S8000x3_0_0
abbrev r1_1 : Rect S3 := Rect.unit (s := S3) ![0] S3.size inb_S3_S3_0

/-! ## What the body leaves in the output window's buffer -/

/-- Window 2's staging buffer after the body, from the input windows' blocks: its one store as a piece. -/
def out1_2 (x0 : Vec F S8000x3 .f32) (x1 : Vec F S3 .f32) : Vec F S8000x3 .f32 :=
  View.canon [⟨r1_0, k1_pay1 (View.ld x0 r1_0) (View.ld x1 r1_1)⟩]

/-- The store is the whole buffer, so it covers it. -/
theorem cover1_2 (p0 : Vec F S8000x3 .f32) (y : S8000x3.Idx) :
    ∃ pc ∈ ([⟨r1_0, p0⟩] : List (View.Piece (Elt F) S8000x3 .f32)), y ∈ pc.1.set :=
  View.cover_of_tiled [⟨r1_0, p0⟩] S8000x3.size (by rfl) y

/-! ## The output block as the payload of the input blocks -/

private theorem zeros2 : (![0, 0] : Fin 2 → Nat) = fun _ => 0 := funext fun a => by fin_cases a <;> rfl
private theorem zeros1 : (![0] : Fin 1 → Nat) = fun _ => 0 := funext fun a => by fin_cases a; rfl

/-- Each load reads a whole buffer and the one store writes the whole buffer: the output's buffer after the body is the
    payload of the inputs' contents. -/
theorem out1_2_eq (x0 : Vec F S8000x3 .f32) (x1 : Vec F S3 .f32) : out1_2 x0 x1 = k1_pay1 x0 x1 := by
  unfold out1_2
  rw [View.canon_unit_zero zeros2]
  simp only [View.ld_unit_zero (S := S8000x3) zeros2, View.ld_unit_zero (S := S3) zeros1]

/-! ## The body's triple -/

set_option maxHeartbeats 1000000 in
/-- The kernel body on whole staging memrefs, the inputs' at read contents `x0`, `x1` and the output's at anything, runs
    to the continuation holding the inputs' as they were and the output's at `out1_2` of the inputs'. -/
theorem sound_kernel1 (c : Dev nD) (E : Set ℕ) (i : grid1.Coords)
    (arg1 : Memref sig .tc .vmem S8000x3 .f32) (harg1 : arg1.IsWhole) (arg2 : Memref sig .tc .vmem S3 .f32) (harg2 : arg2.IsWhole)
    (arg3 : Memref sig .tc .vmem S8000x3 .f32) (harg3 : arg3.IsWhole)
    (x0 : Vec F S8000x3 .f32) (x1 : Vec F S3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__bias_leaky_kernel i arg1 harg1 arg2 harg2 arg3 harg3) K := by
  simp only [cc1__bias_leaky_kernel_eq_skeleton]; unfold cc1__bias_leaky_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point `t`
    each input's buffer at its block and the output's at `out1_2` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.KFrame

end
-- ==== Proof.KRegion3b.lean ====
import proofs.«109717_j65541200937586_2_alg».proof.Proof.Gen.Kernel.Launch
import proofs.«109717_j65541200937586_2_alg».proof.Proof.Gen.Kernel.Skeleton
import proofs.«109717_j65541200937586_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # Region 3 of the kernel program: the body's triple, the pipeline's proof data and the body obligation

Stated at a parameter `V`, the TensorCore's buffer contents when the region is entered, and generic in the float
instance. One control case; a grid of 125 points over blocks of 8000 rows; the body loads its input blocks, computes,
and stores the output block whole. -/

-- membership in a rectangle of 8000 rows: the elaborator's structural look recurses once per coordinate of the long axis
set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block of the logits, whose index moves with the point): its current staging buffer holds its
    block at every point, for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the 1×3 column maxima, whose index map is constant: fetched at the first point only): at a point
    where it is not fetched the block index has not moved, and the buffer still holds the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the 1×3 log-normalizer, constant index map as window 1). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S8000x3 := Rect.unit (s := S8000x3) ![0, 0] S8000x3.size inb_S8000x3_S8000x3_0_0
abbrev r3_1 : Rect S1x3 := Rect.unit (s := S1x3) ![0, 0] S1x3.size inb_S1x3_S1x3_0_0

/-! ## What the body leaves in the output window's buffer -/

/-- Window 3's staging buffer after the body, from the input windows' blocks: its one store as a piece. -/
def out3_3 (x0 : Vec F S8000x3 .f32) (x1 : Vec F S1x3 .f32) (x2 : Vec F S1x3 .f32) : Vec F S8000x3 .f32 :=
  View.canon [⟨r3_0, k3_pay1 (View.ld x0 r3_0) (View.ld x1 r3_1) (View.ld x2 r3_1)⟩]

/-- The store is the whole buffer, so it covers it. -/
theorem cover3_3 (p0 : Vec F S8000x3 .f32) (y : S8000x3.Idx) :
    ∃ pc ∈ ([⟨r3_0, p0⟩] : List (View.Piece (Elt F) S8000x3 .f32)), y ∈ pc.1.set :=
  View.cover_of_tiled [⟨r3_0, p0⟩] S8000x3.size (by rfl) y

/-! ## The output block as the payload of the input blocks -/

private theorem zeros2 : (![0, 0] : Fin 2 → Nat) = fun _ => 0 := funext fun a => by fin_cases a <;> rfl

/-- Each load reads a whole buffer and the one store writes the whole buffer: the output's buffer after the body is the
    payload of the inputs' contents. -/
theorem out3_3_eq (x0 : Vec F S8000x3 .f32) (x1 : Vec F S1x3 .f32) (x2 : Vec F S1x3 .f32) :
    out3_3 x0 x1 x2 = k3_pay1 x0 x1 x2 := by
  unfold out3_3
  rw [View.canon_unit_zero zeros2]
  simp only [View.ld_unit_zero (S := S8000x3) zeros2, View.ld_unit_zero (S := S1x3) zeros2]

/-! ## The body's triple -/

set_option maxHeartbeats 1000000 in
/-- The kernel body on whole staging memrefs, the inputs' at read contents `x0`, `x1`, `x2` and the output's at anything,
    runs to the continuation holding the inputs' as they were and the output's at `out3_3` of the inputs'. -/
theorem sound_kernel3 (c : Dev nD) (E : Set ℕ) (i : grid3.Coords)
    (arg1 : Memref sig .tc .vmem S8000x3 .f32) (harg1 : arg1.IsWhole) (arg2 : Memref sig .tc .vmem S1x3 .f32) (harg2 : arg2.IsWhole)
    (arg3 : Memref sig .tc .vmem S1x3 .f32) (harg3 : arg3.IsWhole) (arg4 : Memref sig .tc .vmem S8000x3 .f32) (harg4 : arg4.IsWhole)
    (x0 : Vec F S8000x3 .f32) (x1 : Vec F S1x3 .f32) (x2 : Vec F S1x3 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__finalize_kernel i arg1 harg1 arg2 harg2 arg3 harg3 arg4 harg4) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer at its block and the output's at `out3_3` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.KFrame

end
-- ==== Proof.KR2Baseb.lean ====
/-
  Region 2 (the MLP fused with the running column maximum and sum of exponentials), the part every case shares.
  The grid has 125 points. The body's first conditional (reset the two running rows) is taken at point 0 only,
  its second (write the running rows out) at point 124 only; so a point is the first, a middle one, or the last.
  The two small outputs are written only at the last point: at the other points their windows are idle and are
  not written back. The two running rows live in scratch buffers of the kernel's own, which sit among the scoped
  buffers of the other three regions; the scoped rest is spelled here with those two slots open.
-/
import proofs.«109717_j65541200937586_2_alg».proof.Proof.Gen.Kernel.Launch
import proofs.«109717_j65541200937586_2_alg».proof.Proof.Gen.Kernel.Skeleton
import proofs.«109717_j65541200937586_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The first conditional's test, from the grid coordinate: the point is the first. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- The second conditional's test: the point is the last. -/
abbrev cond2_1 (i : grid2.Coords) : Prop := k2_cond2 i = 1#1
theorem hcond2_1 : ∀ t : Fin cfg2.N, cond2_1 (grid2.coords t) ↔ t.val = 124 :=
  (by decide +kernel : ∀ t : Fin grid2.N, cond2_1 (grid2.coords t) ↔ t.val = 124)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Away from the last point the two small outputs are idle and are not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
/-- At the last point they are live. -/
theorem liveAt2_6 : ∀ t : Fin cfg2.N, cond2_1 (grid2.coords t) → cfg2.idle 6 (grid2.coords t) = false := by decide +kernel
theorem liveAt2_7 : ∀ t : Fin cfg2.N, cond2_1 (grid2.coords t) → cfg2.idle 7 (grid2.coords t) = false := by decide +kernel

/-! ## The staging and scratch memrefs -/

/-- One staging buffer of each output window, through which its contents are stated. -/
abbrev VO2_5 : View sig .tc .vmem S8000x3 .f32 := (Memref.whole cc2_stg5_0 : Memref sig .tc .vmem S8000x3 .f32).view
abbrev VO2_6 : View sig .tc .vmem S1x3 .f32 := (Memref.whole cc2_stg6_0 : Memref sig .tc .vmem S1x3 .f32).view
abbrev VO2_7 : View sig .tc .vmem S1x3 .f32 := (Memref.whole cc2_stg7_0 : Memref sig .tc .vmem S1x3 .f32).view
/-- Each window's current staging memref at point `t`, as the pipeline passes it, and its wholeness. -/
abbrev ms2_0 (t : Fin cfg2.N) : Memref sig .tc .vmem S8000x6 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S6x6 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S6 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S6x3 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S3 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S8000x3 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x3 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x3 .f32 := win2_7.stage (cfg2.slots t 7)
abbrev hs2_7 (t : Fin cfg2.N) : (ms2_7 t).IsWhole := hstage2_7 ((cfg2.slots t 7).cast nbuf2_7)
/-- The two scratch rows: the running maximum and the running sum. -/
abbrev scM2_0 : Memref sig .tc .vmem S1x3 .f32 := Memref.whole cc2_scratch0
abbrev scM2_1 : Memref sig .tc .vmem S1x3 .f32 := Memref.whole cc2_scratch1
abbrev VS2_0 : View sig .tc .vmem S1x3 .f32 := scM2_0.view
abbrev VS2_1 : View sig .tc .vmem S1x3 .f32 := scM2_1.view

/-! ## The scoped rest, with the two scratch slots open -/

/-- The core's scoped buffers no window of this region stages: the other regions' staging buffers, each whole at
    some contents, and — in their place among them — the two scratch rows at `P0` and `P1`. -/
def scopedWith (c : Dev nD) (P0 P1 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ P0 ∗ P1 ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f))

/-- The other regions' staging buffers by themselves. -/
def scopedOthers (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f))

/-- The class invariant (every scoped buffer outside the region's staging at something, and the generator register)
    with the scratch rows as memrefs owned at some contents. -/
theorem PhiA2_eq (c : Dev nD) :
    (Pipeline.ΦA spec2 c : sProp 𝕄)
      = iprop(scopedWith c iprop(∃ d, owns (c : Thread nD τ) scM2_0 fullShare d) iprop(∃ d, owns (c : Thread nD τ) scM2_1 fullShare d) ∗ (∃ r, prngReg c r)) := by
  unfold Pipeline.ΦA scopedWith; rw [scopedRest2_eq]; simp only [scM2_0, scM2_1, owns_whole]; try rfl

/-- The scratch rows taken out of their slots. -/
theorem scopedWith_split (c : Dev nD) (P0 P1 : sProp 𝕄) : scopedWith c P0 P1 ⊢ iprop(scopedOthers c ∗ P0 ∗ P1) := by
  unfold scopedWith scopedOthers
  iintro ⟨A0, A1, A2, A3, A4, A5, A6, A7, A8, A9, S0, S1, B0, B1, B2, B3, B4, B5⟩
  isplitl [A0 A1 A2 A3 A4 A5 A6 A7 A8 A9 B0 B1 B2 B3 B4 B5]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [B0]; · iexact B0
    isplitl [B1]; · iexact B1
    isplitl [B2]; · iexact B2
    isplitl [B3]; · iexact B3
    isplitl [B4]; · iexact B4
    iexact B5
  isplitl [S0]; · iexact S0
  iexact S1

/-- And put back. -/
theorem scopedWith_join (c : Dev nD) (P0 P1 : sProp 𝕄) : iprop(scopedOthers c ∗ P0 ∗ P1) ⊢ scopedWith c P0 P1 := by
  unfold scopedWith scopedOthers
  iintro ⟨⟨A0, A1, A2, A3, A4, A5, A6, A7, A8, A9, B0, B1, B2, B3, B4, B5⟩, S0, S1⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [S0]; · iexact S0
  isplitl [S1]; · iexact S1
  isplitl [B0]; · iexact B0
  isplitl [B1]; · iexact B1
  isplitl [B2]; · iexact B2
  isplitl [B3]; · iexact B3
  isplitl [B4]; · iexact B4
  iexact B5

end Cert.Kernel.KFrame

end
-- ==== Proof.KR2RunAb.lean ====
/-
  Region 2's body at the FIRST point (the reset taken, the write-out not): the two scratch rows may hold anything;
  the body first resets them (the maximum row to minus infinity, the sum row to zero), then proceeds as at any
  point. The two small outputs are untouched.
-/
import proofs.«109717_j65541200937586_2_alg».proof.Proof.KR2Baseb

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave, as pieces (last first), at the first point, with the proof that the body runs. -/
noncomputable def kernelRun2_A (c : Dev nD) (i : grid2.Coords) (arg1 : Memref sig .tc .vmem S8000x6 .f32) (harg1 : arg1.IsWhole) (arg2 : Memref sig .tc .vmem S6x6 .f32) (harg2 : arg2.IsWhole) (arg3 : Memref sig .tc .vmem S6 .f32) (harg3 : arg3.IsWhole) (arg4 : Memref sig .tc .vmem S6x3 .f32) (harg4 : arg4.IsWhole) (arg5 : Memref sig .tc .vmem S3 .f32) (harg5 : arg5.IsWhole) (arg6 : Memref sig .tc .vmem S8000x3 .f32) (harg6 : arg6.IsWhole) (arg7 : Memref sig .tc .vmem S1x3 .f32) (harg7 : arg7.IsWhole) (arg8 : Memref sig .tc .vmem S1x3 .f32) (harg8 : arg8.IsWhole) (arg9 : Memref sig .tc .vmem S1x3 .f32) (harg9 : arg9.IsWhole) (arg10 : Memref sig .tc .vmem S1x3 .f32) (harg10 : arg10.IsWhole) (hc0 : cond2_0 i) (hc1 : ¬cond2_1 i)
    (x0 : Vec F S8000x6 .f32) (x1 : Vec F S6x6 .f32) (x2 : Vec F S6 .f32) (x3 : Vec F S6x3 .f32) (x4 : Vec F S3 .f32) :
    Σ' (L5 : List (View.Piece (Elt F) S8000x3 .f32)) (L6 : List (View.Piece (Elt F) S1x3 .f32)) (L7 : List (View.Piece (Elt F) S1x3 .f32)) (LS0 : List (View.Piece (Elt F) S1x3 .f32)), { LS1 : List (View.Piece (Elt F) S1x3 .f32) //
      ∀ (xi6 : Vec F S1x3 .f32) (xi7 : Vec F S1x3 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__mlp_logsumexp_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc2__mlp_logsumexp_kernel_eq_skeleton]; unfold cc2__mlp_logsumexp_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.KFrame

end
-- ==== Proof.KR2RunBb.lean ====
/-
  Region 2's body at a MIDDLE point (neither conditional taken): on whole staging memrefs, with the five inputs at
  their blocks, the two small outputs untouched, and the two scratch rows at what the point before left, the body
  runs to its return leaving the logits block written, and each scratch row rewritten.
-/
import proofs.«109717_j65541200937586_2_alg».proof.Proof.KR2Baseb

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave, as pieces (last first), at a middle point, with the proof that the body runs. -/
noncomputable def kernelRun2_B (c : Dev nD) (i : grid2.Coords) (arg1 : Memref sig .tc .vmem S8000x6 .f32) (harg1 : arg1.IsWhole) (arg2 : Memref sig .tc .vmem S6x6 .f32) (harg2 : arg2.IsWhole) (arg3 : Memref sig .tc .vmem S6 .f32) (harg3 : arg3.IsWhole) (arg4 : Memref sig .tc .vmem S6x3 .f32) (harg4 : arg4.IsWhole) (arg5 : Memref sig .tc .vmem S3 .f32) (harg5 : arg5.IsWhole) (arg6 : Memref sig .tc .vmem S8000x3 .f32) (harg6 : arg6.IsWhole) (arg7 : Memref sig .tc .vmem S1x3 .f32) (harg7 : arg7.IsWhole) (arg8 : Memref sig .tc .vmem S1x3 .f32) (harg8 : arg8.IsWhole) (arg9 : Memref sig .tc .vmem S1x3 .f32) (harg9 : arg9.IsWhole) (arg10 : Memref sig .tc .vmem S1x3 .f32) (harg10 : arg10.IsWhole) (hc0 : ¬cond2_0 i) (hc1 : ¬cond2_1 i)
    (x0 : Vec F S8000x6 .f32) (x1 : Vec F S6x6 .f32) (x2 : Vec F S6 .f32) (x3 : Vec F S6x3 .f32) (x4 : Vec F S3 .f32) (xs0 : Vec F S1x3 .f32) (xs1 : Vec F S1x3 .f32) :
    Σ' (L5 : List (View.Piece (Elt F) S8000x3 .f32)) (L6 : List (View.Piece (Elt F) S1x3 .f32)) (L7 : List (View.Piece (Elt F) S1x3 .f32)) (LS0 : List (View.Piece (Elt F) S1x3 .f32)), { LS1 : List (View.Piece (Elt F) S1x3 .f32) //
      ∀ (xi6 : Vec F S1x3 .f32) (xi7 : Vec F S1x3 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__mlp_logsumexp_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc2__mlp_logsumexp_kernel_eq_skeleton]; unfold cc2__mlp_logsumexp_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.KFrame

end
-- ==== Proof.KR2RunCb.lean ====
/-
  Region 2's body at the LAST point (the reset not taken, the write-out taken): the scratch rows hold what the
  point before left; after the usual update the body copies the running maximum into one small output and the
  logarithm of the running sum into the other.
-/
import proofs.«109717_j65541200937586_2_alg».proof.Proof.KR2Baseb

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave, as pieces (last first), at the last point, with the proof that the body runs. -/
noncomputable def kernelRun2_C (c : Dev nD) (i : grid2.Coords) (arg1 : Memref sig .tc .vmem S8000x6 .f32) (harg1 : arg1.IsWhole) (arg2 : Memref sig .tc .vmem S6x6 .f32) (harg2 : arg2.IsWhole) (arg3 : Memref sig .tc .vmem S6 .f32) (harg3 : arg3.IsWhole) (arg4 : Memref sig .tc .vmem S6x3 .f32) (harg4 : arg4.IsWhole) (arg5 : Memref sig .tc .vmem S3 .f32) (harg5 : arg5.IsWhole) (arg6 : Memref sig .tc .vmem S8000x3 .f32) (harg6 : arg6.IsWhole) (arg7 : Memref sig .tc .vmem S1x3 .f32) (harg7 : arg7.IsWhole) (arg8 : Memref sig .tc .vmem S1x3 .f32) (harg8 : arg8.IsWhole) (arg9 : Memref sig .tc .vmem S1x3 .f32) (harg9 : arg9.IsWhole) (arg10 : Memref sig .tc .vmem S1x3 .f32) (harg10 : arg10.IsWhole) (hc0 : ¬cond2_0 i) (hc1 : cond2_1 i)
    (x0 : Vec F S8000x6 .f32) (x1 : Vec F S6x6 .f32) (x2 : Vec F S6 .f32) (x3 : Vec F S6x3 .f32) (x4 : Vec F S3 .f32) (xs0 : Vec F S1x3 .f32) (xs1 : Vec F S1x3 .f32) :
    Σ' (L5 : List (View.Piece (Elt F) S8000x3 .f32)) (L6 : List (View.Piece (Elt F) S1x3 .f32)) (L7 : List (View.Piece (Elt F) S1x3 .f32)) (LS0 : List (View.Piece (Elt F) S1x3 .f32)), { LS1 : List (View.Piece (Elt F) S1x3 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__mlp_logsumexp_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__mlp_logsumexp_kernel_eq_skeleton]; unfold cc2__mlp_logsumexp_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.KFrame

end
-- ==== Proof.KR2Datab.lean ====
/-
  Region 2 as a whole: what each of its three cases leaves in the logits block, in the two small outputs and in
  the two running rows; the same point by point, each point's running rows computed from the previous point's
  (`outsAt2`); the invariant that carries those rows from a point to the next; the pipeline's proof data; and the
  body obligation, by cases on where the point is (first, middle, last).
-/
import proofs.«109717_j65541200937586_2_alg».proof.Proof.KR2RunAb
import proofs.«109717_j65541200937586_2_alg».proof.Proof.KR2RunBb
import proofs.«109717_j65541200937586_2_alg».proof.Proof.KR2RunCb

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The three cases at a point -/

theorem ne124_of_zero {n : ℕ} (h : n = 0) : ¬ n = 124 := by omega

/-- The body's run at the first point. -/
abbrev runAt2_A (c : Dev nD) (t : Fin cfg2.N) (h0 : t.val = 0) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => ne124_of_zero h0 ((hcond2_1 t).mp h)) (iblk2 V c 0 t) (iblk2 V c 1 t) (iblk2 V c 2 t) (iblk2 V c 3 t) (iblk2 V c 4 t)
/-- at a middle point, over the running rows `xs0`, `xs1` the point before left, -/
abbrev runAt2_B (c : Dev nD) (t : Fin cfg2.N) (h0 : ¬ t.val = 0) (h1 : ¬ t.val = 124) (xs0 xs1 : Vec F S1x3 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) xs0 xs1
/-- and at the last point. -/
abbrev runAt2_C (c : Dev nD) (t : Fin cfg2.N) (h0 : ¬ t.val = 0) (h1 : t.val = 124) (xs0 xs1 : Vec F S1x3 .f32) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) xs0 xs1

/-- A placeholder for a small output at a point that does not store into it: nothing consults it. -/
def idle2_6 : Vec F S1x3 .f32 := VO2_6.read (Elt F) VO2_6.junk
def idle2_7 : Vec F S1x3 .f32 := VO2_7.read (Elt F) VO2_7.junk

/-! ### The first point -/

theorem cover2_A_5 (c : Dev nD) (t : Fin cfg2.N) (h0 : t.val = 0) (y : S8000x3.Idx) : ∃ pc ∈ (runAt2_A V c t h0).1, y ∈ pc.1.set :=
  View.cover_of_tiledL (runAt2_A V c t h0).1 S8000x3.size (by sl_kernel_rfl) y
theorem scover2_A_0 (c : Dev nD) (t : Fin cfg2.N) (h0 : t.val = 0) (y : S1x3.Idx) : ∃ pc ∈ (runAt2_A V c t h0).2.2.2.1, y ∈ pc.1.set :=
  View.cover_of_tiledL (runAt2_A V c t h0).2.2.2.1 S1x3.size (by sl_kernel_rfl) y
theorem scover2_A_1 (c : Dev nD) (t : Fin cfg2.N) (h0 : t.val = 0) (y : S1x3.Idx) : ∃ pc ∈ (runAt2_A V c t h0).2.2.2.2.1, y ∈ pc.1.set :=
  View.cover_of_tiledL (runAt2_A V c t h0).2.2.2.2.1 S1x3.size (by sl_kernel_rfl) y
/-- What the first point leaves: the logits block, and the two running rows. -/
def out2_A_5 (c : Dev nD) (t : Fin cfg2.N) (h0 : t.val = 0) : Vec F S8000x3 .f32 := VO2_5.read (Elt F) (VO2_5.writes (Elt F) VO2_5.junk (runAt2_A V c t h0).1)
def sout2_A_0 (c : Dev nD) (t : Fin cfg2.N) (h0 : t.val = 0) : Vec F S1x3 .f32 := VS2_0.read (Elt F) (VS2_0.writes (Elt F) VS2_0.junk (runAt2_A V c t h0).2.2.2.1)
def sout2_A_1 (c : Dev nD) (t : Fin cfg2.N) (h0 : t.val = 0) : Vec F S1x3 .f32 := VS2_1.read (Elt F) (VS2_1.writes (Elt F) VS2_1.junk (runAt2_A V c t h0).2.2.2.2.1)

/-! ### A middle point -/

theorem cover2_B_5 (c : Dev nD) (t : Fin cfg2.N) (h0 : ¬ t.val = 0) (h1 : ¬ t.val = 124) (xs0 xs1 : Vec F S1x3 .f32) (y : S8000x3.Idx) : ∃ pc ∈ (runAt2_B V c t h0 h1 xs0 xs1).1, y ∈ pc.1.set :=
  View.cover_of_tiledL (runAt2_B V c t h0 h1 xs0 xs1).1 S8000x3.size (by sl_kernel_rfl) y
theorem scover2_B_0 (c : Dev nD) (t : Fin cfg2.N) (h0 : ¬ t.val = 0) (h1 : ¬ t.val = 124) (xs0 xs1 : Vec F S1x3 .f32) (y : S1x3.Idx) : ∃ pc ∈ (runAt2_B V c t h0 h1 xs0 xs1).2.2.2.1, y ∈ pc.1.set :=
  View.cover_of_tiledL (runAt2_B V c t h0 h1 xs0 xs1).2.2.2.1 S1x3.size (by sl_kernel_rfl) y
theorem scover2_B_1 (c : Dev nD) (t : Fin cfg2.N) (h0 : ¬ t.val = 0) (h1 : ¬ t.val = 124) (xs0 xs1 : Vec F S1x3 .f32) (y : S1x3.Idx) : ∃ pc ∈ (runAt2_B V c t h0 h1 xs0 xs1).2.2.2.2.1, y ∈ pc.1.set :=
  View.cover_of_tiledL (runAt2_B V c t h0 h1 xs0 xs1).2.2.2.2.1 S1x3.size (by sl_kernel_rfl) y
def out2_B_5 (c : Dev nD) (t : Fin cfg2.N) (h0 : ¬ t.val = 0) (h1 : ¬ t.val = 124) (xs0 xs1 : Vec F S1x3 .f32) : Vec F S8000x3 .f32 := VO2_5.read (Elt F) (VO2_5.writes (Elt F) VO2_5.junk (runAt2_B V c t h0 h1 xs0 xs1).1)
def sout2_B_0 (c : Dev nD) (t : Fin cfg2.N) (h0 : ¬ t.val = 0) (h1 : ¬ t.val = 124) (xs0 xs1 : Vec F S1x3 .f32) : Vec F S1x3 .f32 := VS2_0.read (Elt F) (VS2_0.writes (Elt F) VS2_0.junk (runAt2_B V c t h0 h1 xs0 xs1).2.2.2.1)
def sout2_B_1 (c : Dev nD) (t : Fin cfg2.N) (h0 : ¬ t.val = 0) (h1 : ¬ t.val = 124) (xs0 xs1 : Vec F S1x3 .f32) : Vec F S1x3 .f32 := VS2_1.read (Elt F) (VS2_1.writes (Elt F) VS2_1.junk (runAt2_B V c t h0 h1 xs0 xs1).2.2.2.2.1)

/-! ### The last point -/

theorem cover2_C_5 (c : Dev nD) (t : Fin cfg2.N) (h0 : ¬ t.val = 0) (h1 : t.val = 124) (xs0 xs1 : Vec F S1x3 .f32) (y : S8000x3.Idx) : ∃ pc ∈ (runAt2_C V c t h0 h1 xs0 xs1).1, y ∈ pc.1.set :=
  View.cover_of_tiledL (runAt2_C V c t h0 h1 xs0 xs1).1 S8000x3.size (by sl_kernel_rfl) y
theorem cover2_C_6 (c : Dev nD) (t : Fin cfg2.N) (h0 : ¬ t.val = 0) (h1 : t.val = 124) (xs0 xs1 : Vec F S1x3 .f32) (y : S1x3.Idx) : ∃ pc ∈ (runAt2_C V c t h0 h1 xs0 xs1).2.1, y ∈ pc.1.set :=
  View.cover_of_tiledL (runAt2_C V c t h0 h1 xs0 xs1).2.1 S1x3.size (by sl_kernel_rfl) y
theorem cover2_C_7 (c : Dev nD) (t : Fin cfg2.N) (h0 : ¬ t.val = 0) (h1 : t.val = 124) (xs0 xs1 : Vec F S1x3 .f32) (y : S1x3.Idx) : ∃ pc ∈ (runAt2_C V c t h0 h1 xs0 xs1).2.2.1, y ∈ pc.1.set :=
  View.cover_of_tiledL (runAt2_C V c t h0 h1 xs0 xs1).2.2.1 S1x3.size (by sl_kernel_rfl) y
theorem scover2_C_0 (c : Dev nD) (t : Fin cfg2.N) (h0 : ¬ t.val = 0) (h1 : t.val = 124) (xs0 xs1 : Vec F S1x3 .f32) (y : S1x3.Idx) : ∃ pc ∈ (runAt2_C V c t h0 h1 xs0 xs1).2.2.2.1, y ∈ pc.1.set :=
  View.cover_of_tiledL (runAt2_C V c t h0 h1 xs0 xs1).2.2.2.1 S1x3.size (by sl_kernel_rfl) y
theorem scover2_C_1 (c : Dev nD) (t : Fin cfg2.N) (h0 : ¬ t.val = 0) (h1 : t.val = 124) (xs0 xs1 : Vec F S1x3 .f32) (y : S1x3.Idx) : ∃ pc ∈ (runAt2_C V c t h0 h1 xs0 xs1).2.2.2.2.1, y ∈ pc.1.set :=
  View.cover_of_tiledL (runAt2_C V c t h0 h1 xs0 xs1).2.2.2.2.1 S1x3.size (by sl_kernel_rfl) y
def out2_C_5 (c : Dev nD) (t : Fin cfg2.N) (h0 : ¬ t.val = 0) (h1 : t.val = 124) (xs0 xs1 : Vec F S1x3 .f32) : Vec F S8000x3 .f32 := VO2_5.read (Elt F) (VO2_5.writes (Elt F) VO2_5.junk (runAt2_C V c t h0 h1 xs0 xs1).1)
def out2_C_6 (c : Dev nD) (t : Fin cfg2.N) (h0 : ¬ t.val = 0) (h1 : t.val = 124) (xs0 xs1 : Vec F S1x3 .f32) : Vec F S1x3 .f32 := VO2_6.read (Elt F) (VO2_6.writes (Elt F) VO2_6.junk (runAt2_C V c t h0 h1 xs0 xs1).2.1)
def out2_C_7 (c : Dev nD) (t : Fin cfg2.N) (h0 : ¬ t.val = 0) (h1 : t.val = 124) (xs0 xs1 : Vec F S1x3 .f32) : Vec F S1x3 .f32 := VO2_7.read (Elt F) (VO2_7.writes (Elt F) VO2_7.junk (runAt2_C V c t h0 h1 xs0 xs1).2.2.1)
def sout2_C_0 (c : Dev nD) (t : Fin cfg2.N) (h0 : ¬ t.val = 0) (h1 : t.val = 124) (xs0 xs1 : Vec F S1x3 .f32) : Vec F S1x3 .f32 := VS2_0.read (Elt F) (VS2_0.writes (Elt F) VS2_0.junk (runAt2_C V c t h0 h1 xs0 xs1).2.2.2.1)
def sout2_C_1 (c : Dev nD) (t : Fin cfg2.N) (h0 : ¬ t.val = 0) (h1 : t.val = 124) (xs0 xs1 : Vec F S1x3 .f32) : Vec F S1x3 .f32 := VS2_1.read (Elt F) (VS2_1.writes (Elt F) VS2_1.junk (runAt2_C V c t h0 h1 xs0 xs1).2.2.2.2.1)

/-! ## Point by point -/

/-- What the three outputs' staging buffers and the two running rows hold after the body at position `n` (in that
    order): the first point from nothing, every later point over the running rows the point before left. -/
def outsAt2 (c : Dev nD) : (n : ℕ) → n < cfg2.N → Vec F S8000x3 .f32 × Vec F S1x3 .f32 × Vec F S1x3 .f32 × Vec F S1x3 .f32 × Vec F S1x3 .f32
  | 0, hn => (out2_A_5 V c ⟨0, hn⟩ rfl, idle2_6, idle2_7, sout2_A_0 V c ⟨0, hn⟩ rfl, sout2_A_1 V c ⟨0, hn⟩ rfl)
  | n + 1, hn =>
    if h1 : n + 1 = 124 then
      (out2_C_5 V c ⟨n + 1, hn⟩ (Nat.succ_ne_zero n) h1 (outsAt2 c n (Nat.lt_of_succ_lt hn)).2.2.2.1 (outsAt2 c n (Nat.lt_of_succ_lt hn)).2.2.2.2,
       out2_C_6 V c ⟨n + 1, hn⟩ (Nat.succ_ne_zero n) h1 (outsAt2 c n (Nat.lt_of_succ_lt hn)).2.2.2.1 (outsAt2 c n (Nat.lt_of_succ_lt hn)).2.2.2.2,
       out2_C_7 V c ⟨n + 1, hn⟩ (Nat.succ_ne_zero n) h1 (outsAt2 c n (Nat.lt_of_succ_lt hn)).2.2.2.1 (outsAt2 c n (Nat.lt_of_succ_lt hn)).2.2.2.2,
       sout2_C_0 V c ⟨n + 1, hn⟩ (Nat.succ_ne_zero n) h1 (outsAt2 c n (Nat.lt_of_succ_lt hn)).2.2.2.1 (outsAt2 c n (Nat.lt_of_succ_lt hn)).2.2.2.2,
       sout2_C_1 V c ⟨n + 1, hn⟩ (Nat.succ_ne_zero n) h1 (outsAt2 c n (Nat.lt_of_succ_lt hn)).2.2.2.1 (outsAt2 c n (Nat.lt_of_succ_lt hn)).2.2.2.2)
    else
      (out2_B_5 V c ⟨n + 1, hn⟩ (Nat.succ_ne_zero n) h1 (outsAt2 c n (Nat.lt_of_succ_lt hn)).2.2.2.1 (outsAt2 c n (Nat.lt_of_succ_lt hn)).2.2.2.2,
       idle2_6, idle2_7,
       sout2_B_0 V c ⟨n + 1, hn⟩ (Nat.succ_ne_zero n) h1 (outsAt2 c n (Nat.lt_of_succ_lt hn)).2.2.2.1 (outsAt2 c n (Nat.lt_of_succ_lt hn)).2.2.2.2,
       sout2_B_1 V c ⟨n + 1, hn⟩ (Nat.succ_ne_zero n) h1 (outsAt2 c n (Nat.lt_of_succ_lt hn)).2.2.2.1 (outsAt2 c n (Nat.lt_of_succ_lt hn)).2.2.2.2)

/-- The running rows the point before `t` left. -/
abbrev prev2_0 (c : Dev nD) (t : Fin cfg2.N) : Vec F S1x3 .f32 := (outsAt2 V c (t.val - 1) (Nat.lt_of_le_of_lt (Nat.sub_le _ _) t.isLt)).2.2.2.1
abbrev prev2_1 (c : Dev nD) (t : Fin cfg2.N) : Vec F S1x3 .f32 := (outsAt2 V c (t.val - 1) (Nat.lt_of_le_of_lt (Nat.sub_le _ _) t.isLt)).2.2.2.2

theorem outsAt2_A (c : Dev nD) (t : Fin cfg2.N) (h0 : t.val = 0) :
    outsAt2 V c t.val t.isLt = (out2_A_5 V c t h0, idle2_6, idle2_7, sout2_A_0 V c t h0, sout2_A_1 V c t h0) := by
  obtain ⟨n, hn⟩ := t
  cases n with
  | zero => rfl
  | succ n => exact absurd h0 (Nat.succ_ne_zero n)

theorem outsAt2_B (c : Dev nD) (t : Fin cfg2.N) (h0 : ¬ t.val = 0) (h1 : ¬ t.val = 124) :
    outsAt2 V c t.val t.isLt = (out2_B_5 V c t h0 h1 (prev2_0 V c t) (prev2_1 V c t), idle2_6, idle2_7,
      sout2_B_0 V c t h0 h1 (prev2_0 V c t) (prev2_1 V c t), sout2_B_1 V c t h0 h1 (prev2_0 V c t) (prev2_1 V c t)) := by
  obtain ⟨n, hn⟩ := t
  cases n with
  | zero => exact absurd rfl h0
  | succ n => exact (dif_neg h1).trans rfl

theorem outsAt2_C (c : Dev nD) (t : Fin cfg2.N) (h0 : ¬ t.val = 0) (h1 : t.val = 124) :
    outsAt2 V c t.val t.isLt = (out2_C_5 V c t h0 h1 (prev2_0 V c t) (prev2_1 V c t), out2_C_6 V c t h0 h1 (prev2_0 V c t) (prev2_1 V c t),
      out2_C_7 V c t h0 h1 (prev2_0 V c t) (prev2_1 V c t),
      sout2_C_0 V c t h0 h1 (prev2_0 V c t) (prev2_1 V c t), sout2_C_1 V c t h0 h1 (prev2_0 V c t) (prev2_1 V c t)) := by
  obtain ⟨n, hn⟩ := t
  cases n with
  | zero => exact absurd rfl h0
  | succ n => exact (dif_pos h1).trans rfl

/-! ## The invariant -/

/-- Before position `n`: before the first point the class's invariant (the scratch rows at anything); afterwards the
    scoped rest with each running row at what the point before left in it, and the generator register at some state. -/
def PhiS2 (c : Dev nD) : (n : ℕ) → n ≤ cfg2.N → sProp 𝕄
  | 0, _ => Pipeline.ΦA spec2 c
  | n + 1, hn => iprop(scopedWith c (owns (c : Thread nD τ) scM2_0 fullShare ((outsAt2 V c n hn).2.2.2.1)) (owns (c : Thread nD τ) scM2_1 fullShare ((outsAt2 V c n hn).2.2.2.2)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(scopedWith c (owns (c : Thread nD τ) scM2_0 fullShare ((outsAt2 V c n hn).2.2.2.1)) (owns (c : Thread nD τ) scM2_1 fullShare ((outsAt2 V c n hn).2.2.2.2)) ∗ (∃ r, prngReg c r)) := rfl
theorem PhiS2_pos (c : Dev nD) (n : ℕ) (h : n ≤ cfg2.N) (hz : n ≠ 0) :
    PhiS2 V c n h = iprop(scopedWith c (owns (c : Thread nD τ) scM2_0 fullShare ((outsAt2 V c (n - 1) (by omega)).2.2.2.1)) (owns (c : Thread nD τ) scM2_1 fullShare ((outsAt2 V c (n - 1) (by omega)).2.2.2.2)) ∗ (∃ r, prngReg c r)) := by
  cases n with
  | zero => exact absurd rfl hz
  | succ n => rfl

/-! ## The pipeline's proof data -/

/-- The arrays as the region finds them; after the body at point `t` each input's buffer at its block and the
    outputs' at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]
theorem before2_0 (c : Dev nD) (t : Fin cfg2.N) (d) : (dat2 V c).before 0 t d = iblk2 V c 0 t := before2_0_of V (dat2 V c) (A_eq2 V c 0) (after2_0 V c) t d
theorem before2_1 (c : Dev nD) (t : Fin cfg2.N) (d) : (dat2 V c).before 1 t d = iblk2 V c 1 t := before2_1_of V (dat2 V c) (A_eq2 V c 1) (after2_1 V c) t d
theorem before2_2 (c : Dev nD) (t : Fin cfg2.N) (d) : (dat2 V c).before 2 t d = iblk2 V c 2 t := before2_2_of V (dat2 V c) (A_eq2 V c 2) (after2_2 V c) t d
theorem before2_3 (c : Dev nD) (t : Fin cfg2.N) (d) : (dat2 V c).before 3 t d = iblk2 V c 3 t := before2_3_of V (dat2 V c) (A_eq2 V c 3) (after2_3 V c) t d
theorem before2_4 (c : Dev nD) (t : Fin cfg2.N) (d) : (dat2 V c).before 4 t d = iblk2 V c 4 t := before2_4_of V (dat2 V c) (A_eq2 V c 4) (after2_4 V c) t d

end Cert.Kernel.KFrame

end
-- ==== Proof.KR2Bodyb.lean ====
/-
  Region 2's body obligation. At any point the five inputs' staging buffers hold their blocks; the invariant hands
  the body the two running rows (at anything before the first point, at what the point before left afterwards) and
  takes them back at this point's contents. By cases: the first point, a middle point, the last point.
-/
import proofs.«109717_j65541200937586_2_alg».proof.Proof.KR2Datab

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  have hN : t.val < 125 := lt_of_lt_of_eq t.isLt (show cfg2.N = 125 from N_2)
  by_cases h0 : t.val = 0
  · -- the first point
    have h1 : ¬ t.val = 124 := by omega
    rw [Dat.leavesExact_idle (dat2 V c) 6 t (idleAt2_6 t (fun h => h1 ((hcond2_1 t).mp h))) (noFlush2_6 t (fun h => h1 ((hcond2_1 t).mp h)))]
    rw [Dat.leavesExact_idle (dat2 V c) 7 t (idleAt2_7 t (fun h => h1 ((hcond2_1 t).mp h))) (noFlush2_7 t (fun h => h1 ((hcond2_1 t).mp h)))]
    rw [outsAt2_A V c t h0]
    unfold out2_A_5 sout2_A_0 sout2_A_1; (try dsimp only)
    rw [PhiS2_castSucc V c t, PhiS2_zero V c _ _ h0, PhiA2_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HS' := scopedWith_split c _ _ $$ HS
    icases HS' with ⟨HO, HS0, HS1⟩
    iapply ((runAt2_A V c t h0).2.2.2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HO HS0 HS1 Hg]
    · isplitl [HO HS0 HS1]
      · iapply scopedWith_join
        isplitl [HO]; · iexact HO
        isplitl [HS0]
        · unfold owns; iexists _; isplitr
          swap; · iexact HS0
          ipureintro; exact View.read_writes_of_cover _ _ _ _ _ (scover2_A_0 V c t h0)
        unfold owns; iexists _; isplitr
        swap; · iexact HS1
        ipureintro; exact View.read_writes_of_cover _ _ _ _ _ (scover2_A_1 V c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 V c t h0)
    isplitl [H6]; · iexists _; iexact H6
    iexists _; iexact H7
  · by_cases h1 : t.val = 124
    · -- the last point
      rw [show (dat2 V c).leavesExact 6 t = owns (c : Thread nD τ) (ms2_6 t) fullShare ((dat2 V c).after 6 t) from by
        unfold Dat.leavesExact; rw [liveAt2_6 t ((hcond2_1 t).mpr h1)], after2_6]
      rw [show (dat2 V c).leavesExact 7 t = owns (c : Thread nD τ) (ms2_7 t) fullShare ((dat2 V c).after 7 t) from by
        unfold Dat.leavesExact; rw [liveAt2_7 t ((hcond2_1 t).mpr h1)], after2_7]
      rw [outsAt2_C V c t h0 h1]
      unfold out2_C_5 out2_C_6 out2_C_7 sout2_C_0 sout2_C_1; (try dsimp only)
      rw [PhiS2_castSucc V c t, PhiS2_pos V c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HS' := scopedWith_split c _ _ $$ HS
      icases HS' with ⟨HO, HS0, HS1⟩
      iapply ((runAt2_C V c t h0 h1 _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HO HS0 HS1 Hg]
      · isplitl [HO HS0 HS1]
        · iapply scopedWith_join
          isplitl [HO]; · iexact HO
          isplitl [HS0]
          · unfold owns; iexists _; isplitr
            swap; · iexact HS0
            ipureintro; exact View.read_writes_of_cover _ _ _ _ _ (scover2_C_0 V c t h0 h1 _ _)
          unfold owns; iexists _; isplitr
          swap; · iexact HS1
          ipureintro; exact View.read_writes_of_cover _ _ _ _ _ (scover2_C_1 V c t h0 h1 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_C_5 V c t h0 h1 _ _)
      isplitl [H6]
      · unfold owns; iexists _; isplitr
        swap; · iexact H6
        ipureintro; exact View.read_writes_of_cover _ _ _ _ _ (cover2_C_6 V c t h0 h1 _ _)
      unfold owns; iexists _; isplitr
      swap; · iexact H7
      ipureintro; exact View.read_writes_of_cover _ _ _ _ _ (cover2_C_7 V c t h0 h1 _ _)
    · -- a middle point
      rw [Dat.leavesExact_idle (dat2 V c) 6 t (idleAt2_6 t (fun h => h1 ((hcond2_1 t).mp h))) (noFlush2_6 t (fun h => h1 ((hcond2_1 t).mp h)))]
      rw [Dat.leavesExact_idle (dat2 V c) 7 t (idleAt2_7 t (fun h => h1 ((hcond2_1 t).mp h))) (noFlush2_7 t (fun h => h1 ((hcond2_1 t).mp h)))]
      rw [outsAt2_B V c t h0 h1]
      unfold out2_B_5 sout2_B_0 sout2_B_1; (try dsimp only)
      rw [PhiS2_castSucc V c t, PhiS2_pos V c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HS' := scopedWith_split c _ _ $$ HS
      icases HS' with ⟨HO, HS0, HS1⟩
      iapply ((runAt2_B V c t h0 h1 _ _).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HO HS0 HS1 Hg]
      · isplitl [HO HS0 HS1]
        · iapply scopedWith_join
          isplitl [HO]; · iexact HO
          isplitl [HS0]
          · unfold owns; iexists _; isplitr
            swap; · iexact HS0
            ipureintro; exact View.read_writes_of_cover _ _ _ _ _ (scover2_B_0 V c t h0 h1 _ _)
          unfold owns; iexists _; isplitr
          swap; · iexact HS1
          ipureintro; exact View.read_writes_of_cover _ _ _ _ _ (scover2_B_1 V c t h0 h1 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_B_5 V c t h0 h1 _ _)
      isplitl [H6]; · iexists _; iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the running rows' named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 125 := N_2; omega), PhiA2_eq]
  iintro ⟨HS, Hg⟩
  ihave HS' := scopedWith_split c _ _ $$ HS
  icases HS' with ⟨HO, HS0, HS1⟩
  isplitl [HO HS0 HS1]
  · iapply scopedWith_join
    isplitl [HO]; · iexact HO
    isplitl [HS0]; · iexists _; iexact HS0
    iexists _; iexact HS1
  iexact Hg

end Cert.Kernel.KFrame

end
-- ==== Proof.KRunb.lean ====
/-
  The kernel program's run. @main is eleven items: five stretches of host operations (the degree, its inverse
  square root, the edge normalisation), region 0 (the node transform), a stretch (messages and their scatter-add),
  region 1 (bias and activation), a stretch (the two batch gathers and their concatenation), region 2 (the MLP with
  the running column maximum and sum) and region 3 (the final subtraction). The buffer contents at each boundary are
  a fold from the launch memory: a stretch applies its operations; a region leaves its arrays at what its
  write-backs leave and every other buffer as entered. Every weakly fair execution terminates with every unscoped
  buffer at the last boundary's contents.
-/
import proofs.«109717_j65541200937586_2_alg».proof.Proof.KRegion0b
import proofs.«109717_j65541200937586_2_alg».proof.Proof.KRegion1b
import proofs.«109717_j65541200937586_2_alg».proof.Proof.KRegion3b
import proofs.«109717_j65541200937586_2_alg».proof.Proof.KR2Bodyb
import proofs.«109717_j65541200937586_2_alg».proof.Proof.Gen.Kernel.Regions
import Idealize.ShloMosaic.Lib.Pipeline.RegionsLoop
import Idealize.ShloMosaic.Lib.Pipeline.FrameSuffix

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- At region 0's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- At region 1's exit: its arrays at what the pipeline leaves, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b
/-- At region 2's exit: its arrays at what the pipeline leaves, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- At region 3's exit: its arrays at what the pipeline leaves, every other buffer as entered. -/
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
abbrev V11 : (c : Dev nD) → (b : Ref sig .tc) → Buf (Elt F) ((c : Thread nD τ).loc b) := fun c b => W11 m ρ c b
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V10 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at `W5`, left at `W6`. Its arrays are
    split out of the unscoped buffers and put back at what the pipeline leaves; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`. Its arrays are
    split out of the unscoped buffers and put back at what the pipeline leaves; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W9`, left at `W10`. Its arrays are
    split out of the unscoped buffers and put back at what the pipeline leaves; the generator register goes into the
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m ρ 2 c).Φ 0 from hin2 (V9 m ρ) c)
    unfold Pipeline.ΦA
    iintro ⟨Hp, -, Hr⟩
    isplitl [Hr]; · iexact Hr
    iexact Hp
  hout c := by
    rw [Pipeline.ownSems0_none]
    refine BIBase.Entails.trans (show (pdats m ρ 2 c).Φ (Fin.last _) ⊢ Pipeline.ΦA spec2 c from hout2 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W10`, left at `W11`. Its arrays are
    split out of the unscoped buffers and put back at what the pipeline leaves; the generator register goes into the
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .region (reg3 m ρ) ]

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.Kernel.KFrame

end
-- ==== Proof.KClaimsb.lean ====
/-
  What the kernel program's run says about the argument arrays and the result: no host operation and no region
  writes an argument (a region reads it through an input window or bypasses it), so each argument's buffer at the
  last boundary walks back to the launch memory; the result buffer ends at what region 3's write-backs leave.
-/
import proofs.«109717_j65541200937586_2_alg».proof.Proof.KRunb

set_option maxRecDepth 16384

noncomputable section

namespace Cert.Kernel.KFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W11_arg0 (c : Dev nD) : W11 m ρ c (Proc.devRef .tc main_arg0) = m ((c : Thread nD τ).loc main_arg0) :=
  calc W11 m ρ c (Proc.devRef .tc main_arg0)
    _ = W10 m ρ c (Proc.devRef .tc main_arg0) := W11_of_ne m ρ c main_arg0 (by decide)
    _ = W9 m ρ c (Proc.devRef .tc main_arg0) := W10_of_ne m ρ c main_arg0 (by decide)
    _ = W8 m ρ c (Proc.devRef .tc main_arg0) := StableHlo.after_of_writes_sub hostOps2 _ hostOps2_writes (by decide)
    _ = W7 m ρ c (Proc.devRef .tc main_arg0) := W8_of_ne m ρ c main_arg0 (by decide)
    _ = W6 m ρ c (Proc.devRef .tc main_arg0) := StableHlo.after_of_writes_sub hostOps1 _ hostOps1_writes (by decide)
    _ = W5 m ρ c (Proc.devRef .tc main_arg0) := W6_of_ne m ρ c main_arg0 (by decide)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W11_arg1 (c : Dev nD) : W11 m ρ c (Proc.devRef .tc main_arg1) = m ((c : Thread nD τ).loc main_arg1) :=
  calc W11 m ρ c (Proc.devRef .tc main_arg1)
    _ = W10 m ρ c (Proc.devRef .tc main_arg1) := W11_of_ne m ρ c main_arg1 (by decide)
    _ = W9 m ρ c (Proc.devRef .tc main_arg1) := W10_of_ne m ρ c main_arg1 (by decide)
    _ = W8 m ρ c (Proc.devRef .tc main_arg1) := StableHlo.after_of_writes_sub hostOps2 _ hostOps2_writes (by decide)
    _ = W7 m ρ c (Proc.devRef .tc main_arg1) := W8_of_ne m ρ c main_arg1 (by decide)
    _ = W6 m ρ c (Proc.devRef .tc main_arg1) := StableHlo.after_of_writes_sub hostOps1 _ hostOps1_writes (by decide)
    _ = W5 m ρ c (Proc.devRef .tc main_arg1) := W6_of_ne m ρ c main_arg1 (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W11_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_ne m ρ c main_arg2 (by decide)
    _ = W9 m ρ c (Proc.devRef .tc main_arg2) := W10_of_ne m ρ c main_arg2 (by decide)
    _ = W8 m ρ c (Proc.devRef .tc main_arg2) := StableHlo.after_of_writes_sub hostOps2 _ hostOps2_writes (by decide)
    _ = W7 m ρ c (Proc.devRef .tc main_arg2) := W8_of_ne m ρ c main_arg2 (by decide)
    _ = W6 m ρ c (Proc.devRef .tc main_arg2) := StableHlo.after_of_writes_sub hostOps1 _ hostOps1_writes (by decide)
    _ = W5 m ρ c (Proc.devRef .tc main_arg2) := W6_of_ne m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W11_arg3 (c : Dev nD) : W11 m ρ c (Proc.devRef .tc main_arg3) = m ((c : Thread nD τ).loc main_arg3) :=
  calc W11 m ρ c (Proc.devRef .tc main_arg3)
    _ = W10 m ρ c (Proc.devRef .tc main_arg3) := W11_of_ne m ρ c main_arg3 (by decide)
    _ = W9 m ρ c (Proc.devRef .tc main_arg3) := W10_of_ne m ρ c main_arg3 (by decide)
    _ = W8 m ρ c (Proc.devRef .tc main_arg3) := StableHlo.after_of_writes_sub hostOps2 _ hostOps2_writes (by decide)
    _ = W7 m ρ c (Proc.devRef .tc main_arg3) := W8_of_ne m ρ c main_arg3 (by decide)
    _ = W6 m ρ c (Proc.devRef .tc main_arg3) := StableHlo.after_of_writes_sub hostOps1 _ hostOps1_writes (by decide)
    _ = W5 m ρ c (Proc.devRef .tc main_arg3) := W6_of_ne m ρ c main_arg3 (by decide)
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W11_arg4 (c : Dev nD) : W11 m ρ c (Proc.devRef .tc main_arg4) = m ((c : Thread nD τ).loc main_arg4) :=
  calc W11 m ρ c (Proc.devRef .tc main_arg4)
    _ = W10 m ρ c (Proc.devRef .tc main_arg4) := W11_of_ne m ρ c main_arg4 (by decide)
    _ = W9 m ρ c (Proc.devRef .tc main_arg4) := W10_of_ne m ρ c main_arg4 (by decide)
    _ = W8 m ρ c (Proc.devRef .tc main_arg4) := StableHlo.after_of_writes_sub hostOps2 _ hostOps2_writes (by decide)
    _ = W7 m ρ c (Proc.devRef .tc main_arg4) := W8_of_ne m ρ c main_arg4 (by decide)
    _ = W6 m ρ c (Proc.devRef .tc main_arg4) := StableHlo.after_of_writes_sub hostOps1 _ hostOps1_writes (by decide)
    _ = W5 m ρ c (Proc.devRef .tc main_arg4) := (W6_arr m ρ c 0).trans (((dat0 (V5 m ρ) c).arrAt_in 0 rfl _).trans (A_eq0 (V5 m ρ) c 0))
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W11_arg5 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_ne m ρ c main_arg5 (by decide)
    _ = W9 m ρ c (Proc.devRef .tc main_arg5) := W10_of_ne m ρ c main_arg5 (by decide)
    _ = W8 m ρ c (Proc.devRef .tc main_arg5) := StableHlo.after_of_writes_sub hostOps2 _ hostOps2_writes (by decide)
    _ = W7 m ρ c (Proc.devRef .tc main_arg5) := W8_of_ne m ρ c main_arg5 (by decide)
    _ = W6 m ρ c (Proc.devRef .tc main_arg5) := StableHlo.after_of_writes_sub hostOps1 _ hostOps1_writes (by decide)
    _ = W5 m ρ c (Proc.devRef .tc main_arg5) := (W6_arr m ρ c 1).trans (((dat0 (V5 m ρ) c).arrAt_in 1 rfl _).trans (A_eq0 (V5 m ρ) c 1))
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W11_arg6 (c : Dev nD) : W11 m ρ c (Proc.devRef .tc main_arg6) = m ((c : Thread nD τ).loc main_arg6) :=
  calc W11 m ρ c (Proc.devRef .tc main_arg6)
    _ = W10 m ρ c (Proc.devRef .tc main_arg6) := W11_of_ne m ρ c main_arg6 (by decide)
    _ = W9 m ρ c (Proc.devRef .tc main_arg6) := W10_of_ne m ρ c main_arg6 (by decide)
    _ = W8 m ρ c (Proc.devRef .tc main_arg6) := StableHlo.after_of_writes_sub hostOps2 _ hostOps2_writes (by decide)
    _ = W7 m ρ c (Proc.devRef .tc main_arg6) := (W8_arr m ρ c 1).trans (((dat1 (V7 m ρ) c).arrAt_in 1 rfl _).trans (A_eq1 (V7 m ρ) c 1))
    _ = W6 m ρ c (Proc.devRef .tc main_arg6) := StableHlo.after_of_writes_sub hostOps1 _ hostOps1_writes (by decide)
    _ = W5 m ρ c (Proc.devRef .tc main_arg6) := W6_of_ne m ρ c main_arg6 (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W11_arg7 (c : Dev nD) : W11 m ρ c (Proc.devRef .tc main_arg7) = m ((c : Thread nD τ).loc main_arg7) :=
  calc W11 m ρ c (Proc.devRef .tc main_arg7)
    _ = W10 m ρ c (Proc.devRef .tc main_arg7) := W11_of_ne m ρ c main_arg7 (by decide)
    _ = W9 m ρ c (Proc.devRef .tc main_arg7) := (W10_arr m ρ c 1).trans (((dat2 (V9 m ρ) c).arrAt_in 1 rfl _).trans (A_eq2 (V9 m ρ) c 1))
    _ = W8 m ρ c (Proc.devRef .tc main_arg7) := StableHlo.after_of_writes_sub hostOps2 _ hostOps2_writes (by decide)
    _ = W7 m ρ c (Proc.devRef .tc main_arg7) := W8_of_ne m ρ c main_arg7 (by decide)
    _ = W6 m ρ c (Proc.devRef .tc main_arg7) := StableHlo.after_of_writes_sub hostOps1 _ hostOps1_writes (by decide)
    _ = W5 m ρ c (Proc.devRef .tc main_arg7) := W6_of_ne m ρ c main_arg7 (by decide)
    _ = W4 m ρ c (Proc.devRef .tc main_arg7) := StableHlo.after_of_writes_sub hostOps0_4 _ hostOps0_4_writes (by decide)
    _ = W3 m ρ c (Proc.devRef .tc main_arg7) := StableHlo.after_of_writes_sub hostOps0_3 _ hostOps0_3_writes (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W11_arg8 (c : Dev nD) : W11 m ρ c (Proc.devRef .tc main_arg8) = m ((c : Thread nD τ).loc main_arg8) :=
  calc W11 m ρ c (Proc.devRef .tc main_arg8)
    _ = W10 m ρ c (Proc.devRef .tc main_arg8) := W11_of_ne m ρ c main_arg8 (by decide)
    _ = W9 m ρ c (Proc.devRef .tc main_arg8) := (W10_arr m ρ c 2).trans (((dat2 (V9 m ρ) c).arrAt_in 2 rfl _).trans (A_eq2 (V9 m ρ) c 2))
    _ = W8 m ρ c (Proc.devRef .tc main_arg8) := StableHlo.after_of_writes_sub hostOps2 _ hostOps2_writes (by decide)
    _ = W7 m ρ c (Proc.devRef .tc main_arg8) := W8_of_ne m ρ c main_arg8 (by decide)
    _ = W6 m ρ c (Proc.devRef .tc main_arg8) := StableHlo.after_of_writes_sub hostOps1 _ hostOps1_writes (by decide)
    _ = W5 m ρ c (Proc.devRef .tc main_arg8) := W6_of_ne m ρ c main_arg8 (by decide)
    _ = W4 m ρ c (Proc.devRef .tc main_arg8) := StableHlo.after_of_writes_sub hostOps0_4 _ hostOps0_4_writes (by decide)
    _ = W3 m ρ c (Proc.devRef .tc main_arg8) := StableHlo.after_of_writes_sub hostOps0_3 _ hostOps0_3_writes (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

theorem W11_arg9 (c : Dev nD) : W11 m ρ c (Proc.devRef .tc main_arg9) = m ((c : Thread nD τ).loc main_arg9) :=
  calc W11 m ρ c (Proc.devRef .tc main_arg9)
    _ = W10 m ρ c (Proc.devRef .tc main_arg9) := W11_of_ne m ρ c main_arg9 (by decide)
    _ = W9 m ρ c (Proc.devRef .tc main_arg9) := (W10_arr m ρ c 3).trans (((dat2 (V9 m ρ) c).arrAt_in 3 rfl _).trans (A_eq2 (V9 m ρ) c 3))
    _ = W8 m ρ c (Proc.devRef .tc main_arg9) := StableHlo.after_of_writes_sub hostOps2 _ hostOps2_writes (by decide)
    _ = W7 m ρ c (Proc.devRef .tc main_arg9) := W8_of_ne m ρ c main_arg9 (by decide)
    _ = W6 m ρ c (Proc.devRef .tc main_arg9) := StableHlo.after_of_writes_sub hostOps1 _ hostOps1_writes (by decide)
    _ = W5 m ρ c (Proc.devRef .tc main_arg9) := W6_of_ne m ρ c main_arg9 (by decide)
    _ = W4 m ρ c (Proc.devRef .tc main_arg9) := StableHlo.after_of_writes_sub hostOps0_4 _ hostOps0_4_writes (by decide)
    _ = W3 m ρ c (Proc.devRef .tc main_arg9) := StableHlo.after_of_writes_sub hostOps0_3 _ hostOps0_3_writes (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl

theorem W11_arg10 (c : Dev nD) : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := (W10_arr m ρ c 4).trans (((dat2 (V9 m ρ) c).arrAt_in 4 rfl _).trans (A_eq2 (V9 m ρ) c 4))
    _ = W8 m ρ c (Proc.devRef .tc main_arg10) := StableHlo.after_of_writes_sub hostOps2 _ hostOps2_writes (by decide)
    _ = W7 m ρ c (Proc.devRef .tc main_arg10) := W8_of_ne m ρ c main_arg10 (by decide)
    _ = W6 m ρ c (Proc.devRef .tc main_arg10) := StableHlo.after_of_writes_sub hostOps1 _ hostOps1_writes (by decide)
    _ = W5 m ρ c (Proc.devRef .tc main_arg10) := W6_of_ne m ρ c main_arg10 (by decide)
    _ = W4 m ρ c (Proc.devRef .tc main_arg10) := StableHlo.after_of_writes_sub hostOps0_4 _ hostOps0_4_writes (by decide)
    _ = W3 m ρ c (Proc.devRef .tc main_arg10) := StableHlo.after_of_writes_sub hostOps0_3 _ hostOps0_3_writes (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl

/-- The frame: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W11_arg0 m ρ c),
      (h c _ (mem_uc main_arg1 (by decide))).trans (W11_arg1 m ρ c),
      (h c _ (mem_uc main_arg2 (by decide))).trans (W11_arg2 m ρ c),
      (h c _ (mem_uc main_arg3 (by decide))).trans (W11_arg3 m ρ c),
      (h c _ (mem_uc main_arg4 (by decide))).trans (W11_arg4 m ρ c),
      (h c _ (mem_uc main_arg5 (by decide))).trans (W11_arg5 m ρ c),
      (h c _ (mem_uc main_arg6 (by decide))).trans (W11_arg6 m ρ c),
      (h c _ (mem_uc main_arg7 (by decide))).trans (W11_arg7 m ρ c),
      (h c _ (mem_uc main_arg8 (by decide))).trans (W11_arg8 m ρ c),
      (h c _ (mem_uc main_arg9 (by decide))).trans (W11_arg9 m ρ c),
      (h c _ (mem_uc main_arg10 (by decide))).trans (W11_arg10 m ρ c)⟩) (run_all m ρ)

/-- The same run with the result buffer named: it ends at the last boundary's contents. -/
theorem run_value : θ_run defs (onTc (τ := τ) (main (F := F))) ⟨m, fun _ => 0, ρ⟩ (fun r => ∀ c : Dev nD,
      r.2.mem ((c.tc : Thread nD τ).loc main_v61) = W11 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v61 (by decide)),
      (h c _ (mem_uc main_arg0 (by decide))).trans (W11_arg0 m ρ c),
      (h c _ (mem_uc main_arg1 (by decide))).trans (W11_arg1 m ρ c),
      (h c _ (mem_uc main_arg2 (by decide))).trans (W11_arg2 m ρ c),
      (h c _ (mem_uc main_arg3 (by decide))).trans (W11_arg3 m ρ c),
      (h c _ (mem_uc main_arg4 (by decide))).trans (W11_arg4 m ρ c),
      (h c _ (mem_uc main_arg5 (by decide))).trans (W11_arg5 m ρ c),
      (h c _ (mem_uc main_arg6 (by decide))).trans (W11_arg6 m ρ c),
      (h c _ (mem_uc main_arg7 (by decide))).trans (W11_arg7 m ρ c),
      (h c _ (mem_uc main_arg8 (by decide))).trans (W11_arg8 m ρ c),
      (h c _ (mem_uc main_arg9 (by decide))).trans (W11_arg9 m ρ c),
      (h c _ (mem_uc main_arg10 (by decide))).trans (W11_arg10 m ρ c)⟩) (run_all m ρ)

/-- The result buffer at the last boundary is what region 3's write-backs leave in its output array. -/
theorem W11_v61 (c : Dev nD) : W11 m ρ c (Proc.devRef .tc main_v61) = (dat3 (V10 m ρ) c).arrAt 3 cfg3.N :=
  W11_arr m ρ c 3

end Cert.Kernel.KFrame

end
-- ==== Proof.KRegion0.lean ====
import proofs.«109717_j65541200937586_2_alg».proof.Proof.Gen.KernelIdeal.Launch
import proofs.«109717_j65541200937586_2_alg».proof.Proof.Gen.KernelIdeal.Skeleton
import proofs.«109717_j65541200937586_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # Region 0 of the kernel program: the body's triple, the pipeline's proof data and the body obligation

Stated at a parameter `V`, the TensorCore's buffer contents when the region is entered, and generic in the float
instance. One control case; a grid of 125 points over blocks of 8000 rows; the body loads its input blocks, computes,
and stores the output block whole. -/

-- membership in a rectangle of 8000 rows: the elaborator's structural look recurses once per coordinate of the long axis
set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the row block of the embedding, whose index moves with the point): its current staging buffer holds
    its block at every point, for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the 3×3 weight, whose index map is constant: fetched at the first point only): at a point where it
    is not fetched the block index has not moved, and the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S8000x3 := Rect.unit (s := S8000x3) ![0, 0] S8000x3.size inb_S8000x3_S8000x3_0_0
abbrev r0_1 : Rect S3x3 := Rect.unit (s := S3x3) ![0, 0] S3x3.size inb_S3x3_S3x3_0_0

/-! ## What the body leaves in the output window's buffer -/

/-- Window 2's staging buffer after the body, from the input windows' blocks: its one store as a piece. -/
def out0_2 (x0 : Vec F S8000x3 .f32) (x1 : Vec F S3x3 .f32) : Vec F S8000x3 .f32 :=
  View.canon [⟨r0_0, k0_pay1 (View.ld x0 r0_0) (View.ld x1 r0_1)⟩]

/-- The store is the whole buffer, so it covers it. -/
theorem cover0_2 (p0 : Vec F S8000x3 .f32) (y : S8000x3.Idx) :
    ∃ pc ∈ ([⟨r0_0, p0⟩] : List (View.Piece (Elt F) S8000x3 .f32)), y ∈ pc.1.set :=
  View.cover_of_tiled [⟨r0_0, p0⟩] S8000x3.size (by rfl) y

/-! ## The output block as the payload of the input blocks -/

private theorem zeros2 : (![0, 0] : Fin 2 → Nat) = fun _ => 0 := funext fun a => by fin_cases a <;> rfl

/-- Each load reads a whole buffer and the one store writes the whole buffer: the output's buffer after the body is the
    payload of the inputs' contents. -/
theorem out0_2_eq (x0 : Vec F S8000x3 .f32) (x1 : Vec F S3x3 .f32) : out0_2 x0 x1 = k0_pay1 x0 x1 := by
  unfold out0_2
  rw [View.canon_unit_zero zeros2]
  simp only [View.ld_unit_zero (S := S8000x3) zeros2, View.ld_unit_zero (S := S3x3) zeros2]

/-! ## The body's triple -/

set_option maxHeartbeats 1000000 in
/-- The kernel body on whole staging memrefs, the inputs' at read contents `x0`, `x1` and the output's at anything, runs
    to the continuation holding the inputs' as they were and the output's at `out0_2` of the inputs'. -/
theorem sound_kernel0 (c : Dev nD) (E : Set ℕ) (i : grid0.Coords)
    (arg1 : Memref sig .tc .vmem S8000x3 .f32) (harg1 : arg1.IsWhole) (arg2 : Memref sig .tc .vmem S3x3 .f32) (harg2 : arg2.IsWhole)
    (arg3 : Memref sig .tc .vmem S8000x3 .f32) (harg3 : arg3.IsWhole)
    (x0 : Vec F S8000x3 .f32) (x1 : Vec F S3x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point `t`
    each input's buffer at its block and the output's at `out0_2` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.KFrame

end
-- ==== Proof.KRegion1.lean ====
import proofs.«109717_j65541200937586_2_alg».proof.Proof.Gen.KernelIdeal.Launch
import proofs.«109717_j65541200937586_2_alg».proof.Proof.Gen.KernelIdeal.Skeleton
import proofs.«109717_j65541200937586_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # Region 1 of the kernel program: the body's triple, the pipeline's proof data and the body obligation

Stated at a parameter `V`, the TensorCore's buffer contents when the region is entered, and generic in the float
instance. One control case; a grid of 125 points over blocks of 8000 rows; the body loads its input blocks, computes,
and stores the output block whole. -/

-- membership in a rectangle of 8000 rows: the elaborator's structural look recurses once per coordinate of the long axis
set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the row block of the aggregated features, whose index moves with the point): its current staging
    buffer holds its block at every point, for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the bias of length 3, whose index map is constant: fetched at the first point only): at a point where
    it is not fetched the block index has not moved, and the buffer still holds the block. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S8000x3 := Rect.unit (s := S8000x3) ![0, 0] S8000x3.size inb_S8000x3_S8000x3_0_0
abbrev r1_1 : Rect S3 := Rect.unit (s := S3) ![0] S3.size inb_S3_S3_0

/-! ## What the body leaves in the output window's buffer -/

/-- Window 2's staging buffer after the body, from the input windows' blocks: its one store as a piece. -/
def out1_2 (x0 : Vec F S8000x3 .f32) (x1 : Vec F S3 .f32) : Vec F S8000x3 .f32 :=
  View.canon [⟨r1_0, k1_pay1 (View.ld x0 r1_0) (View.ld x1 r1_1)⟩]

/-- The store is the whole buffer, so it covers it. -/
theorem cover1_2 (p0 : Vec F S8000x3 .f32) (y : S8000x3.Idx) :
    ∃ pc ∈ ([⟨r1_0, p0⟩] : List (View.Piece (Elt F) S8000x3 .f32)), y ∈ pc.1.set :=
  View.cover_of_tiled [⟨r1_0, p0⟩] S8000x3.size (by rfl) y

/-! ## The output block as the payload of the input blocks -/

private theorem zeros2 : (![0, 0] : Fin 2 → Nat) = fun _ => 0 := funext fun a => by fin_cases a <;> rfl
private theorem zeros1 : (![0] : Fin 1 → Nat) = fun _ => 0 := funext fun a => by fin_cases a; rfl

/-- Each load reads a whole buffer and the one store writes the whole buffer: the output's buffer after the body is the
    payload of the inputs' contents. -/
theorem out1_2_eq (x0 : Vec F S8000x3 .f32) (x1 : Vec F S3 .f32) : out1_2 x0 x1 = k1_pay1 x0 x1 := by
  unfold out1_2
  rw [View.canon_unit_zero zeros2]
  simp only [View.ld_unit_zero (S := S8000x3) zeros2, View.ld_unit_zero (S := S3) zeros1]

/-! ## The body's triple -/

set_option maxHeartbeats 1000000 in
/-- The kernel body on whole staging memrefs, the inputs' at read contents `x0`, `x1` and the output's at anything, runs
    to the continuation holding the inputs' as they were and the output's at `out1_2` of the inputs'. -/
theorem sound_kernel1 (c : Dev nD) (E : Set ℕ) (i : grid1.Coords)
    (arg1 : Memref sig .tc .vmem S8000x3 .f32) (harg1 : arg1.IsWhole) (arg2 : Memref sig .tc .vmem S3 .f32) (harg2 : arg2.IsWhole)
    (arg3 : Memref sig .tc .vmem S8000x3 .f32) (harg3 : arg3.IsWhole)
    (x0 : Vec F S8000x3 .f32) (x1 : Vec F S3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__bias_leaky_kernel i arg1 harg1 arg2 harg2 arg3 harg3) K := by
  simp only [cc1__bias_leaky_kernel_eq_skeleton]; unfold cc1__bias_leaky_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point `t`
    each input's buffer at its block and the output's at `out1_2` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.KFrame

end
-- ==== Proof.KRegion3.lean ====
import proofs.«109717_j65541200937586_2_alg».proof.Proof.Gen.KernelIdeal.Launch
import proofs.«109717_j65541200937586_2_alg».proof.Proof.Gen.KernelIdeal.Skeleton
import proofs.«109717_j65541200937586_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

/-! # Region 3 of the kernel program: the body's triple, the pipeline's proof data and the body obligation

Stated at a parameter `V`, the TensorCore's buffer contents when the region is entered, and generic in the float
instance. One control case; a grid of 125 points over blocks of 8000 rows; the body loads its input blocks, computes,
and stores the output block whole. -/

-- membership in a rectangle of 8000 rows: the elaborator's structural look recurses once per coordinate of the long axis
set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the row block of the logits, whose index moves with the point): its current staging buffer holds its
    block at every point, for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the 1×3 column maxima, whose index map is constant: fetched at the first point only): at a point
    where it is not fetched the block index has not moved, and the buffer still holds the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the 1×3 log-normalizer, constant index map as window 1). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S8000x3 := Rect.unit (s := S8000x3) ![0, 0] S8000x3.size inb_S8000x3_S8000x3_0_0
abbrev r3_1 : Rect S1x3 := Rect.unit (s := S1x3) ![0, 0] S1x3.size inb_S1x3_S1x3_0_0

/-! ## What the body leaves in the output window's buffer -/

/-- Window 3's staging buffer after the body, from the input windows' blocks: its one store as a piece. -/
def out3_3 (x0 : Vec F S8000x3 .f32) (x1 : Vec F S1x3 .f32) (x2 : Vec F S1x3 .f32) : Vec F S8000x3 .f32 :=
  View.canon [⟨r3_0, k3_pay1 (View.ld x0 r3_0) (View.ld x1 r3_1) (View.ld x2 r3_1)⟩]

/-- The store is the whole buffer, so it covers it. -/
theorem cover3_3 (p0 : Vec F S8000x3 .f32) (y : S8000x3.Idx) :
    ∃ pc ∈ ([⟨r3_0, p0⟩] : List (View.Piece (Elt F) S8000x3 .f32)), y ∈ pc.1.set :=
  View.cover_of_tiled [⟨r3_0, p0⟩] S8000x3.size (by rfl) y

/-! ## The output block as the payload of the input blocks -/

private theorem zeros2 : (![0, 0] : Fin 2 → Nat) = fun _ => 0 := funext fun a => by fin_cases a <;> rfl

/-- Each load reads a whole buffer and the one store writes the whole buffer: the output's buffer after the body is the
    payload of the inputs' contents. -/
theorem out3_3_eq (x0 : Vec F S8000x3 .f32) (x1 : Vec F S1x3 .f32) (x2 : Vec F S1x3 .f32) :
    out3_3 x0 x1 x2 = k3_pay1 x0 x1 x2 := by
  unfold out3_3
  rw [View.canon_unit_zero zeros2]
  simp only [View.ld_unit_zero (S := S8000x3) zeros2, View.ld_unit_zero (S := S1x3) zeros2]

/-! ## The body's triple -/

set_option maxHeartbeats 1000000 in
/-- The kernel body on whole staging memrefs, the inputs' at read contents `x0`, `x1`, `x2` and the output's at anything,
    runs to the continuation holding the inputs' as they were and the output's at `out3_3` of the inputs'. -/
theorem sound_kernel3 (c : Dev nD) (E : Set ℕ) (i : grid3.Coords)
    (arg1 : Memref sig .tc .vmem S8000x3 .f32) (harg1 : arg1.IsWhole) (arg2 : Memref sig .tc .vmem S1x3 .f32) (harg2 : arg2.IsWhole)
    (arg3 : Memref sig .tc .vmem S1x3 .f32) (harg3 : arg3.IsWhole) (arg4 : Memref sig .tc .vmem S8000x3 .f32) (harg4 : arg4.IsWhole)
    (x0 : Vec F S8000x3 .f32) (x1 : Vec F S1x3 .f32) (x2 : Vec F S1x3 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__finalize_kernel i arg1 harg1 arg2 harg2 arg3 harg3 arg4 harg4) K := by
  simp only [cc3__finalize_kernel_eq_skeleton]; unfold cc3__finalize_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point `t`
    each input's buffer at its block and the output's at `out3_3` of the input blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.KFrame

end
-- ==== Proof.KR2Base.lean ====
/-
  Region 2 (the MLP fused with the running column maximum and sum of exponentials), the part every case shares.
  The grid has 125 points. The body's first conditional (reset the two running rows) is taken at point 0 only,
  its second (write the running rows out) at point 124 only; so a point is the first, a middle one, or the last.
  The two small outputs are written only at the last point: at the other points their windows are idle and are
  not written back. The two running rows live in scratch buffers of the kernel's own, which sit among the scoped
  buffers of the other three regions; the scoped rest is spelled here with those two slots open.
-/
import proofs.«109717_j65541200937586_2_alg».proof.Proof.Gen.KernelIdeal.Launch
import proofs.«109717_j65541200937586_2_alg».proof.Proof.Gen.KernelIdeal.Skeleton
import proofs.«109717_j65541200937586_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The first conditional's test, from the grid coordinate: the point is the first. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

/-- The second conditional's test: the point is the last. -/
abbrev cond2_1 (i : grid2.Coords) : Prop := k2_cond2 i = 1#1
theorem hcond2_1 : ∀ t : Fin cfg2.N, cond2_1 (grid2.coords t) ↔ t.val = 124 :=
  (by decide +kernel : ∀ t : Fin grid2.N, cond2_1 (grid2.coords t) ↔ t.val = 124)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Away from the last point the two small outputs are idle and are not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
/-- At the last point they are live. -/
theorem liveAt2_6 : ∀ t : Fin cfg2.N, cond2_1 (grid2.coords t) → cfg2.idle 6 (grid2.coords t) = false := by decide +kernel
theorem liveAt2_7 : ∀ t : Fin cfg2.N, cond2_1 (grid2.coords t) → cfg2.idle 7 (grid2.coords t) = false := by decide +kernel

/-! ## The staging and scratch memrefs -/

/-- One staging buffer of each output window, through which its contents are stated. -/
abbrev VO2_5 : View sig .tc .vmem S8000x3 .f32 := (Memref.whole cc2_stg5_0 : Memref sig .tc .vmem S8000x3 .f32).view
abbrev VO2_6 : View sig .tc .vmem S1x3 .f32 := (Memref.whole cc2_stg6_0 : Memref sig .tc .vmem S1x3 .f32).view
abbrev VO2_7 : View sig .tc .vmem S1x3 .f32 := (Memref.whole cc2_stg7_0 : Memref sig .tc .vmem S1x3 .f32).view
/-- Each window's current staging memref at point `t`, as the pipeline passes it, and its wholeness. -/
abbrev ms2_0 (t : Fin cfg2.N) : Memref sig .tc .vmem S8000x6 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S6x6 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S6 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S6x3 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S3 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S8000x3 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x3 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x3 .f32 := win2_7.stage (cfg2.slots t 7)
abbrev hs2_7 (t : Fin cfg2.N) : (ms2_7 t).IsWhole := hstage2_7 ((cfg2.slots t 7).cast nbuf2_7)
/-- The two scratch rows: the running maximum and the running sum. -/
abbrev scM2_0 : Memref sig .tc .vmem S1x3 .f32 := Memref.whole cc2_scratch0
abbrev scM2_1 : Memref sig .tc .vmem S1x3 .f32 := Memref.whole cc2_scratch1
abbrev VS2_0 : View sig .tc .vmem S1x3 .f32 := scM2_0.view
abbrev VS2_1 : View sig .tc .vmem S1x3 .f32 := scM2_1.view

/-! ## The scoped rest, with the two scratch slots open -/

/-- The core's scoped buffers no window of this region stages: the other regions' staging buffers, each whole at
    some contents, and — in their place among them — the two scratch rows at `P0` and `P1`. -/
def scopedWith (c : Dev nD) (P0 P1 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ P0 ∗ P1 ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f))

/-- The other regions' staging buffers by themselves. -/
def scopedOthers (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc3_stg0_0), ((c : Thread nD τ).loc cc3_stg0_0) ↦{fullShare} f) ∗ (∃ f : Buf (Elt F) ((c : Thread nD τ).loc cc3_stg0_1), ((c : Thread nD τ).loc cc3_stg0_1) ↦{fullShare} f) ∗ (∃ f : Buf (Elt F) ((c : Thread nD τ).loc cc3_stg1_0), ((c : Thread nD τ).loc cc3_stg1_0) ↦{fullShare} f) ∗ (∃ f : Buf (Elt F) ((c : Thread nD τ).loc cc3_stg2_0), ((c : Thread nD τ).loc cc3_stg2_0) ↦{fullShare} f) ∗ (∃ f : Buf (Elt F) ((c : Thread nD τ).loc cc3_stg3_0), ((c : Thread nD τ).loc cc3_stg3_0) ↦{fullShare} f) ∗ (∃ f : Buf (Elt F) ((c : Thread nD τ).loc cc3_stg3_1), ((c : Thread nD τ).loc cc3_stg3_1) ↦{fullShare} f))

/-- The class invariant (every scoped buffer outside the region's staging at something, and the generator register)
    with the scratch rows as memrefs owned at some contents. -/
theorem PhiA2_eq (c : Dev nD) :
    (Pipeline.ΦA spec2 c : sProp 𝕄)
      = iprop(scopedWith c iprop(∃ d, owns (c : Thread nD τ) scM2_0 fullShare d) iprop(∃ d, owns (c : Thread nD τ) scM2_1 fullShare d) ∗ (∃ r, prngReg c r)) := by
  unfold Pipeline.ΦA scopedWith; rw [scopedRest2_eq]; simp only [scM2_0, scM2_1, owns_whole]; try rfl

/-- The scratch rows taken out of their slots. -/
theorem scopedWith_split (c : Dev nD) (P0 P1 : sProp 𝕄) : scopedWith c P0 P1 ⊢ iprop(scopedOthers c ∗ P0 ∗ P1) := by
  unfold scopedWith scopedOthers
  iintro ⟨A0, A1, A2, A3, A4, A5, A6, A7, A8, A9, S0, S1, B0, B1, B2, B3, B4, B5⟩
  isplitl [A0 A1 A2 A3 A4 A5 A6 A7 A8 A9 B0 B1 B2 B3 B4 B5]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [B0]; · iexact B0
    isplitl [B1]; · iexact B1
    isplitl [B2]; · iexact B2
    isplitl [B3]; · iexact B3
    isplitl [B4]; · iexact B4
    iexact B5
  isplitl [S0]; · iexact S0
  iexact S1

/-- And put back. -/
theorem scopedWith_join (c : Dev nD) (P0 P1 : sProp 𝕄) : iprop(scopedOthers c ∗ P0 ∗ P1) ⊢ scopedWith c P0 P1 := by
  unfold scopedWith scopedOthers
  iintro ⟨⟨A0, A1, A2, A3, A4, A5, A6, A7, A8, A9, B0, B1, B2, B3, B4, B5⟩, S0, S1⟩
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [S0]; · iexact S0
  isplitl [S1]; · iexact S1
  isplitl [B0]; · iexact B0
  isplitl [B1]; · iexact B1
  isplitl [B2]; · iexact B2
  isplitl [B3]; · iexact B3
  isplitl [B4]; · iexact B4
  iexact B5

end Cert.KernelIdeal.KFrame

end
-- ==== Proof.KR2RunA.lean ====
/-
  Region 2's body at the FIRST point (the reset taken, the write-out not): the two scratch rows may hold anything;
  the body first resets them (the maximum row to minus infinity, the sum row to zero), then proceeds as at any
  point. The two small outputs are untouched.
-/
import proofs.«109717_j65541200937586_2_alg».proof.Proof.KR2Base

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave, as pieces (last first), at the first point, with the proof that the body runs. -/
noncomputable def kernelRun2_A (c : Dev nD) (i : grid2.Coords) (arg1 : Memref sig .tc .vmem S8000x6 .f32) (harg1 : arg1.IsWhole) (arg2 : Memref sig .tc .vmem S6x6 .f32) (harg2 : arg2.IsWhole) (arg3 : Memref sig .tc .vmem S6 .f32) (harg3 : arg3.IsWhole) (arg4 : Memref sig .tc .vmem S6x3 .f32) (harg4 : arg4.IsWhole) (arg5 : Memref sig .tc .vmem S3 .f32) (harg5 : arg5.IsWhole) (arg6 : Memref sig .tc .vmem S8000x3 .f32) (harg6 : arg6.IsWhole) (arg7 : Memref sig .tc .vmem S1x3 .f32) (harg7 : arg7.IsWhole) (arg8 : Memref sig .tc .vmem S1x3 .f32) (harg8 : arg8.IsWhole) (arg9 : Memref sig .tc .vmem S1x3 .f32) (harg9 : arg9.IsWhole) (arg10 : Memref sig .tc .vmem S1x3 .f32) (harg10 : arg10.IsWhole) (hc0 : cond2_0 i) (hc1 : ¬cond2_1 i)
    (x0 : Vec F S8000x6 .f32) (x1 : Vec F S6x6 .f32) (x2 : Vec F S6 .f32) (x3 : Vec F S6x3 .f32) (x4 : Vec F S3 .f32) :
    Σ' (L5 : List (View.Piece (Elt F) S8000x3 .f32)) (L6 : List (View.Piece (Elt F) S1x3 .f32)) (L7 : List (View.Piece (Elt F) S1x3 .f32)) (LS0 : List (View.Piece (Elt F) S1x3 .f32)), { LS1 : List (View.Piece (Elt F) S1x3 .f32) //
      ∀ (xi6 : Vec F S1x3 .f32) (xi7 : Vec F S1x3 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__mlp_logsumexp_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc2__mlp_logsumexp_kernel_eq_skeleton]; unfold cc2__mlp_logsumexp_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.KFrame

end
-- ==== Proof.KR2RunB.lean ====
/-
  Region 2's body at a MIDDLE point (neither conditional taken): on whole staging memrefs, with the five inputs at
  their blocks, the two small outputs untouched, and the two scratch rows at what the point before left, the body
  runs to its return leaving the logits block written, and each scratch row rewritten.
-/
import proofs.«109717_j65541200937586_2_alg».proof.Proof.KR2Base

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave, as pieces (last first), at a middle point, with the proof that the body runs. -/
noncomputable def kernelRun2_B (c : Dev nD) (i : grid2.Coords) (arg1 : Memref sig .tc .vmem S8000x6 .f32) (harg1 : arg1.IsWhole) (arg2 : Memref sig .tc .vmem S6x6 .f32) (harg2 : arg2.IsWhole) (arg3 : Memref sig .tc .vmem S6 .f32) (harg3 : arg3.IsWhole) (arg4 : Memref sig .tc .vmem S6x3 .f32) (harg4 : arg4.IsWhole) (arg5 : Memref sig .tc .vmem S3 .f32) (harg5 : arg5.IsWhole) (arg6 : Memref sig .tc .vmem S8000x3 .f32) (harg6 : arg6.IsWhole) (arg7 : Memref sig .tc .vmem S1x3 .f32) (harg7 : arg7.IsWhole) (arg8 : Memref sig .tc .vmem S1x3 .f32) (harg8 : arg8.IsWhole) (arg9 : Memref sig .tc .vmem S1x3 .f32) (harg9 : arg9.IsWhole) (arg10 : Memref sig .tc .vmem S1x3 .f32) (harg10 : arg10.IsWhole) (hc0 : ¬cond2_0 i) (hc1 : ¬cond2_1 i)
    (x0 : Vec F S8000x6 .f32) (x1 : Vec F S6x6 .f32) (x2 : Vec F S6 .f32) (x3 : Vec F S6x3 .f32) (x4 : Vec F S3 .f32) (xs0 : Vec F S1x3 .f32) (xs1 : Vec F S1x3 .f32) :
    Σ' (L5 : List (View.Piece (Elt F) S8000x3 .f32)) (L6 : List (View.Piece (Elt F) S1x3 .f32)) (L7 : List (View.Piece (Elt F) S1x3 .f32)) (LS0 : List (View.Piece (Elt F) S1x3 .f32)), { LS1 : List (View.Piece (Elt F) S1x3 .f32) //
      ∀ (xi6 : Vec F S1x3 .f32) (xi7 : Vec F S1x3 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xi7 ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xi7 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__mlp_logsumexp_kernel i arg1 harg1 arg2 harg2 arg3 harg3 arg4 harg4 arg5 harg5 arg6 harg6 arg7 harg7 arg8 harg8 arg9 harg9 arg10 harg10) K } := by
  refine ⟨?_, [], [], ?_, ?_, fun xi6 xi7 E K => ?run⟩
  case run =>
    simp only [cc2__mlp_logsumexp_kernel_eq_skeleton]; unfold cc2__mlp_logsumexp_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hf6; obtain rfl := harg8.eq_unread hf7
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.KFrame

end
-- ==== Proof.KR2RunC.lean ====
/-
  Region 2's body at the LAST point (the reset not taken, the write-out taken): the scratch rows hold what the
  point before left; after the usual update the body copies the running maximum into one small output and the
  logarithm of the running sum into the other.
-/
import proofs.«109717_j65541200937586_2_alg».proof.Proof.KR2Base

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave, as pieces (last first), at the last point, with the proof that the body runs. -/
noncomputable def kernelRun2_C (c : Dev nD) (i : grid2.Coords) (arg1 : Memref sig .tc .vmem S8000x6 .f32) (harg1 : arg1.IsWhole) (arg2 : Memref sig .tc .vmem S6x6 .f32) (harg2 : arg2.IsWhole) (arg3 : Memref sig .tc .vmem S6 .f32) (harg3 : arg3.IsWhole) (arg4 : Memref sig .tc .vmem S6x3 .f32) (harg4 : arg4.IsWhole) (arg5 : Memref sig .tc .vmem S3 .f32) (harg5 : arg5.IsWhole) (arg6 : Memref sig .tc .vmem S8000x3 .f32) (harg6 : arg6.IsWhole) (arg7 : Memref sig .tc .vmem S1x3 .f32) (harg7 : arg7.IsWhole) (arg8 : Memref sig .tc .vmem S1x3 .f32) (harg8 : arg8.IsWhole) (arg9 : Memref sig .tc .vmem S1x3 .f32) (harg9 : arg9.IsWhole) (arg10 : Memref sig .tc .vmem S1x3 .f32) (harg10 : arg10.IsWhole) (hc0 : ¬cond2_0 i) (hc1 : cond2_1 i)
    (x0 : Vec F S8000x6 .f32) (x1 : Vec F S6x6 .f32) (x2 : Vec F S6 .f32) (x3 : Vec F S6x3 .f32) (x4 : Vec F S3 .f32) (xs0 : Vec F S1x3 .f32) (xs1 : Vec F S1x3 .f32) :
    Σ' (L5 : List (View.Piece (Elt F) S8000x3 .f32)) (L6 : List (View.Piece (Elt F) S1x3 .f32)) (L7 : List (View.Piece (Elt F) S1x3 .f32)) (LS0 : List (View.Piece (Elt F) S1x3 .f32)), { LS1 : List (View.Piece (Elt F) S1x3 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__mlp_logsumexp_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__mlp_logsumexp_kernel_eq_skeleton]; unfold cc2__mlp_logsumexp_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.KFrame

end
-- ==== Proof.KR2Data.lean ====
/-
  Region 2 as a whole: what each of its three cases leaves in the logits block, in the two small outputs and in
  the two running rows; the same point by point, each point's running rows computed from the previous point's
  (`outsAt2`); the invariant that carries those rows from a point to the next; the pipeline's proof data; and the
  body obligation, by cases on where the point is (first, middle, last).
-/
import proofs.«109717_j65541200937586_2_alg».proof.Proof.KR2RunA
import proofs.«109717_j65541200937586_2_alg».proof.Proof.KR2RunB
import proofs.«109717_j65541200937586_2_alg».proof.Proof.KR2RunC

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The three cases at a point -/

theorem ne124_of_zero {n : ℕ} (h : n = 0) : ¬ n = 124 := by omega

/-- The body's run at the first point. -/
abbrev runAt2_A (c : Dev nD) (t : Fin cfg2.N) (h0 : t.val = 0) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => ne124_of_zero h0 ((hcond2_1 t).mp h)) (iblk2 V c 0 t) (iblk2 V c 1 t) (iblk2 V c 2 t) (iblk2 V c 3 t) (iblk2 V c 4 t)
/-- at a middle point, over the running rows `xs0`, `xs1` the point before left, -/
abbrev runAt2_B (c : Dev nD) (t : Fin cfg2.N) (h0 : ¬ t.val = 0) (h1 : ¬ t.val = 124) (xs0 xs1 : Vec F S1x3 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) xs0 xs1
/-- and at the last point. -/
abbrev runAt2_C (c : Dev nD) (t : Fin cfg2.N) (h0 : ¬ t.val = 0) (h1 : t.val = 124) (xs0 xs1 : Vec F S1x3 .f32) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) xs0 xs1

/-- A placeholder for a small output at a point that does not store into it: nothing consults it. -/
def idle2_6 : Vec F S1x3 .f32 := VO2_6.read (Elt F) VO2_6.junk
def idle2_7 : Vec F S1x3 .f32 := VO2_7.read (Elt F) VO2_7.junk

/-! ### The first point -/

theorem cover2_A_5 (c : Dev nD) (t : Fin cfg2.N) (h0 : t.val = 0) (y : S8000x3.Idx) : ∃ pc ∈ (runAt2_A V c t h0).1, y ∈ pc.1.set :=
  View.cover_of_tiledL (runAt2_A V c t h0).1 S8000x3.size (by sl_kernel_rfl) y
theorem scover2_A_0 (c : Dev nD) (t : Fin cfg2.N) (h0 : t.val = 0) (y : S1x3.Idx) : ∃ pc ∈ (runAt2_A V c t h0).2.2.2.1, y ∈ pc.1.set :=
  View.cover_of_tiledL (runAt2_A V c t h0).2.2.2.1 S1x3.size (by sl_kernel_rfl) y
theorem scover2_A_1 (c : Dev nD) (t : Fin cfg2.N) (h0 : t.val = 0) (y : S1x3.Idx) : ∃ pc ∈ (runAt2_A V c t h0).2.2.2.2.1, y ∈ pc.1.set :=
  View.cover_of_tiledL (runAt2_A V c t h0).2.2.2.2.1 S1x3.size (by sl_kernel_rfl) y
/-- What the first point leaves: the logits block, and the two running rows. -/
def out2_A_5 (c : Dev nD) (t : Fin cfg2.N) (h0 : t.val = 0) : Vec F S8000x3 .f32 := VO2_5.read (Elt F) (VO2_5.writes (Elt F) VO2_5.junk (runAt2_A V c t h0).1)
def sout2_A_0 (c : Dev nD) (t : Fin cfg2.N) (h0 : t.val = 0) : Vec F S1x3 .f32 := VS2_0.read (Elt F) (VS2_0.writes (Elt F) VS2_0.junk (runAt2_A V c t h0).2.2.2.1)
def sout2_A_1 (c : Dev nD) (t : Fin cfg2.N) (h0 : t.val = 0) : Vec F S1x3 .f32 := VS2_1.read (Elt F) (VS2_1.writes (Elt F) VS2_1.junk (runAt2_A V c t h0).2.2.2.2.1)

/-! ### A middle point -/

theorem cover2_B_5 (c : Dev nD) (t : Fin cfg2.N) (h0 : ¬ t.val = 0) (h1 : ¬ t.val = 124) (xs0 xs1 : Vec F S1x3 .f32) (y : S8000x3.Idx) : ∃ pc ∈ (runAt2_B V c t h0 h1 xs0 xs1).1, y ∈ pc.1.set :=
  View.cover_of_tiledL (runAt2_B V c t h0 h1 xs0 xs1).1 S8000x3.size (by sl_kernel_rfl) y
theorem scover2_B_0 (c : Dev nD) (t : Fin cfg2.N) (h0 : ¬ t.val = 0) (h1 : ¬ t.val = 124) (xs0 xs1 : Vec F S1x3 .f32) (y : S1x3.Idx) : ∃ pc ∈ (runAt2_B V c t h0 h1 xs0 xs1).2.2.2.1, y ∈ pc.1.set :=
  View.cover_of_tiledL (runAt2_B V c t h0 h1 xs0 xs1).2.2.2.1 S1x3.size (by sl_kernel_rfl) y
theorem scover2_B_1 (c : Dev nD) (t : Fin cfg2.N) (h0 : ¬ t.val = 0) (h1 : ¬ t.val = 124) (xs0 xs1 : Vec F S1x3 .f32) (y : S1x3.Idx) : ∃ pc ∈ (runAt2_B V c t h0 h1 xs0 xs1).2.2.2.2.1, y ∈ pc.1.set :=
  View.cover_of_tiledL (runAt2_B V c t h0 h1 xs0 xs1).2.2.2.2.1 S1x3.size (by sl_kernel_rfl) y
def out2_B_5 (c : Dev nD) (t : Fin cfg2.N) (h0 : ¬ t.val = 0) (h1 : ¬ t.val = 124) (xs0 xs1 : Vec F S1x3 .f32) : Vec F S8000x3 .f32 := VO2_5.read (Elt F) (VO2_5.writes (Elt F) VO2_5.junk (runAt2_B V c t h0 h1 xs0 xs1).1)
def sout2_B_0 (c : Dev nD) (t : Fin cfg2.N) (h0 : ¬ t.val = 0) (h1 : ¬ t.val = 124) (xs0 xs1 : Vec F S1x3 .f32) : Vec F S1x3 .f32 := VS2_0.read (Elt F) (VS2_0.writes (Elt F) VS2_0.junk (runAt2_B V c t h0 h1 xs0 xs1).2.2.2.1)
def sout2_B_1 (c : Dev nD) (t : Fin cfg2.N) (h0 : ¬ t.val = 0) (h1 : ¬ t.val = 124) (xs0 xs1 : Vec F S1x3 .f32) : Vec F S1x3 .f32 := VS2_1.read (Elt F) (VS2_1.writes (Elt F) VS2_1.junk (runAt2_B V c t h0 h1 xs0 xs1).2.2.2.2.1)

/-! ### The last point -/

theorem cover2_C_5 (c : Dev nD) (t : Fin cfg2.N) (h0 : ¬ t.val = 0) (h1 : t.val = 124) (xs0 xs1 : Vec F S1x3 .f32) (y : S8000x3.Idx) : ∃ pc ∈ (runAt2_C V c t h0 h1 xs0 xs1).1, y ∈ pc.1.set :=
  View.cover_of_tiledL (runAt2_C V c t h0 h1 xs0 xs1).1 S8000x3.size (by sl_kernel_rfl) y
theorem cover2_C_6 (c : Dev nD) (t : Fin cfg2.N) (h0 : ¬ t.val = 0) (h1 : t.val = 124) (xs0 xs1 : Vec F S1x3 .f32) (y : S1x3.Idx) : ∃ pc ∈ (runAt2_C V c t h0 h1 xs0 xs1).2.1, y ∈ pc.1.set :=
  View.cover_of_tiledL (runAt2_C V c t h0 h1 xs0 xs1).2.1 S1x3.size (by sl_kernel_rfl) y
theorem cover2_C_7 (c : Dev nD) (t : Fin cfg2.N) (h0 : ¬ t.val = 0) (h1 : t.val = 124) (xs0 xs1 : Vec F S1x3 .f32) (y : S1x3.Idx) : ∃ pc ∈ (runAt2_C V c t h0 h1 xs0 xs1).2.2.1, y ∈ pc.1.set :=
  View.cover_of_tiledL (runAt2_C V c t h0 h1 xs0 xs1).2.2.1 S1x3.size (by sl_kernel_rfl) y
theorem scover2_C_0 (c : Dev nD) (t : Fin cfg2.N) (h0 : ¬ t.val = 0) (h1 : t.val = 124) (xs0 xs1 : Vec F S1x3 .f32) (y : S1x3.Idx) : ∃ pc ∈ (runAt2_C V c t h0 h1 xs0 xs1).2.2.2.1, y ∈ pc.1.set :=
  View.cover_of_tiledL (runAt2_C V c t h0 h1 xs0 xs1).2.2.2.1 S1x3.size (by sl_kernel_rfl) y
theorem scover2_C_1 (c : Dev nD) (t : Fin cfg2.N) (h0 : ¬ t.val = 0) (h1 : t.val = 124) (xs0 xs1 : Vec F S1x3 .f32) (y : S1x3.Idx) : ∃ pc ∈ (runAt2_C V c t h0 h1 xs0 xs1).2.2.2.2.1, y ∈ pc.1.set :=
  View.cover_of_tiledL (runAt2_C V c t h0 h1 xs0 xs1).2.2.2.2.1 S1x3.size (by sl_kernel_rfl) y
def out2_C_5 (c : Dev nD) (t : Fin cfg2.N) (h0 : ¬ t.val = 0) (h1 : t.val = 124) (xs0 xs1 : Vec F S1x3 .f32) : Vec F S8000x3 .f32 := VO2_5.read (Elt F) (VO2_5.writes (Elt F) VO2_5.junk (runAt2_C V c t h0 h1 xs0 xs1).1)
def out2_C_6 (c : Dev nD) (t : Fin cfg2.N) (h0 : ¬ t.val = 0) (h1 : t.val = 124) (xs0 xs1 : Vec F S1x3 .f32) : Vec F S1x3 .f32 := VO2_6.read (Elt F) (VO2_6.writes (Elt F) VO2_6.junk (runAt2_C V c t h0 h1 xs0 xs1).2.1)
def out2_C_7 (c : Dev nD) (t : Fin cfg2.N) (h0 : ¬ t.val = 0) (h1 : t.val = 124) (xs0 xs1 : Vec F S1x3 .f32) : Vec F S1x3 .f32 := VO2_7.read (Elt F) (VO2_7.writes (Elt F) VO2_7.junk (runAt2_C V c t h0 h1 xs0 xs1).2.2.1)
def sout2_C_0 (c : Dev nD) (t : Fin cfg2.N) (h0 : ¬ t.val = 0) (h1 : t.val = 124) (xs0 xs1 : Vec F S1x3 .f32) : Vec F S1x3 .f32 := VS2_0.read (Elt F) (VS2_0.writes (Elt F) VS2_0.junk (runAt2_C V c t h0 h1 xs0 xs1).2.2.2.1)
def sout2_C_1 (c : Dev nD) (t : Fin cfg2.N) (h0 : ¬ t.val = 0) (h1 : t.val = 124) (xs0 xs1 : Vec F S1x3 .f32) : Vec F S1x3 .f32 := VS2_1.read (Elt F) (VS2_1.writes (Elt F) VS2_1.junk (runAt2_C V c t h0 h1 xs0 xs1).2.2.2.2.1)

/-! ## Point by point -/

/-- What the three outputs' staging buffers and the two running rows hold after the body at position `n` (in that
    order): the first point from nothing, every later point over the running rows the point before left. -/
def outsAt2 (c : Dev nD) : (n : ℕ) → n < cfg2.N → Vec F S8000x3 .f32 × Vec F S1x3 .f32 × Vec F S1x3 .f32 × Vec F S1x3 .f32 × Vec F S1x3 .f32
  | 0, hn => (out2_A_5 V c ⟨0, hn⟩ rfl, idle2_6, idle2_7, sout2_A_0 V c ⟨0, hn⟩ rfl, sout2_A_1 V c ⟨0, hn⟩ rfl)
  | n + 1, hn =>
    if h1 : n + 1 = 124 then
      (out2_C_5 V c ⟨n + 1, hn⟩ (Nat.succ_ne_zero n) h1 (outsAt2 c n (Nat.lt_of_succ_lt hn)).2.2.2.1 (outsAt2 c n (Nat.lt_of_succ_lt hn)).2.2.2.2,
       out2_C_6 V c ⟨n + 1, hn⟩ (Nat.succ_ne_zero n) h1 (outsAt2 c n (Nat.lt_of_succ_lt hn)).2.2.2.1 (outsAt2 c n (Nat.lt_of_succ_lt hn)).2.2.2.2,
       out2_C_7 V c ⟨n + 1, hn⟩ (Nat.succ_ne_zero n) h1 (outsAt2 c n (Nat.lt_of_succ_lt hn)).2.2.2.1 (outsAt2 c n (Nat.lt_of_succ_lt hn)).2.2.2.2,
       sout2_C_0 V c ⟨n + 1, hn⟩ (Nat.succ_ne_zero n) h1 (outsAt2 c n (Nat.lt_of_succ_lt hn)).2.2.2.1 (outsAt2 c n (Nat.lt_of_succ_lt hn)).2.2.2.2,
       sout2_C_1 V c ⟨n + 1, hn⟩ (Nat.succ_ne_zero n) h1 (outsAt2 c n (Nat.lt_of_succ_lt hn)).2.2.2.1 (outsAt2 c n (Nat.lt_of_succ_lt hn)).2.2.2.2)
    else
      (out2_B_5 V c ⟨n + 1, hn⟩ (Nat.succ_ne_zero n) h1 (outsAt2 c n (Nat.lt_of_succ_lt hn)).2.2.2.1 (outsAt2 c n (Nat.lt_of_succ_lt hn)).2.2.2.2,
       idle2_6, idle2_7,
       sout2_B_0 V c ⟨n + 1, hn⟩ (Nat.succ_ne_zero n) h1 (outsAt2 c n (Nat.lt_of_succ_lt hn)).2.2.2.1 (outsAt2 c n (Nat.lt_of_succ_lt hn)).2.2.2.2,
       sout2_B_1 V c ⟨n + 1, hn⟩ (Nat.succ_ne_zero n) h1 (outsAt2 c n (Nat.lt_of_succ_lt hn)).2.2.2.1 (outsAt2 c n (Nat.lt_of_succ_lt hn)).2.2.2.2)

/-- The running rows the point before `t` left. -/
abbrev prev2_0 (c : Dev nD) (t : Fin cfg2.N) : Vec F S1x3 .f32 := (outsAt2 V c (t.val - 1) (Nat.lt_of_le_of_lt (Nat.sub_le _ _) t.isLt)).2.2.2.1
abbrev prev2_1 (c : Dev nD) (t : Fin cfg2.N) : Vec F S1x3 .f32 := (outsAt2 V c (t.val - 1) (Nat.lt_of_le_of_lt (Nat.sub_le _ _) t.isLt)).2.2.2.2

theorem outsAt2_A (c : Dev nD) (t : Fin cfg2.N) (h0 : t.val = 0) :
    outsAt2 V c t.val t.isLt = (out2_A_5 V c t h0, idle2_6, idle2_7, sout2_A_0 V c t h0, sout2_A_1 V c t h0) := by
  obtain ⟨n, hn⟩ := t
  cases n with
  | zero => rfl
  | succ n => exact absurd h0 (Nat.succ_ne_zero n)

theorem outsAt2_B (c : Dev nD) (t : Fin cfg2.N) (h0 : ¬ t.val = 0) (h1 : ¬ t.val = 124) :
    outsAt2 V c t.val t.isLt = (out2_B_5 V c t h0 h1 (prev2_0 V c t) (prev2_1 V c t), idle2_6, idle2_7,
      sout2_B_0 V c t h0 h1 (prev2_0 V c t) (prev2_1 V c t), sout2_B_1 V c t h0 h1 (prev2_0 V c t) (prev2_1 V c t)) := by
  obtain ⟨n, hn⟩ := t
  cases n with
  | zero => exact absurd rfl h0
  | succ n => exact (dif_neg h1).trans rfl

theorem outsAt2_C (c : Dev nD) (t : Fin cfg2.N) (h0 : ¬ t.val = 0) (h1 : t.val = 124) :
    outsAt2 V c t.val t.isLt = (out2_C_5 V c t h0 h1 (prev2_0 V c t) (prev2_1 V c t), out2_C_6 V c t h0 h1 (prev2_0 V c t) (prev2_1 V c t),
      out2_C_7 V c t h0 h1 (prev2_0 V c t) (prev2_1 V c t),
      sout2_C_0 V c t h0 h1 (prev2_0 V c t) (prev2_1 V c t), sout2_C_1 V c t h0 h1 (prev2_0 V c t) (prev2_1 V c t)) := by
  obtain ⟨n, hn⟩ := t
  cases n with
  | zero => exact absurd rfl h0
  | succ n => exact (dif_pos h1).trans rfl

/-! ## The invariant -/

/-- Before position `n`: before the first point the class's invariant (the scratch rows at anything); afterwards the
    scoped rest with each running row at what the point before left in it, and the generator register at some state. -/
def PhiS2 (c : Dev nD) : (n : ℕ) → n ≤ cfg2.N → sProp 𝕄
  | 0, _ => Pipeline.ΦA spec2 c
  | n + 1, hn => iprop(scopedWith c (owns (c : Thread nD τ) scM2_0 fullShare ((outsAt2 V c n hn).2.2.2.1)) (owns (c : Thread nD τ) scM2_1 fullShare ((outsAt2 V c n hn).2.2.2.2)) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(scopedWith c (owns (c : Thread nD τ) scM2_0 fullShare ((outsAt2 V c n hn).2.2.2.1)) (owns (c : Thread nD τ) scM2_1 fullShare ((outsAt2 V c n hn).2.2.2.2)) ∗ (∃ r, prngReg c r)) := rfl
theorem PhiS2_pos (c : Dev nD) (n : ℕ) (h : n ≤ cfg2.N) (hz : n ≠ 0) :
    PhiS2 V c n h = iprop(scopedWith c (owns (c : Thread nD τ) scM2_0 fullShare ((outsAt2 V c (n - 1) (by omega)).2.2.2.1)) (owns (c : Thread nD τ) scM2_1 fullShare ((outsAt2 V c (n - 1) (by omega)).2.2.2.2)) ∗ (∃ r, prngReg c r)) := by
  cases n with
  | zero => exact absurd rfl hz
  | succ n => rfl

/-! ## The pipeline's proof data -/

/-- The arrays as the region finds them; after the body at point `t` each input's buffer at its block and the
    outputs' at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]
theorem before2_0 (c : Dev nD) (t : Fin cfg2.N) (d) : (dat2 V c).before 0 t d = iblk2 V c 0 t := before2_0_of V (dat2 V c) (A_eq2 V c 0) (after2_0 V c) t d
theorem before2_1 (c : Dev nD) (t : Fin cfg2.N) (d) : (dat2 V c).before 1 t d = iblk2 V c 1 t := before2_1_of V (dat2 V c) (A_eq2 V c 1) (after2_1 V c) t d
theorem before2_2 (c : Dev nD) (t : Fin cfg2.N) (d) : (dat2 V c).before 2 t d = iblk2 V c 2 t := before2_2_of V (dat2 V c) (A_eq2 V c 2) (after2_2 V c) t d
theorem before2_3 (c : Dev nD) (t : Fin cfg2.N) (d) : (dat2 V c).before 3 t d = iblk2 V c 3 t := before2_3_of V (dat2 V c) (A_eq2 V c 3) (after2_3 V c) t d
theorem before2_4 (c : Dev nD) (t : Fin cfg2.N) (d) : (dat2 V c).before 4 t d = iblk2 V c 4 t := before2_4_of V (dat2 V c) (A_eq2 V c 4) (after2_4 V c) t d

end Cert.KernelIdeal.KFrame

end
-- ==== Proof.KR2Body.lean ====
/-
  Region 2's body obligation. At any point the five inputs' staging buffers hold their blocks; the invariant hands
  the body the two running rows (at anything before the first point, at what the point before left afterwards) and
  takes them back at this point's contents. By cases: the first point, a middle point, the last point.
-/
import proofs.«109717_j65541200937586_2_alg».proof.Proof.KR2Data

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 8000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  have hN : t.val < 125 := lt_of_lt_of_eq t.isLt (show cfg2.N = 125 from N_2)
  by_cases h0 : t.val = 0
  · -- the first point
    have h1 : ¬ t.val = 124 := by omega
    rw [Dat.leavesExact_idle (dat2 V c) 6 t (idleAt2_6 t (fun h => h1 ((hcond2_1 t).mp h))) (noFlush2_6 t (fun h => h1 ((hcond2_1 t).mp h)))]
    rw [Dat.leavesExact_idle (dat2 V c) 7 t (idleAt2_7 t (fun h => h1 ((hcond2_1 t).mp h))) (noFlush2_7 t (fun h => h1 ((hcond2_1 t).mp h)))]
    rw [outsAt2_A V c t h0]
    unfold out2_A_5 sout2_A_0 sout2_A_1; (try dsimp only)
    rw [PhiS2_castSucc V c t, PhiS2_zero V c _ _ h0, PhiA2_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HS' := scopedWith_split c _ _ $$ HS
    icases HS' with ⟨HO, HS0, HS1⟩
    iapply ((runAt2_A V c t h0).2.2.2.2.2 _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, ⟨%e5, H5⟩, H6, H7, ⟨%es0, HS0⟩, ⟨%es1, HS1⟩⟩
    isplitl [HO HS0 HS1 Hg]
    · isplitl [HO HS0 HS1]
      · iapply scopedWith_join
        isplitl [HO]; · iexact HO
        isplitl [HS0]
        · unfold owns; iexists _; isplitr
          swap; · iexact HS0
          ipureintro; exact View.read_writes_of_cover _ _ _ _ _ (scover2_A_0 V c t h0)
        unfold owns; iexists _; isplitr
        swap; · iexact HS1
        ipureintro; exact View.read_writes_of_cover _ _ _ _ _ (scover2_A_1 V c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 V c t h0)
    isplitl [H6]; · iexists _; iexact H6
    iexists _; iexact H7
  · by_cases h1 : t.val = 124
    · -- the last point
      rw [show (dat2 V c).leavesExact 6 t = owns (c : Thread nD τ) (ms2_6 t) fullShare ((dat2 V c).after 6 t) from by
        unfold Dat.leavesExact; rw [liveAt2_6 t ((hcond2_1 t).mpr h1)], after2_6]
      rw [show (dat2 V c).leavesExact 7 t = owns (c : Thread nD τ) (ms2_7 t) fullShare ((dat2 V c).after 7 t) from by
        unfold Dat.leavesExact; rw [liveAt2_7 t ((hcond2_1 t).mpr h1)], after2_7]
      rw [outsAt2_C V c t h0 h1]
      unfold out2_C_5 out2_C_6 out2_C_7 sout2_C_0 sout2_C_1; (try dsimp only)
      rw [PhiS2_castSucc V c t, PhiS2_pos V c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HS' := scopedWith_split c _ _ $$ HS
      icases HS' with ⟨HO, HS0, HS1⟩
      iapply ((runAt2_C V c t h0 h1 _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HO HS0 HS1 Hg]
      · isplitl [HO HS0 HS1]
        · iapply scopedWith_join
          isplitl [HO]; · iexact HO
          isplitl [HS0]
          · unfold owns; iexists _; isplitr
            swap; · iexact HS0
            ipureintro; exact View.read_writes_of_cover _ _ _ _ _ (scover2_C_0 V c t h0 h1 _ _)
          unfold owns; iexists _; isplitr
          swap; · iexact HS1
          ipureintro; exact View.read_writes_of_cover _ _ _ _ _ (scover2_C_1 V c t h0 h1 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_C_5 V c t h0 h1 _ _)
      isplitl [H6]
      · unfold owns; iexists _; isplitr
        swap; · iexact H6
        ipureintro; exact View.read_writes_of_cover _ _ _ _ _ (cover2_C_6 V c t h0 h1 _ _)
      unfold owns; iexists _; isplitr
      swap; · iexact H7
      ipureintro; exact View.read_writes_of_cover _ _ _ _ _ (cover2_C_7 V c t h0 h1 _ _)
    · -- a middle point
      rw [Dat.leavesExact_idle (dat2 V c) 6 t (idleAt2_6 t (fun h => h1 ((hcond2_1 t).mp h))) (noFlush2_6 t (fun h => h1 ((hcond2_1 t).mp h)))]
      rw [Dat.leavesExact_idle (dat2 V c) 7 t (idleAt2_7 t (fun h => h1 ((hcond2_1 t).mp h))) (noFlush2_7 t (fun h => h1 ((hcond2_1 t).mp h)))]
      rw [outsAt2_B V c t h0 h1]
      unfold out2_B_5 sout2_B_0 sout2_B_1; (try dsimp only)
      rw [PhiS2_castSucc V c t, PhiS2_pos V c _ _ h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HS' := scopedWith_split c _ _ $$ HS
      icases HS' with ⟨HO, HS0, HS1⟩
      iapply ((runAt2_B V c t h0 h1 _ _).2.2.2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HO HS0 HS1 Hg]
      · isplitl [HO HS0 HS1]
        · iapply scopedWith_join
          isplitl [HO]; · iexact HO
          isplitl [HS0]
          · unfold owns; iexists _; isplitr
            swap; · iexact HS0
            ipureintro; exact View.read_writes_of_cover _ _ _ _ _ (scover2_B_0 V c t h0 h1 _ _)
          unfold owns; iexists _; isplitr
          swap; · iexact HS1
          ipureintro; exact View.read_writes_of_cover _ _ _ _ _ (scover2_B_1 V c t h0 h1 _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_B_5 V c t h0 h1 _ _)
      isplitl [H6]; · iexists _; iexact H6
      iexists _; iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the running rows' named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 125 := N_2; omega), PhiA2_eq]
  iintro ⟨HS, Hg⟩
  ihave HS' := scopedWith_split c _ _ $$ HS
  icases HS' with ⟨HO, HS0, HS1⟩
  isplitl [HO HS0 HS1]
  · iapply scopedWith_join
    isplitl [HO]; · iexact HO
    isplitl [HS0]; · iexists _; iexact HS0
    iexists _; iexact HS1
  iexact Hg

end Cert.KernelIdeal.KFrame

end
-- ==== Proof.KRun.lean ====
/-
  The kernel program's run. @main is eleven items: five stretches of host operations (the degree, its inverse
  square root, the edge normalisation), region 0 (the node transform), a stretch (messages and their scatter-add),
  region 1 (bias and activation), a stretch (the two batch gathers and their concatenation), region 2 (the MLP with
  the running column maximum and sum) and region 3 (the final subtraction). The buffer contents at each boundary are
  a fold from the launch memory: a stretch applies its operations; a region leaves its arrays at what its
  write-backs leave and every other buffer as entered. Every weakly fair execution terminates with every unscoped
  buffer at the last boundary's contents.
-/
import proofs.«109717_j65541200937586_2_alg».proof.Proof.KRegion0
import proofs.«109717_j65541200937586_2_alg».proof.Proof.KRegion1
import proofs.«109717_j65541200937586_2_alg».proof.Proof.KRegion3
import proofs.«109717_j65541200937586_2_alg».proof.Proof.KR2Body
import proofs.«109717_j65541200937586_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
/-- At region 0's exit: its arrays at what the pipeline leaves, every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- At region 1's exit: its arrays at what the pipeline leaves, every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b
/-- At region 2's exit: its arrays at what the pipeline leaves, every other buffer as entered. -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- At region 3's exit: its arrays at what the pipeline leaves, every other buffer as entered. -/
def W11 (c : Dev nD) : Valuation τ sig (Elt F) :=
  Pipeline.withArrays spec3 c (W10 m ρ c) fun w => (dat3 (V10 m ρ) c).arrAt w cfg3.N
theorem W11_arr (c : Dev nD) (w : Fin cfg3.W) :
    W11 m ρ c (Proc.devRef .tc (Pipeline.arrRef spec3 w)) = (dat3 (V10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
abbrev V11 : (c : Dev nD) → (b : Ref sig .tc) → Buf (Elt F) ((c : Thread nD τ).loc b) := fun c b => W11 m ρ c b
theorem hF3 (c : Dev nD) (w : Fin cfg3.W) : (dat3 (V10 m ρ) c).arrAt w cfg3.N = V11 m ρ c (Pipeline.arrRef spec3 w) :=
  (W11_arr m ρ c w).symm
theorem hrest3 (c : Dev nD) : ∀ b, b ∉ Finset.univ.image (Pipeline.arrRef spec3) → V11 m ρ c b = V10 m ρ c b :=
  fun b hb => W11_of_ne m ρ c b fun w e => hb (Finset.mem_image.mpr ⟨w, Finset.mem_univ _, e⟩)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V9 m ρ) c
  | ⟨3, _⟩ => fun c => dat3 (V10 m ρ) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at `W5`, left at `W6`. Its arrays are
    split out of the unscoped buffers and put back at what the pipeline leaves; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W7`, left at `W8`. Its arrays are
    split out of the unscoped buffers and put back at what the pipeline leaves; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W9`, left at `W10`. Its arrays are
    split out of the unscoped buffers and put back at what the pipeline leaves; the generator register goes into the
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m ρ 2 c).Φ 0 from hin2 (V9 m ρ) c)
    unfold Pipeline.ΦA
    iintro ⟨Hp, -, Hr⟩
    isplitl [Hr]; · iexact Hr
    iexact Hp
  hout c := by
    rw [Pipeline.ownSems0_none]
    refine BIBase.Entails.trans (show (pdats m ρ 2 c).Φ (Fin.last _) ⊢ Pipeline.ΦA spec2 c from hout2 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W10`, left at `W11`. Its arrays are
    split out of the unscoped buffers and put back at what the pipeline leaves; the generator register goes into the
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V10 m ρ c) (V11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .region (reg3 m ρ) ]

set_option backward.isDefEq.respectTransparency.types false in
/-- From any memory with zero counters every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

end Cert.KernelIdeal.KFrame

end
-- ==== Proof.KClaims.lean ====
/-
  What the kernel program's run says about the argument arrays and the result: no host operation and no region
  writes an argument (a region reads it through an input window or bypasses it), so each argument's buffer at the
  last boundary walks back to the launch memory; the result buffer ends at what region 3's write-backs leave.
-/
import proofs.«109717_j65541200937586_2_alg».proof.Proof.KRun

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W11_arg0 (c : Dev nD) : W11 m ρ c (Proc.devRef .tc main_arg0) = m ((c : Thread nD τ).loc main_arg0) :=
  calc W11 m ρ c (Proc.devRef .tc main_arg0)
    _ = W10 m ρ c (Proc.devRef .tc main_arg0) := W11_of_ne m ρ c main_arg0 (by decide)
    _ = W9 m ρ c (Proc.devRef .tc main_arg0) := W10_of_ne m ρ c main_arg0 (by decide)
    _ = W8 m ρ c (Proc.devRef .tc main_arg0) := StableHlo.after_of_writes_sub hostOps2 _ hostOps2_writes (by decide)
    _ = W7 m ρ c (Proc.devRef .tc main_arg0) := W8_of_ne m ρ c main_arg0 (by decide)
    _ = W6 m ρ c (Proc.devRef .tc main_arg0) := StableHlo.after_of_writes_sub hostOps1 _ hostOps1_writes (by decide)
    _ = W5 m ρ c (Proc.devRef .tc main_arg0) := W6_of_ne m ρ c main_arg0 (by decide)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W11_arg1 (c : Dev nD) : W11 m ρ c (Proc.devRef .tc main_arg1) = m ((c : Thread nD τ).loc main_arg1) :=
  calc W11 m ρ c (Proc.devRef .tc main_arg1)
    _ = W10 m ρ c (Proc.devRef .tc main_arg1) := W11_of_ne m ρ c main_arg1 (by decide)
    _ = W9 m ρ c (Proc.devRef .tc main_arg1) := W10_of_ne m ρ c main_arg1 (by decide)
    _ = W8 m ρ c (Proc.devRef .tc main_arg1) := StableHlo.after_of_writes_sub hostOps2 _ hostOps2_writes (by decide)
    _ = W7 m ρ c (Proc.devRef .tc main_arg1) := W8_of_ne m ρ c main_arg1 (by decide)
    _ = W6 m ρ c (Proc.devRef .tc main_arg1) := StableHlo.after_of_writes_sub hostOps1 _ hostOps1_writes (by decide)
    _ = W5 m ρ c (Proc.devRef .tc main_arg1) := W6_of_ne m ρ c main_arg1 (by decide)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W11_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_ne m ρ c main_arg2 (by decide)
    _ = W9 m ρ c (Proc.devRef .tc main_arg2) := W10_of_ne m ρ c main_arg2 (by decide)
    _ = W8 m ρ c (Proc.devRef .tc main_arg2) := StableHlo.after_of_writes_sub hostOps2 _ hostOps2_writes (by decide)
    _ = W7 m ρ c (Proc.devRef .tc main_arg2) := W8_of_ne m ρ c main_arg2 (by decide)
    _ = W6 m ρ c (Proc.devRef .tc main_arg2) := StableHlo.after_of_writes_sub hostOps1 _ hostOps1_writes (by decide)
    _ = W5 m ρ c (Proc.devRef .tc main_arg2) := W6_of_ne m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W11_arg3 (c : Dev nD) : W11 m ρ c (Proc.devRef .tc main_arg3) = m ((c : Thread nD τ).loc main_arg3) :=
  calc W11 m ρ c (Proc.devRef .tc main_arg3)
    _ = W10 m ρ c (Proc.devRef .tc main_arg3) := W11_of_ne m ρ c main_arg3 (by decide)
    _ = W9 m ρ c (Proc.devRef .tc main_arg3) := W10_of_ne m ρ c main_arg3 (by decide)
    _ = W8 m ρ c (Proc.devRef .tc main_arg3) := StableHlo.after_of_writes_sub hostOps2 _ hostOps2_writes (by decide)
    _ = W7 m ρ c (Proc.devRef .tc main_arg3) := W8_of_ne m ρ c main_arg3 (by decide)
    _ = W6 m ρ c (Proc.devRef .tc main_arg3) := StableHlo.after_of_writes_sub hostOps1 _ hostOps1_writes (by decide)
    _ = W5 m ρ c (Proc.devRef .tc main_arg3) := W6_of_ne m ρ c main_arg3 (by decide)
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W11_arg4 (c : Dev nD) : W11 m ρ c (Proc.devRef .tc main_arg4) = m ((c : Thread nD τ).loc main_arg4) :=
  calc W11 m ρ c (Proc.devRef .tc main_arg4)
    _ = W10 m ρ c (Proc.devRef .tc main_arg4) := W11_of_ne m ρ c main_arg4 (by decide)
    _ = W9 m ρ c (Proc.devRef .tc main_arg4) := W10_of_ne m ρ c main_arg4 (by decide)
    _ = W8 m ρ c (Proc.devRef .tc main_arg4) := StableHlo.after_of_writes_sub hostOps2 _ hostOps2_writes (by decide)
    _ = W7 m ρ c (Proc.devRef .tc main_arg4) := W8_of_ne m ρ c main_arg4 (by decide)
    _ = W6 m ρ c (Proc.devRef .tc main_arg4) := StableHlo.after_of_writes_sub hostOps1 _ hostOps1_writes (by decide)
    _ = W5 m ρ c (Proc.devRef .tc main_arg4) := (W6_arr m ρ c 0).trans (((dat0 (V5 m ρ) c).arrAt_in 0 rfl _).trans (A_eq0 (V5 m ρ) c 0))
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W11_arg5 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_ne m ρ c main_arg5 (by decide)
    _ = W9 m ρ c (Proc.devRef .tc main_arg5) := W10_of_ne m ρ c main_arg5 (by decide)
    _ = W8 m ρ c (Proc.devRef .tc main_arg5) := StableHlo.after_of_writes_sub hostOps2 _ hostOps2_writes (by decide)
    _ = W7 m ρ c (Proc.devRef .tc main_arg5) := W8_of_ne m ρ c main_arg5 (by decide)
    _ = W6 m ρ c (Proc.devRef .tc main_arg5) := StableHlo.after_of_writes_sub hostOps1 _ hostOps1_writes (by decide)
    _ = W5 m ρ c (Proc.devRef .tc main_arg5) := (W6_arr m ρ c 1).trans (((dat0 (V5 m ρ) c).arrAt_in 1 rfl _).trans (A_eq0 (V5 m ρ) c 1))
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W11_arg6 (c : Dev nD) : W11 m ρ c (Proc.devRef .tc main_arg6) = m ((c : Thread nD τ).loc main_arg6) :=
  calc W11 m ρ c (Proc.devRef .tc main_arg6)
    _ = W10 m ρ c (Proc.devRef .tc main_arg6) := W11_of_ne m ρ c main_arg6 (by decide)
    _ = W9 m ρ c (Proc.devRef .tc main_arg6) := W10_of_ne m ρ c main_arg6 (by decide)
    _ = W8 m ρ c (Proc.devRef .tc main_arg6) := StableHlo.after_of_writes_sub hostOps2 _ hostOps2_writes (by decide)
    _ = W7 m ρ c (Proc.devRef .tc main_arg6) := (W8_arr m ρ c 1).trans (((dat1 (V7 m ρ) c).arrAt_in 1 rfl _).trans (A_eq1 (V7 m ρ) c 1))
    _ = W6 m ρ c (Proc.devRef .tc main_arg6) := StableHlo.after_of_writes_sub hostOps1 _ hostOps1_writes (by decide)
    _ = W5 m ρ c (Proc.devRef .tc main_arg6) := W6_of_ne m ρ c main_arg6 (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W11_arg7 (c : Dev nD) : W11 m ρ c (Proc.devRef .tc main_arg7) = m ((c : Thread nD τ).loc main_arg7) :=
  calc W11 m ρ c (Proc.devRef .tc main_arg7)
    _ = W10 m ρ c (Proc.devRef .tc main_arg7) := W11_of_ne m ρ c main_arg7 (by decide)
    _ = W9 m ρ c (Proc.devRef .tc main_arg7) := (W10_arr m ρ c 1).trans (((dat2 (V9 m ρ) c).arrAt_in 1 rfl _).trans (A_eq2 (V9 m ρ) c 1))
    _ = W8 m ρ c (Proc.devRef .tc main_arg7) := StableHlo.after_of_writes_sub hostOps2 _ hostOps2_writes (by decide)
    _ = W7 m ρ c (Proc.devRef .tc main_arg7) := W8_of_ne m ρ c main_arg7 (by decide)
    _ = W6 m ρ c (Proc.devRef .tc main_arg7) := StableHlo.after_of_writes_sub hostOps1 _ hostOps1_writes (by decide)
    _ = W5 m ρ c (Proc.devRef .tc main_arg7) := W6_of_ne m ρ c main_arg7 (by decide)
    _ = W4 m ρ c (Proc.devRef .tc main_arg7) := StableHlo.after_of_writes_sub hostOps0_4 _ hostOps0_4_writes (by decide)
    _ = W3 m ρ c (Proc.devRef .tc main_arg7) := StableHlo.after_of_writes_sub hostOps0_3 _ hostOps0_3_writes (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W11_arg8 (c : Dev nD) : W11 m ρ c (Proc.devRef .tc main_arg8) = m ((c : Thread nD τ).loc main_arg8) :=
  calc W11 m ρ c (Proc.devRef .tc main_arg8)
    _ = W10 m ρ c (Proc.devRef .tc main_arg8) := W11_of_ne m ρ c main_arg8 (by decide)
    _ = W9 m ρ c (Proc.devRef .tc main_arg8) := (W10_arr m ρ c 2).trans (((dat2 (V9 m ρ) c).arrAt_in 2 rfl _).trans (A_eq2 (V9 m ρ) c 2))
    _ = W8 m ρ c (Proc.devRef .tc main_arg8) := StableHlo.after_of_writes_sub hostOps2 _ hostOps2_writes (by decide)
    _ = W7 m ρ c (Proc.devRef .tc main_arg8) := W8_of_ne m ρ c main_arg8 (by decide)
    _ = W6 m ρ c (Proc.devRef .tc main_arg8) := StableHlo.after_of_writes_sub hostOps1 _ hostOps1_writes (by decide)
    _ = W5 m ρ c (Proc.devRef .tc main_arg8) := W6_of_ne m ρ c main_arg8 (by decide)
    _ = W4 m ρ c (Proc.devRef .tc main_arg8) := StableHlo.after_of_writes_sub hostOps0_4 _ hostOps0_4_writes (by decide)
    _ = W3 m ρ c (Proc.devRef .tc main_arg8) := StableHlo.after_of_writes_sub hostOps0_3 _ hostOps0_3_writes (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

theorem W11_arg9 (c : Dev nD) : W11 m ρ c (Proc.devRef .tc main_arg9) = m ((c : Thread nD τ).loc main_arg9) :=
  calc W11 m ρ c (Proc.devRef .tc main_arg9)
    _ = W10 m ρ c (Proc.devRef .tc main_arg9) := W11_of_ne m ρ c main_arg9 (by decide)
    _ = W9 m ρ c (Proc.devRef .tc main_arg9) := (W10_arr m ρ c 3).trans (((dat2 (V9 m ρ) c).arrAt_in 3 rfl _).trans (A_eq2 (V9 m ρ) c 3))
    _ = W8 m ρ c (Proc.devRef .tc main_arg9) := StableHlo.after_of_writes_sub hostOps2 _ hostOps2_writes (by decide)
    _ = W7 m ρ c (Proc.devRef .tc main_arg9) := W8_of_ne m ρ c main_arg9 (by decide)
    _ = W6 m ρ c (Proc.devRef .tc main_arg9) := StableHlo.after_of_writes_sub hostOps1 _ hostOps1_writes (by decide)
    _ = W5 m ρ c (Proc.devRef .tc main_arg9) := W6_of_ne m ρ c main_arg9 (by decide)
    _ = W4 m ρ c (Proc.devRef .tc main_arg9) := StableHlo.after_of_writes_sub hostOps0_4 _ hostOps0_4_writes (by decide)
    _ = W3 m ρ c (Proc.devRef .tc main_arg9) := StableHlo.after_of_writes_sub hostOps0_3 _ hostOps0_3_writes (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl

theorem W11_arg10 (c : Dev nD) : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := (W10_arr m ρ c 4).trans (((dat2 (V9 m ρ) c).arrAt_in 4 rfl _).trans (A_eq2 (V9 m ρ) c 4))
    _ = W8 m ρ c (Proc.devRef .tc main_arg10) := StableHlo.after_of_writes_sub hostOps2 _ hostOps2_writes (by decide)
    _ = W7 m ρ c (Proc.devRef .tc main_arg10) := W8_of_ne m ρ c main_arg10 (by decide)
    _ = W6 m ρ c (Proc.devRef .tc main_arg10) := StableHlo.after_of_writes_sub hostOps1 _ hostOps1_writes (by decide)
    _ = W5 m ρ c (Proc.devRef .tc main_arg10) := W6_of_ne m ρ c main_arg10 (by decide)
    _ = W4 m ρ c (Proc.devRef .tc main_arg10) := StableHlo.after_of_writes_sub hostOps0_4 _ hostOps0_4_writes (by decide)
    _ = W3 m ρ c (Proc.devRef .tc main_arg10) := StableHlo.after_of_writes_sub hostOps0_3 _ hostOps0_3_writes (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl

/-- The frame: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W11_arg0 m ρ c),
      (h c _ (mem_uc main_arg1 (by decide))).trans (W11_arg1 m ρ c),
      (h c _ (mem_uc main_arg2 (by decide))).trans (W11_arg2 m ρ c),
      (h c _ (mem_uc main_arg3 (by decide))).trans (W11_arg3 m ρ c),
      (h c _ (mem_uc main_arg4 (by decide))).trans (W11_arg4 m ρ c),
      (h c _ (mem_uc main_arg5 (by decide))).trans (W11_arg5 m ρ c),
      (h c _ (mem_uc main_arg6 (by decide))).trans (W11_arg6 m ρ c),
      (h c _ (mem_uc main_arg7 (by decide))).trans (W11_arg7 m ρ c),
      (h c _ (mem_uc main_arg8 (by decide))).trans (W11_arg8 m ρ c),
      (h c _ (mem_uc main_arg9 (by decide))).trans (W11_arg9 m ρ c),
      (h c _ (mem_uc main_arg10 (by decide))).trans (W11_arg10 m ρ c)⟩) (run_all m ρ)

/-- The same run with the result buffer named: it ends at the last boundary's contents. -/
theorem run_value : θ_run defs (onTc (τ := τ) (main (F := F))) ⟨m, fun _ => 0, ρ⟩ (fun r => ∀ c : Dev nD,
      r.2.mem ((c.tc : Thread nD τ).loc main_v61) = W11 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨h c _ (mem_uc main_v61 (by decide)),
      (h c _ (mem_uc main_arg0 (by decide))).trans (W11_arg0 m ρ c),
      (h c _ (mem_uc main_arg1 (by decide))).trans (W11_arg1 m ρ c),
      (h c _ (mem_uc main_arg2 (by decide))).trans (W11_arg2 m ρ c),
      (h c _ (mem_uc main_arg3 (by decide))).trans (W11_arg3 m ρ c),
      (h c _ (mem_uc main_arg4 (by decide))).trans (W11_arg4 m ρ c),
      (h c _ (mem_uc main_arg5 (by decide))).trans (W11_arg5 m ρ c),
      (h c _ (mem_uc main_arg6 (by decide))).trans (W11_arg6 m ρ c),
      (h c _ (mem_uc main_arg7 (by decide))).trans (W11_arg7 m ρ c),
      (h c _ (mem_uc main_arg8 (by decide))).trans (W11_arg8 m ρ c),
      (h c _ (mem_uc main_arg9 (by decide))).trans (W11_arg9 m ρ c),
      (h c _ (mem_uc main_arg10 (by decide))).trans (W11_arg10 m ρ c)⟩) (run_all m ρ)

/-- The result buffer at the last boundary is what region 3's write-backs leave in its output array. -/
theorem W11_v61 (c : Dev nD) : W11 m ρ c (Proc.devRef .tc main_v61) = (dat3 (V10 m ρ) c).arrAt 3 cfg3.N :=
  W11_arr m ρ c 3

end Cert.KernelIdeal.KFrame

end
-- ==== Proof.RefStages.lean ====
/-
  What the reference program computes, in named stages. Each stage function is the composition of the host
  operations of one stretch of @main, written with the operation terms the program prints (nothing is simplified):
  the edge normalisation (`normOf`: degree by scatter-add over the destination row, inverse square root where the
  degree is positive, gathered at both endpoints and multiplied with the edge weight), the feature product (`xOf`),
  the weighted aggregation (`aggOf`: rows gathered at the sources, scaled, scatter-added at the destinations), bias
  and leaky rectifier (`convOf`), the two row gathers concatenated (`hOf`), the two dense layers (`logitsOf`) and the
  log-softmax over axis 0 (`lsmOf`).
-/
import proofs.«109717_j65541200937586_2_alg».proof.ReferenceIdeal
import proofs.«109717_j65541200937586_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- Row 0 of the edge table as a vector (the sources): %0, %1. -/
def srcOf (ei : IVec S2x16000000 32) : IVec S16000000 32 :=
  shapeCast S16000000 (extractStridedSlice S1x16000000 ![0, 0] ei slices_S2x16000000_S1x16000000_0_0)
    shapeCasts_S1x16000000_S16000000

/-- Row 1 of the edge table as a vector (the destinations): %2, %3. -/
def dstOf (ei : IVec S2x16000000 32) : IVec S16000000 32 :=
  shapeCast S16000000 (extractStridedSlice S1x16000000 ![1, 0] ei slices_S2x16000000_S1x16000000_1_0)
    shapeCasts_S1x16000000_S16000000

/-- An index vector over the edges with negative entries moved up by the node count, as a column of start
    indices: `i < 0 ? i + 1000000 : i`, then the unit axis. -/
def wrap16M (i : IVec S16000000 32) : IVec S16000000x1 32 :=
  broadcastInDim S16000000x1 ![0] bcast_S16000000_S16000000x1_0
    (select (cmpi .slt i (broadcastInDim S16000000 ![] bcast_S_S16000000 (constantI S_ 32 0#32)))
      (addi i (broadcastInDim S16000000 ![] bcast_S_S16000000 (constantI S_ 32 1000000#32))) i)

/-- The same over the nodes. -/
def wrap1M (i : IVec S1000000 32) : IVec S1000000x1 32 :=
  broadcastInDim S1000000x1 ![0] bcast_S1000000_S1000000x1_0
    (select (cmpi .slt i (broadcastInDim S1000000 ![] bcast_S_S1000000 (constantI S_ 32 0#32)))
      (addi i (broadcastInDim S1000000 ![] bcast_S_S1000000 (constantI S_ 32 1000000#32))) i)

/-- The weighted in-degree: the edge weights scatter-added at the destinations into zeros (%4 … %6). -/
def degOf (ei : IVec S2x16000000 32) (ew : FVec F S16000000 .f32) : FVec F S1000000 .f32 :=
  Host.scatterAdd scatter_S1000000_S16000000x1_S16000000_n_0_0_1
    (broadcastInDim S1000000 ![] bcast_S_S1000000 (constant S_ .f32 0x00000000#32))
    (broadcastInDim S16000000x1 ![0] bcast_S16000000_S16000000x1_0 (dstOf ei)) ew

/-- `deg > 0 ? rsqrt (deg > 0 ? deg : 1) : 0` (%7 … %13, the two selects with their scalar broadcast). -/
def dinvOf (deg : FVec F S1000000 .f32) : FVec F S1000000 .f32 :=
  select (cmpf .ogt deg (broadcastInDim S1000000 ![] bcast_S_S1000000 (constant S_ .f32 0x00000000#32)))
    (Host.rsqrt
      (select (cmpf .ogt deg (broadcastInDim S1000000 ![] bcast_S_S1000000 (constant S_ .f32 0x00000000#32))) deg
        (broadcastInDim S1000000 ![] bcast_S_S1000000 (id (constant S_ .f32 0x3F800000#32)))))
    (broadcastInDim S1000000 ![] bcast_S_S1000000 (id (constant S_ .f32 0x00000000#32)))

/-- The edge normalisation %29: `dinv[src] * w * dinv[dst]`. -/
def normOf (ei : IVec S2x16000000 32) (ew : FVec F S16000000 .f32) : FVec F S16000000 .f32 :=
  mulf
    (mulf (Host.gather gather_S1000000_S16000000x1_S16000000_n_0_n_n_0_1_1 (dinvOf (degOf ei ew)) (wrap16M (srcOf ei))) ew)
    (Host.gather gather_S1000000_S16000000x1_S16000000_n_0_n_n_0_1_1 (dinvOf (degOf ei ew)) (wrap16M (dstOf ei)))

/-- The feature product %30. -/
def xOf (emb : FVec F S1000000x3 .f32) (w : FVec F S3x3 .f32) : FVec F S1000000x3 .f32 :=
  Host.dotGeneral dot_S1000000x3_S3x3_S1000000x3_1_0_0_1_n_n none emb w

/-- The aggregation %43: the rows of `x` at the sources, scaled by the edge normalisation, scatter-added at the
    destinations into zeros. -/
def aggOf (ei : IVec S2x16000000 32) (nrm : FVec F S16000000 .f32) (x : FVec F S1000000x3 .f32) : FVec F S1000000x3 .f32 :=
  Host.scatterAdd scatter_S1000000x3_S16000000x1_S16000000x3_1_0_0_1
    (broadcastInDim S1000000x3 ![] bcast_S_S1000000x3 (constant S_ .f32 0x00000000#32))
    (broadcastInDim S16000000x1 ![0] bcast_S16000000_S16000000x1_0 (dstOf ei))
    (mulf
      (broadcastInDim S16000000x3 ![0, 1] bcast_S16000000x1_S16000000x3_0_1
        (broadcastInDim S16000000x1 ![0] bcast_S16000000_S16000000x1_0 nrm))
      (Host.gather gather_S1000000x3_S16000000x1_S16000000x3_1_0_n_n_0_1_13 x (wrap16M (srcOf ei))))

/-- The leaky rectifier on three columns: `x ≥ 0 ? x : 0.01 * x`. -/
def leaky3 (x : FVec F S1000000x3 .f32) : FVec F S1000000x3 .f32 :=
  select (cmpf .oge x (broadcastInDim S1000000x3 ![] bcast_S_S1000000x3 (constant S_ .f32 0x00000000#32))) x
    (mulf (broadcastInDim S1000000x3 ![] bcast_S_S1000000x3 (constant S_ .f32 0x3C23D70A#32)) x)

/-- The leaky rectifier on six columns. -/
def leaky6 (x : FVec F S1000000x6 .f32) : FVec F S1000000x6 .f32 :=
  select (cmpf .oge x (broadcastInDim S1000000x6 ![] bcast_S_S1000000x6 (constant S_ .f32 0x00000000#32))) x
    (mulf (broadcastInDim S1000000x6 ![] bcast_S_S1000000x6 (constant S_ .f32 0x3C23D70A#32)) x)

/-- Bias and rectifier %47. -/
def convOf (agg : FVec F S1000000x3 .f32) (b : FVec F S3 .f32) : FVec F S1000000x3 .f32 :=
  leaky3 (addf agg
    (broadcastInDim S1000000x3 ![0, 1] bcast_S1x3_S1000000x3_0_1 (broadcastInDim S1x3 ![1] bcast_S3_S1x3_1 b)))

/-- The rows at the two index vectors, side by side: %62. -/
def hOf (home away : IVec S1000000 32) (xc : FVec F S1000000x3 .f32) : FVec F S1000000x6 .f32 :=
  concatenate S1000000x6 1
    [⟨S1000000x3, Host.gather gather_S1000000x3_S1000000x1_S1000000x3_1_0_n_n_0_1_13 xc (wrap1M home)⟩,
     ⟨S1000000x3, Host.gather gather_S1000000x3_S1000000x1_S1000000x3_1_0_n_n_0_1_13 xc (wrap1M away)⟩]
    concatenates_S1000000x3_S1000000x3_S1000000x6_d1

/-- The two dense layers %72. -/
def logitsOf (h : FVec F S1000000x6 .f32) (w1 : FVec F S6x6 .f32) (b1 : FVec F S6 .f32) (w3 : FVec F S6x3 .f32)
    (b3 : FVec F S3 .f32) : FVec F S1000000x3 .f32 :=
  leaky3 (addf
    (Host.dotGeneral dot_S1000000x6_S6x3_S1000000x3_1_0_0_1_n_n none
      (leaky6 (addf (Host.dotGeneral dot_S1000000x6_S6x6_S1000000x6_1_0_0_1_n_n none h w1)
        (broadcastInDim S1000000x6 ![0, 1] bcast_S1x6_S1000000x6_0_1 (broadcastInDim S1x6 ![1] bcast_S6_S1x6_1 b1))))
      w3)
    (broadcastInDim S1000000x3 ![0, 1] bcast_S1x3_S1000000x3_0_1 (broadcastInDim S1x3 ![1] bcast_S3_S1x3_1 b3)))

/-- The logits minus their column maxima (the log-softmax's %5). -/
def lsmShift (z : FVec F S1000000x3 .f32) : FVec F S1000000x3 .f32 :=
  subf z
    (broadcastInDim S1000000x3 ![0, 1] bcast_S1x3_S1000000x3_0_1
      (broadcastInDim S1x3 ![1] bcast_S3_S1x3_1
        (maximumf (broadcastInDim S3 ![] bcast_S_S3 (constant S_ .f32 0xFF800000#32))
          (Host.reduce FloatOps.maximumf z (constant S_ .f32 0xFF800000#32) reducesTo_S1000000x3_S3_d0 h_S_))))

/-- The log-softmax over axis 0: %73. -/
def lsmOf (z : FVec F S1000000x3 .f32) : FVec F S1000000x3 .f32 :=
  subf (lsmShift z)
    (broadcastInDim S1000000x3 ![0, 1] bcast_S1x3_S1000000x3_0_1
      (Host.log
        (broadcastInDim S1x3 ![1] bcast_S3_S1x3_1
          (Host.reduceAdd (Host.exp (lsmShift z)) (constant S_ .f32 0x00000000#32) reducesTo_S1000000x3_S3_d0 h_S_))))

end Cert.ReferenceIdeal.RefRun

end
-- ==== Proof.KHost.lean ====
/-
  The kernel program's host stretches compute what the reference's stretches compute: the two programs apply the
  same host operations to the same inputs. Each stretch's result buffer, read through the fold of its operations, is
  the reference's stage function of the argument arrays and of the arrays the regions left: the edge normalisation
  after the first five stretches; the aggregation (rows gathered at the sources, scaled, scatter-added at the
  destinations) after the stretch that follows region 0; the two gathered rows side by side after the stretch that
  follows region 1. The scatter-adds and gathers are never opened.
-/
import proofs.«109717_j65541200937586_2_alg».proof.Proof.KClaims
import proofs.«109717_j65541200937586_2_alg».proof.Proof.RefStages

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo
variable (m : (ℓ : Loc nD τ sig) → Buf (Elt F) ℓ) (ρ : Dev nD → PrngReg)

/-! ## The arguments at the boundaries where they are read -/

theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps0_4 _ hostOps0_4_writes (by decide)
    _ = W3 m ρ c (Proc.devRef .tc main_arg0) := StableHlo.after_of_writes_sub hostOps0_3 _ hostOps0_3_writes (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps0_4 _ hostOps0_4_writes (by decide)
    _ = W3 m ρ c (Proc.devRef .tc main_arg1) := StableHlo.after_of_writes_sub hostOps0_3 _ hostOps0_3_writes (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps0_4 _ hostOps0_4_writes (by decide)
    _ = W3 m ρ c (Proc.devRef .tc main_arg4) := StableHlo.after_of_writes_sub hostOps0_3 _ hostOps0_3_writes (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps0_4 _ hostOps0_4_writes (by decide)
    _ = W3 m ρ c (Proc.devRef .tc main_arg5) := StableHlo.after_of_writes_sub hostOps0_3 _ hostOps0_3_writes (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W7_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps1 _ hostOps1_writes (by decide)
    _ = W5 m ρ c (Proc.devRef .tc main_arg6) := W6_of_ne m ρ c main_arg6 (by decide)
    _ = W4 m ρ c (Proc.devRef .tc main_arg6) := StableHlo.after_of_writes_sub hostOps0_4 _ hostOps0_4_writes (by decide)
    _ = W3 m ρ c (Proc.devRef .tc main_arg6) := StableHlo.after_of_writes_sub hostOps0_3 _ hostOps0_3_writes (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps1 _ hostOps1_writes (by decide)
    _ = W5 m ρ c (Proc.devRef .tc main_arg2) := W6_of_ne m ρ c main_arg2 (by decide)
    _ = W4 m ρ c (Proc.devRef .tc main_arg2) := StableHlo.after_of_writes_sub hostOps0_4 _ hostOps0_4_writes (by decide)
    _ = W3 m ρ c (Proc.devRef .tc main_arg2) := StableHlo.after_of_writes_sub hostOps0_3 _ hostOps0_3_writes (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W8_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps1 _ hostOps1_writes (by decide)
    _ = W5 m ρ c (Proc.devRef .tc main_arg3) := W6_of_ne m ρ c main_arg3 (by decide)
    _ = W4 m ρ c (Proc.devRef .tc main_arg3) := StableHlo.after_of_writes_sub hostOps0_4 _ hostOps0_4_writes (by decide)
    _ = W3 m ρ c (Proc.devRef .tc main_arg3) := StableHlo.after_of_writes_sub hostOps0_3 _ hostOps0_3_writes (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W9_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_writes_sub hostOps2 _ hostOps2_writes (by decide)
    _ = W7 m ρ c (Proc.devRef .tc main_arg7) := W8_of_ne m ρ c main_arg7 (by decide)
    _ = W6 m ρ c (Proc.devRef .tc main_arg7) := StableHlo.after_of_writes_sub hostOps1 _ hostOps1_writes (by decide)
    _ = W5 m ρ c (Proc.devRef .tc main_arg7) := W6_of_ne m ρ c main_arg7 (by decide)
    _ = W4 m ρ c (Proc.devRef .tc main_arg7) := StableHlo.after_of_writes_sub hostOps0_4 _ hostOps0_4_writes (by decide)
    _ = W3 m ρ c (Proc.devRef .tc main_arg7) := StableHlo.after_of_writes_sub hostOps0_3 _ hostOps0_3_writes (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W9_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_writes_sub hostOps2 _ hostOps2_writes (by decide)
    _ = W7 m ρ c (Proc.devRef .tc main_arg8) := W8_of_ne m ρ c main_arg8 (by decide)
    _ = W6 m ρ c (Proc.devRef .tc main_arg8) := StableHlo.after_of_writes_sub hostOps1 _ hostOps1_writes (by decide)
    _ = W5 m ρ c (Proc.devRef .tc main_arg8) := W6_of_ne m ρ c main_arg8 (by decide)
    _ = W4 m ρ c (Proc.devRef .tc main_arg8) := StableHlo.after_of_writes_sub hostOps0_4 _ hostOps0_4_writes (by decide)
    _ = W3 m ρ c (Proc.devRef .tc main_arg8) := StableHlo.after_of_writes_sub hostOps0_3 _ hostOps0_3_writes (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

theorem W9_arg9 (c : Dev nD) : W9 m ρ c (Proc.devRef .tc main_arg9) = m ((c : Thread nD τ).loc main_arg9) :=
  calc W9 m ρ c (Proc.devRef .tc main_arg9)
    _ = W8 m ρ c (Proc.devRef .tc main_arg9) := StableHlo.after_of_writes_sub hostOps2 _ hostOps2_writes (by decide)
    _ = W7 m ρ c (Proc.devRef .tc main_arg9) := W8_of_ne m ρ c main_arg9 (by decide)
    _ = W6 m ρ c (Proc.devRef .tc main_arg9) := StableHlo.after_of_writes_sub hostOps1 _ hostOps1_writes (by decide)
    _ = W5 m ρ c (Proc.devRef .tc main_arg9) := W6_of_ne m ρ c main_arg9 (by decide)
    _ = W4 m ρ c (Proc.devRef .tc main_arg9) := StableHlo.after_of_writes_sub hostOps0_4 _ hostOps0_4_writes (by decide)
    _ = W3 m ρ c (Proc.devRef .tc main_arg9) := StableHlo.after_of_writes_sub hostOps0_3 _ hostOps0_3_writes (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl

theorem W9_arg10 (c : Dev nD) : W9 m ρ c (Proc.devRef .tc main_arg10) = m ((c : Thread nD τ).loc main_arg10) :=
  calc W9 m ρ c (Proc.devRef .tc main_arg10)
    _ = W8 m ρ c (Proc.devRef .tc main_arg10) := StableHlo.after_of_writes_sub hostOps2 _ hostOps2_writes (by decide)
    _ = W7 m ρ c (Proc.devRef .tc main_arg10) := W8_of_ne m ρ c main_arg10 (by decide)
    _ = W6 m ρ c (Proc.devRef .tc main_arg10) := StableHlo.after_of_writes_sub hostOps1 _ hostOps1_writes (by decide)
    _ = W5 m ρ c (Proc.devRef .tc main_arg10) := W6_of_ne m ρ c main_arg10 (by decide)
    _ = W4 m ρ c (Proc.devRef .tc main_arg10) := StableHlo.after_of_writes_sub hostOps0_4 _ hostOps0_4_writes (by decide)
    _ = W3 m ρ c (Proc.devRef .tc main_arg10) := StableHlo.after_of_writes_sub hostOps0_3 _ hostOps0_3_writes (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl

/-! ## The stretches -/

attribute [local irreducible] Host.scatterAdd Host.gather in
set_option maxRecDepth 16384 in
set_option maxHeartbeats 4000000 in
/-- After the first five stretches: the edge normalisation of the edge table and the edge weights. -/
theorem W5_v29 (c : Dev nD) :
    W5 m ρ c (Proc.devRef .tc main_v29)
      = Cert.ReferenceIdeal.RefRun.normOf (F := F) (m ((c : Thread nD τ).loc main_arg0)) (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_v29) = _
  after_results_simp
  rfl

set_option maxRecDepth 16384 in
/-- The sources and the destinations of the edges, as the first stretch leaves them. -/
theorem W5_v1 (c : Dev nD) :
    W5 m ρ c (Proc.devRef .tc main_v1) = Cert.ReferenceIdeal.RefRun.srcOf (m ((c : Thread nD τ).loc main_arg0)) := by
  show StableHlo.after hostOps0_4 (StableHlo.after hostOps0_3 (StableHlo.after hostOps0_2 (StableHlo.after hostOps0_1 (StableHlo.after hostOps0 (W0 m ρ c))))) (Proc.devRef .tc main_v1) = _
  after_results_simp
  rfl

set_option maxRecDepth 16384 in
theorem W5_v3 (c : Dev nD) :
    W5 m ρ c (Proc.devRef .tc main_v3) = Cert.ReferenceIdeal.RefRun.dstOf (m ((c : Thread nD τ).loc main_arg0)) := by
  show StableHlo.after hostOps0_4 (StableHlo.after hostOps0_3 (StableHlo.after hostOps0_2 (StableHlo.after hostOps0_1 (StableHlo.after hostOps0 (W0 m ρ c))))) (Proc.devRef .tc main_v3) = _
  after_results_simp
  rfl

attribute [local irreducible] Host.scatterAdd Host.gather in
set_option maxRecDepth 16384 in
set_option maxHeartbeats 4000000 in
/-- After the stretch that follows region 0: the aggregation of the edge table, the normalisation and what region 0 left. -/
theorem W7_v43 (c : Dev nD) :
    W7 m ρ c (Proc.devRef .tc main_v43)
      = Cert.ReferenceIdeal.RefRun.aggOf (F := F) (m ((c : Thread nD τ).loc main_arg0)) (W5 m ρ c (Proc.devRef .tc main_v29)) (W6 m ρ c (Proc.devRef .tc main_v30)) := by
  show StableHlo.after hostOps1 (W6 m ρ c) (Proc.devRef .tc main_v43) = _
  after_results_simp
  rw [W6_of_ne m ρ c main_v29 (by decide), W6_of_ne m ρ c main_v1 (by decide), W6_of_ne m ρ c main_v3 (by decide), W5_v1, W5_v3]
  rfl

end Cert.KernelIdeal.KFrame

end
-- ==== Proof.KHost2.lean ====
/-
  The stretch that follows region 1: the rows of what region 1 left, gathered at the two index vectors (negative
  indices moved up by the row count first) and set side by side, are the reference's `hOf` of the two index
  arguments and of what region 1 left.
-/
import proofs.«109717_j65541200937586_2_alg».proof.Proof.KHost

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo
variable (m : (ℓ : Loc nD τ sig) → Buf (Elt F) ℓ) (ρ : Dev nD → PrngReg)

attribute [local irreducible] Host.scatterAdd Host.gather in
set_option maxRecDepth 16384 in
set_option maxHeartbeats 4000000 in
/-- The rows at the first index vector. -/
theorem W9_v51 (c : Dev nD) :
    W9 m ρ c (Proc.devRef .tc main_v51)
      = Host.gather Cert.ReferenceIdeal.gather_S1000000x3_S1000000x1_S1000000x3_1_0_n_n_0_1_13 (W8 m ρ c (Proc.devRef .tc main_v44))
          (Cert.ReferenceIdeal.RefRun.wrap1M (m ((c : Thread nD τ).loc main_arg2))) := by
  show StableHlo.after hostOps2 (W8 m ρ c) (Proc.devRef .tc main_v51) = _
  after_results_simp
  rw [W8_arg2]
  rfl

attribute [local irreducible] Host.scatterAdd Host.gather in
set_option maxRecDepth 16384 in
set_option maxHeartbeats 4000000 in
/-- The rows at the second index vector. -/
theorem W9_v58 (c : Dev nD) :
    W9 m ρ c (Proc.devRef .tc main_v58)
      = Host.gather Cert.ReferenceIdeal.gather_S1000000x3_S1000000x1_S1000000x3_1_0_n_n_0_1_13 (W8 m ρ c (Proc.devRef .tc main_v44))
          (Cert.ReferenceIdeal.RefRun.wrap1M (m ((c : Thread nD τ).loc main_arg3))) := by
  show StableHlo.after hostOps2 (W8 m ρ c) (Proc.devRef .tc main_v58) = _
  after_results_simp
  rw [W8_arg3]
  rfl

attribute [local irreducible] Host.scatterAdd Host.gather in
set_option maxRecDepth 16384 in
set_option maxHeartbeats 4000000 in
/-- The two side by side. -/
theorem W9_v59_cat (c : Dev nD) :
    W9 m ρ c (Proc.devRef .tc main_v59)
      = concatenate S1000000x6 1 [⟨S1000000x3, W9 m ρ c (Proc.devRef .tc main_v51)⟩, ⟨S1000000x3, W9 m ρ c (Proc.devRef .tc main_v58)⟩]
          concatenates_S1000000x3_S1000000x3_S1000000x6_d1 := by
  show StableHlo.after hostOps2 (W8 m ρ c) (Proc.devRef .tc main_v59)
    = concatenate S1000000x6 1 [⟨S1000000x3, StableHlo.after hostOps2 (W8 m ρ c) (Proc.devRef .tc main_v51)⟩,
        ⟨S1000000x3, StableHlo.after hostOps2 (W8 m ρ c) (Proc.devRef .tc main_v58)⟩] concatenates_S1000000x3_S1000000x3_S1000000x6_d1
  simp only [after_cons, after_nil]
  rw [binary_result]
  rfl

attribute [local irreducible] Host.scatterAdd Host.gather in
set_option maxRecDepth 16384 in
/-- After the stretch that follows region 1: the reference's `hOf`. -/
theorem W9_v59 (c : Dev nD) :
    W9 m ρ c (Proc.devRef .tc main_v59)
      = Cert.ReferenceIdeal.RefRun.hOf (F := F) (m ((c : Thread nD τ).loc main_arg2)) (m ((c : Thread nD τ).loc main_arg3)) (W8 m ρ c (Proc.devRef .tc main_v44)) := by
  rw [W9_v59_cat, W9_v51, W9_v58]
  rfl

end Cert.KernelIdeal.KFrame

end
-- ==== Proof.KPayA.lean ====
import proofs.«109717_j65541200937586_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-! # The three plain regions' payloads read at an index, at the ideal values

Each of the three stores writes a block of 8000 rows by 3 columns. Read at row `p` and column `c`:
  * the linear layer's block is the matrix product of the row block with the 3×3 weight, `∑ k, x0[p,k] · x1[k,c]`
    (the accumulator is the zero splat, so no further term);
  * the bias-and-activation block is the leaky rectifier of `y = x0[p,c] + b[c]`: `y` where `y ≥ 0` holds as an
    ordered comparison, else the constant `0x3C23D70A` (0.01 to single precision) times `y`;
  * the final block is `x0[p,c] − m[0,c] − l[0,c]`, the two one-row operands broadcast down the rows. -/

noncomputable section

namespace Cert.KernelIdeal.KFrame

open Cert.KernelIdeal Cert.KernelIdeal.Gen
open Idealize.ShloMosaic Idealize.ShloMosaic.ValueIdx
open scoped BigOperators

/-- The product block at `(p, c)`: the sum over the contracted coordinate of the products of the entries. The one
    contracted axis is re-indexed by its coordinate; on the left operand it is axis 1 and on the right axis 0. -/
theorem k0_pay1_apply (x0 : Vec Ideal S8000x3 .f32) (x1 : Vec Ideal S3x3 .f32) (p : Fin 8000) (c : Fin 3) :
    k0_pay1 (F := Ideal) x0 x1 (ix2 p c) = ∑ k : Fin 3, x0 (ix2 p k) * x1 (ix2 k c) := by
  unfold k0_pay1
  simp only [matmul]
  rw [Ideal.matmul_constant_zero_apply,
    ← Equiv.sum_comp (contrEquiv1 dot_S8000x3_S3x3_S8000x3_1_0_0_1_n_n 3 rfl rfl).symm]
  refine Finset.sum_congr rfl fun k _ => ?_
  have c2 := contrEquiv1_symm_val dot_S8000x3_S3x3_S8000x3_1_0_0_1_n_n 3 rfl rfl k
  have l2 : dot_S8000x3_S3x3_S8000x3_1_0_0_1_n_n.lhsIdx (ix2 p c)
      ((contrEquiv1 dot_S8000x3_S3x3_S8000x3_1_0_0_1_n_n 3 rfl rfl).symm k) = ix2 p k := by
    funext ax; apply Fin.ext
    match ax with
    | ⟨0, _⟩ => simp [DotDims.lhsIdx, dot_S8000x3_S3x3_S8000x3_1_0_0_1_n_n]; rfl
    | ⟨1, _⟩ => simp [DotDims.lhsIdx, dot_S8000x3_S3x3_S8000x3_1_0_0_1_n_n]; exact c2
  have r2 : dot_S8000x3_S3x3_S8000x3_1_0_0_1_n_n.rhsIdx (ix2 p c)
      ((contrEquiv1 dot_S8000x3_S3x3_S8000x3_1_0_0_1_n_n 3 rfl rfl).symm k) = ix2 k c := by
    funext ax; apply Fin.ext
    match ax with
    | ⟨0, _⟩ => simp [DotDims.rhsIdx, dot_S8000x3_S3x3_S8000x3_1_0_0_1_n_n]; exact c2
    | ⟨1, _⟩ => simp [DotDims.rhsIdx, dot_S8000x3_S3x3_S8000x3_1_0_0_1_n_n]; rfl
  rw [l2, r2]

/-- The leaky rectifier of one value, as the bodies spell it: the value where it is at least zero (ordered
    comparison), else the constant `0x3C23D70A` times it. -/
abbrev leaky (y : Elt Ideal .f32) : Elt Ideal .f32 :=
  Scalar.select (FloatOps.cmpf .oge y (Ideal.ofBits .f32 0x00000000#32)) y (Ideal.ofBits .f32 0x3C23D70A#32 * y)

/-- The bias-and-activation block at `(p, c)`: with `y = x0[p,c] + b[c]` (the bias cast to one row and broadcast down
    the rows), the selection of `y` where `y ≥ 0` (ordered) and of `0.01 · y` elsewhere. -/
theorem k1_pay1_apply (x0 : Vec Ideal S8000x3 .f32) (b : Vec Ideal S3 .f32) (p : Fin 8000) (c : Fin 3) :
    k1_pay1 (F := Ideal) x0 b (ix2 p c) =
      Scalar.select (FloatOps.cmpf .oge (x0 (ix2 p c) + b (ix1 c)) (Ideal.ofBits .f32 0x00000000#32))
        (x0 (ix2 p c) + b (ix1 c))
        (Ideal.ofBits .f32 0x3C23D70A#32 * (x0 (ix2 p c) + b (ix1 c))) := by
  unfold k1_pay1
  simp only [shapeCast_self]
  rw [select_apply, cmpf_apply, mulf_apply, addf_apply, broadcast_apply, broadcast_apply,
    broadcastTo_1b_ab_apply, shapeCast_a_1a_apply]
  rfl

/-- The final block at `(p, c)`: the entry less the two one-row operands' entries of column `c`. -/
theorem k3_pay1_apply (x0 : Vec Ideal S8000x3 .f32) (m l : Vec Ideal S1x3 .f32) (p : Fin 8000) (c : Fin 3) :
    k3_pay1 (F := Ideal) x0 m l (ix2 p c) = x0 (ix2 p c) - m (ix2 (0 : Fin 1) c) - l (ix2 (0 : Fin 1) c) := by
  unfold k3_pay1
  simp only [shapeCast_self]
  rw [subf_apply, subf_apply, broadcastTo_1b_ab_apply, broadcastTo_1b_ab_apply]

end Cert.KernelIdeal.KFrame

end
-- ==== Proof.KFinal0.lean ====
import proofs.«109717_j65541200937586_2_alg».proof.Proof.KRegion0
import proofs.«109717_j65541200937586_2_alg».proof.Proof.KPayA
import Idealize.ShloMosaic.Lib.Pipeline.Value

/-! # Region 0, from blocks to the array, at the ideal values

After the region the output array is one function of the two arrays the region was entered with: at row `r` and
column `q` the sum over `k` of the embedding's entry `(r, k)` times the weight's entry `(k, q)`. Point `t` writes
back rows `8000 t … 8000 t + 7999` of that function; the 125 blocks cover the million rows. -/

set_option maxRecDepth 16384

noncomputable section

namespace Cert.KernelIdeal.KFrame

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The two arrays as the region finds them, at their literal types. -/
abbrev A0_0 (c : Dev nD) : S1000000x3.Idx → Elt Ideal .f32 := V c main_arg4
abbrev A0_1 (c : Dev nD) : S3x3.Idx → Elt Ideal .f32 := V c main_arg5

/-- The whole-array function: row `r` of the first array times the 3×3 second array. -/
abbrev G0 (a0 : S1000000x3.Idx → Elt Ideal .f32) (a1 : S3x3.Idx → Elt Ideal .f32) : S1000000x3.Idx → Elt Ideal .f32 :=
  fun i => ∑ k : Fin 3, a0 (ix2 (i 0 : Fin 1000000) k) * a1 (ix2 k (i 1 : Fin 3))

/-- The payload at any index of the block. -/
theorem k0_pay1_at (x0 : Vec Ideal S8000x3 .f32) (x1 : Vec Ideal S3x3 .f32) (j : S8000x3.Idx) :
    k0_pay1 (F := Ideal) x0 x1 j = ∑ k : Fin 3, x0 (ix2 (j 0 : Fin 8000) k) * x1 (ix2 k (j 1 : Fin 3)) := by
  obtain ⟨p, q, rfl⟩ : ∃ (p : Fin 8000) (q : Fin 3), j = ix2 p q := ⟨j 0, j 1, eq_ix2 j⟩
  exact k0_pay1_apply x0 x1 p q

/-- The printed index maps over the grid: the first array's and the output's blocks are block `t` of rows, the weight's
    block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `G0` of the arrays as the region finds them. -/
theorem flushed0_eq (c : Dev nD) (t : Fin cfg0.N) :
    (dat0 V c).flushed 2 t = ((cfg0.win 2).blk t).view.read (Elt Ideal) (G0 (A0_0 V c) (A0_1 V c)) := by
  show (cfg0.win 2).cut (grid0.coords t) ((dat0 V c).after 2 t) = _
  rw [after0_2, out0_2_eq]
  obtain ⟨e00, e01, e10, e11, e20, e21⟩ := idx_facts0 t
  funext j
  refine (k0_pay1_at _ _ j).trans ?_
  show ∑ k : Fin 3, A0_0 V c (((cfg0.win 0).blk t).view.emb (ix2 (j 0 : Fin 8000) k))
        * A0_1 V c (((cfg0.win 1).blk t).view.emb (ix2 k (j 1 : Fin 3)))
    = ∑ k : Fin 3, A0_0 V c (ix2 ((((cfg0.win 2).blk t).view.emb j) 0 : Fin 1000000) k)
        * A0_1 V c (ix2 k ((((cfg0.win 2).blk t).view.emb j) 1 : Fin 3))
  refine Finset.sum_congr rfl fun k _ => ?_
  have h0 : ((cfg0.win 0).blk t).view.emb (ix2 (j 0 : Fin 8000) k)
      = ix2 ((((cfg0.win 2).blk t).view.emb j) 0 : Fin 1000000) k := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 3 + 1 * k.val = k.val; omega
  have h1 : ((cfg0.win 1).blk t).view.emb (ix2 k (j 1 : Fin 3))
      = ix2 k ((((cfg0.win 2).blk t).view.emb j) 1 : Fin 3) := by
    funext a; apply Fin.ext
    match a with
    | ⟨0, _⟩ => show win0_1.index t (0 : Fin 2) * 3 + 1 * k.val = k.val; omega
    | ⟨1, _⟩ => show win0_1.index t (1 : Fin 2) * 3 + 1 * (j 1).val = win0_2.index t (1 : Fin 2) * 3 + 1 * (j 1).val; omega
  rw [h0, h1]
  rfl

/-- An index of the array is in point `t`'s block iff each coordinate is in the block's range on its axis. -/
theorem mem_blk0 (t : Fin cfg0.N) (i : S1000000x3.Idx) :
    i ∈ ((cfg0.win 2).blk t).view.set ↔ ∀ a : Fin 2, win0_2.index t a * S8000x3.size a ≤ (i a).val ∧ (i a).val < win0_2.index t a * S8000x3.size a + S8000x3.size a := by
  show i ∈ ((View.whole main_v30).slice (win0_2.rect t)).set ↔ _
  rw [View.set_slice_whole, Rect.mem_set_unit]
  exact Iff.rfl

/-- Every index of the array is in some point's block: row `r` in the block of point `r / 8000`. -/
theorem cover0 (i : S1000000x3.Idx) : ∃ t : Fin cfg0.N, (cfg0.win 2).flush t = true ∧ i ∈ ((cfg0.win 2).blk t).view.set := by
  have hi0 : (i 0).val < 1000000 := (i 0).isLt
  have hi1 : (i 1).val < 3 := (i 1).isLt
  have hN : grid0.N = 125 := N_0
  let t : Fin cfg0.N := ⟨(i 0).val / 8000, by show (i 0).val / 8000 < grid0.N; rw [hN]; omega⟩
  obtain ⟨e00, e01, e10, e11, e20, e21⟩ := idx_facts0 t
  have ht : t.val = (i 0).val / 8000 := rfl
  refine ⟨t, flush0_2 t, ?_⟩
  rw [mem_blk0]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 3 ≤ (i 1).val ∧ (i 1).val < win0_2.index t (1 : Fin 2) * 3 + 3; omega

/-- The array after the region: `G0` of the arrays the region was entered with. -/
theorem final0 (c : Dev nD) : (dat0 V c).arrAt 2 cfg0.N = G0 (A0_0 V c) (A0_1 V c) :=
  (dat0 V c).arrAt_eq_of_cover 2 (G0 (A0_0 V c) (A0_1 V c)) (fun t _ => flushed0_eq V c t) cover0

end Cert.KernelIdeal.KFrame

end
-- ==== Proof.KFinal1.lean ====
import proofs.«109717_j65541200937586_2_alg».proof.Proof.KRegion1
import proofs.«109717_j65541200937586_2_alg».proof.Proof.KPayA
import Idealize.ShloMosaic.Lib.Pipeline.Value

/-! # Region 1, from blocks to the array, at the ideal values

After the region the output array is one function of the two arrays the region was entered with: at row `r` and
column `q`, with `y` the aggregated feature `(r, q)` plus the bias' entry `q`, the selection of `y` where `y ≥ 0`
(ordered) and of the constant `0x3C23D70A` times `y` elsewhere. Point `t` writes back rows `8000 t … 8000 t + 7999`
of that function; the 125 blocks cover the million rows. -/

set_option maxRecDepth 16384

noncomputable section

namespace Cert.KernelIdeal.KFrame

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The two arrays as the region finds them, at their literal types. -/
abbrev A1_0 (c : Dev nD) : S1000000x3.Idx → Elt Ideal .f32 := V c main_v43
abbrev A1_1 (c : Dev nD) : S3.Idx → Elt Ideal .f32 := V c main_arg6

/-- The whole-array function: the leaky rectifier of the entry plus the bias of its column. -/
abbrev G1 (a0 : S1000000x3.Idx → Elt Ideal .f32) (b : S3.Idx → Elt Ideal .f32) : S1000000x3.Idx → Elt Ideal .f32 :=
  fun i => leaky (a0 i + b (ix1 (i 1 : Fin 3)))

/-- The payload at any index of the block. -/
theorem k1_pay1_at (x0 : Vec Ideal S8000x3 .f32) (b : Vec Ideal S3 .f32) (j : S8000x3.Idx) :
    k1_pay1 (F := Ideal) x0 b j = leaky (x0 j + b (ix1 (j 1 : Fin 3))) := by
  obtain ⟨p, q, rfl⟩ : ∃ (p : Fin 8000) (q : Fin 3), j = ix2 p q := ⟨j 0, j 1, eq_ix2 j⟩
  exact k1_pay1_apply x0 b p q

/-- The printed index maps over the grid: the first array's and the output's blocks are block `t` of rows, the bias'
    block is the whole array. -/
theorem idx_facts1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point `t` writes back is block `t` of `G1` of the arrays as the region finds them. -/
theorem flushed1_eq (c : Dev nD) (t : Fin cfg1.N) :
    (dat1 V c).flushed 2 t = ((cfg1.win 2).blk t).view.read (Elt Ideal) (G1 (A1_0 V c) (A1_1 V c)) := by
  show (cfg1.win 2).cut (grid1.coords t) ((dat1 V c).after 2 t) = _
  rw [after1_2, out1_2_eq]
  obtain ⟨e00, e01, e10, e20, e21⟩ := idx_facts1 t
  funext j
  refine (k1_pay1_at _ _ j).trans ?_
  show leaky (A1_0 V c (((cfg1.win 0).blk t).view.emb j) + A1_1 V c (((cfg1.win 1).blk t).view.emb (ix1 (j 1 : Fin 3))))
    = leaky (A1_0 V c (((cfg1.win 2).blk t).view.emb j) + A1_1 V c (ix1 ((((cfg1.win 2).blk t).view.emb j) 1 : Fin 3)))
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 3 + 1 * (j 1).val = win1_2.index t (1 : Fin 2) * 3 + 1 * (j 1).val; omega
  have h1 : ((cfg1.win 1).blk t).view.emb (ix1 (j 1 : Fin 3)) = ix1 ((((cfg1.win 2).blk t).view.emb j) 1 : Fin 3) := by
    funext a; apply Fin.ext
    match a with
    | ⟨0, _⟩ => show win1_1.index t (0 : Fin 1) * 3 + 1 * (j 1).val = win1_2.index t (1 : Fin 2) * 3 + 1 * (j 1).val; omega
  rw [h0, h1]
  rfl

/-- An index of the array is in point `t`'s block iff each coordinate is in the block's range on its axis. -/
theorem mem_blk1 (t : Fin cfg1.N) (i : S1000000x3.Idx) :
    i ∈ ((cfg1.win 2).blk t).view.set ↔ ∀ a : Fin 2, win1_2.index t a * S8000x3.size a ≤ (i a).val ∧ (i a).val < win1_2.index t a * S8000x3.size a + S8000x3.size a := by
  show i ∈ ((View.whole main_v44).slice (win1_2.rect t)).set ↔ _
  rw [View.set_slice_whole, Rect.mem_set_unit]
  exact Iff.rfl

/-- Every index of the array is in some point's block: row `r` in the block of point `r / 8000`. -/
theorem cover1 (i : S1000000x3.Idx) : ∃ t : Fin cfg1.N, (cfg1.win 2).flush t = true ∧ i ∈ ((cfg1.win 2).blk t).view.set := by
  have hi0 : (i 0).val < 1000000 := (i 0).isLt
  have hi1 : (i 1).val < 3 := (i 1).isLt
  have hN : grid1.N = 125 := N_1
  let t : Fin cfg1.N := ⟨(i 0).val / 8000, by show (i 0).val / 8000 < grid1.N; rw [hN]; omega⟩
  obtain ⟨e00, e01, e10, e20, e21⟩ := idx_facts1 t
  have ht : t.val = (i 0).val / 8000 := rfl
  refine ⟨t, flush1_2 t, ?_⟩
  rw [mem_blk1]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 3 ≤ (i 1).val ∧ (i 1).val < win1_2.index t (1 : Fin 2) * 3 + 3; omega

/-- The array after the region: `G1` of the arrays the region was entered with. -/
theorem final1 (c : Dev nD) : (dat1 V c).arrAt 2 cfg1.N = G1 (A1_0 V c) (A1_1 V c) :=
  (dat1 V c).arrAt_eq_of_cover 2 (G1 (A1_0 V c) (A1_1 V c)) (fun t _ => flushed1_eq V c t) cover1

end Cert.KernelIdeal.KFrame

end
-- ==== Proof.KR2Pieces.lean ====
/-
  Region 2, what each control case's stores leave, as values. At the first point the two running rows are first
  reset (the maximum row to minus infinity, the sum row to zero) and the loads that follow read the reset rows; at
  every later point they read the rows the point before left. In every case the logits block receives the logits
  tile computed from the five input blocks; the running-maximum row receives the maximum of the old row and the
  tile's column maxima; the running-sum row receives the old row rescaled by the exponential of (old maximum minus
  new maximum) plus the tile's column sums of exponentials relative to the new maximum. At the last point the new
  running-maximum row is also written out as the column maximum, and the logarithm of the new running-sum row as
  the logarithm of the column sum. All statements hold for any float values.
-/
import proofs.«109717_j65541200937586_2_alg».proof.Proof.KR2Data
import Idealize.ShloMosaic.Lib.Pipeline.Value
import Idealize.ShloMosaic.Lib.Tactic

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The zero offsets of a rank-two rectangle, however spelt. -/
theorem hz2 : (![0, 0] : Fin 2 → Nat) = fun _ => 0 := funext fun a => by fin_cases a <;> rfl
/-- The zero offset of a rank-one rectangle. -/
theorem hz1 : (![0] : Fin 1 → Nat) = fun _ => 0 := funext fun a => by fin_cases a; rfl

/-! ## The first point -/

/-- The first point leaves the logits tile of its five input blocks in the logits block. -/
theorem out2_A_5_eq (c : Dev nD) (t : Fin cfg2.N) (h0 : t.val = 0) :
    out2_A_5 V c t h0 = k2_pay6 (iblk2 V c 0 t) (iblk2 V c 1 t) (iblk2 V c 2 t) (iblk2 V c 3 t) (iblk2 V c 4 t) := by
  unfold out2_A_5
  rw [View.read_writes_eq_canon _ _ _ (cover2_A_5 V c t h0)]
  unfold runAt2_A kernelRun2_A
  dsimp only
  sl_unfold_words
  rw [View.canon_unit_zero (S := S8000x3) hz2]
  simp only [View.readAt_eq_ld, (hs2_0 t).read_unread, (hs2_1 t).read_unread, (hs2_2 t).read_unread, (hs2_3 t).read_unread,
    (hs2_4 t).read_unread, View.ld_unit_zero (S := S8000x6) hz2, View.ld_unit_zero (S := S6x6) hz2,
    View.ld_unit_zero (S := S6) hz1, View.ld_unit_zero (S := S6x3) hz2, View.ld_unit_zero (S := S3) hz1]

/-- The first point leaves in the running-maximum row the maximum of the reset row (minus infinity) and the tile's
    column maxima. -/
theorem sout2_A_0_eq (c : Dev nD) (t : Fin cfg2.N) (h0 : t.val = 0) :
    sout2_A_0 V c t h0 = k2_pay2 (k2_pay7 (iblk2 V c 0 t) (iblk2 V c 1 t) (iblk2 V c 2 t) (iblk2 V c 3 t) (iblk2 V c 4 t) k2_pay4) := by
  unfold sout2_A_0
  rw [View.read_writes_eq_canon _ _ _ (scover2_A_0 V c t h0)]
  unfold runAt2_A kernelRun2_A
  dsimp only
  sl_unfold_words
  rw [View.canon_cons_unit_zero (S := S1x3) hz2, View.readCov_unit_zero (S := S1x3) _ hz2]
  simp only [View.readAt_eq_ld, (hs2_0 t).read_unread, (hs2_1 t).read_unread, (hs2_2 t).read_unread, (hs2_3 t).read_unread,
    (hs2_4 t).read_unread, View.ld_unit_zero (S := S8000x6) hz2, View.ld_unit_zero (S := S6x6) hz2,
    View.ld_unit_zero (S := S6) hz1, View.ld_unit_zero (S := S6x3) hz2, View.ld_unit_zero (S := S3) hz1]

/-- The first point leaves in the running-sum row the reset row (zero) rescaled plus the tile's column sums of
    exponentials relative to the new maximum. -/
theorem sout2_A_1_eq (c : Dev nD) (t : Fin cfg2.N) (h0 : t.val = 0) :
    sout2_A_1 V c t h0
      = k2_pay1 (k2_pay6 (iblk2 V c 0 t) (iblk2 V c 1 t) (iblk2 V c 2 t) (iblk2 V c 3 t) (iblk2 V c 4 t))
          (k2_pay7 (iblk2 V c 0 t) (iblk2 V c 1 t) (iblk2 V c 2 t) (iblk2 V c 3 t) (iblk2 V c 4 t) k2_pay4)
          (k2_pay8 (iblk2 V c 0 t) (iblk2 V c 1 t) (iblk2 V c 2 t) (iblk2 V c 3 t) (iblk2 V c 4 t) k2_pay4 k2_pay4)
          k2_pay5 := by
  unfold sout2_A_1
  rw [View.read_writes_eq_canon _ _ _ (scover2_A_1 V c t h0)]
  unfold runAt2_A kernelRun2_A
  dsimp only
  sl_unfold_words
  rw [View.canon_cons_unit_zero (S := S1x3) hz2]
  simp only [View.readCov_unit_zero (S := S1x3) _ hz2, View.readAt_eq_ld, (hs2_0 t).read_unread, (hs2_1 t).read_unread,
    (hs2_2 t).read_unread, (hs2_3 t).read_unread, (hs2_4 t).read_unread, View.ld_unit_zero (S := S8000x6) hz2,
    View.ld_unit_zero (S := S6x6) hz2, View.ld_unit_zero (S := S6) hz1, View.ld_unit_zero (S := S6x3) hz2,
    View.ld_unit_zero (S := S3) hz1]

/-! ## A middle point -/

/-- A middle point leaves the logits tile of its five input blocks in the logits block. -/
theorem out2_B_5_eq (c : Dev nD) (t : Fin cfg2.N) (h0 : ¬ t.val = 0) (h1 : ¬ t.val = 124) (xs0 xs1 : Vec F S1x3 .f32) :
    out2_B_5 V c t h0 h1 xs0 xs1 = k2_pay6 (iblk2 V c 0 t) (iblk2 V c 1 t) (iblk2 V c 2 t) (iblk2 V c 3 t) (iblk2 V c 4 t) := by
  have hS0 : (scM2_0 : Memref sig .tc .vmem S1x3 .f32).IsWhole := Memref.isWhole_whole _
  have hS1 : (scM2_1 : Memref sig .tc .vmem S1x3 .f32).IsWhole := Memref.isWhole_whole _
  unfold out2_B_5
  rw [View.read_writes_eq_canon _ _ _ (cover2_B_5 V c t h0 h1 xs0 xs1)]
  unfold runAt2_B kernelRun2_B
  dsimp only
  sl_unfold_words
  rw [View.canon_unit_zero (S := S8000x3) hz2]
  simp only [View.readAt_eq_ld, (hs2_0 t).read_unread, (hs2_1 t).read_unread, (hs2_2 t).read_unread, (hs2_3 t).read_unread,
    (hs2_4 t).read_unread, hS0.read_unread, hS1.read_unread, View.ld_unit_zero (S := S8000x6) hz2, View.ld_unit_zero (S := S6x6) hz2,
    View.ld_unit_zero (S := S6) hz1, View.ld_unit_zero (S := S6x3) hz2, View.ld_unit_zero (S := S3) hz1,
    View.ld_unit_zero (S := S1x3) hz2]

/-- A middle point leaves in the running-maximum row the maximum of the row the point before left and the tile's column maxima. -/
theorem sout2_B_0_eq (c : Dev nD) (t : Fin cfg2.N) (h0 : ¬ t.val = 0) (h1 : ¬ t.val = 124) (xs0 xs1 : Vec F S1x3 .f32) :
    sout2_B_0 V c t h0 h1 xs0 xs1
      = k2_pay2 (k2_pay7 (iblk2 V c 0 t) (iblk2 V c 1 t) (iblk2 V c 2 t) (iblk2 V c 3 t) (iblk2 V c 4 t) xs0) := by
  have hS0 : (scM2_0 : Memref sig .tc .vmem S1x3 .f32).IsWhole := Memref.isWhole_whole _
  have hS1 : (scM2_1 : Memref sig .tc .vmem S1x3 .f32).IsWhole := Memref.isWhole_whole _
  unfold sout2_B_0
  rw [View.read_writes_eq_canon _ _ _ (scover2_B_0 V c t h0 h1 xs0 xs1)]
  unfold runAt2_B kernelRun2_B
  dsimp only
  sl_unfold_words
  rw [View.canon_unit_zero (S := S1x3) hz2]
  simp only [View.readAt_eq_ld, (hs2_0 t).read_unread, (hs2_1 t).read_unread, (hs2_2 t).read_unread, (hs2_3 t).read_unread,
    (hs2_4 t).read_unread, hS0.read_unread, hS1.read_unread, View.ld_unit_zero (S := S8000x6) hz2, View.ld_unit_zero (S := S6x6) hz2,
    View.ld_unit_zero (S := S6) hz1, View.ld_unit_zero (S := S6x3) hz2, View.ld_unit_zero (S := S3) hz1,
    View.ld_unit_zero (S := S1x3) hz2]

/-- A middle point leaves in the running-sum row the row the point before left, rescaled by the exponential of the old maximum minus the new, plus the tile's column sums of exponentials relative to the new maximum. -/
theorem sout2_B_1_eq (c : Dev nD) (t : Fin cfg2.N) (h0 : ¬ t.val = 0) (h1 : ¬ t.val = 124) (xs0 xs1 : Vec F S1x3 .f32) :
    sout2_B_1 V c t h0 h1 xs0 xs1
      = k2_pay1 (k2_pay6 (iblk2 V c 0 t) (iblk2 V c 1 t) (iblk2 V c 2 t) (iblk2 V c 3 t) (iblk2 V c 4 t))
          (k2_pay7 (iblk2 V c 0 t) (iblk2 V c 1 t) (iblk2 V c 2 t) (iblk2 V c 3 t) (iblk2 V c 4 t) xs0)
          (k2_pay8 (iblk2 V c 0 t) (iblk2 V c 1 t) (iblk2 V c 2 t) (iblk2 V c 3 t) (iblk2 V c 4 t) xs0 xs0)
          xs1 := by
  have hS0 : (scM2_0 : Memref sig .tc .vmem S1x3 .f32).IsWhole := Memref.isWhole_whole _
  have hS1 : (scM2_1 : Memref sig .tc .vmem S1x3 .f32).IsWhole := Memref.isWhole_whole _
  unfold sout2_B_1
  rw [View.read_writes_eq_canon _ _ _ (scover2_B_1 V c t h0 h1 xs0 xs1)]
  unfold runAt2_B kernelRun2_B
  dsimp only
  sl_unfold_words
  rw [View.canon_unit_zero (S := S1x3) hz2]
  simp only [View.readAt_eq_ld, (hs2_0 t).read_unread, (hs2_1 t).read_unread, (hs2_2 t).read_unread, (hs2_3 t).read_unread,
    (hs2_4 t).read_unread, hS0.read_unread, hS1.read_unread, View.ld_unit_zero (S := S8000x6) hz2, View.ld_unit_zero (S := S6x6) hz2,
    View.ld_unit_zero (S := S6) hz1, View.ld_unit_zero (S := S6x3) hz2, View.ld_unit_zero (S := S3) hz1,
    View.ld_unit_zero (S := S1x3) hz2]

/-! ## The last point -/

/-- The last point leaves the logits tile of its five input blocks in the logits block. -/
theorem out2_C_5_eq (c : Dev nD) (t : Fin cfg2.N) (h0 : ¬ t.val = 0) (h1 : t.val = 124) (xs0 xs1 : Vec F S1x3 .f32) :
    out2_C_5 V c t h0 h1 xs0 xs1 = k2_pay6 (iblk2 V c 0 t) (iblk2 V c 1 t) (iblk2 V c 2 t) (iblk2 V c 3 t) (iblk2 V c 4 t) := by
  have hS0 : (scM2_0 : Memref sig .tc .vmem S1x3 .f32).IsWhole := Memref.isWhole_whole _
  have hS1 : (scM2_1 : Memref sig .tc .vmem S1x3 .f32).IsWhole := Memref.isWhole_whole _
  unfold out2_C_5
  rw [View.read_writes_eq_canon _ _ _ (cover2_C_5 V c t h0 h1 xs0 xs1)]
  unfold runAt2_C kernelRun2_C
  dsimp only
  sl_unfold_words
  try dsimp only
  rw [View.canon_unit_zero (S := S8000x3) hz2]
  simp only [View.readAt_eq_ld, (hs2_0 t).read_unread, (hs2_1 t).read_unread, (hs2_2 t).read_unread, (hs2_3 t).read_unread,
    (hs2_4 t).read_unread, hS0.read_unread, hS1.read_unread, View.ld_unit_zero (S := S8000x6) hz2, View.ld_unit_zero (S := S6x6) hz2,
    View.ld_unit_zero (S := S6) hz1, View.ld_unit_zero (S := S6x3) hz2, View.ld_unit_zero (S := S3) hz1,
    View.ld_unit_zero (S := S1x3) hz2]

/-- The last point leaves in the running-maximum row the maximum of the row the point before left and the tile's column maxima. -/
theorem sout2_C_0_eq (c : Dev nD) (t : Fin cfg2.N) (h0 : ¬ t.val = 0) (h1 : t.val = 124) (xs0 xs1 : Vec F S1x3 .f32) :
    sout2_C_0 V c t h0 h1 xs0 xs1
      = k2_pay2 (k2_pay7 (iblk2 V c 0 t) (iblk2 V c 1 t) (iblk2 V c 2 t) (iblk2 V c 3 t) (iblk2 V c 4 t) xs0) := by
  have hS0 : (scM2_0 : Memref sig .tc .vmem S1x3 .f32).IsWhole := Memref.isWhole_whole _
  have hS1 : (scM2_1 : Memref sig .tc .vmem S1x3 .f32).IsWhole := Memref.isWhole_whole _
  unfold sout2_C_0
  rw [View.read_writes_eq_canon _ _ _ (scover2_C_0 V c t h0 h1 xs0 xs1)]
  unfold runAt2_C kernelRun2_C
  dsimp only
  sl_unfold_words
  try dsimp only
  rw [View.canon_unit_zero (S := S1x3) hz2]
  simp only [View.readAt_eq_ld, (hs2_0 t).read_unread, (hs2_1 t).read_unread, (hs2_2 t).read_unread, (hs2_3 t).read_unread,
    (hs2_4 t).read_unread, hS0.read_unread, hS1.read_unread, View.ld_unit_zero (S := S8000x6) hz2, View.ld_unit_zero (S := S6x6) hz2,
    View.ld_unit_zero (S := S6) hz1, View.ld_unit_zero (S := S6x3) hz2, View.ld_unit_zero (S := S3) hz1,
    View.ld_unit_zero (S := S1x3) hz2]

/-- The last point leaves in the running-sum row the row the point before left, rescaled, plus the tile's column sums of exponentials relative to the new maximum. -/
theorem sout2_C_1_eq (c : Dev nD) (t : Fin cfg2.N) (h0 : ¬ t.val = 0) (h1 : t.val = 124) (xs0 xs1 : Vec F S1x3 .f32) :
    sout2_C_1 V c t h0 h1 xs0 xs1
      = k2_pay1 (k2_pay6 (iblk2 V c 0 t) (iblk2 V c 1 t) (iblk2 V c 2 t) (iblk2 V c 3 t) (iblk2 V c 4 t))
          (k2_pay7 (iblk2 V c 0 t) (iblk2 V c 1 t) (iblk2 V c 2 t) (iblk2 V c 3 t) (iblk2 V c 4 t) xs0)
          (k2_pay8 (iblk2 V c 0 t) (iblk2 V c 1 t) (iblk2 V c 2 t) (iblk2 V c 3 t) (iblk2 V c 4 t) xs0 xs0)
          xs1 := by
  have hS0 : (scM2_0 : Memref sig .tc .vmem S1x3 .f32).IsWhole := Memref.isWhole_whole _
  have hS1 : (scM2_1 : Memref sig .tc .vmem S1x3 .f32).IsWhole := Memref.isWhole_whole _
  unfold sout2_C_1
  rw [View.read_writes_eq_canon _ _ _ (scover2_C_1 V c t h0 h1 xs0 xs1)]
  unfold runAt2_C kernelRun2_C
  dsimp only
  sl_unfold_words
  try dsimp only
  rw [View.canon_unit_zero (S := S1x3) hz2]
  simp only [View.readAt_eq_ld, (hs2_0 t).read_unread, (hs2_1 t).read_unread, (hs2_2 t).read_unread, (hs2_3 t).read_unread,
    (hs2_4 t).read_unread, hS0.read_unread, hS1.read_unread, View.ld_unit_zero (S := S8000x6) hz2, View.ld_unit_zero (S := S6x6) hz2,
    View.ld_unit_zero (S := S6) hz1, View.ld_unit_zero (S := S6x3) hz2, View.ld_unit_zero (S := S3) hz1,
    View.ld_unit_zero (S := S1x3) hz2]

/-- The last point writes the new running-maximum row out as the column maximum. -/
theorem out2_C_6_eq (c : Dev nD) (t : Fin cfg2.N) (h0 : ¬ t.val = 0) (h1 : t.val = 124) (xs0 xs1 : Vec F S1x3 .f32) :
    out2_C_6 V c t h0 h1 xs0 xs1
      = k2_pay2 (k2_pay7 (iblk2 V c 0 t) (iblk2 V c 1 t) (iblk2 V c 2 t) (iblk2 V c 3 t) (iblk2 V c 4 t) xs0) := by
  have hS0 : (scM2_0 : Memref sig .tc .vmem S1x3 .f32).IsWhole := Memref.isWhole_whole _
  have hS1 : (scM2_1 : Memref sig .tc .vmem S1x3 .f32).IsWhole := Memref.isWhole_whole _
  unfold out2_C_6
  rw [View.read_writes_eq_canon _ _ _ (cover2_C_6 V c t h0 h1 xs0 xs1)]
  unfold runAt2_C kernelRun2_C
  dsimp only
  sl_unfold_words
  try dsimp only
  rw [View.canon_unit_zero (S := S1x3) hz2]
  simp only [View.readCov_unit_zero (S := S1x3) _ hz2, View.readAt_eq_ld, (hs2_0 t).read_unread, (hs2_1 t).read_unread, (hs2_2 t).read_unread, (hs2_3 t).read_unread,
    (hs2_4 t).read_unread, hS0.read_unread, hS1.read_unread, View.ld_unit_zero (S := S8000x6) hz2, View.ld_unit_zero (S := S6x6) hz2,
    View.ld_unit_zero (S := S6) hz1, View.ld_unit_zero (S := S6x3) hz2, View.ld_unit_zero (S := S3) hz1,
    View.ld_unit_zero (S := S1x3) hz2]

/-- The last point writes the logarithm of the new running-sum row out. -/
theorem out2_C_7_eq (c : Dev nD) (t : Fin cfg2.N) (h0 : ¬ t.val = 0) (h1 : t.val = 124) (xs0 xs1 : Vec F S1x3 .f32) :
    out2_C_7 V c t h0 h1 xs0 xs1
      = k2_pay3 (k2_pay1 (k2_pay6 (iblk2 V c 0 t) (iblk2 V c 1 t) (iblk2 V c 2 t) (iblk2 V c 3 t) (iblk2 V c 4 t))
          (k2_pay7 (iblk2 V c 0 t) (iblk2 V c 1 t) (iblk2 V c 2 t) (iblk2 V c 3 t) (iblk2 V c 4 t) xs0)
          (k2_pay8 (iblk2 V c 0 t) (iblk2 V c 1 t) (iblk2 V c 2 t) (iblk2 V c 3 t) (iblk2 V c 4 t) xs0 xs0)
          xs1) := by
  have hS0 : (scM2_0 : Memref sig .tc .vmem S1x3 .f32).IsWhole := Memref.isWhole_whole _
  have hS1 : (scM2_1 : Memref sig .tc .vmem S1x3 .f32).IsWhole := Memref.isWhole_whole _
  unfold out2_C_7
  rw [View.read_writes_eq_canon _ _ _ (cover2_C_7 V c t h0 h1 xs0 xs1)]
  unfold runAt2_C kernelRun2_C
  dsimp only
  sl_unfold_words
  try dsimp only
  rw [View.canon_unit_zero (S := S1x3) hz2]
  simp only [View.readCov_unit_zero (S := S1x3) _ hz2, View.readAt_eq_ld, (hs2_0 t).read_unread, (hs2_1 t).read_unread, (hs2_2 t).read_unread, (hs2_3 t).read_unread,
    (hs2_4 t).read_unread, hS0.read_unread, hS1.read_unread, View.ld_unit_zero (S := S8000x6) hz2, View.ld_unit_zero (S := S6x6) hz2,
    View.ld_unit_zero (S := S6) hz1, View.ld_unit_zero (S := S6x3) hz2, View.ld_unit_zero (S := S3) hz1,
    View.ld_unit_zero (S := S1x3) hz2]

end Cert.KernelIdeal.KFrame

end
-- ==== Proof.KPayC.lean ====
import proofs.«109717_j65541200937586_2_alg».proof.Proof.KPayA

/-! # The fused two-layer payload of region 2 read at an index, at the ideal values

The logits block of 8000 rows by 3 columns: row `r` of the 8000×6 input block times the 6×6 first weight plus the
first bias, through the leaky rectifier, times the 6×3 second weight plus the second bias, through the leaky rectifier
again. Both products accumulate into the zero splat. -/

noncomputable section

namespace Cert.KernelIdeal.KFrame

open Cert.KernelIdeal Cert.KernelIdeal.Gen
open Idealize.ShloMosaic Idealize.ShloMosaic.ValueIdx
open scoped BigOperators

/-- The 8000×6 by 6×6 product into zero at `(r, k)`: the sum over the contracted coordinate. -/
theorem matmul_8000x6_6x6_apply (A : FVec Ideal S8000x6 .f32) (B : FVec Ideal S6x6 .f32) (r : Fin 8000) (k : Fin 6) :
    FloatOps.matmul dot_S8000x6_S6x6_S8000x6_1_0_0_1_n_n none A B (constant (F := Ideal) S8000x6 .f32 0x00000000#32) (ix2 r k)
      = ∑ k' : Fin 6, A (ix2 r k') * B (ix2 k' k) := by
  rw [Ideal.matmul_constant_zero_apply,
    ← Equiv.sum_comp (contrEquiv1 dot_S8000x6_S6x6_S8000x6_1_0_0_1_n_n 6 rfl rfl).symm]
  refine Finset.sum_congr rfl fun k' _ => ?_
  have c2 := contrEquiv1_symm_val dot_S8000x6_S6x6_S8000x6_1_0_0_1_n_n 6 rfl rfl k'
  have l2 : dot_S8000x6_S6x6_S8000x6_1_0_0_1_n_n.lhsIdx (ix2 r k)
      ((contrEquiv1 dot_S8000x6_S6x6_S8000x6_1_0_0_1_n_n 6 rfl rfl).symm k') = ix2 r k' := by
    funext ax; apply Fin.ext
    match ax with
    | ⟨0, _⟩ => simp [DotDims.lhsIdx, dot_S8000x6_S6x6_S8000x6_1_0_0_1_n_n]; rfl
    | ⟨1, _⟩ => simp [DotDims.lhsIdx, dot_S8000x6_S6x6_S8000x6_1_0_0_1_n_n]; exact c2
  have r2 : dot_S8000x6_S6x6_S8000x6_1_0_0_1_n_n.rhsIdx (ix2 r k)
      ((contrEquiv1 dot_S8000x6_S6x6_S8000x6_1_0_0_1_n_n 6 rfl rfl).symm k') = ix2 k' k := by
    funext ax; apply Fin.ext
    match ax with
    | ⟨0, _⟩ => simp [DotDims.rhsIdx, dot_S8000x6_S6x6_S8000x6_1_0_0_1_n_n]; exact c2
    | ⟨1, _⟩ => simp [DotDims.rhsIdx, dot_S8000x6_S6x6_S8000x6_1_0_0_1_n_n]; rfl
  rw [l2, r2]

/-- The 8000×6 by 6×3 product into zero at `(r, j)`: the sum over the contracted coordinate. -/
theorem matmul_8000x6_6x3_apply (A : FVec Ideal S8000x6 .f32) (B : FVec Ideal S6x3 .f32) (r : Fin 8000) (j : Fin 3) :
    FloatOps.matmul dot_S8000x6_S6x3_S8000x3_1_0_0_1_n_n none A B (constant (F := Ideal) S8000x3 .f32 0x00000000#32) (ix2 r j)
      = ∑ k : Fin 6, A (ix2 r k) * B (ix2 k j) := by
  rw [Ideal.matmul_constant_zero_apply,
    ← Equiv.sum_comp (contrEquiv1 dot_S8000x6_S6x3_S8000x3_1_0_0_1_n_n 6 rfl rfl).symm]
  refine Finset.sum_congr rfl fun k _ => ?_
  have c2 := contrEquiv1_symm_val dot_S8000x6_S6x3_S8000x3_1_0_0_1_n_n 6 rfl rfl k
  have l2 : dot_S8000x6_S6x3_S8000x3_1_0_0_1_n_n.lhsIdx (ix2 r j)
      ((contrEquiv1 dot_S8000x6_S6x3_S8000x3_1_0_0_1_n_n 6 rfl rfl).symm k) = ix2 r k := by
    funext ax; apply Fin.ext
    match ax with
    | ⟨0, _⟩ => simp [DotDims.lhsIdx, dot_S8000x6_S6x3_S8000x3_1_0_0_1_n_n]; rfl
    | ⟨1, _⟩ => simp [DotDims.lhsIdx, dot_S8000x6_S6x3_S8000x3_1_0_0_1_n_n]; exact c2
  have r2 : dot_S8000x6_S6x3_S8000x3_1_0_0_1_n_n.rhsIdx (ix2 r j)
      ((contrEquiv1 dot_S8000x6_S6x3_S8000x3_1_0_0_1_n_n 6 rfl rfl).symm k) = ix2 k j := by
    funext ax; apply Fin.ext
    match ax with
    | ⟨0, _⟩ => simp [DotDims.rhsIdx, dot_S8000x6_S6x3_S8000x3_1_0_0_1_n_n]; exact c2
    | ⟨1, _⟩ => simp [DotDims.rhsIdx, dot_S8000x6_S6x3_S8000x3_1_0_0_1_n_n]; rfl
  rw [l2, r2]

/-- The hidden layer at `(r, k)`: the leaky rectifier of row `r` times column `k` of the first weight plus the first
    bias' entry `k`. -/
abbrev hidden (v3 : Vec Ideal S8000x6 .f32) (v5 : Vec Ideal S6x6 .f32) (v7 : Vec Ideal S6 .f32) (r : Fin 8000) (k : Fin 6) :
    Elt Ideal .f32 :=
  leaky ((∑ k' : Fin 6, v3 (ix2 r k') * v5 (ix2 k' k)) + v7 (ix1 k))

/-- The logits block at `(r, j)`: the leaky rectifier of the hidden row `r` times column `j` of the second weight plus
    the second bias' entry `j`. -/
theorem k2_pay6_apply (v3 : Vec Ideal S8000x6 .f32) (v5 : Vec Ideal S6x6 .f32) (v7 : Vec Ideal S6 .f32)
    (v16 : Vec Ideal S6x3 .f32) (v18 : Vec Ideal S3 .f32) (r : Fin 8000) (j : Fin 3) :
    k2_pay6 (F := Ideal) v3 v5 v7 v16 v18 (ix2 r j)
      = leaky ((∑ k : Fin 6, hidden v3 v5 v7 r k * v16 (ix2 k j)) + v18 (ix1 j)) := by
  unfold k2_pay6
  simp only [shapeCast_self, matmul]
  rw [select_apply, cmpf_apply, mulf_apply, addf_apply, broadcast_apply, broadcast_apply,
    broadcastTo_1b_ab_apply, shapeCast_a_1a_apply, matmul_8000x6_6x3_apply]
  simp only [select_apply, cmpf_apply, mulf_apply, addf_apply, broadcast_apply, broadcastTo_1b_ab_apply,
    shapeCast_a_1a_apply, matmul_8000x6_6x6_apply]
  rfl

end Cert.KernelIdeal.KFrame

end
-- ==== Proof.KFinal2.lean ====
import proofs.«109717_j65541200937586_2_alg».proof.Proof.KR2Pieces
import proofs.«109717_j65541200937586_2_alg».proof.Proof.KPayC
import Idealize.ShloMosaic.Lib.Pipeline.Value

/-! # Region 2's logits window, from blocks to the array, at the ideal values

After the region the logits array is one function of the five arrays the region was entered with: row `r` of the
1000000×6 input times the 6×6 first weight plus the first bias, through the leaky rectifier, times the 6×3 second weight
plus the second bias, through the leaky rectifier again. Whatever the control case of a point, its logits block is the
same payload of its five input blocks; point `t` writes back rows `8000 t … 8000 t + 7999`; the 125 blocks cover the
million rows. -/

set_option maxRecDepth 16384

noncomputable section

namespace Cert.KernelIdeal.KFrame

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The five arrays as the region finds them, at their literal types. -/
abbrev A2_0 (c : Dev nD) : S1000000x6.Idx → Elt Ideal .f32 := V c main_v59
abbrev A2_1 (c : Dev nD) : S6x6.Idx → Elt Ideal .f32 := V c main_arg7
abbrev A2_2 (c : Dev nD) : S6.Idx → Elt Ideal .f32 := V c main_arg8
abbrev A2_3 (c : Dev nD) : S6x3.Idx → Elt Ideal .f32 := V c main_arg9
abbrev A2_4 (c : Dev nD) : S3.Idx → Elt Ideal .f32 := V c main_arg10

/-- The hidden layer on the whole array at `(p, k)`. -/
abbrev hiddenRow (h : S1000000x6.Idx → Elt Ideal .f32) (w1 : S6x6.Idx → Elt Ideal .f32) (b1 : S6.Idx → Elt Ideal .f32)
    (p : Fin 1000000) (k : Fin 6) : Elt Ideal .f32 :=
  leaky ((∑ k' : Fin 6, h (ix2 p k') * w1 (ix2 k' k)) + b1 (ix1 k))

/-- The whole-array function of the logits. -/
abbrev G2L (h : S1000000x6.Idx → Elt Ideal .f32) (w1 : S6x6.Idx → Elt Ideal .f32) (b1 : S6.Idx → Elt Ideal .f32)
    (w3 : S6x3.Idx → Elt Ideal .f32) (b3 : S3.Idx → Elt Ideal .f32) : S1000000x3.Idx → Elt Ideal .f32 :=
  fun i => leaky ((∑ k : Fin 6, hiddenRow h w1 b1 (i 0 : Fin 1000000) k * w3 (ix2 k (i 1 : Fin 3))) + b3 (ix1 (i 1 : Fin 3)))

/-- In every control case the logits block after the body is the payload of the point's five input blocks. -/
theorem after2_5_eq (c : Dev nD) (t : Fin cfg2.N) :
    (dat2 V c).after 5 t = k2_pay6 (iblk2 V c 0 t) (iblk2 V c 1 t) (iblk2 V c 2 t) (iblk2 V c 3 t) (iblk2 V c 4 t) := by
  rw [after2_5]
  by_cases h0 : t.val = 0
  · rw [outsAt2_A V c t h0, out2_A_5_eq]
  · by_cases h1 : t.val = 124
    · rw [outsAt2_C V c t h0 h1, out2_C_5_eq]
    · rw [outsAt2_B V c t h0 h1, out2_B_5_eq]

/-- The payload at any index of the block. -/
theorem k2_pay6_at (v3 : Vec Ideal S8000x6 .f32) (v5 : Vec Ideal S6x6 .f32) (v7 : Vec Ideal S6 .f32)
    (v16 : Vec Ideal S6x3 .f32) (v18 : Vec Ideal S3 .f32) (j : S8000x3.Idx) :
    k2_pay6 (F := Ideal) v3 v5 v7 v16 v18 j
      = leaky ((∑ k : Fin 6, hidden v3 v5 v7 (j 0 : Fin 8000) k * v16 (ix2 k (j 1 : Fin 3))) + v18 (ix1 (j 1 : Fin 3))) := by
  obtain ⟨p, q, rfl⟩ : ∃ (p : Fin 8000) (q : Fin 3), j = ix2 p q := ⟨j 0, j 1, eq_ix2 j⟩
  exact k2_pay6_apply v3 v5 v7 v16 v18 p q

/-- The printed index maps over the grid: the input's and the logits' blocks are block `t` of rows, the four small
    operands' block is the whole array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- One point, over plain vectors and indices: if the five blocks read, at the coordinates the payload uses, what the five
    arrays hold at the matching coordinates of array index `i`, the payload at block index `j` is `G2L` at `i`. -/
theorem point2_5 (x0 : Vec Ideal S8000x6 .f32) (x1 : Vec Ideal S6x6 .f32) (x2 : Vec Ideal S6 .f32)
    (x3 : Vec Ideal S6x3 .f32) (x4 : Vec Ideal S3 .f32)
    (a0 : S1000000x6.Idx → Elt Ideal .f32) (a1 : S6x6.Idx → Elt Ideal .f32) (a2 : S6.Idx → Elt Ideal .f32)
    (a3 : S6x3.Idx → Elt Ideal .f32) (a4 : S3.Idx → Elt Ideal .f32) (j : S8000x3.Idx) (i : S1000000x3.Idx)
    (h0 : ∀ k' : Fin 6, x0 (ix2 (j 0 : Fin 8000) k') = a0 (ix2 (i 0 : Fin 1000000) k'))
    (h1 : ∀ k' k : Fin 6, x1 (ix2 k' k) = a1 (ix2 k' k))
    (h2 : ∀ k : Fin 6, x2 (ix1 k) = a2 (ix1 k))
    (h3 : ∀ k : Fin 6, x3 (ix2 k (j 1 : Fin 3)) = a3 (ix2 k (i 1 : Fin 3)))
    (h4 : x4 (ix1 (j 1 : Fin 3)) = a4 (ix1 (i 1 : Fin 3))) :
    k2_pay6 (F := Ideal) x0 x1 x2 x3 x4 j = G2L a0 a1 a2 a3 a4 i := by
  rw [k2_pay6_at]
  show leaky ((∑ k : Fin 6, leaky ((∑ k' : Fin 6, x0 (ix2 (j 0 : Fin 8000) k') * x1 (ix2 k' k)) + x2 (ix1 k))
        * x3 (ix2 k (j 1 : Fin 3))) + x4 (ix1 (j 1 : Fin 3)))
    = leaky ((∑ k : Fin 6, leaky ((∑ k' : Fin 6, a0 (ix2 (i 0 : Fin 1000000) k') * a1 (ix2 k' k)) + a2 (ix1 k))
        * a3 (ix2 k (i 1 : Fin 3))) + a4 (ix1 (i 1 : Fin 3)))
  simp only [h0, h1, h2, h3, h4]

set_option maxHeartbeats 1000000 in
/-- What point `t` writes back is block `t` of `G2L` of the arrays as the region finds them. -/
theorem flushed2_5_eq (c : Dev nD) (t : Fin cfg2.N) :
    (dat2 V c).flushed 5 t = ((cfg2.win 5).blk t).view.read (Elt Ideal)
      (G2L (A2_0 V c) (A2_1 V c) (A2_2 V c) (A2_3 V c) (A2_4 V c)) := by
  show (cfg2.win 5).cut (grid2.coords t) ((dat2 V c).after 5 t) = _
  rw [after2_5_eq]
  obtain ⟨e00, e01, e10, e11, e20, e30, e31, e40, e50, e51⟩ := idx_facts2 t
  funext j
  have h0 : ∀ k' : Fin 6, ((cfg2.win 0).blk t).view.emb (ix2 (j 0 : Fin 8000) k') = ix2 ((((cfg2.win 5).blk t).view.emb j) 0 : Fin 1000000) k' := by
    intro k'; funext a; apply Fin.ext
    match a with
    | ⟨0, _⟩ => show win2_0.index t (0 : Fin 2) * 8000 + 1 * (j 0).val = win2_5.index t (0 : Fin 2) * 8000 + 1 * (j 0).val; omega
    | ⟨1, _⟩ => show win2_0.index t (1 : Fin 2) * 6 + 1 * k'.val = k'.val; omega
  have h1 : ∀ k' k : Fin 6, ((cfg2.win 1).blk t).view.emb (ix2 k' k) = ix2 k' k := by
    intro k' k; funext a; apply Fin.ext
    match a with
    | ⟨0, _⟩ => show win2_1.index t (0 : Fin 2) * 6 + 1 * k'.val = k'.val; omega
    | ⟨1, _⟩ => show win2_1.index t (1 : Fin 2) * 6 + 1 * k.val = k.val; omega
  have h2 : ∀ k : Fin 6, ((cfg2.win 2).blk t).view.emb (ix1 k) = ix1 k := by
    intro k; funext a; apply Fin.ext
    match a with
    | ⟨0, _⟩ => show win2_2.index t (0 : Fin 1) * 6 + 1 * k.val = k.val; omega
  have h3 : ∀ k : Fin 6, ((cfg2.win 3).blk t).view.emb (ix2 k (j 1 : Fin 3)) = ix2 k ((((cfg2.win 5).blk t).view.emb j) 1 : Fin 3) := by
    intro k; funext a; apply Fin.ext
    match a with
    | ⟨0, _⟩ => show win2_3.index t (0 : Fin 2) * 6 + 1 * k.val = k.val; omega
    | ⟨1, _⟩ => show win2_3.index t (1 : Fin 2) * 3 + 1 * (j 1).val = win2_5.index t (1 : Fin 2) * 3 + 1 * (j 1).val; omega
  have h4 : ((cfg2.win 4).blk t).view.emb (ix1 (j 1 : Fin 3)) = ix1 ((((cfg2.win 5).blk t).view.emb j) 1 : Fin 3) := by
    funext a; apply Fin.ext
    match a with
    | ⟨0, _⟩ => show win2_4.index t (0 : Fin 1) * 3 + 1 * (j 1).val = win2_5.index t (1 : Fin 2) * 3 + 1 * (j 1).val; omega
  exact point2_5 (iblk2 V c 0 t) (iblk2 V c 1 t) (iblk2 V c 2 t) (iblk2 V c 3 t) (iblk2 V c 4 t)
    (A2_0 V c) (A2_1 V c) (A2_2 V c) (A2_3 V c) (A2_4 V c) j (((cfg2.win 5).blk t).view.emb j)
    (fun k' => congrArg (A2_0 V c) (h0 k')) (fun k' k => congrArg (A2_1 V c) (h1 k' k))
    (fun k => congrArg (A2_2 V c) (h2 k)) (fun k => congrArg (A2_3 V c) (h3 k)) (congrArg (A2_4 V c) h4)

/-- An index of the array is in point `t`'s block iff each coordinate is in the block's range on its axis. -/
theorem mem_blk2_5 (t : Fin cfg2.N) (i : S1000000x3.Idx) :
    i ∈ ((cfg2.win 5).blk t).view.set ↔ ∀ a : Fin 2, win2_5.index t a * S8000x3.size a ≤ (i a).val ∧ (i a).val < win2_5.index t a * S8000x3.size a + S8000x3.size a := by
  show i ∈ ((View.whole main_v60_0).slice (win2_5.rect t)).set ↔ _
  rw [View.set_slice_whole, Rect.mem_set_unit]
  exact Iff.rfl

/-- Every index of the array is in some point's block: row `r` in the block of point `r / 8000`. -/
theorem cover2_5 (i : S1000000x3.Idx) : ∃ t : Fin cfg2.N, (cfg2.win 5).flush t = true ∧ i ∈ ((cfg2.win 5).blk t).view.set := by
  have hi0 : (i 0).val < 1000000 := (i 0).isLt
  have hi1 : (i 1).val < 3 := (i 1).isLt
  have hN : grid2.N = 125 := N_2
  let t : Fin cfg2.N := ⟨(i 0).val / 8000, by show (i 0).val / 8000 < grid2.N; rw [hN]; omega⟩
  obtain ⟨e00, e01, e10, e11, e20, e30, e31, e40, e50, e51⟩ := idx_facts2 t
  have ht : t.val = (i 0).val / 8000 := rfl
  refine ⟨t, flush2_5 t, ?_⟩
  rw [mem_blk2_5]
  intro a
  match a with
  | ⟨0, _⟩ => show win2_5.index t (0 : Fin 2) * 8000 ≤ (i 0).val ∧ (i 0).val < win2_5.index t (0 : Fin 2) * 8000 + 8000; omega
  | ⟨1, _⟩ => show win2_5.index t (1 : Fin 2) * 3 ≤ (i 1).val ∧ (i 1).val < win2_5.index t (1 : Fin 2) * 3 + 3; omega

/-- The logits array after the region: `G2L` of the arrays the region was entered with. -/
theorem final2_5 (c : Dev nD) :
    (dat2 V c).arrAt 5 cfg2.N = G2L (A2_0 V c) (A2_1 V c) (A2_2 V c) (A2_3 V c) (A2_4 V c) :=
  (dat2 V c).arrAt_eq_of_cover 5 (G2L (A2_0 V c) (A2_1 V c) (A2_2 V c) (A2_3 V c) (A2_4 V c))
    (fun t _ => flushed2_5_eq V c t) cover2_5

end Cert.KernelIdeal.KFrame

end
-- ==== Proof.KFinal2s.lean ====
/-
  Region 2's two small results as arrays. Each of the two 1×3 output windows has the constant block index (0, 0), a
  block that is the whole array, and is written back at the last grid point only; so when the region ends, each
  array holds what the body left in the window's staging buffer at the last point: the column-maximum row and the
  row of logarithms of the column sums.
-/
import proofs.«109717_j65541200937586_2_alg».proof.Proof.KR2Data
import Idealize.ShloMosaic.Lib.Pipeline.Value
import Idealize.ShloMosaic.Lib.Tactic

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

variable (V : (c : Dev nD) → (b : Ref sig .tc) → Buf (Elt F) ((c : Thread nD τ).loc b))

/-- The last of the 125 grid points. -/
abbrev tLast2 : Fin cfg2.N := ⟨124, by decide⟩

/-- What window 6's array ends holding: the column-maximum row the body left at the last point. -/
abbrev res2_6 (c : Dev nD) : Buf (Elt F) ((c : Thread nD τ).loc main_v60_1) := (outsAt2 V c 124 tLast2.isLt).2.1

/-- The one write-back of window 6, at the last point, writes it: block (0, 0) of the 1×3 array read through zero
    offsets is the array. -/
theorem flushed2_6_eq (c : Dev nD) (t : Fin cfg2.N) (hf : (cfg2.win 6).flush t = true) :
    (dat2 V c).flushed 6 t = ((cfg2.win 6).blk t).view.read (Elt F) (res2_6 V c) := by
  have hN : cfg2.N = 125 := N_2
  have h3 : t.val = 124 := by have := (flush2_6 t).mp hf; have := t.isLt; omega
  obtain rfl : t = tLast2 := Fin.ext h3
  show (cfg2.win 6).cut (grid2.coords tLast2) ((dat2 V c).after 6 tLast2) = _
  rw [after2_6]
  have hz' : (fun a => win2_6.index tLast2 a * main_v60_1.ty.shape.size a) = fun _ => 0 := funext fun a => by fin_cases a <;> decide
  exact (Memref.read_access_unit_zero (Elt F) main_v60_1 hz' (fun a => by rw [congrFun hz' a]; simp) (res2_6 V c)).symm

/-- So window 6's array ends holding the column-maximum row of the last point. -/
theorem final2_6' (c : Dev nD) : (dat2 V c).arrAt 6 cfg2.N = res2_6 V c :=
  (dat2 V c).arrAt_eq_of_cover 6 (res2_6 V c) (flushed2_6_eq V c) fun i =>
    ⟨tLast2, (flush2_6 tLast2).mpr rfl, by
      show i ∈ ((View.whole main_v60_1).slice (win2_6.rect tLast2)).set
      rw [View.set_slice_whole, Rect.mem_set_unit]
      intro a
      have h0 : (i 0 : Nat) < 1 := (i 0).isLt
      have h1 : (i 1 : Nat) < 3 := (i 1).isLt
      match a with
      | ⟨0, _⟩ => show win2_6.index tLast2 0 * win2_6.size 0 ≤ (i 0 : Nat) ∧ (i 0 : Nat) < win2_6.index tLast2 0 * win2_6.size 0 + win2_6.xsize (grid2.coords tLast2) 0
                  rw [show win2_6.index tLast2 0 * win2_6.size 0 = 0 from by decide +kernel, show win2_6.xsize (grid2.coords tLast2) 0 = 1 from by decide +kernel]; omega
      | ⟨1, _⟩ => show win2_6.index tLast2 1 * win2_6.size 1 ≤ (i 1 : Nat) ∧ (i 1 : Nat) < win2_6.index tLast2 1 * win2_6.size 1 + win2_6.xsize (grid2.coords tLast2) 1
                  rw [show win2_6.index tLast2 1 * win2_6.size 1 = 0 from by decide +kernel, show win2_6.xsize (grid2.coords tLast2) 1 = 3 from by decide +kernel]; omega⟩

/-- The same with the proof that 124 is a grid point given by the caller. -/
theorem final2_6 (c : Dev nD) (h : 124 < cfg2.N) : (dat2 V c).arrAt 6 cfg2.N = (outsAt2 V c 124 h).2.1 :=
  final2_6' V c

/-- What window 7's array ends holding: the row of logarithms of the column sums the body left at the last point. -/
abbrev res2_7 (c : Dev nD) : Buf (Elt F) ((c : Thread nD τ).loc main_v60_2) := (outsAt2 V c 124 tLast2.isLt).2.2.1

/-- The one write-back of window 7, at the last point, writes it: block (0, 0) of the 1×3 array read through zero
    offsets is the array. -/
theorem flushed2_7_eq (c : Dev nD) (t : Fin cfg2.N) (hf : (cfg2.win 7).flush t = true) :
    (dat2 V c).flushed 7 t = ((cfg2.win 7).blk t).view.read (Elt F) (res2_7 V c) := by
  have hN : cfg2.N = 125 := N_2
  have h3 : t.val = 124 := by have := (flush2_7 t).mp hf; have := t.isLt; omega
  obtain rfl : t = tLast2 := Fin.ext h3
  show (cfg2.win 7).cut (grid2.coords tLast2) ((dat2 V c).after 7 tLast2) = _
  rw [after2_7]
  have hz' : (fun a => win2_7.index tLast2 a * main_v60_2.ty.shape.size a) = fun _ => 0 := funext fun a => by fin_cases a <;> decide
  exact (Memref.read_access_unit_zero (Elt F) main_v60_2 hz' (fun a => by rw [congrFun hz' a]; simp) (res2_7 V c)).symm

/-- So window 7's array ends holding the row of logarithms of the column sums of the last point. -/
theorem final2_7' (c : Dev nD) : (dat2 V c).arrAt 7 cfg2.N = res2_7 V c :=
  (dat2 V c).arrAt_eq_of_cover 7 (res2_7 V c) (flushed2_7_eq V c) fun i =>
    ⟨tLast2, (flush2_7 tLast2).mpr rfl, by
      show i ∈ ((View.whole main_v60_2).slice (win2_7.rect tLast2)).set
      rw [View.set_slice_whole, Rect.mem_set_unit]
      intro a
      have h0 : (i 0 : Nat) < 1 := (i 0).isLt
      have h1 : (i 1 : Nat) < 3 := (i 1).isLt
      match a with
      | ⟨0, _⟩ => show win2_7.index tLast2 0 * win2_7.size 0 ≤ (i 0 : Nat) ∧ (i 0 : Nat) < win2_7.index tLast2 0 * win2_7.size 0 + win2_7.xsize (grid2.coords tLast2) 0
                  rw [show win2_7.index tLast2 0 * win2_7.size 0 = 0 from by decide +kernel, show win2_7.xsize (grid2.coords tLast2) 0 = 1 from by decide +kernel]; omega
      | ⟨1, _⟩ => show win2_7.index tLast2 1 * win2_7.size 1 ≤ (i 1 : Nat) ∧ (i 1 : Nat) < win2_7.index tLast2 1 * win2_7.size 1 + win2_7.xsize (grid2.coords tLast2) 1
                  rw [show win2_7.index tLast2 1 * win2_7.size 1 = 0 from by decide +kernel, show win2_7.xsize (grid2.coords tLast2) 1 = 3 from by decide +kernel]; omega⟩

/-- The same with the proof that 124 is a grid point given by the caller. -/
theorem final2_7 (c : Dev nD) (h : 124 < cfg2.N) : (dat2 V c).arrAt 7 cfg2.N = (outsAt2 V c 124 h).2.2.1 :=
  final2_7' V c

end Cert.KernelIdeal.KFrame

end
-- ==== Proof.KFinal3.lean ====
import proofs.«109717_j65541200937586_2_alg».proof.Proof.KRegion3
import proofs.«109717_j65541200937586_2_alg».proof.Proof.KPayA
import Idealize.ShloMosaic.Lib.Pipeline.Value

/-! # Region 3, from blocks to the array, at the ideal values

After the region the output array is one function of the three arrays the region was entered with: at row `r` and
column `q` the logit less the column's maximum less the column's log-normalizer. Point `t` writes back rows
`8000 t … 8000 t + 7999` of that function; the 125 blocks cover the million rows. -/

set_option maxRecDepth 16384

noncomputable section

namespace Cert.KernelIdeal.KFrame

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three arrays as the region finds them, at their literal types. -/
abbrev A3_0 (c : Dev nD) : S1000000x3.Idx → Elt Ideal .f32 := V c main_v60_0
abbrev A3_1 (c : Dev nD) : S1x3.Idx → Elt Ideal .f32 := V c main_v60_1
abbrev A3_2 (c : Dev nD) : S1x3.Idx → Elt Ideal .f32 := V c main_v60_2

/-- The whole-array function: entry `(r, q)` of the logits less entry `(0, q)` of each one-row operand. -/
abbrev G3 (a0 : S1000000x3.Idx → Elt Ideal .f32) (a1 a2 : S1x3.Idx → Elt Ideal .f32) : S1000000x3.Idx → Elt Ideal .f32 :=
  fun i => a0 i - a1 (ix2 (0 : Fin 1) (i 1 : Fin 3)) - a2 (ix2 (0 : Fin 1) (i 1 : Fin 3))

/-- The payload at any index of the block. -/
theorem k3_pay1_at (x0 : Vec Ideal S8000x3 .f32) (m l : Vec Ideal S1x3 .f32) (j : S8000x3.Idx) :
    k3_pay1 (F := Ideal) x0 m l j = x0 j - m (ix2 (0 : Fin 1) (j 1 : Fin 3)) - l (ix2 (0 : Fin 1) (j 1 : Fin 3)) := by
  obtain ⟨p, q, rfl⟩ : ∃ (p : Fin 8000) (q : Fin 3), j = ix2 p q := ⟨j 0, j 1, eq_ix2 j⟩
  exact k3_pay1_apply x0 m l p q

/-- The printed index maps over the grid: the logits' and the output's blocks are block `t` of rows, the one-row
    operands' block is the whole array. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of `G3` of the arrays as the region finds them. -/
theorem flushed3_eq (c : Dev nD) (t : Fin cfg3.N) :
    (dat3 V c).flushed 3 t = ((cfg3.win 3).blk t).view.read (Elt Ideal) (G3 (A3_0 V c) (A3_1 V c) (A3_2 V c)) := by
  show (cfg3.win 3).cut (grid3.coords t) ((dat3 V c).after 3 t) = _
  rw [after3_3, out3_3_eq]
  obtain ⟨e00, e01, e10, e11, e20, e21, e30, e31⟩ := idx_facts3 t
  funext j
  refine (k3_pay1_at _ _ _ j).trans ?_
  show A3_0 V c (((cfg3.win 0).blk t).view.emb j)
      - A3_1 V c (((cfg3.win 1).blk t).view.emb (ix2 (0 : Fin 1) (j 1 : Fin 3)))
      - A3_2 V c (((cfg3.win 2).blk t).view.emb (ix2 (0 : Fin 1) (j 1 : Fin 3)))
    = A3_0 V c (((cfg3.win 3).blk t).view.emb j)
      - A3_1 V c (ix2 (0 : Fin 1) ((((cfg3.win 3).blk t).view.emb j) 1 : Fin 3))
      - A3_2 V c (ix2 (0 : Fin 1) ((((cfg3.win 3).blk t).view.emb j) 1 : Fin 3))
  have h0 : ((cfg3.win 0).blk t).view.emb j = ((cfg3.win 3).blk t).view.emb j := by
    funext a; apply Fin.ext
    match a with
    | ⟨0, _⟩ => show win3_0.index t (0 : Fin 2) * 8000 + 1 * (j 0).val = win3_3.index t (0 : Fin 2) * 8000 + 1 * (j 0).val; omega
    | ⟨1, _⟩ => show win3_0.index t (1 : Fin 2) * 3 + 1 * (j 1).val = win3_3.index t (1 : Fin 2) * 3 + 1 * (j 1).val; omega
  have h1 : ((cfg3.win 1).blk t).view.emb (ix2 (0 : Fin 1) (j 1 : Fin 3))
      = ix2 (0 : Fin 1) ((((cfg3.win 3).blk t).view.emb j) 1 : Fin 3) := by
    funext a; apply Fin.ext
    match a with
    | ⟨0, _⟩ => show win3_1.index t (0 : Fin 2) * 1 + 1 * 0 = 0; omega
    | ⟨1, _⟩ => show win3_1.index t (1 : Fin 2) * 3 + 1 * (j 1).val = win3_3.index t (1 : Fin 2) * 3 + 1 * (j 1).val; omega
  have h2 : ((cfg3.win 2).blk t).view.emb (ix2 (0 : Fin 1) (j 1 : Fin 3))
      = ix2 (0 : Fin 1) ((((cfg3.win 3).blk t).view.emb j) 1 : Fin 3) := by
    funext a; apply Fin.ext
    match a with
    | ⟨0, _⟩ => show win3_2.index t (0 : Fin 2) * 1 + 1 * 0 = 0; omega
    | ⟨1, _⟩ => show win3_2.index t (1 : Fin 2) * 3 + 1 * (j 1).val = win3_3.index t (1 : Fin 2) * 3 + 1 * (j 1).val; omega
  rw [h0, h1, h2]
  rfl

/-- An index of the array is in point `t`'s block iff each coordinate is in the block's range on its axis. -/
theorem mem_blk3 (t : Fin cfg3.N) (i : S1000000x3.Idx) :
    i ∈ ((cfg3.win 3).blk t).view.set ↔ ∀ a : Fin 2, win3_3.index t a * S8000x3.size a ≤ (i a).val ∧ (i a).val < win3_3.index t a * S8000x3.size a + S8000x3.size a := by
  show i ∈ ((View.whole main_v61).slice (win3_3.rect t)).set ↔ _
  rw [View.set_slice_whole, Rect.mem_set_unit]
  exact Iff.rfl

/-- Every index of the array is in some point's block: row `r` in the block of point `r / 8000`. -/
theorem cover3 (i : S1000000x3.Idx) : ∃ t : Fin cfg3.N, (cfg3.win 3).flush t = true ∧ i ∈ ((cfg3.win 3).blk t).view.set := by
  have hi0 : (i 0).val < 1000000 := (i 0).isLt
  have hi1 : (i 1).val < 3 := (i 1).isLt
  have hN : grid3.N = 125 := N_3
  let t : Fin cfg3.N := ⟨(i 0).val / 8000, by show (i 0).val / 8000 < grid3.N; rw [hN]; omega⟩
  obtain ⟨e00, e01, e10, e11, e20, e21, e30, e31⟩ := idx_facts3 t
  have ht : t.val = (i 0).val / 8000 := rfl
  refine ⟨t, flush3_3 t, ?_⟩
  rw [mem_blk3]
  intro a
  match a with
  | ⟨0, _⟩ => show win3_3.index t (0 : Fin 2) * 8000 ≤ (i 0).val ∧ (i 0).val < win3_3.index t (0 : Fin 2) * 8000 + 8000; omega
  | ⟨1, _⟩ => show win3_3.index t (1 : Fin 2) * 3 ≤ (i 1).val ∧ (i 1).val < win3_3.index t (1 : Fin 2) * 3 + 3; omega

/-- The array after the region: `G3` of the arrays the region was entered with. -/
theorem final3 (c : Dev nD) :
    (dat3 V c).arrAt 3 cfg3.N = G3 (A3_0 V c) (A3_1 V c) (A3_2 V c) :=
  (dat3 V c).arrAt_eq_of_cover 3 (G3 (A3_0 V c) (A3_1 V c) (A3_2 V c)) (fun t _ => flushed3_eq V c t) (cover3)

end Cert.KernelIdeal.KFrame

end
-- ==== Proof.RefApply.lean ====
import proofs.«109717_j65541200937586_2_alg».proof.Proof.RefStages
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-! # The reference's dense stages read at an index, at the ideal values

The feature product, the bias-and-rectifier stage and the two dense layers of the reference, each at row `p` and a
column: sums over the one contracted coordinate, the biases read at the column (a vector made a one-row matrix and
broadcast down the rows), the leaky rectifier as the selection it prints. -/

noncomputable section

namespace Cert.ReferenceIdeal.RefRun

open Cert.ReferenceIdeal Cert.ReferenceIdeal.Gen
open Idealize.ShloMosaic Idealize.ShloMosaic.ValueIdx
open scoped BigOperators

/-- The leaky rectifier of one value: the value where it is at least zero (ordered comparison), else the constant
    `0x3C23D70A` times it. -/
abbrev leaky' (y : Elt Ideal .f32) : Elt Ideal .f32 :=
  Scalar.select (FloatOps.cmpf .oge y (Ideal.ofBits .f32 0x00000000#32)) y (Ideal.ofBits .f32 0x3C23D70A#32 * y)

/-! ## The products -/

/-- The 1000000×3 by 3×3 product at `(p, c)`: the sum over the contracted coordinate. -/
theorem dot_1000000x3_3x3_apply (A : FVec Ideal S1000000x3 .f32) (B : FVec Ideal S3x3 .f32) (p : Fin 1000000) (c : Fin 3) :
    Host.dotGeneral dot_S1000000x3_S3x3_S1000000x3_1_0_0_1_n_n none A B (ix2 p c) = ∑ k : Fin 3, A (ix2 p k) * B (ix2 k c) := by
  show FloatOps.dotGeneral _ none _ A B (ix2 p c) = _
  rw [Ideal.dotGeneral_apply, ← Equiv.sum_comp (contrEquiv1 dot_S1000000x3_S3x3_S1000000x3_1_0_0_1_n_n 3 rfl rfl).symm]
  refine Finset.sum_congr rfl fun k _ => ?_
  have c2 := contrEquiv1_symm_val dot_S1000000x3_S3x3_S1000000x3_1_0_0_1_n_n 3 rfl rfl k
  have l2 : dot_S1000000x3_S3x3_S1000000x3_1_0_0_1_n_n.lhsIdx (ix2 p c) ((contrEquiv1 dot_S1000000x3_S3x3_S1000000x3_1_0_0_1_n_n 3 rfl rfl).symm k) = ix2 p k := by
    funext ax; apply Fin.ext
    match ax with
    | ⟨0, _⟩ => simp [DotDims.lhsIdx, dot_S1000000x3_S3x3_S1000000x3_1_0_0_1_n_n]; rfl
    | ⟨1, _⟩ => simp [DotDims.lhsIdx, dot_S1000000x3_S3x3_S1000000x3_1_0_0_1_n_n]; exact c2
  have r2 : dot_S1000000x3_S3x3_S1000000x3_1_0_0_1_n_n.rhsIdx (ix2 p c) ((contrEquiv1 dot_S1000000x3_S3x3_S1000000x3_1_0_0_1_n_n 3 rfl rfl).symm k) = ix2 k c := by
    funext ax; apply Fin.ext
    match ax with
    | ⟨0, _⟩ => simp [DotDims.rhsIdx, dot_S1000000x3_S3x3_S1000000x3_1_0_0_1_n_n]; exact c2
    | ⟨1, _⟩ => simp [DotDims.rhsIdx, dot_S1000000x3_S3x3_S1000000x3_1_0_0_1_n_n]; rfl
  rw [l2, r2]

/-- The 1000000×6 by 6×6 product at `(p, c)`. -/
theorem dot_1000000x6_6x6_apply (A : FVec Ideal S1000000x6 .f32) (B : FVec Ideal S6x6 .f32) (p : Fin 1000000) (c : Fin 6) :
    Host.dotGeneral dot_S1000000x6_S6x6_S1000000x6_1_0_0_1_n_n none A B (ix2 p c) = ∑ k : Fin 6, A (ix2 p k) * B (ix2 k c) := by
  show FloatOps.dotGeneral _ none _ A B (ix2 p c) = _
  rw [Ideal.dotGeneral_apply, ← Equiv.sum_comp (contrEquiv1 dot_S1000000x6_S6x6_S1000000x6_1_0_0_1_n_n 6 rfl rfl).symm]
  refine Finset.sum_congr rfl fun k _ => ?_
  have c2 := contrEquiv1_symm_val dot_S1000000x6_S6x6_S1000000x6_1_0_0_1_n_n 6 rfl rfl k
  have l2 : dot_S1000000x6_S6x6_S1000000x6_1_0_0_1_n_n.lhsIdx (ix2 p c) ((contrEquiv1 dot_S1000000x6_S6x6_S1000000x6_1_0_0_1_n_n 6 rfl rfl).symm k) = ix2 p k := by
    funext ax; apply Fin.ext
    match ax with
    | ⟨0, _⟩ => simp [DotDims.lhsIdx, dot_S1000000x6_S6x6_S1000000x6_1_0_0_1_n_n]; rfl
    | ⟨1, _⟩ => simp [DotDims.lhsIdx, dot_S1000000x6_S6x6_S1000000x6_1_0_0_1_n_n]; exact c2
  have r2 : dot_S1000000x6_S6x6_S1000000x6_1_0_0_1_n_n.rhsIdx (ix2 p c) ((contrEquiv1 dot_S1000000x6_S6x6_S1000000x6_1_0_0_1_n_n 6 rfl rfl).symm k) = ix2 k c := by
    funext ax; apply Fin.ext
    match ax with
    | ⟨0, _⟩ => simp [DotDims.rhsIdx, dot_S1000000x6_S6x6_S1000000x6_1_0_0_1_n_n]; exact c2
    | ⟨1, _⟩ => simp [DotDims.rhsIdx, dot_S1000000x6_S6x6_S1000000x6_1_0_0_1_n_n]; rfl
  rw [l2, r2]

/-- The 1000000×6 by 6×3 product at `(p, c)`. -/
theorem dot_1000000x6_6x3_apply (A : FVec Ideal S1000000x6 .f32) (B : FVec Ideal S6x3 .f32) (p : Fin 1000000) (c : Fin 3) :
    Host.dotGeneral dot_S1000000x6_S6x3_S1000000x3_1_0_0_1_n_n none A B (ix2 p c) = ∑ k : Fin 6, A (ix2 p k) * B (ix2 k c) := by
  show FloatOps.dotGeneral _ none _ A B (ix2 p c) = _
  rw [Ideal.dotGeneral_apply, ← Equiv.sum_comp (contrEquiv1 dot_S1000000x6_S6x3_S1000000x3_1_0_0_1_n_n 6 rfl rfl).symm]
  refine Finset.sum_congr rfl fun k _ => ?_
  have c2 := contrEquiv1_symm_val dot_S1000000x6_S6x3_S1000000x3_1_0_0_1_n_n 6 rfl rfl k
  have l2 : dot_S1000000x6_S6x3_S1000000x3_1_0_0_1_n_n.lhsIdx (ix2 p c) ((contrEquiv1 dot_S1000000x6_S6x3_S1000000x3_1_0_0_1_n_n 6 rfl rfl).symm k) = ix2 p k := by
    funext ax; apply Fin.ext
    match ax with
    | ⟨0, _⟩ => simp [DotDims.lhsIdx, dot_S1000000x6_S6x3_S1000000x3_1_0_0_1_n_n]; rfl
    | ⟨1, _⟩ => simp [DotDims.lhsIdx, dot_S1000000x6_S6x3_S1000000x3_1_0_0_1_n_n]; exact c2
  have r2 : dot_S1000000x6_S6x3_S1000000x3_1_0_0_1_n_n.rhsIdx (ix2 p c) ((contrEquiv1 dot_S1000000x6_S6x3_S1000000x3_1_0_0_1_n_n 6 rfl rfl).symm k) = ix2 k c := by
    funext ax; apply Fin.ext
    match ax with
    | ⟨0, _⟩ => simp [DotDims.rhsIdx, dot_S1000000x6_S6x3_S1000000x3_1_0_0_1_n_n]; exact c2
    | ⟨1, _⟩ => simp [DotDims.rhsIdx, dot_S1000000x6_S6x3_S1000000x3_1_0_0_1_n_n]; rfl
  rw [l2, r2]

/-! ## The biases and the rectifiers -/

/-- A vector of three made a one-row matrix and broadcast down the million rows reads, at `(p, c)`, its entry `c`. -/
theorem bias3_apply (b : FVec Ideal S3 .f32) (p : Fin 1000000) (c : Fin 3) :
    broadcastInDim S1000000x3 ![0, 1] bcast_S1x3_S1000000x3_0_1 (broadcastInDim S1x3 ![1] bcast_S3_S1x3_1 b) (ix2 p c) = b (ix1 c) := by
  rw [broadcastInDim_apply _ _ _ (ix2 p c) (ix2 (0 : Fin 1) c) (fun a => by match a with | ⟨0, _⟩ => rfl | ⟨1, _⟩ => rfl),
    broadcastInDim_apply _ _ _ (ix2 (0 : Fin 1) c) (ix1 c) (fun a => by match a with | ⟨0, _⟩ => rfl)]

/-- The same for a vector of six. -/
theorem bias6_apply (b : FVec Ideal S6 .f32) (p : Fin 1000000) (k : Fin 6) :
    broadcastInDim S1000000x6 ![0, 1] bcast_S1x6_S1000000x6_0_1 (broadcastInDim S1x6 ![1] bcast_S6_S1x6_1 b) (ix2 p k) = b (ix1 k) := by
  rw [broadcastInDim_apply _ _ _ (ix2 p k) (ix2 (0 : Fin 1) k) (fun a => by match a with | ⟨0, _⟩ => rfl | ⟨1, _⟩ => rfl),
    broadcastInDim_apply _ _ _ (ix2 (0 : Fin 1) k) (ix1 k) (fun a => by match a with | ⟨0, _⟩ => rfl)]

/-- The rectifier on three columns at any index. -/
theorem leaky3_at (x : FVec Ideal S1000000x3 .f32) (i : S1000000x3.Idx) : leaky3 (F := Ideal) x i = leaky' (x i) := by
  unfold leaky3
  rw [select_apply, cmpf_apply, mulf_apply, broadcastInDim_scalar_apply, broadcastInDim_scalar_apply]
  rfl

/-- The rectifier on six columns at any index. -/
theorem leaky6_at (x : FVec Ideal S1000000x6 .f32) (i : S1000000x6.Idx) : leaky6 (F := Ideal) x i = leaky' (x i) := by
  unfold leaky6
  rw [select_apply, cmpf_apply, mulf_apply, broadcastInDim_scalar_apply, broadcastInDim_scalar_apply]
  rfl

/-! ## The stages -/

/-- The feature product at `(p, c)`. -/
theorem xOf_apply (emb : FVec Ideal S1000000x3 .f32) (w : FVec Ideal S3x3 .f32) (p : Fin 1000000) (c : Fin 3) :
    xOf (F := Ideal) emb w (ix2 p c) = ∑ k : Fin 3, emb (ix2 p k) * w (ix2 k c) := by
  unfold xOf
  exact dot_1000000x3_3x3_apply emb w p c

/-- Bias and rectifier at `(p, c)`. -/
theorem convOf_apply (agg : FVec Ideal S1000000x3 .f32) (b : FVec Ideal S3 .f32) (p : Fin 1000000) (c : Fin 3) :
    convOf (F := Ideal) agg b (ix2 p c) = leaky' (agg (ix2 p c) + b (ix1 c)) := by
  unfold convOf
  rw [leaky3_at, addf_apply, bias3_apply]

/-- The two dense layers at `(p, j)`. -/
theorem logitsOf_apply (h : FVec Ideal S1000000x6 .f32) (w1 : FVec Ideal S6x6 .f32) (b1 : FVec Ideal S6 .f32)
    (w3 : FVec Ideal S6x3 .f32) (b3 : FVec Ideal S3 .f32) (p : Fin 1000000) (j : Fin 3) :
    logitsOf (F := Ideal) h w1 b1 w3 b3 (ix2 p j)
      = leaky' ((∑ k : Fin 6, leaky' ((∑ k' : Fin 6, h (ix2 p k') * w1 (ix2 k' k)) + b1 (ix1 k)) * w3 (ix2 k j)) + b3 (ix1 j)) := by
  unfold logitsOf
  rw [leaky3_at, addf_apply, bias3_apply, dot_1000000x6_6x3_apply]
  simp only [leaky6_at, addf_apply, dot_1000000x6_6x6_apply]
  refine congrArg (fun s => leaky' (s + b3 (ix1 j))) (Finset.sum_congr rfl fun k _ => ?_)
  rw [bias6_apply]

end Cert.ReferenceIdeal.RefRun

end
-- ==== Proof.KValue1.lean ====
/-
  What the regions leave, as the reference's stage functions. Region 0's output array is the feature product of the
  two arguments it reads; region 1's is the bias-and-rectifier stage of the aggregation; region 2's logits array is
  the two dense layers of the gathered rows; its two small arrays are the running rows after the last grid point.
  Each is read off the region's write-backs (one whole-array function, entry by entry) and met with the reference's
  stage at the same entry.
-/
import proofs.«109717_j65541200937586_2_alg».proof.Proof.KHost2
import proofs.«109717_j65541200937586_2_alg».proof.Proof.KFinal0
import proofs.«109717_j65541200937586_2_alg».proof.Proof.KFinal1
import proofs.«109717_j65541200937586_2_alg».proof.Proof.KFinal2
import proofs.«109717_j65541200937586_2_alg».proof.Proof.KFinal2s
import proofs.«109717_j65541200937586_2_alg».proof.Proof.KFinal3
import proofs.«109717_j65541200937586_2_alg».proof.Proof.RefApply

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
variable (m : (ℓ : Loc nD τ sig) → Buf (Elt Ideal) ℓ) (ρ : Dev nD → PrngReg)

/-- After region 0: the feature product. -/
theorem W6_v30 (c : Dev nD) :
    W6 m ρ c (Proc.devRef .tc main_v30) = Cert.ReferenceIdeal.RefRun.xOf (F := Ideal) (m ((c : Thread nD τ).loc main_arg4)) (m ((c : Thread nD τ).loc main_arg5)) := by
  have e4 : A0_0 (V5 m ρ) c = (m ((c : Thread nD τ).loc main_arg4) : S1000000x3.Idx → Elt Ideal .f32) := W5_arg4 m ρ c
  have e5 : A0_1 (V5 m ρ) c = (m ((c : Thread nD τ).loc main_arg5) : S3x3.Idx → Elt Ideal .f32) := W5_arg5 m ρ c
  rw [show W6 m ρ c (Proc.devRef .tc main_v30) = (dat0 (V5 m ρ) c).arrAt 2 cfg0.N from W6_arr m ρ c 2, final0, e4, e5]
  funext i
  obtain ⟨p, q, rfl⟩ : ∃ (p : Fin 1000000) (q : Fin 3), i = ix2 p q := ⟨i 0, i 1, eq_ix2 i⟩
  rw [Cert.ReferenceIdeal.RefRun.xOf_apply]

/-- After region 1: bias and rectifier of what the stretch before it left. -/
theorem W8_v44 (c : Dev nD) :
    W8 m ρ c (Proc.devRef .tc main_v44)
      = Cert.ReferenceIdeal.RefRun.convOf (F := Ideal) (W7 m ρ c (Proc.devRef .tc main_v43)) (m ((c : Thread nD τ).loc main_arg6)) := by
  have e6 : A1_1 (V7 m ρ) c = (m ((c : Thread nD τ).loc main_arg6) : S3.Idx → Elt Ideal .f32) := W7_arg6 m ρ c
  rw [show W8 m ρ c (Proc.devRef .tc main_v44) = (dat1 (V7 m ρ) c).arrAt 2 cfg1.N from W8_arr m ρ c 2, final1, e6]
  funext i
  obtain ⟨p, q, rfl⟩ : ∃ (p : Fin 1000000) (q : Fin 3), i = ix2 p q := ⟨i 0, i 1, eq_ix2 i⟩
  rw [Cert.ReferenceIdeal.RefRun.convOf_apply]

/-- After region 2, the logits array: the two dense layers of what the stretch before it left. -/
theorem W10_v60_0 (c : Dev nD) :
    W10 m ρ c (Proc.devRef .tc main_v60_0)
      = Cert.ReferenceIdeal.RefRun.logitsOf (F := Ideal) (W9 m ρ c (Proc.devRef .tc main_v59)) (m ((c : Thread nD τ).loc main_arg7)) (m ((c : Thread nD τ).loc main_arg8)) (m ((c : Thread nD τ).loc main_arg9)) (m ((c : Thread nD τ).loc main_arg10)) := by
  have e7 : A2_1 (V9 m ρ) c = (m ((c : Thread nD τ).loc main_arg7) : S6x6.Idx → Elt Ideal .f32) := W9_arg7 m ρ c
  have e8 : A2_2 (V9 m ρ) c = (m ((c : Thread nD τ).loc main_arg8) : S6.Idx → Elt Ideal .f32) := W9_arg8 m ρ c
  have e9 : A2_3 (V9 m ρ) c = (m ((c : Thread nD τ).loc main_arg9) : S6x3.Idx → Elt Ideal .f32) := W9_arg9 m ρ c
  have e10 : A2_4 (V9 m ρ) c = (m ((c : Thread nD τ).loc main_arg10) : S3.Idx → Elt Ideal .f32) := W9_arg10 m ρ c
  rw [show W10 m ρ c (Proc.devRef .tc main_v60_0) = (dat2 (V9 m ρ) c).arrAt 5 cfg2.N from W10_arr m ρ c 5, final2_5, e7, e8, e9, e10]
  funext i
  obtain ⟨p, q, rfl⟩ : ∃ (p : Fin 1000000) (q : Fin 3), i = ix2 p q := ⟨i 0, i 1, eq_ix2 i⟩
  rw [Cert.ReferenceIdeal.RefRun.logitsOf_apply]

/-- After region 2, the two small arrays: the running rows after the last grid point. -/
theorem W10_v60_1 (c : Dev nD) (h : 124 < cfg2.N) :
    W10 m ρ c (Proc.devRef .tc main_v60_1) = (outsAt2 (V9 m ρ) c 124 h).2.1 :=
  (W10_arr m ρ c 6).trans (final2_6 (V9 m ρ) c h)
theorem W10_v60_2 (c : Dev nD) (h : 124 < cfg2.N) :
    W10 m ρ c (Proc.devRef .tc main_v60_2) = (outsAt2 (V9 m ρ) c 124 h).2.2.1 :=
  (W10_arr m ρ c 7).trans (final2_7 (V9 m ρ) c h)

/-- The logits array, all the way back to the arguments: the reference's stages composed. -/
theorem W10_logits (c : Dev nD) :
    W10 m ρ c (Proc.devRef .tc main_v60_0)
      = Cert.ReferenceIdeal.RefRun.logitsOf (F := Ideal)
          (Cert.ReferenceIdeal.RefRun.hOf (m ((c : Thread nD τ).loc main_arg2)) (m ((c : Thread nD τ).loc main_arg3))
            (Cert.ReferenceIdeal.RefRun.convOf
              (Cert.ReferenceIdeal.RefRun.aggOf (m ((c : Thread nD τ).loc main_arg0)) (Cert.ReferenceIdeal.RefRun.normOf (m ((c : Thread nD τ).loc main_arg0)) (m ((c : Thread nD τ).loc main_arg1)))
                (Cert.ReferenceIdeal.RefRun.xOf (m ((c : Thread nD τ).loc main_arg4)) (m ((c : Thread nD τ).loc main_arg5))))
              (m ((c : Thread nD τ).loc main_arg6))))
          (m ((c : Thread nD τ).loc main_arg7)) (m ((c : Thread nD τ).loc main_arg8)) (m ((c : Thread nD τ).loc main_arg9)) (m ((c : Thread nD τ).loc main_arg10)) := by
  rw [W10_v60_0, W9_v59, W8_v44, W7_v43, W5_v29, W6_v30]

end Cert.KernelIdeal.KFrame

end
-- ==== Proof.LibLogSumExp.lean ====
/-
  The online (tile by tile) log-sum-exp law on the extended reals.

  A column of `T * w` real numbers is read in `T` tiles of `w` entries. The online scheme keeps a running
  maximum `m` and a running sum `l`: from `m = -∞`, `l = 0`, each tile with maximum `a` and entries `x r` gives
  `m' = max m a` and `l' = l * exp (m - m') + ∑ r, exp (x r - m')`. After the last tile `m` is the maximum of the
  whole column and `l` is `∑ exp (x - m)` over the whole column, so `x - m - log l` is the log-softmax that the
  two-pass scheme (first the maximum, then the sum) computes. Everything is stated at the extended reals with
  the exact operations (`exp ⊥ = 0`, `log` of a positive real the real logarithm), and proved by passing to ℝ.
-/
import Idealize.ShloMosaic.PureOps.Ideal
import Mathlib.Algebra.BigOperators.Fin
import Mathlib.Logic.Equiv.Fin.Basic
import Mathlib.Data.Finset.Lattice.Fold

noncomputable section

namespace LibLogSumExp

open Idealize.ShloMosaic
open scoped BigOperators

/-! ## Finite maxima and sums of reals inside the extended reals -/

/-- The inclusion of ℝ in the extended reals preserves the maximum of two numbers. -/
theorem coe_max (a b : ℝ) : ((max a b : ℝ) : EReal) = max (a : EReal) (b : EReal) :=
  EReal.coe_strictMono.monotone.map_max

/-- The supremum in the extended reals of finitely many reals, over a nonempty index set, is the real
    number that is their maximum. -/
theorem sup_coe {ι : Type*} (s : Finset ι) (hs : s.Nonempty) (f : ι → ℝ) :
    s.sup (fun i => (f i : EReal)) = ((s.sup' hs f : ℝ) : EReal) := by
  have h := Finset.comp_sup'_eq_sup'_comp hs (f := f) Real.toEReal coe_max
  exact (Finset.sup'_eq_sup hs _).symm.trans h.symm

/-- A fold of `max` from `⊥` over a finite set is the supremum over the set. -/
theorem fold_max_bot {ι : Type*} (s : Finset ι) (f : ι → EReal) : s.fold max ⊥ f = s.sup f := rfl

/-- A fold of `max` from `⊥` over a nonempty finite family of reals is their (real) maximum. -/
theorem fold_max_bot_coe {ι : Type*} (s : Finset ι) (hs : s.Nonempty) (f : ι → ℝ) :
    s.fold max ⊥ (fun i => (f i : EReal)) = ((s.sup' hs f : ℝ) : EReal) := sup_coe s hs f

/-- A left fold of `max` along a list, from any start `a`: the maximum of `a` and the supremum over the list's
    elements. -/
theorem foldl_max {ι : Type*} [DecidableEq ι] (l : List ι) (f : ι → EReal) (a : EReal) :
    l.foldl (fun acc i => max acc (f i)) a = max a (l.toFinset.sup f) := by
  induction l generalizing a with
  | nil => simp
  | cons i l ih => rw [List.foldl_cons, ih, List.toFinset_cons, Finset.sup_insert, max_assoc]

/-- A left fold of `max` from `⊥` along `0, 1, …, n-1` is the supremum of the family. -/
theorem foldl_finRange_max_bot (n : ℕ) (f : Fin n → EReal) :
    (List.finRange n).foldl (fun acc i => max acc (f i)) ⊥ = Finset.univ.sup f := by
  rw [foldl_max, List.toFinset_finRange, max_eq_right bot_le]

/-- The same for `Fin.foldl`. -/
theorem finFoldl_max_bot (n : ℕ) (f : Fin n → EReal) :
    Fin.foldl n (fun acc i => max acc (f i)) ⊥ = Finset.univ.sup f := by
  rw [Fin.foldl_eq_finRange_foldl, foldl_finRange_max_bot]

/-- For a nonempty family of reals both folds are the real maximum. -/
theorem finFoldl_max_bot_coe (n : ℕ) (hn : 0 < n) (f : Fin n → ℝ) :
    Fin.foldl n (fun acc i => max acc (f i : EReal)) ⊥
      = ((Finset.univ.sup' ⟨⟨0, hn⟩, Finset.mem_univ _⟩ f : ℝ) : EReal) := by
  rw [finFoldl_max_bot]; exact sup_coe _ _ _

/-- The same for the left fold along `0, 1, …, n-1`. -/
theorem foldl_finRange_max_bot_coe (n : ℕ) (hn : 0 < n) (f : Fin n → ℝ) :
    (List.finRange n).foldl (fun acc i => max acc (f i : EReal)) ⊥
      = ((Finset.univ.sup' ⟨⟨0, hn⟩, Finset.mem_univ _⟩ f : ℝ) : EReal) := by
  rw [foldl_finRange_max_bot]; exact sup_coe _ _ _

/-- The inclusion of ℝ in the extended reals preserves finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A fold of `+` from `0` over a finite set is the sum over the set. -/
theorem fold_add_zero {ι : Type*} (s : Finset ι) (f : ι → EReal) :
    s.fold (fun a b : EReal => a + b) 0 f = ∑ i ∈ s, f i := rfl

/-- A left fold of `+` along a list, from any start `a`: `a` plus the sum over the list. -/
theorem foldl_add {ι : Type*} (l : List ι) (f : ι → EReal) (a : EReal) :
    l.foldl (fun acc i => acc + f i) a = a + (l.map f).sum := by
  induction l generalizing a with
  | nil => simp
  | cons i l ih => rw [List.foldl_cons, ih, List.map_cons, List.sum_cons, add_assoc]

/-- A left fold of `+` from `0` along `0, 1, …, n-1` is the sum of the family. -/
theorem foldl_finRange_add_zero (n : ℕ) (f : Fin n → EReal) :
    (List.finRange n).foldl (fun acc i => acc + f i) 0 = ∑ i, f i := by
  rw [foldl_add, zero_add, Fin.sum_univ_def]

/-- The same for `Fin.foldl`. -/
theorem finFoldl_add_zero (n : ℕ) (f : Fin n → EReal) :
    Fin.foldl n (fun acc i => acc + f i) 0 = ∑ i, f i := by
  rw [Fin.foldl_eq_finRange_foldl, foldl_finRange_add_zero]

/-- For a family of reals the fold of `+` from `0` is the real sum. -/
theorem finFoldl_add_zero_coe (n : ℕ) (f : Fin n → ℝ) :
    Fin.foldl n (fun acc i => acc + (f i : EReal)) 0 = ((∑ i, f i : ℝ) : EReal) := by
  rw [finFoldl_add_zero, coe_sum]

/-- The same for the left fold along `0, 1, …, n-1`. -/
theorem foldl_finRange_add_zero_coe (n : ℕ) (f : Fin n → ℝ) :
    (List.finRange n).foldl (fun acc i => acc + (f i : EReal)) 0 = ((∑ i, f i : ℝ) : EReal) := by
  rw [foldl_finRange_add_zero, coe_sum]

/-! ## The exponential of a difference of reals -/

/-- At real arguments the extended-real `exp (a - μ)` is the real exponential of the real difference. -/
theorem exp_coe_sub_coe (a μ : ℝ) :
    Ideal.exp ((a : EReal) - (μ : EReal)) = ((Real.exp (a - μ) : ℝ) : EReal) := by
  rw [← EReal.coe_sub, Ideal.exp_coe]

/-- A finite sum of such exponentials is the real sum of the real exponentials. -/
theorem sum_exp_coe_sub_coe {ι : Type*} (s : Finset ι) (f : ι → ℝ) (μ : ℝ) :
    ∑ i ∈ s, Ideal.exp ((f i : EReal) - (μ : EReal)) = ((∑ i ∈ s, Real.exp (f i - μ) : ℝ) : EReal) := by
  rw [coe_sum]; exact Finset.sum_congr rfl fun i _ => exp_coe_sub_coe _ _

/-- Moving the reference point of a sum of exponentials from `μ` to `μ'` multiplies it by `exp (μ - μ')`. -/
theorem sum_exp_shift {ι κ : Type*} (s : Finset ι) (u : Finset κ) (f : ι → κ → ℝ) (μ μ' : ℝ) :
    (∑ i ∈ s, ∑ k ∈ u, Real.exp (f i k - μ)) * Real.exp (μ - μ') = ∑ i ∈ s, ∑ k ∈ u, Real.exp (f i k - μ') := by
  rw [Finset.sum_mul]
  refine Finset.sum_congr rfl fun i _ => ?_
  rw [Finset.sum_mul]
  refine Finset.sum_congr rfl fun k _ => ?_
  rw [← Real.exp_add]; congr 1; ring

/-! ## The first `n` tiles -/

/-- The indices of the first `n` of `T` tiles. -/
def firstTiles (T n : ℕ) : Finset (Fin T) := Finset.univ.filter fun t => t.val < n

/-- Tile `t` is among the first `n` exactly when `t < n`. -/
theorem mem_firstTiles {T n : ℕ} (t : Fin T) : t ∈ firstTiles T n ↔ t.val < n := by
  simp [firstTiles]

/-- No tile comes before the first. -/
theorem firstTiles_zero (T : ℕ) : firstTiles T 0 = ∅ := by
  ext t; simp [mem_firstTiles]

/-- All `T` tiles are the first `T`. -/
theorem firstTiles_self (T : ℕ) : firstTiles T T = Finset.univ := by
  ext t; simp [mem_firstTiles]

/-- The first `n + 1` tiles are tile `n` and the first `n`. -/
theorem firstTiles_succ {T n : ℕ} (h : n < T) : firstTiles T (n + 1) = insert ⟨n, h⟩ (firstTiles T n) := by
  ext t; simp only [mem_firstTiles, Finset.mem_insert, Fin.ext_iff]; omega

/-- Tile `n` is not among the first `n`. -/
theorem not_mem_firstTiles {T n : ℕ} (h : n < T) : (⟨n, h⟩ : Fin T) ∉ firstTiles T n := by
  simp [mem_firstTiles]

/-- For `1 ≤ n ≤ T` the first `n` tiles include tile `0`. -/
theorem firstTiles_nonempty {T n : ℕ} (hn : 0 < n) (hnT : n ≤ T) : (firstTiles T n).Nonempty :=
  ⟨⟨0, by omega⟩, (mem_firstTiles _).mpr hn⟩

/-! ## The online recurrence and its closed form -/

/-- The online recurrence over `T` tiles of `w` reals `x t r`: the running maximum `M` starts at `-∞` and takes in
    each tile's maximum; the running sum `L` starts at `0`, is rescaled by `exp (M t - M (t+1))` when the maximum
    moves, and takes in the tile's exponentials relative to the new maximum. -/
structure Online {T w : ℕ} (x : Fin T → Fin w → ℝ) (M L : ℕ → EReal) : Prop where
  M_zero : M 0 = ⊥
  L_zero : L 0 = 0
  M_succ : ∀ t (h : t < T), M (t + 1) = max (M t) (Finset.univ.sup fun r => (x ⟨t, h⟩ r : EReal))
  L_succ : ∀ t (h : t < T), L (t + 1)
    = L t * Ideal.exp (M t - M (t + 1)) + ∑ r, Ideal.exp ((x ⟨t, h⟩ r : EReal) - M (t + 1))

variable {T w : ℕ} {x : Fin T → Fin w → ℝ} {M L : ℕ → EReal}

/-- After `n` tiles the running maximum is the supremum of the first `n` tiles' entries (`⊥` for `n = 0`). -/
theorem Online.M_eq_sup (h : Online x M L) (n : ℕ) (hn : n ≤ T) :
    M n = (firstTiles T n).sup fun t => Finset.univ.sup fun r => (x t r : EReal) := by
  induction n with
  | zero => rw [h.M_zero, firstTiles_zero, Finset.sup_empty]
  | succ n ih =>
    have hlt : n < T := hn
    rw [h.M_succ n hlt, ih hlt.le, firstTiles_succ hlt, Finset.sup_insert, max_comm]

/-- The supremum of the entries of a nonempty set of nonempty tiles is a real number. -/
theorem exists_real_sup (s : Finset (Fin T)) (hs : s.Nonempty) (hw : 0 < w) (x : Fin T → Fin w → ℝ) :
    ∃ μ : ℝ, (s.sup fun t => Finset.univ.sup fun r => (x t r : EReal)) = μ := by
  have hu : (Finset.univ : Finset (Fin w)).Nonempty := ⟨⟨0, hw⟩, Finset.mem_univ _⟩
  refine ⟨s.sup' hs fun t => Finset.univ.sup' hu (x t), ?_⟩
  rw [← sup_coe]
  exact Finset.sup_congr rfl fun t _ => sup_coe _ hu _

/-- After at least one tile the running maximum is a real number. -/
theorem Online.exists_real (h : Online x M L) (hw : 0 < w) {n : ℕ} (hn : 0 < n) (hnT : n ≤ T) :
    ∃ μ : ℝ, M n = μ := by
  rw [h.M_eq_sup n hnT]; exact exists_real_sup _ (firstTiles_nonempty hn hnT) hw x

/-- After `n ≥ 1` tiles, with `μ` the (real) running maximum, the running sum is the real number
    `∑ exp (x t r - μ)` over the first `n` tiles. -/
theorem Online.L_eq (h : Online x M L) (hw : 0 < w) (n : ℕ) (hn : 0 < n) (hnT : n ≤ T) (μ : ℝ) (hμ : M n = μ) :
    L n = ((∑ t ∈ firstTiles T n, ∑ r, Real.exp (x t r - μ) : ℝ) : EReal) := by
  induction n generalizing μ with
  | zero => exact absurd hn (lt_irrefl 0)
  | succ n ih =>
    have hlt : n < T := hnT
    rw [h.L_succ n hlt, hμ, firstTiles_succ hlt, Finset.sum_insert (not_mem_firstTiles hlt),
      sum_exp_coe_sub_coe, EReal.coe_add, add_comm]
    congr 1
    rcases Nat.eq_zero_or_pos n with h0 | hpos
    · subst h0; rw [h.L_zero, zero_mul, firstTiles_zero, Finset.sum_empty, EReal.coe_zero]
    · obtain ⟨ν, hν⟩ := h.exists_real hw hpos hlt.le
      rw [ih hpos hlt.le ν hν, hν, exp_coe_sub_coe, ← EReal.coe_mul, sum_exp_shift]

/-- The closed form after `n ≥ 1` tiles: the running maximum is a real `μ`, the supremum of the first `n` tiles'
    entries, and the running sum is `∑ exp (x t r - μ)` over them. -/
theorem Online.closed_form (h : Online x M L) (hw : 0 < w) {n : ℕ} (hn : 0 < n) (hnT : n ≤ T) :
    ∃ μ : ℝ, M n = μ
      ∧ (μ : EReal) = (firstTiles T n).sup (fun t => Finset.univ.sup fun r => (x t r : EReal))
      ∧ L n = ((∑ t ∈ firstTiles T n, ∑ r, Real.exp (x t r - μ) : ℝ) : EReal) := by
  obtain ⟨μ, hμ⟩ := h.exists_real hw hn hnT
  exact ⟨μ, hμ, hμ ▸ h.M_eq_sup n hnT, h.L_eq hw n hn hnT μ hμ⟩

/-- After all `T ≥ 1` tiles: the running maximum is a real `μ`, the maximum of the whole column; the running sum is
    the positive real `∑ exp (x t r - μ)` over the whole column, which is also the extended-real sum of the
    extended-real exponentials relative to the running maximum (the shape the two-pass scheme computes). -/
theorem Online.final (h : Online x M L) (hw : 0 < w) (hT : 0 < T) :
    ∃ μ : ℝ, M T = μ
      ∧ (μ : EReal) = Finset.univ.sup (fun t => Finset.univ.sup fun r => (x t r : EReal))
      ∧ L T = ((∑ t, ∑ r, Real.exp (x t r - μ) : ℝ) : EReal)
      ∧ L T = ∑ t, ∑ r, Ideal.exp ((x t r : EReal) - M T)
      ∧ 0 < ∑ t, ∑ r, Real.exp (x t r - μ) := by
  obtain ⟨μ, hμ, hsup, hL⟩ := h.closed_form hw hT le_rfl
  rw [firstTiles_self] at hsup hL
  refine ⟨μ, hμ, hsup, hL, ?_, ?_⟩
  · rw [hL, hμ, coe_sum]; exact Finset.sum_congr rfl fun t _ => (sum_exp_coe_sub_coe _ _ _).symm
  · exact Finset.sum_pos (fun t _ => Finset.sum_pos (fun r _ => Real.exp_pos _) ⟨⟨0, hw⟩, Finset.mem_univ _⟩)
      ⟨⟨0, hT⟩, Finset.mem_univ _⟩

/-! ## Tiling a column of `T * w` entries -/

/-- Entry `r` of tile `t` sits at position `t * w + r` of the column. -/
theorem tile_index_lt {T w : ℕ} (t : Fin T) (r : Fin w) : t.val * w + r.val < T * w :=
  calc t.val * w + r.val < t.val * w + w := by omega
    _ = (t.val + 1) * w := by ring
    _ ≤ T * w := Nat.mul_le_mul_right w t.isLt

/-- The position `t * w + r` is where the standard bijection `Fin T × Fin w ≃ Fin (T * w)` sends `(t, r)`. -/
theorem finProdFinEquiv_eq {T w : ℕ} (t : Fin T) (r : Fin w) :
    finProdFinEquiv (t, r) = (⟨t.val * w + r.val, tile_index_lt t r⟩ : Fin (T * w)) := by
  ext; simp [finProdFinEquiv, Nat.mul_comm, Nat.add_comm]

/-- A supremum over all pairs (tile, entry) is the supremum over the tiles of the suprema over each tile. -/
theorem sup_prod {α : Type*} [SemilatticeSup α] [OrderBot α] {T w : ℕ} (f : Fin T × Fin w → α) :
    Finset.univ.sup f = Finset.univ.sup fun t => Finset.univ.sup fun r => f (t, r) := by
  rw [← Finset.univ_product_univ, Finset.sup_product_left]

/-- The supremum over a column of `T * w` entries is the supremum over the `T` tiles of the suprema over each tile's
    `w` entries, entry `r` of tile `t` being the column's entry `t * w + r`. -/
theorem sup_tiles {α : Type*} [SemilatticeSup α] [OrderBot α] {T w : ℕ} (f : Fin (T * w) → α) :
    Finset.univ.sup f
      = Finset.univ.sup fun t : Fin T => Finset.univ.sup fun r : Fin w => f ⟨t.val * w + r.val, tile_index_lt t r⟩ := by
  rw [← Finset.map_univ_equiv finProdFinEquiv, Finset.sup_map, sup_prod]
  exact Finset.sup_congr rfl fun t _ => Finset.sup_congr rfl fun r _ => congrArg f (finProdFinEquiv_eq t r)

/-- The sum over a column of `T * w` entries is the sum over the `T` tiles of the sums over each tile's `w` entries. -/
theorem sum_tiles {β : Type*} [AddCommMonoid β] {T w : ℕ} (f : Fin (T * w) → β) :
    ∑ i, f i = ∑ t : Fin T, ∑ r : Fin w, f ⟨t.val * w + r.val, tile_index_lt t r⟩ := by
  rw [← Fintype.sum_prod_type' (f := fun (t : Fin T) (r : Fin w) => f ⟨t.val * w + r.val, tile_index_lt t r⟩)]
  exact (Fintype.sum_equiv finProdFinEquiv _ _ fun p => (congrArg f (finProdFinEquiv_eq p.1 p.2)).symm).symm

/-! ## Reals inside the extended reals: the last step -/

/-- The exponential of a real is a positive real. -/
theorem exp_coe_pos (r : ℝ) : (0 : EReal) < Ideal.exp (r : EReal) := by
  rw [Ideal.exp_coe]; exact EReal.coe_pos.mpr (Real.exp_pos r)

/-- A sum of positive reals over a nonempty finite set is positive. -/
theorem sum_exp_pos {ι : Type*} (s : Finset ι) (hs : s.Nonempty) (f : ι → ℝ) : 0 < ∑ i ∈ s, Real.exp (f i) :=
  Finset.sum_pos (fun i _ => Real.exp_pos _) hs

/-- The logarithm of a positive real is the real logarithm. -/
theorem log_coe_of_pos {ℓ : ℝ} (h : 0 < ℓ) : Ideal.log (ℓ : EReal) = ((Real.log ℓ : ℝ) : EReal) := by
  rw [Ideal.log_coe, if_neg (not_le.mpr h)]

/-- For reals `a`, `μ` and `ℓ > 0` the value `a - μ - log ℓ` computed in the extended reals is the real number of the
    same expression. -/
theorem sub_sub_log_coe (a μ : ℝ) {ℓ : ℝ} (h : 0 < ℓ) :
    (a : EReal) - (μ : EReal) - Ideal.log (ℓ : EReal) = ((a - μ - Real.log ℓ : ℝ) : EReal) := by
  rw [log_coe_of_pos h, ← EReal.coe_sub, ← EReal.coe_sub]

/-- The two schemes' last steps agree as soon as their maxima and their sums do. -/
theorem sub_sub_log_congr {a m m' l l' : EReal} (hm : m = m') (hl : l = l') :
    a - m - Ideal.log l = a - m' - Ideal.log l' := by rw [hm, hl]

/-- The online scheme's result at the entry `a` is the two-pass scheme's: with `m` the maximum of the whole column and
    `∑ exp (x - m)` the sum over the whole column, `a - M T - log (L T) = a - m - log (∑ exp (x - m))`. -/
theorem Online.logSoftmax_eq (h : Online x M L) (hw : 0 < w) (hT : 0 < T) (a : EReal) :
    a - M T - Ideal.log (L T)
      = a - (Finset.univ.sup fun t => Finset.univ.sup fun r => (x t r : EReal))
        - Ideal.log (∑ t, ∑ r, Ideal.exp
            ((x t r : EReal) - Finset.univ.sup fun t => Finset.univ.sup fun r => (x t r : EReal))) := by
  obtain ⟨μ, hμ, hsup, -, hL, -⟩ := h.final hw hT
  rw [hL, hμ, hsup]

/-- The same against a column given flat, `y : Fin (T * w) → ℝ`, tiled as `x t r = y (t * w + r)`: the two-pass
    scheme takes the supremum and the sum over the flat index. -/
theorem Online.logSoftmax_eq_flat (y : Fin (T * w) → ℝ)
    (h : Online (fun t r => y ⟨t.val * w + r.val, tile_index_lt t r⟩) M L) (hw : 0 < w) (hT : 0 < T) (a : EReal) :
    a - M T - Ideal.log (L T)
      = a - (Finset.univ.sup fun i => (y i : EReal))
        - Ideal.log (∑ i, Ideal.exp ((y i : EReal) - Finset.univ.sup fun i => (y i : EReal))) := by
  rw [h.logSoftmax_eq hw hT a, sup_tiles (fun i => (y i : EReal)),
    sum_tiles (fun i => Ideal.exp ((y i : EReal) - _))]

/-- The online scheme's result at a real entry `a` is a real number: `a - μ - log ℓ` with `μ` the column's maximum and
    `ℓ > 0` the column's sum of `exp (x - μ)`. -/
theorem Online.logSoftmax_real (h : Online x M L) (hw : 0 < w) (hT : 0 < T) :
    ∃ μ ℓ : ℝ, 0 < ℓ ∧ M T = μ ∧ L T = ℓ ∧ ℓ = ∑ t, ∑ r, Real.exp (x t r - μ)
      ∧ ∀ a : ℝ, (a : EReal) - M T - Ideal.log (L T) = ((a - μ - Real.log ℓ : ℝ) : EReal) := by
  obtain ⟨μ, hμ, -, hL, -, hpos⟩ := h.final hw hT
  exact ⟨μ, _, hpos, hμ, hL, rfl, fun a => by rw [hμ, hL, sub_sub_log_coe a μ hpos]⟩

/-! ## The same law for extended-real entries known to be finite, against a flat column -/

/-- Entry `r` of tile `t` of a column of `N = T * w` entries sits at position `t * w + r < N`. -/
theorem tile_lt {N T w : ℕ} (hN : N = T * w) {t : ℕ} (h : t < T) (r : Fin w) : t * w + r.val < N := by
  rw [hN]; exact tile_index_lt ⟨t, h⟩ r

/-- The online scheme over a flat column `y` of `N = T * w` FINITE extended reals (tile `t` holds the entries
    `t * w + r`, `r < w`) ends at the two-pass scheme's values: there are reals `μ` and `ℓ > 0` with `M T = μ`,
    `L T = ℓ`, where `μ` is the supremum of the whole column and `ℓ` is the sum over the whole column of
    `exp (y i - sup y)`. -/
theorem online_eq_twoPass {N T w : ℕ} (hN : N = T * w) (hw : 0 < w) (hT : 0 < T)
    (y : Fin N → EReal) (hy : ∀ i, y i ≠ ⊥ ∧ y i ≠ ⊤) {M L : ℕ → EReal}
    (hM0 : M 0 = ⊥) (hL0 : L 0 = 0)
    (hM : ∀ t (h : t < T), M (t + 1)
      = max (M t) (Finset.univ.sup fun r : Fin w => y ⟨t * w + r.val, tile_lt hN h r⟩))
    (hL : ∀ t (h : t < T), L (t + 1) = L t * Ideal.exp (M t - M (t + 1))
      + ∑ r : Fin w, Ideal.exp (y ⟨t * w + r.val, tile_lt hN h r⟩ - M (t + 1))) :
    ∃ μ ℓ : ℝ, 0 < ℓ ∧ M T = μ ∧ L T = ℓ
      ∧ Finset.univ.sup y = μ ∧ ∑ i, Ideal.exp (y i - Finset.univ.sup y) = ℓ := by
  subst hN
  obtain ⟨y', rfl⟩ : ∃ y' : Fin (T * w) → ℝ, y = fun i => (y' i : EReal) :=
    ⟨fun i => (y i).toReal, funext fun i => (EReal.coe_toReal (hy i).2 (hy i).1).symm⟩
  have h : Online (fun t r => y' ⟨t.val * w + r.val, tile_index_lt t r⟩) M L := ⟨hM0, hL0, hM, hL⟩
  obtain ⟨μ, hμ, hsup, hLr, hLe, hpos⟩ := h.final hw hT
  have hs : (Finset.univ.sup fun i => (y' i : EReal)) = μ := by
    rw [sup_tiles (fun i => (y' i : EReal))]; exact hsup.symm
  refine ⟨μ, _, hpos, hμ, hLr, hs, ?_⟩
  rw [hs, sum_tiles (fun i => Ideal.exp ((y' i : EReal) - (μ : EReal))), ← hLr, hLe, hμ]

/-- So the online scheme's log-softmax at any `a` is the two-pass scheme's:
    `a - M T - log (L T) = a - sup y - log (∑ exp (y i - sup y))`. -/
theorem online_logSoftmax_eq {N T w : ℕ} (hN : N = T * w) (hw : 0 < w) (hT : 0 < T)
    (y : Fin N → EReal) (hy : ∀ i, y i ≠ ⊥ ∧ y i ≠ ⊤) {M L : ℕ → EReal}
    (hM0 : M 0 = ⊥) (hL0 : L 0 = 0)
    (hM : ∀ t (h : t < T), M (t + 1)
      = max (M t) (Finset.univ.sup fun r : Fin w => y ⟨t * w + r.val, tile_lt hN h r⟩))
    (hL : ∀ t (h : t < T), L (t + 1) = L t * Ideal.exp (M t - M (t + 1))
      + ∑ r : Fin w, Ideal.exp (y ⟨t * w + r.val, tile_lt hN h r⟩ - M (t + 1))) (a : EReal) :
    a - M T - Ideal.log (L T)
      = a - Finset.univ.sup y - Ideal.log (∑ i, Ideal.exp (y i - Finset.univ.sup y)) := by
  obtain ⟨μ, ℓ, -, hμ, hℓ, hs, hsum⟩ := online_eq_twoPass hN hw hT y hy hM0 hL0 hM hL
  rw [hμ, hℓ, hsum, hs]

/-- … and at a finite `a` (an entry of the column, say) it is a real number. -/
theorem online_logSoftmax_real {N T w : ℕ} (hN : N = T * w) (hw : 0 < w) (hT : 0 < T)
    (y : Fin N → EReal) (hy : ∀ i, y i ≠ ⊥ ∧ y i ≠ ⊤) {M L : ℕ → EReal}
    (hM0 : M 0 = ⊥) (hL0 : L 0 = 0)
    (hM : ∀ t (h : t < T), M (t + 1)
      = max (M t) (Finset.univ.sup fun r : Fin w => y ⟨t * w + r.val, tile_lt hN h r⟩))
    (hL : ∀ t (h : t < T), L (t + 1) = L t * Ideal.exp (M t - M (t + 1))
      + ∑ r : Fin w, Ideal.exp (y ⟨t * w + r.val, tile_lt hN h r⟩ - M (t + 1)))
    (a : EReal) (ha : a ≠ ⊥ ∧ a ≠ ⊤) : ∃ v : ℝ, a - M T - Ideal.log (L T) = v := by
  obtain ⟨μ, ℓ, hpos, hμ, hℓ, -, -⟩ := online_eq_twoPass hN hw hT y hy hM0 hL0 hM hL
  refine ⟨a.toReal - μ - Real.log ℓ, ?_⟩
  rw [hμ, hℓ, ← sub_sub_log_coe _ μ hpos, EReal.coe_toReal ha.2 ha.1]

end LibLogSumExp

end
-- ==== Proof.KR2Value.lean ====
/-
  Region 2's value over the extended reals. Read at a column `j`, the running-maximum row and the running-sum row
  that region 2 carries from grid point to grid point satisfy the online log-sum-exp recurrence over the 125 tiles of
  8000 logits rows: from minus infinity and zero, each point takes the maximum with the tile's column maximum,
  rescales the sum by the exponential of (old maximum minus new maximum) and adds the tile's column sum of
  exponentials relative to the new maximum. At the last point the maximum row is written out, and the logarithm of
  the sum row. Hence, when every logits entry is finite, subtracting the two written rows from any `a` is
  subtracting the supremum of the whole column of 1000000 logits and the logarithm of the column's sum of
  exponentials relative to that supremum.
-/
import proofs.«109717_j65541200937586_2_alg».proof.Proof.KR2Pieces
import proofs.«109717_j65541200937586_2_alg».proof.Proof.LibLogSumExp
import Idealize.ShloMosaic.PureOps.Ideal.Laws
import Idealize.ShloMosaic.Lib.ValueIdx
import Idealize.ShloMosaic.Lib.ValueLayout

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.ShloMosaic.ValueIdx
open scoped BigOperators

/-! ## The payloads read at an index, over the extended reals -/

/-- The bit pattern of minus infinity denotes the bottom of the extended reals. -/
theorem ofBits_neg_inf : Ideal.ofBits .f32 0xFF800000#32 = ⊥ := by simp [Ideal.ofBits, Ideal.ieee]

/-- Row `r` of column `j` of the tile is the index the reduction over the rows inserts `r` into. -/
theorem lift_rows (r : Fin 8000) (j : Fin 3) : reduces_S8000x3_S3.lift (ix1 j) r = ix2 r j := by
  funext a
  match a with
  | ⟨0, _⟩ => rfl
  | ⟨1, _⟩ => rfl

/-- The reset maximum row is minus infinity at every column. -/
theorem pay4_apply (j : Fin 3) : k2_pay4 (F := Ideal) (ix2 (0 : Fin 1) j) = ⊥ := by
  unfold k2_pay4
  refine (congrFun (shapeCast_self _ _) _).trans ?_
  exact ofBits_neg_inf

/-- The reset sum row is zero at every column. -/
theorem pay5_apply (j : Fin 3) : k2_pay5 (F := Ideal) (ix2 (0 : Fin 1) j) = 0 := by
  unfold k2_pay5
  refine (congrFun (shapeCast_self _ _) _).trans ?_
  exact Ideal.ofBits_zero_f32

/-- The row stored into the maximum scratch is the row itself. -/
theorem pay2_eq (v31 : FVec Ideal S1x3 .f32) : k2_pay2 v31 = v31 := by
  unfold k2_pay2
  exact shapeCast_self _ _

/-- The logarithm row at a column is the logarithm of the entry. -/
theorem pay3_apply (v54 : Vec Ideal S1x3 .f32) (j : Fin 3) :
    k2_pay3 v54 (ix2 (0 : Fin 1) j) = Ideal.log (v54 (ix2 (0 : Fin 1) j)) := rfl

/-- The new running maximum at column `j`: the maximum of the old one and the supremum of the tile's column. -/
theorem pay7_apply (v3 : Vec Ideal S8000x6 .f32) (v5 : Vec Ideal S6x6 .f32) (v7 : Vec Ideal S6 .f32) (v16 : Vec Ideal S6x3 .f32)
    (v18 : Vec Ideal S3 .f32) (v30 : Vec Ideal S1x3 .f32) (j : Fin 3) :
    k2_pay7 v3 v5 v7 v16 v18 v30 (ix2 (0 : Fin 1) j)
      = max (v30 (ix2 (0 : Fin 1) j)) (Finset.univ.sup fun r : Fin 8000 => k2_pay6 v3 v5 v7 v16 v18 (ix2 r j)) := by
  unfold k2_pay7
  refine congrArg (max (v30 (ix2 (0 : Fin 1) j))) ?_
  refine (shapeCast_a_1a_apply _ _ (0 : Fin 1) j).trans ?_
  refine (Ideal.multiReduction_maximumf_single _ _ reduces_S8000x3_S3 _ _ (ix1 j)).trans ?_
  refine (congrArg (fun b => Finset.fold max b _ _) ofBits_neg_inf).trans ?_
  exact Finset.sup_congr rfl fun r _ => congrArg (k2_pay6 v3 v5 v7 v16 v18) (lift_rows r j)

/-- The difference row at a column: old maximum minus new maximum. -/
theorem pay8_apply (v3 : Vec Ideal S8000x6 .f32) (v5 : Vec Ideal S6x6 .f32) (v7 : Vec Ideal S6 .f32) (v16 : Vec Ideal S6x3 .f32)
    (v18 : Vec Ideal S3 .f32) (v30 v32 : Vec Ideal S1x3 .f32) (j : Fin 3) :
    k2_pay8 v3 v5 v7 v16 v18 v30 v32 (ix2 (0 : Fin 1) j)
      = v32 (ix2 (0 : Fin 1) j) - k2_pay7 v3 v5 v7 v16 v18 v30 (ix2 (0 : Fin 1) j) := rfl

/-- The new running sum at column `j`: the old one times the exponential of the difference row, plus the sum over
    the tile's column of the exponentials of the entries minus the new maximum. -/
theorem pay1_apply (v26 : FVec Ideal S8000x3 .f32) (v31 v33 : FVec Ideal S1x3 .f32) (v35 : Vec Ideal S1x3 .f32) (j : Fin 3) :
    k2_pay1 v26 v31 v33 v35 (ix2 (0 : Fin 1) j)
      = v35 (ix2 (0 : Fin 1) j) * Ideal.exp (v33 (ix2 (0 : Fin 1) j))
        + ∑ r : Fin 8000, Ideal.exp (v26 (ix2 r j) - v31 (ix2 (0 : Fin 1) j)) := by
  unfold k2_pay1
  refine (congrFun (shapeCast_self _ _) _).trans ?_
  refine congrArg (v35 (ix2 (0 : Fin 1) j) * Ideal.exp (v33 (ix2 (0 : Fin 1) j)) + ·) ?_
  refine (shapeCast_a_1a_apply _ _ (0 : Fin 1) j).trans ?_
  refine (Ideal.multiReduction_add_single _ _ reduces_S8000x3_S3 _ _ (ix1 j)).trans ?_
  refine Finset.sum_congr rfl fun r _ => ?_
  refine (congrArg _ (lift_rows r j)).trans ?_
  exact congrArg (fun b => Ideal.exp (v26 (ix2 r j) - b)) (broadcastTo_1b_ab_apply v31 broadcasts_S1x3_S8000x3 r j)

/-! ## The logits block after every point -/

section Logits

variable {F : FTy → Type} [FloatOps F]
variable (V : (c : Dev nD) → (b : Ref sig .tc) → Buf (Elt F) ((c : Thread nD τ).loc b))

/-- After the body at any point the logits block holds the logits tile of that point's five input blocks, for any
    float values. -/
theorem logits_block_eq (c : Dev nD) (n : ℕ) (h : n < cfg2.N) :
    (outsAt2 V c n h).1
      = k2_pay6 (iblk2 V c 0 ⟨n, h⟩) (iblk2 V c 1 ⟨n, h⟩) (iblk2 V c 2 ⟨n, h⟩) (iblk2 V c 3 ⟨n, h⟩) (iblk2 V c 4 ⟨n, h⟩) := by
  cases n with
  | zero =>
    rw [outsAt2_A V c ⟨0, h⟩ rfl]
    dsimp only
    exact out2_A_5_eq V c ⟨0, h⟩ rfl
  | succ m =>
    by_cases h1 : m + 1 = 124
    · rw [outsAt2_C V c ⟨m + 1, h⟩ (Nat.succ_ne_zero m) h1]
      dsimp only
      exact out2_C_5_eq V c ⟨m + 1, h⟩ (Nat.succ_ne_zero m) h1 (prev2_0 V c ⟨m + 1, h⟩) (prev2_1 V c ⟨m + 1, h⟩)
    · rw [outsAt2_B V c ⟨m + 1, h⟩ (Nat.succ_ne_zero m) h1]
      dsimp only
      exact out2_B_5_eq V c ⟨m + 1, h⟩ (Nat.succ_ne_zero m) h1 (prev2_0 V c ⟨m + 1, h⟩) (prev2_1 V c ⟨m + 1, h⟩)

end Logits

/-! ## The running rows satisfy the online recurrence -/

section Recurrence

variable (V : (c : Dev nD) → (b : Ref sig .tc) → Buf (Elt Ideal) ((c : Thread nD τ).loc b))

/-- The grid has 125 points. -/
theorem N2_eq : cfg2.N = 125 := N_2

/-- Entry `(r, j)` of the logits tile at point `t`. -/
def zlog (c : Dev nD) (t : Fin cfg2.N) (r : Fin 8000) (j : Fin 3) : EReal :=
  k2_pay6 (F := Ideal) (iblk2 V c 0 t) (iblk2 V c 1 t) (iblk2 V c 2 t) (iblk2 V c 3 t) (iblk2 V c 4 t) (ix2 r j)

/-- Column `j` of the running maximum after `n` points: minus infinity before the first. -/
def Mrow (c : Dev nD) (j : Fin 3) : ℕ → EReal
  | 0 => ⊥
  | n + 1 => if h : n < cfg2.N then (outsAt2 V c n h).2.2.2.1 (ix2 (0 : Fin 1) j) else ⊥

/-- Column `j` of the running sum after `n` points: zero before the first. -/
def Lrow (c : Dev nD) (j : Fin 3) : ℕ → EReal
  | 0 => 0
  | n + 1 => if h : n < cfg2.N then (outsAt2 V c n h).2.2.2.2 (ix2 (0 : Fin 1) j) else 0

theorem Mrow_zero (c : Dev nD) (j : Fin 3) : Mrow V c j 0 = ⊥ := rfl
theorem Lrow_zero (c : Dev nD) (j : Fin 3) : Lrow V c j 0 = 0 := rfl
theorem Mrow_succ (c : Dev nD) (j : Fin 3) (n : ℕ) (h : n < cfg2.N) :
    Mrow V c j (n + 1) = (outsAt2 V c n h).2.2.2.1 (ix2 (0 : Fin 1) j) := dif_pos h
theorem Lrow_succ (c : Dev nD) (j : Fin 3) (n : ℕ) (h : n < cfg2.N) :
    Lrow V c j (n + 1) = (outsAt2 V c n h).2.2.2.2 (ix2 (0 : Fin 1) j) := dif_pos h

/-- Over the extended reals: entry `(r, j)` of the logits block after point `n` is the logits entry of that point. -/
theorem logits_block_apply (c : Dev nD) (n : ℕ) (h : n < cfg2.N) (r : Fin 8000) (j : Fin 3) :
    (outsAt2 V c n h).1 (ix2 r j) = zlog V c ⟨n, h⟩ r j :=
  congrFun (logits_block_eq V c n h) (ix2 r j)

/-- One step of the recurrence from old rows `xs0`, `xs1`: what the stores' payloads are at column `j`. -/
theorem step_rows (c : Dev nD) (t : Fin cfg2.N) (xs0 xs1 : Vec Ideal S1x3 .f32) (j : Fin 3) :
    (k2_pay2 (k2_pay7 (iblk2 V c 0 t) (iblk2 V c 1 t) (iblk2 V c 2 t) (iblk2 V c 3 t) (iblk2 V c 4 t) xs0)) (ix2 (0 : Fin 1) j)
        = max (xs0 (ix2 (0 : Fin 1) j)) (Finset.univ.sup fun r : Fin 8000 => zlog V c t r j)
    ∧ (k2_pay1 (k2_pay6 (iblk2 V c 0 t) (iblk2 V c 1 t) (iblk2 V c 2 t) (iblk2 V c 3 t) (iblk2 V c 4 t))
          (k2_pay7 (iblk2 V c 0 t) (iblk2 V c 1 t) (iblk2 V c 2 t) (iblk2 V c 3 t) (iblk2 V c 4 t) xs0)
          (k2_pay8 (iblk2 V c 0 t) (iblk2 V c 1 t) (iblk2 V c 2 t) (iblk2 V c 3 t) (iblk2 V c 4 t) xs0 xs0) xs1) (ix2 (0 : Fin 1) j)
        = xs1 (ix2 (0 : Fin 1) j)
            * Ideal.exp (xs0 (ix2 (0 : Fin 1) j)
                - max (xs0 (ix2 (0 : Fin 1) j)) (Finset.univ.sup fun r : Fin 8000 => zlog V c t r j))
          + ∑ r : Fin 8000, Ideal.exp (zlog V c t r j
                - max (xs0 (ix2 (0 : Fin 1) j)) (Finset.univ.sup fun r : Fin 8000 => zlog V c t r j)) := by
  have h7 := pay7_apply (iblk2 V c 0 t) (iblk2 V c 1 t) (iblk2 V c 2 t) (iblk2 V c 3 t) (iblk2 V c 4 t) xs0 j
  refine ⟨(congrFun (pay2_eq _) _).trans h7, ?_⟩
  refine (pay1_apply _ _ _ xs1 j).trans ?_
  rw [pay8_apply, h7]
  rfl

/-- The running rows after point `n` come from those before it by one step of the online recurrence, with the
    tile of point `n`. -/
theorem rows_rec (c : Dev nD) (j : Fin 3) (n : ℕ) (h : n < cfg2.N) :
    Mrow V c j (n + 1) = max (Mrow V c j n) (Finset.univ.sup fun r : Fin 8000 => zlog V c ⟨n, h⟩ r j)
    ∧ Lrow V c j (n + 1)
        = Lrow V c j n
            * Ideal.exp (Mrow V c j n - max (Mrow V c j n) (Finset.univ.sup fun r : Fin 8000 => zlog V c ⟨n, h⟩ r j))
          + ∑ r : Fin 8000, Ideal.exp (zlog V c ⟨n, h⟩ r j
                - max (Mrow V c j n) (Finset.univ.sup fun r : Fin 8000 => zlog V c ⟨n, h⟩ r j)) := by
  rw [Mrow_succ V c j n h, Lrow_succ V c j n h]
  cases n with
  | zero =>
    rw [outsAt2_A V c ⟨0, h⟩ rfl]
    dsimp only
    rw [sout2_A_0_eq V c ⟨0, h⟩ rfl, sout2_A_1_eq V c ⟨0, h⟩ rfl]
    have e := step_rows V c ⟨0, h⟩ (k2_pay4 (F := Ideal)) (k2_pay5 (F := Ideal)) j
    rw [pay4_apply, pay5_apply] at e
    exact e
  | succ m =>
    have hm : m < cfg2.N := Nat.lt_of_succ_lt h
    rw [Mrow_succ V c j m hm, Lrow_succ V c j m hm]
    by_cases h1 : m + 1 = 124
    · rw [outsAt2_C V c ⟨m + 1, h⟩ (Nat.succ_ne_zero m) h1]
      dsimp only
      rw [sout2_C_0_eq V c ⟨m + 1, h⟩ (Nat.succ_ne_zero m) h1, sout2_C_1_eq V c ⟨m + 1, h⟩ (Nat.succ_ne_zero m) h1]
      exact step_rows V c ⟨m + 1, h⟩ (prev2_0 V c ⟨m + 1, h⟩) (prev2_1 V c ⟨m + 1, h⟩) j
    · rw [outsAt2_B V c ⟨m + 1, h⟩ (Nat.succ_ne_zero m) h1]
      dsimp only
      rw [sout2_B_0_eq V c ⟨m + 1, h⟩ (Nat.succ_ne_zero m) h1, sout2_B_1_eq V c ⟨m + 1, h⟩ (Nat.succ_ne_zero m) h1]
      exact step_rows V c ⟨m + 1, h⟩ (prev2_0 V c ⟨m + 1, h⟩) (prev2_1 V c ⟨m + 1, h⟩) j

/-- The running maximum's recurrence. -/
theorem Mrow_rec (c : Dev nD) (j : Fin 3) (n : ℕ) (h : n < cfg2.N) :
    Mrow V c j (n + 1) = max (Mrow V c j n) (Finset.univ.sup fun r : Fin 8000 => zlog V c ⟨n, h⟩ r j) :=
  (rows_rec V c j n h).1

/-- The running sum's recurrence. -/
theorem Lrow_rec (c : Dev nD) (j : Fin 3) (n : ℕ) (h : n < cfg2.N) :
    Lrow V c j (n + 1)
      = Lrow V c j n * Ideal.exp (Mrow V c j n - Mrow V c j (n + 1))
        + ∑ r : Fin 8000, Ideal.exp (zlog V c ⟨n, h⟩ r j - Mrow V c j (n + 1)) := by
  rw [(rows_rec V c j n h).1]; exact (rows_rec V c j n h).2

/-! ## The conclusion: the region's two small outputs are the column maximum and the logarithm of the column sum -/

/-- The logits entry depends only on the point's and the row's numbers. -/
theorem zlog_congr (c : Dev nD) (j : Fin 3) {t t' : Fin cfg2.N} {r r' : Fin 8000} (ht : t.val = t'.val) (hr : r.val = r'.val) :
    zlog V c t r j = zlog V c t' r' j := by
  obtain rfl := Fin.ext ht; obtain rfl := Fin.ext hr; rfl

/-- Column `j` of the logits as one flat column of 1000000 entries: entry `i = t * 8000 + r` is row `r` of the tile at
    point `t`. -/
def ycol (c : Dev nD) (j : Fin 3) (i : Fin 1000000) : EReal :=
  zlog V c ⟨i.val / 8000, by have := i.isLt; rw [N2_eq]; omega⟩ ⟨i.val % 8000, Nat.mod_lt _ (by norm_num)⟩ j

/-- Entry `t * 8000 + r` of the flat column is row `r` of the tile at point `t`. -/
theorem ycol_tile (c : Dev nD) (j : Fin 3) (t : ℕ) (h : t < cfg2.N) (r : Fin 8000) (hlt : t * 8000 + r.val < 1000000) :
    ycol V c j ⟨t * 8000 + r.val, hlt⟩ = zlog V c ⟨t, h⟩ r j :=
  zlog_congr V c j (by have := r.isLt; show (t * 8000 + r.val) / 8000 = t; omega)
    (by have := r.isLt; show (t * 8000 + r.val) % 8000 = r.val; omega)

/-- After the last point the column-maximum output holds the running maximum after all 125 points, -/
theorem colmax_eq (c : Dev nD) (j : Fin 3) (h : 124 < cfg2.N) :
    (outsAt2 V c 124 h).2.1 (ix2 (0 : Fin 1) j) = Mrow V c j 125 := by
  rw [Mrow_succ V c j 124 h, outsAt2_C V c ⟨124, h⟩ (by norm_num : ¬ (124 : ℕ) = 0) rfl]
  dsimp only
  rw [out2_C_6_eq V c ⟨124, h⟩ (by norm_num : ¬ (124 : ℕ) = 0) rfl, sout2_C_0_eq V c ⟨124, h⟩ (by norm_num : ¬ (124 : ℕ) = 0) rfl]

/-- and the other small output holds the logarithm of the running sum after all 125 points. -/
theorem logz_eq (c : Dev nD) (j : Fin 3) (h : 124 < cfg2.N) :
    (outsAt2 V c 124 h).2.2.1 (ix2 (0 : Fin 1) j) = Ideal.log (Lrow V c j 125) := by
  rw [Lrow_succ V c j 124 h, outsAt2_C V c ⟨124, h⟩ (by norm_num : ¬ (124 : ℕ) = 0) rfl]
  dsimp only
  rw [out2_C_7_eq V c ⟨124, h⟩ (by norm_num : ¬ (124 : ℕ) = 0) rfl, sout2_C_1_eq V c ⟨124, h⟩ (by norm_num : ¬ (124 : ℕ) = 0) rfl]
  rfl

/-- With every logits entry of column `j` finite, the running rows end at the two-pass values: there are reals `μ` and
    `ℓ > 0` with the running maximum `μ`, the supremum of the whole column, and the running sum `ℓ`, the sum over the
    whole column of the exponentials of the entries minus that supremum. -/
theorem rows_final (c : Dev nD) (j : Fin 3) (hz : ∀ t r, zlog V c t r j ≠ ⊥ ∧ zlog V c t r j ≠ ⊤) :
    ∃ μ ℓ : ℝ, 0 < ℓ ∧ Mrow V c j 125 = μ ∧ Lrow V c j 125 = ℓ
      ∧ Finset.univ.sup (ycol V c j) = μ
      ∧ ∑ i, Ideal.exp (ycol V c j i - Finset.univ.sup (ycol V c j)) = ℓ := by
  have hN : (1000000 : ℕ) = 125 * 8000 := by norm_num
  refine LibLogSumExp.online_eq_twoPass (T := 125) (w := 8000) hN (by norm_num) (by norm_num) (ycol V c j)
    (fun i => hz _ _) (Mrow_zero V c j) (Lrow_zero V c j) (fun t h => ?_) (fun t h => ?_)
  · have h' : t < cfg2.N := by rw [N2_eq]; exact h
    rw [Mrow_rec V c j t h']
    exact congrArg (max _) (Finset.sup_congr rfl fun r _ => (ycol_tile V c j t h' r _).symm)
  · have h' : t < cfg2.N := by rw [N2_eq]; exact h
    rw [Lrow_rec V c j t h']
    exact congrArg (_ + ·) (Finset.sum_congr rfl fun r _ => congrArg (fun b => Ideal.exp (b - _)) (ycol_tile V c j t h' r _).symm)

/-- So, for any `a`, subtracting the region's column maximum and then its logarithm row from `a` is subtracting the
    supremum of the whole logits column and the logarithm of the column's sum of exponentials relative to it: the
    log-softmax over the column as the two-pass scheme computes it. -/
theorem region2_logSoftmax (c : Dev nD) (j : Fin 3) (h : 124 < cfg2.N)
    (hz : ∀ t r, zlog V c t r j ≠ ⊥ ∧ zlog V c t r j ≠ ⊤) (a : EReal) :
    a - (outsAt2 V c 124 h).2.1 (ix2 (0 : Fin 1) j) - (outsAt2 V c 124 h).2.2.1 (ix2 (0 : Fin 1) j)
      = a - Finset.univ.sup (ycol V c j)
        - Ideal.log (∑ i, Ideal.exp (ycol V c j i - Finset.univ.sup (ycol V c j))) := by
  obtain ⟨μ, ℓ, -, hμ, hℓ, hs, hsum⟩ := rows_final V c j hz
  rw [colmax_eq V c j h, logz_eq V c j h, hμ, hℓ, hsum, hs]

/-- … and at a finite `a` (a logits entry) the result is a real number. -/
theorem region2_logSoftmax_real (c : Dev nD) (j : Fin 3) (h : 124 < cfg2.N)
    (hz : ∀ t r, zlog V c t r j ≠ ⊥ ∧ zlog V c t r j ≠ ⊤) (a : EReal) (ha : a ≠ ⊥ ∧ a ≠ ⊤) :
    ∃ v : ℝ, a - (outsAt2 V c 124 h).2.1 (ix2 (0 : Fin 1) j) - (outsAt2 V c 124 h).2.2.1 (ix2 (0 : Fin 1) j) = v := by
  obtain ⟨μ, ℓ, hpos, hμ, hℓ, -, -⟩ := rows_final V c j hz
  refine ⟨a.toReal - μ - Real.log ℓ, ?_⟩
  rw [colmax_eq V c j h, logz_eq V c j h, hμ, hℓ, ← LibLogSumExp.sub_sub_log_coe _ μ hpos, EReal.coe_toReal ha.2 ha.1]

end Recurrence

end Cert.KernelIdeal.KFrame

end
-- ==== Proof.KFinal2y.lean ====
import proofs.«109717_j65541200937586_2_alg».proof.Proof.KFinal2
import proofs.«109717_j65541200937586_2_alg».proof.Proof.KR2Value

/-! # The logits tiles as entries of the logits array

Row `r` of the tile at point `t` is row `8000 t + r` of the logits array after the region; so the flat column of the
tiles is the array's column. -/

set_option maxRecDepth 16384

noncomputable section

namespace Cert.KernelIdeal.KFrame

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- Row `r` of block `t` is a row of the array: 125 blocks of 8000 rows. -/
theorem tile_row_lt (t : Fin cfg2.N) (r : Fin 8000) : t.val * 8000 + r.val < 1000000 := by
  have ht : t.val < 125 := lt_of_lt_of_eq t.isLt N2_eq
  have hr := r.isLt
  omega

set_option maxHeartbeats 1000000 in
/-- Entry `(r, j)` of the tile at point `t` is entry `(8000 t + r, j)` of the logits array after the region: the tile is
    what point `t` writes back, which is block `t` of the array's function. -/
theorem zlog_eq (c : Dev nD) (t : Fin cfg2.N) (r : Fin 8000) (j : Fin 3) :
    zlog V c t r j = (dat2 V c).arrAt 5 cfg2.N (ix2 (⟨t.val * 8000 + r.val, tile_row_lt t r⟩ : Fin 1000000) j) := by
  rw [final2_5]
  have hfl := congrFun (flushed2_5_eq V c t) (ix2 r j)
  have hl : (dat2 V c).flushed 5 t (ix2 r j) = zlog V c t r j := by
    show (cfg2.win 5).cut (grid2.coords t) ((dat2 V c).after 5 t) (ix2 r j) = _
    rw [after2_5_eq]
    rfl
  rw [← hl, hfl]
  obtain ⟨e00, e01, e10, e11, e20, e30, e31, e40, e50, e51⟩ := idx_facts2 t
  show G2L (A2_0 V c) (A2_1 V c) (A2_2 V c) (A2_3 V c) (A2_4 V c) (((cfg2.win 5).blk t).view.emb (ix2 r j))
    = G2L (A2_0 V c) (A2_1 V c) (A2_2 V c) (A2_3 V c) (A2_4 V c) (ix2 (⟨t.val * 8000 + r.val, tile_row_lt t r⟩ : Fin 1000000) j)
  refine congrArg _ ?_
  funext a; apply Fin.ext
  match a with
  | ⟨0, _⟩ => show win2_5.index t (0 : Fin 2) * 8000 + 1 * r.val = t.val * 8000 + r.val; omega
  | ⟨1, _⟩ => show win2_5.index t (1 : Fin 2) * 3 + 1 * j.val = j.val; omega

/-- Entry `i` of the flat column `j` of the tiles is entry `(i, j)` of the logits array after the region. -/
theorem ycol_eq (c : Dev nD) (j : Fin 3) (i : Fin 1000000) :
    ycol V c j i = (dat2 V c).arrAt 5 cfg2.N (ix2 i j) := by
  unfold ycol
  rw [zlog_eq]
  refine congrArg _ (congrArg (fun p : Fin 1000000 => ix2 p j) (Fin.ext ?_))
  show i.val / 8000 * 8000 + i.val % 8000 = i.val
  omega

end Cert.KernelIdeal.KFrame

end
-- ==== Proof.RefLsm.lean ====
/-
  The reference's log-softmax over axis 0, read at an entry. For a 1000000 × 3 array z, at row p and column j:
  the shifted entry is z(p,j) minus the column's maximum (the fold of max from minus infinity over the column, taken
  once more against minus infinity), and the result is the shifted entry minus the logarithm of zero plus the sum
  over the column of the exponentials of the shifted entries.
-/
import proofs.«109717_j65541200937586_2_alg».proof.Proof.RefStages
import Idealize.ShloMosaic.Lib.ValueIdx
import Idealize.ShloMosaic.Lib.Pipeline.Value
import Idealize.ShloMosaic.Lib.IdealHost
import Idealize.ShloMosaic.PureOps.Ideal.Laws
import Idealize.ShloMosaic.PureOps.Reduce

noncomputable section

namespace Cert.ReferenceIdeal.RefRun

open Cert.ReferenceIdeal Cert.ReferenceIdeal.Gen Idealize.ShloMosaic Idealize.ShloMosaic.TcCoe Idealize.ShloMosaic.ValueIdx

/-- A fold over an index range does not depend on how the range's length is written. -/
theorem fold_cast {α : Type} (op : α → α → α) [Std.Commutative op] [Std.Associative op] (b : α) {n n' : ℕ} (e : n = n') (f : Fin n → α) :
    (Finset.univ : Finset (Fin n)).fold op b f = (Finset.univ : Finset (Fin n')).fold op b (fun q => f (Fin.cast e.symm q)) := by
  subst e; rfl

/-- Nor does a sum. -/
theorem sum_cast {n n' : ℕ} (e : n = n') (f : Fin n → EReal) :
    ∑ q : Fin n, f q = ∑ q : Fin n', f (Fin.cast e.symm q) := by
  subst e; rfl

/-- Dropping axis 0 of a 1000000 × 3 array leaves its three columns. -/
theorem hred : Shape.Reduces S1000000x3 [0] S3 := by decide

theorem hsize : S1000000x3.size 0 = 1000000 := rfl

/-- Column j with row q inserted is the entry (q, j). -/
theorem lift_eq (j : Fin 3) (q : Fin 1000000) :
    hred.lift (ix1 j) (Fin.cast hsize.symm q) = ix2 q j := by
  funext a
  apply Fin.ext
  match a with
  | ⟨0, _⟩ => rfl
  | ⟨1, _⟩ => rfl

/-- The word of minus infinity is the bottom of the extended reals. -/
theorem negInf : Ideal.ofBits .f32 0xFF800000#32 = ⊥ := by simp [Ideal.ofBits, Ideal.ieee]

/-- The maximum of column j: the fold of max from minus infinity over its entries. -/
def colMax (z : FVec Ideal S1000000x3 .f32) (j : Fin 3) : EReal :=
  (Finset.univ : Finset (Fin 1000000)).fold max ⊥ fun q => z (ix2 q j)

theorem reduceMax_apply (z : FVec Ideal S1000000x3 .f32) (j : Fin 3) :
    Host.reduce FloatOps.maximumf z (constant (F := Ideal) S_ .f32 0xFF800000#32) reducesTo_S1000000x3_S3_d0 h_S_ (ix1 j)
      = colMax z j := by
  rw [Host.reduce_eq_fold_single _ _ _ _ hred _ (ix1 j)]
  refine (fold_cast _ _ hsize _).trans ?_
  unfold colMax
  have e : (fun q : Fin 1000000 => (z ∘ hred.lift (ix1 j)) (Fin.cast hsize.symm q)) = fun q => z (ix2 q j) :=
    funext fun q => congrArg z (lift_eq j q)
  rw [e]
  exact congrArg (fun b => Finset.fold max b (fun q : Fin 1000000 => z (ix2 q j)) Finset.univ) negInf

/-- The shifted entry. -/
theorem lsmShift_apply (z : FVec Ideal S1000000x3 .f32) (p : Fin 1000000) (j : Fin 3) :
    lsmShift z (ix2 p j) = z (ix2 p j) - max ⊥ (colMax z j) := by
  unfold lsmShift
  rw [subf_apply]
  refine congrArg (fun t => z (ix2 p j) - t) ?_
  rw [broadcastInDim_apply _ _ _ _ (ix2 (0 : Fin 1) j) (by intro a; match a with | ⟨0, _⟩ => rfl | ⟨1, _⟩ => rfl)]
  rw [broadcastInDim_apply _ _ _ _ (ix1 j) (by intro a; match a with | ⟨0, _⟩ => rfl)]
  rw [maximumf_apply, broadcastInDim_scalar_apply, reduceMax_apply]
  exact congrArg (fun b => max b (colMax z j)) negInf

/-- The host's logarithm and exponential act entry by entry. -/
theorem hostLog_apply {s : Shape} (x : FVec Ideal s .f32) (i : s.Idx) : Host.log x i = Ideal.log (x i) := rfl
theorem hostExp_apply {s : Shape} (x : FVec Ideal s .f32) (i : s.Idx) : Host.exp x i = Ideal.exp (x i) := rfl

/-- The logarithm of a column's sum, for any 1000000 × 3 array: zero plus the sum of the column's entries, under the
    logarithm. -/
theorem logSum_apply (E : FVec Ideal S1000000x3 .f32) (j : Fin 3) :
    Host.log (broadcastInDim S1x3 ![1] bcast_S3_S1x3_1
        (Host.reduceAdd E (constant (F := Ideal) S_ .f32 0x00000000#32) reducesTo_S1000000x3_S3_d0 h_S_)) (ix2 (0 : Fin 1) j)
      = Ideal.log (0 + ∑ q : Fin 1000000, E (ix2 q j)) := by
  rw [hostLog_apply, broadcastInDim_apply _ _ _ _ (ix1 j) (by intro a; match a with | ⟨0, _⟩ => rfl)]
  rw [hostReduceAdd_apply, Ideal.hostReduceAdd_single _ hred]
  refine congrArg Ideal.log (congrArg₂ (· + ·) Ideal.ofBits_zero_f32 ?_)
  refine (sum_cast hsize _).trans (Finset.sum_congr rfl fun q _ => ?_)
  exact congrArg E (lift_eq j q)

/-- The log-softmax at an entry. -/
theorem lsmOf_apply (z : FVec Ideal S1000000x3 .f32) (p : Fin 1000000) (j : Fin 3) :
    lsmOf z (ix2 p j)
      = z (ix2 p j) - max ⊥ (colMax z j)
        - Ideal.log (0 + ∑ q : Fin 1000000, Ideal.exp (z (ix2 q j) - max ⊥ (colMax z j))) := by
  unfold lsmOf
  rw [subf_apply, lsmShift_apply]
  refine congrArg (fun t => z (ix2 p j) - max ⊥ (colMax z j) - t) ?_
  rw [broadcastInDim_apply _ _ _ _ (ix2 (0 : Fin 1) j) (by intro a; match a with | ⟨0, _⟩ => rfl | ⟨1, _⟩ => rfl)]
  rw [logSum_apply]
  refine congrArg (fun S => Ideal.log (0 + S)) (Finset.sum_congr rfl fun q _ => ?_)
  rw [hostExp_apply, lsmShift_apply]

end Cert.ReferenceIdeal.RefRun

end
-- ==== Proof.KValue2.lean ====
/-
  The result. Region 3 writes, at row p and column j, the logits entry minus the running maximum of column j minus
  the logarithm of its running sum, both taken after the last grid point. The running rows obey the tile-by-tile
  recurrence whose closed form is the column's maximum and the sum of the exponentials of the column's entries
  shifted by it — provided every logit is a real number. The reference's log-softmax at the same entry is the same
  expression: its fold of max from minus infinity is the column's supremum, its sum starts from zero.
-/
import proofs.«109717_j65541200937586_2_alg».proof.Proof.KValue1
import proofs.«109717_j65541200937586_2_alg».proof.Proof.KFinal2y
import proofs.«109717_j65541200937586_2_alg».proof.Proof.KR2Value
import proofs.«109717_j65541200937586_2_alg».proof.Proof.RefLsm

set_option maxRecDepth 16384

noncomputable section

namespace Cert.KernelIdeal.KFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
variable (m : (ℓ : Loc nD τ sig) → Buf (Elt Ideal) ℓ) (ρ : Dev nD → PrngReg)

/-- The logits array region 2 leaves. -/
abbrev Zk (c : Dev nD) : S1000000x3.Idx → Elt Ideal .f32 := W10 m ρ c (Proc.devRef .tc main_v60_0)

theorem h124 : 124 < cfg2.N := by decide

/-- The flat column of the recurrence is the logits array's column. -/
theorem ycol_Zk (c : Dev nD) (j : Fin 3) : ycol (V9 m ρ) c j = fun i => Zk m ρ c (ix2 i j) :=
  funext fun i => (ycol_eq (V9 m ρ) c j i).trans (congrFun (W10_arr m ρ c 5).symm _)

/-- Every tile entry is a logits entry. -/
theorem zlog_Zk (c : Dev nD) (t : Fin cfg2.N) (r : Fin 8000) (j : Fin 3) :
    zlog (V9 m ρ) c t r j = Zk m ρ c (ix2 (⟨t.val * 8000 + r.val, tile_row_lt t r⟩ : Fin 1000000) j) :=
  (zlog_eq (V9 m ρ) c t r j).trans (congrFun (W10_arr m ρ c 5).symm _)

/-- The result at an entry is the reference's log-softmax of the logits array at that entry. -/
theorem result_entry (c : Dev nD) (hz : ∀ i, Zk m ρ c i ≠ ⊥ ∧ Zk m ρ c i ≠ ⊤) (p : Fin 1000000) (j : Fin 3) :
    (W11 m ρ c (Proc.devRef .tc main_v61) : S1000000x3.Idx → Elt Ideal .f32) (ix2 p j)
      = Cert.ReferenceIdeal.RefRun.lsmOf (F := Ideal) (Zk m ρ c) (ix2 p j) := by
  have e1 : A3_1 (V10 m ρ) c = ((outsAt2 (V9 m ρ) c 124 h124).2.1 : S1x3.Idx → Elt Ideal .f32) := W10_v60_1 m ρ c h124
  have e2 : A3_2 (V10 m ρ) c = ((outsAt2 (V9 m ρ) c 124 h124).2.2.1 : S1x3.Idx → Elt Ideal .f32) := W10_v60_2 m ρ c h124
  rw [W11_v61, final3, e1, e2]
  refine (region2_logSoftmax (V9 m ρ) c j h124 (fun t r => by rw [zlog_Zk]; exact hz _) (Zk m ρ c (ix2 p j))).trans ?_
  rw [Cert.ReferenceIdeal.RefRun.lsmOf_apply, ycol_Zk, max_eq_right bot_le, zero_add]
  rfl

/-- The result array is the reference's log-softmax of the logits array. -/
theorem result_eq (c : Dev nD) (hz : ∀ i, Zk m ρ c i ≠ ⊥ ∧ Zk m ρ c i ≠ ⊤) :
    (W11 m ρ c (Proc.devRef .tc main_v61) : S1000000x3.Idx → Elt Ideal .f32)
      = Cert.ReferenceIdeal.RefRun.lsmOf (F := Ideal) (Zk m ρ c) := by
  funext i
  obtain ⟨p, j, rfl⟩ : ∃ (p : Fin 1000000) (j : Fin 3), i = ix2 p j := ⟨i 0, i 1, eq_ix2 i⟩
  exact result_entry m ρ c hz p j

end Cert.KernelIdeal.KFrame

end
-- ==== Proof.RefOps.lean ====
/-
  The reference program's @main as ONE straight line of host operations, and its run.

  @main is printed in two windows (main_part0, main_part1) of `hlo` steps and six calls of outlined
  functions (`_where` twice, `leaky_relu` twice, `leaky_relu_1` once, `log_softmax` once; each
  `leaky_relu` itself calls a three-operand `_where`). A call means the callee's body run on the
  operands over that call's own buffers, so `ops` below lists, in program order, every operation of
  @main with each callee's operations written at its call site over the call's buffer record
  (`main_call0` … `main_call5`): 126 operations. `main_eq` says @main is the sequence of these
  (both sides are one chain of `hlo` steps once sequencing is re-associated), and `run_main` reads the
  straight-line run at it: every weakly fair execution terminates and every buffer ends at the fold
  `after ops` of the operations over the launch contents.
-/
import proofs.«109717_j65541200937586_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 126 operations in order, the calls unfolded at their sites over the calls' buffer records. -/
abbrev ops : List (HloOp τ sig (Elt F)) :=
  [
    StableHlo.unary main_arg0 main_v0 ((extractStridedSlice S1x16000000 ![0, 0] · slices_S2x16000000_S1x16000000_0_0) : (⟨S2x16000000, .i32⟩ : BufTy).Contents (Elt F) → (⟨S1x16000000, .i32⟩ : BufTy).Contents (Elt F)),
    StableHlo.reshape main_v0 main_v1 rfl shapeCasts_S1x16000000_S16000000,
    StableHlo.unary main_arg0 main_v2 ((extractStridedSlice S1x16000000 ![1, 0] · slices_S2x16000000_S1x16000000_1_0) : (⟨S2x16000000, .i32⟩ : BufTy).Contents (Elt F) → (⟨S1x16000000, .i32⟩ : BufTy).Contents (Elt F)),
    StableHlo.reshape main_v2 main_v3 rfl shapeCasts_S1x16000000_S16000000,
    StableHlo.nullary main_cst (constant S_ .f32 0x00000000#32),
    StableHlo.unary main_cst main_v4 (broadcastInDim S1000000 ![] bcast_S_S1000000 : (⟨S_, .f32⟩ : BufTy).Contents (Elt F) → (⟨S1000000, .f32⟩ : BufTy).Contents (Elt F)),
    StableHlo.unary main_v3 main_v5 (broadcastInDim S16000000x1 ![0] bcast_S16000000_S16000000x1_0 : (⟨S16000000, .i32⟩ : BufTy).Contents (Elt F) → (⟨S16000000x1, .i32⟩ : BufTy).Contents (Elt F)),
    StableHlo.ternary main_v4 main_v5 main_arg1 main_v6 ((fun x i u => Host.scatterAdd scatter_S1000000_S16000000x1_S16000000_n_0_0_1 x i u) : (⟨S1000000, .f32⟩ : BufTy).Contents (Elt F) → (⟨S16000000x1, .i32⟩ : BufTy).Contents (Elt F) → (⟨S16000000, .f32⟩ : BufTy).Contents (Elt F) → (⟨S1000000, .f32⟩ : BufTy).Contents (Elt F)),
    StableHlo.nullary main_cst_0 (constant S_ .f32 0x00000000#32),
    StableHlo.unary main_cst_0 main_v7 (broadcastInDim S1000000 ![] bcast_S_S1000000 : (⟨S_, .f32⟩ : BufTy).Contents (Elt F) → (⟨S1000000, .f32⟩ : BufTy).Contents (Elt F)),
    StableHlo.binary main_v6 main_v7 main_v8 (cmpf .ogt : (⟨S1000000, .f32⟩ : BufTy).Contents (Elt F) → (⟨S1000000, .f32⟩ : BufTy).Contents (Elt F) → (⟨S1000000, .i1⟩ : BufTy).Contents (Elt F)),
    StableHlo.nullary main_cst_1 (constant S_ .f32 0x00000000#32),
    StableHlo.unary main_cst_1 main_v9 (broadcastInDim S1000000 ![] bcast_S_S1000000 : (⟨S_, .f32⟩ : BufTy).Contents (Elt F) → (⟨S1000000, .f32⟩ : BufTy).Contents (Elt F)),
    StableHlo.binary main_v6 main_v9 main_v10 (cmpf .ogt : (⟨S1000000, .f32⟩ : BufTy).Contents (Elt F) → (⟨S1000000, .f32⟩ : BufTy).Contents (Elt F) → (⟨S1000000, .i1⟩ : BufTy).Contents (Elt F)),
    StableHlo.nullary main_cst_2 (constant S_ .f32 0x3F800000#32),
    StableHlo.TRef.unary (.of main_cst_2 : StableHlo.TRef sig ⟨S_, .f32⟩) main_call0.v0 id,
    StableHlo.TRef.unary main_call0.v0 main_call0.v1 (broadcastInDim S1000000 ![] bcast_S_S1000000),
    StableHlo.TRef.ternary (.of main_v10 : StableHlo.TRef sig ⟨S1000000, .i1⟩) (.of main_v6 : StableHlo.TRef sig ⟨S1000000, .f32⟩) main_call0.v1 main_call0.v2 select,
    StableHlo.unary main_v11 main_v12 (Host.rsqrt : (⟨S1000000, .f32⟩ : BufTy).Contents (Elt F) → (⟨S1000000, .f32⟩ : BufTy).Contents (Elt F)),
    StableHlo.nullary main_cst_3 (constant S_ .f32 0x00000000#32),
    StableHlo.TRef.unary (.of main_cst_3 : StableHlo.TRef sig ⟨S_, .f32⟩) main_call1.v0 id,
    StableHlo.TRef.unary main_call1.v0 main_call1.v1 (broadcastInDim S1000000 ![] bcast_S_S1000000),
    StableHlo.TRef.ternary (.of main_v8 : StableHlo.TRef sig ⟨S1000000, .i1⟩) (.of main_v12 : StableHlo.TRef sig ⟨S1000000, .f32⟩) main_call1.v1 main_call1.v2 select,
    StableHlo.nullary main_c (constantI S_ 32 0#32),
    StableHlo.unary main_c main_v14 (broadcastInDim S16000000 ![] bcast_S_S16000000 : (⟨S_, .i32⟩ : BufTy).Contents (Elt F) → (⟨S16000000, .i32⟩ : BufTy).Contents (Elt F)),
    StableHlo.binary main_v1 main_v14 main_v15 (cmpi .slt : (⟨S16000000, .i32⟩ : BufTy).Contents (Elt F) → (⟨S16000000, .i32⟩ : BufTy).Contents (Elt F) → (⟨S16000000, .i1⟩ : BufTy).Contents (Elt F)),
    StableHlo.nullary main_c_4 (constantI S_ 32 1000000#32),
    StableHlo.unary main_c_4 main_v16 (broadcastInDim S16000000 ![] bcast_S_S16000000 : (⟨S_, .i32⟩ : BufTy).Contents (Elt F) → (⟨S16000000, .i32⟩ : BufTy).Contents (Elt F)),
    StableHlo.binary main_v1 main_v16 main_v17 (addi : (⟨S16000000, .i32⟩ : BufTy).Contents (Elt F) → (⟨S16000000, .i32⟩ : BufTy).Contents (Elt F) → (⟨S16000000, .i32⟩ : BufTy).Contents (Elt F)),
    StableHlo.ternary main_v15 main_v17 main_v1 main_v18 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    StableHlo.unary main_v18 main_v19 (broadcastInDim S16000000x1 ![0] bcast_S16000000_S16000000x1_0 : (⟨S16000000, .i32⟩ : BufTy).Contents (Elt F) → (⟨S16000000x1, .i32⟩ : BufTy).Contents (Elt F)),
    StableHlo.binary main_v13 main_v19 main_v20 ((fun x i => Host.gather gather_S1000000_S16000000x1_S16000000_n_0_n_n_0_1_1 x i) : (⟨S1000000, .f32⟩ : BufTy).Contents (Elt F) → (⟨S16000000x1, .i32⟩ : BufTy).Contents (Elt F) → (⟨S16000000, .f32⟩ : BufTy).Contents (Elt F)),
    StableHlo.binary main_v20 main_arg1 main_v21 (mulf : (⟨S16000000, .f32⟩ : BufTy).Contents (Elt F) → (⟨S16000000, .f32⟩ : BufTy).Contents (Elt F) → (⟨S16000000, .f32⟩ : BufTy).Contents (Elt F)),
    StableHlo.nullary main_c_5 (constantI S_ 32 0#32),
    StableHlo.unary main_c_5 main_v22 (broadcastInDim S16000000 ![] bcast_S_S16000000 : (⟨S_, .i32⟩ : BufTy).Contents (Elt F) → (⟨S16000000, .i32⟩ : BufTy).Contents (Elt F)),
    StableHlo.binary main_v3 main_v22 main_v23 (cmpi .slt : (⟨S16000000, .i32⟩ : BufTy).Contents (Elt F) → (⟨S16000000, .i32⟩ : BufTy).Contents (Elt F) → (⟨S16000000, .i1⟩ : BufTy).Contents (Elt F)),
    StableHlo.nullary main_c_6 (constantI S_ 32 1000000#32),
    StableHlo.unary main_c_6 main_v24 (broadcastInDim S16000000 ![] bcast_S_S16000000 : (⟨S_, .i32⟩ : BufTy).Contents (Elt F) → (⟨S16000000, .i32⟩ : BufTy).Contents (Elt F)),
    StableHlo.binary main_v3 main_v24 main_v25 (addi : (⟨S16000000, .i32⟩ : BufTy).Contents (Elt F) → (⟨S16000000, .i32⟩ : BufTy).Contents (Elt F) → (⟨S16000000, .i32⟩ : BufTy).Contents (Elt F)),
    StableHlo.ternary main_v23 main_v25 main_v3 main_v26 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    StableHlo.unary main_v26 main_v27 (broadcastInDim S16000000x1 ![0] bcast_S16000000_S16000000x1_0 : (⟨S16000000, .i32⟩ : BufTy).Contents (Elt F) → (⟨S16000000x1, .i32⟩ : BufTy).Contents (Elt F)),
    StableHlo.binary main_v13 main_v27 main_v28 ((fun x i => Host.gather gather_S1000000_S16000000x1_S16000000_n_0_n_n_0_1_1 x i) : (⟨S1000000, .f32⟩ : BufTy).Contents (Elt F) → (⟨S16000000x1, .i32⟩ : BufTy).Contents (Elt F) → (⟨S16000000, .f32⟩ : BufTy).Contents (Elt F)),
    StableHlo.binary main_v21 main_v28 main_v29 (mulf : (⟨S16000000, .f32⟩ : BufTy).Contents (Elt F) → (⟨S16000000, .f32⟩ : BufTy).Contents (Elt F) → (⟨S16000000, .f32⟩ : BufTy).Contents (Elt F)),
    StableHlo.binary main_arg4 main_arg5 main_v30 ((fun l r => Host.dotGeneral dot_S1000000x3_S3x3_S1000000x3_1_0_0_1_n_n none l r) : (⟨S1000000x3, .f32⟩ : BufTy).Contents (Elt F) → (⟨S3x3, .f32⟩ : BufTy).Contents (Elt F) → (⟨S1000000x3, .f32⟩ : BufTy).Contents (Elt F)),
    StableHlo.unary main_v29 main_v31 (broadcastInDim S16000000x1 ![0] bcast_S16000000_S16000000x1_0 : (⟨S16000000, .f32⟩ : BufTy).Contents (Elt F) → (⟨S16000000x1, .f32⟩ : BufTy).Contents (Elt F)),
    StableHlo.nullary main_c_7 (constantI S_ 32 0#32),
    StableHlo.unary main_c_7 main_v32 (broadcastInDim S16000000 ![] bcast_S_S16000000 : (⟨S_, .i32⟩ : BufTy).Contents (Elt F) → (⟨S16000000, .i32⟩ : BufTy).Contents (Elt F)),
    StableHlo.binary main_v1 main_v32 main_v33 (cmpi .slt : (⟨S16000000, .i32⟩ : BufTy).Contents (Elt F) → (⟨S16000000, .i32⟩ : BufTy).Contents (Elt F) → (⟨S16000000, .i1⟩ : BufTy).Contents (Elt F)),
    StableHlo.nullary main_c_8 (constantI S_ 32 1000000#32),
    StableHlo.unary main_c_8 main_v34 (broadcastInDim S16000000 ![] bcast_S_S16000000 : (⟨S_, .i32⟩ : BufTy).Contents (Elt F) → (⟨S16000000, .i32⟩ : BufTy).Contents (Elt F)),
    StableHlo.binary main_v1 main_v34 main_v35 (addi : (⟨S16000000, .i32⟩ : BufTy).Contents (Elt F) → (⟨S16000000, .i32⟩ : BufTy).Contents (Elt F) → (⟨S16000000, .i32⟩ : BufTy).Contents (Elt F)),
    StableHlo.ternary main_v33 main_v35 main_v1 main_v36 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    StableHlo.unary main_v36 main_v37 (broadcastInDim S16000000x1 ![0] bcast_S16000000_S16000000x1_0 : (⟨S16000000, .i32⟩ : BufTy).Contents (Elt F) → (⟨S16000000x1, .i32⟩ : BufTy).Contents (Elt F)),
    StableHlo.binary main_v30 main_v37 main_v38 ((fun x i => Host.gather gather_S1000000x3_S16000000x1_S16000000x3_1_0_n_n_0_1_13 x i) : (⟨S1000000x3, .f32⟩ : BufTy).Contents (Elt F) → (⟨S16000000x1, .i32⟩ : BufTy).Contents (Elt F) → (⟨S16000000x3, .f32⟩ : BufTy).Contents (Elt F)),
    StableHlo.unary main_v31 main_v39 (broadcastInDim S16000000x3 ![0, 1] bcast_S16000000x1_S16000000x3_0_1 : (⟨S16000000x1, .f32⟩ : BufTy).Contents (Elt F) → (⟨S16000000x3, .f32⟩ : BufTy).Contents (Elt F)),
    StableHlo.binary main_v39 main_v38 main_v40 (mulf : (⟨S16000000x3, .f32⟩ : BufTy).Contents (Elt F) → (⟨S16000000x3, .f32⟩ : BufTy).Contents (Elt F) → (⟨S16000000x3, .f32⟩ : BufTy).Contents (Elt F)),
    StableHlo.nullary main_cst_9 (constant S_ .f32 0x00000000#32),
    StableHlo.unary main_cst_9 main_v41 (broadcastInDim S1000000x3 ![] bcast_S_S1000000x3 : (⟨S_, .f32⟩ : BufTy).Contents (Elt F) → (⟨S1000000x3, .f32⟩ : BufTy).Contents (Elt F)),
    StableHlo.unary main_v3 main_v42 (broadcastInDim S16000000x1 ![0] bcast_S16000000_S16000000x1_0 : (⟨S16000000, .i32⟩ : BufTy).Contents (Elt F) → (⟨S16000000x1, .i32⟩ : BufTy).Contents (Elt F)),
    StableHlo.ternary main_v41 main_v42 main_v40 main_v43 ((fun x i u => Host.scatterAdd scatter_S1000000x3_S16000000x1_S16000000x3_1_0_0_1 x i u) : (⟨S1000000x3, .f32⟩ : BufTy).Contents (Elt F) → (⟨S16000000x1, .i32⟩ : BufTy).Contents (Elt F) → (⟨S16000000x3, .f32⟩ : BufTy).Contents (Elt F) → (⟨S1000000x3, .f32⟩ : BufTy).Contents (Elt F)),
    StableHlo.unary main_arg6 main_v44 (broadcastInDim S1x3 ![1] bcast_S3_S1x3_1 : (⟨S3, .f32⟩ : BufTy).Contents (Elt F) → (⟨S1x3, .f32⟩ : BufTy).Contents (Elt F)),
    StableHlo.unary main_v44 main_v45 (broadcastInDim S1000000x3 ![0, 1] bcast_S1x3_S1000000x3_0_1 : (⟨S1x3, .f32⟩ : BufTy).Contents (Elt F) → (⟨S1000000x3, .f32⟩ : BufTy).Contents (Elt F)),
    StableHlo.binary main_v43 main_v45 main_v46 (addf : (⟨S1000000x3, .f32⟩ : BufTy).Contents (Elt F) → (⟨S1000000x3, .f32⟩ : BufTy).Contents (Elt F) → (⟨S1000000x3, .f32⟩ : BufTy).Contents (Elt F)),
    StableHlo.TRef.nullary main_call2.cst (constant S_ .f32 0x00000000#32),
    StableHlo.TRef.unary main_call2.cst main_call2.v0 (broadcastInDim S1000000x3 ![] bcast_S_S1000000x3),
    StableHlo.TRef.binary (.of main_v46 : StableHlo.TRef sig ⟨S1000000x3, .f32⟩) main_call2.v0 main_call2.v1 (cmpf .oge),
    StableHlo.TRef.nullary main_call2.cst_0 (constant S_ .f32 0x3C23D70A#32),
    StableHlo.TRef.unary main_call2.cst_0 main_call2.v2 (broadcastInDim S1000000x3 ![] bcast_S_S1000000x3),
    StableHlo.TRef.binary main_call2.v2 (.of main_v46 : StableHlo.TRef sig ⟨S1000000x3, .f32⟩) main_call2.v3 mulf,
    StableHlo.TRef.ternary main_call2.v1 (.of main_v46 : StableHlo.TRef sig ⟨S1000000x3, .f32⟩) main_call2.v3 main_call2.call0.v0 select,
    StableHlo.nullary main_c_10 (constantI S_ 32 0#32),
    StableHlo.unary main_c_10 main_v48 (broadcastInDim S1000000 ![] bcast_S_S1000000 : (⟨S_, .i32⟩ : BufTy).Contents (Elt F) → (⟨S1000000, .i32⟩ : BufTy).Contents (Elt F)),
    StableHlo.binary main_arg2 main_v48 main_v49 (cmpi .slt : (⟨S1000000, .i32⟩ : BufTy).Contents (Elt F) → (⟨S1000000, .i32⟩ : BufTy).Contents (Elt F) → (⟨S1000000, .i1⟩ : BufTy).Contents (Elt F)),
    StableHlo.nullary main_c_11 (constantI S_ 32 1000000#32),
    StableHlo.unary main_c_11 main_v50 (broadcastInDim S1000000 ![] bcast_S_S1000000 : (⟨S_, .i32⟩ : BufTy).Contents (Elt F) → (⟨S1000000, .i32⟩ : BufTy).Contents (Elt F)),
    StableHlo.binary main_arg2 main_v50 main_v51 (addi : (⟨S1000000, .i32⟩ : BufTy).Contents (Elt F) → (⟨S1000000, .i32⟩ : BufTy).Contents (Elt F) → (⟨S1000000, .i32⟩ : BufTy).Contents (Elt F)),
    StableHlo.ternary main_v49 main_v51 main_arg2 main_v52 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v52 main_v53 (broadcastInDim S1000000x1 ![0] bcast_S1000000_S1000000x1_0 : (⟨S1000000, .i32⟩ : BufTy).Contents (Elt F) → (⟨S1000000x1, .i32⟩ : BufTy).Contents (Elt F)),
    StableHlo.binary main_v47 main_v53 main_v54 ((fun x i => Host.gather gather_S1000000x3_S1000000x1_S1000000x3_1_0_n_n_0_1_13 x i) : (⟨S1000000x3, .f32⟩ : BufTy).Contents (Elt F) → (⟨S1000000x1, .i32⟩ : BufTy).Contents (Elt F) → (⟨S1000000x3, .f32⟩ : BufTy).Contents (Elt F)),
    StableHlo.nullary main_c_12 (constantI S_ 32 0#32),
    StableHlo.unary main_c_12 main_v55 (broadcastInDim S1000000 ![] bcast_S_S1000000 : (⟨S_, .i32⟩ : BufTy).Contents (Elt F) → (⟨S1000000, .i32⟩ : BufTy).Contents (Elt F)),
    StableHlo.binary main_arg3 main_v55 main_v56 (cmpi .slt : (⟨S1000000, .i32⟩ : BufTy).Contents (Elt F) → (⟨S1000000, .i32⟩ : BufTy).Contents (Elt F) → (⟨S1000000, .i1⟩ : BufTy).Contents (Elt F)),
    StableHlo.nullary main_c_13 (constantI S_ 32 1000000#32),
    StableHlo.unary main_c_13 main_v57 (broadcastInDim S1000000 ![] bcast_S_S1000000 : (⟨S_, .i32⟩ : BufTy).Contents (Elt F) → (⟨S1000000, .i32⟩ : BufTy).Contents (Elt F)),
    StableHlo.binary main_arg3 main_v57 main_v58 (addi : (⟨S1000000, .i32⟩ : BufTy).Contents (Elt F) → (⟨S1000000, .i32⟩ : BufTy).Contents (Elt F) → (⟨S1000000, .i32⟩ : BufTy).Contents (Elt F)),
    StableHlo.ternary main_v56 main_v58 main_arg3 main_v59 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v59 main_v60 (broadcastInDim S1000000x1 ![0] bcast_S1000000_S1000000x1_0 : (⟨S1000000, .i32⟩ : BufTy).Contents (Elt F) → (⟨S1000000x1, .i32⟩ : BufTy).Contents (Elt F)),
    StableHlo.binary main_v47 main_v60 main_v61 ((fun x i => Host.gather gather_S1000000x3_S1000000x1_S1000000x3_1_0_n_n_0_1_13 x i) : (⟨S1000000x3, .f32⟩ : BufTy).Contents (Elt F) → (⟨S1000000x1, .i32⟩ : BufTy).Contents (Elt F) → (⟨S1000000x3, .f32⟩ : BufTy).Contents (Elt F)),
    StableHlo.binary main_v54 main_v61 main_v62 ((fun a b => concatenate S1000000x6 1 [⟨S1000000x3, a⟩, ⟨S1000000x3, b⟩] concatenates_S1000000x3_S1000000x3_S1000000x6_d1) : (⟨S1000000x3, .f32⟩ : BufTy).Contents (Elt F) → (⟨S1000000x3, .f32⟩ : BufTy).Contents (Elt F) → (⟨S1000000x6, .f32⟩ : BufTy).Contents (Elt F)),
    StableHlo.binary main_v62 main_arg7 main_v63 ((fun l r => Host.dotGeneral dot_S1000000x6_S6x6_S1000000x6_1_0_0_1_n_n none l r) : (⟨S1000000x6, .f32⟩ : BufTy).Contents (Elt F) → (⟨S6x6, .f32⟩ : BufTy).Contents (Elt F) → (⟨S1000000x6, .f32⟩ : BufTy).Contents (Elt F)),
    StableHlo.unary main_arg8 main_v64 (broadcastInDim S1x6 ![1] bcast_S6_S1x6_1 : (⟨S6, .f32⟩ : BufTy).Contents (Elt F) → (⟨S1x6, .f32⟩ : BufTy).Contents (Elt F)),
    StableHlo.unary main_v64 main_v65 (broadcastInDim S1000000x6 ![0, 1] bcast_S1x6_S1000000x6_0_1 : (⟨S1x6, .f32⟩ : BufTy).Contents (Elt F) → (⟨S1000000x6, .f32⟩ : BufTy).Contents (Elt F)),
    StableHlo.binary main_v63 main_v65 main_v66 (addf : (⟨S1000000x6, .f32⟩ : BufTy).Contents (Elt F) → (⟨S1000000x6, .f32⟩ : BufTy).Contents (Elt F) → (⟨S1000000x6, .f32⟩ : BufTy).Contents (Elt F)),
    StableHlo.TRef.nullary main_call3.cst (constant S_ .f32 0x00000000#32),
    StableHlo.TRef.unary main_call3.cst main_call3.v0 (broadcastInDim S1000000x6 ![] bcast_S_S1000000x6),
    StableHlo.TRef.binary (.of main_v66 : StableHlo.TRef sig ⟨S1000000x6, .f32⟩) main_call3.v0 main_call3.v1 (cmpf .oge),
    StableHlo.TRef.nullary main_call3.cst_0 (constant S_ .f32 0x3C23D70A#32),
    StableHlo.TRef.unary main_call3.cst_0 main_call3.v2 (broadcastInDim S1000000x6 ![] bcast_S_S1000000x6),
    StableHlo.TRef.binary main_call3.v2 (.of main_v66 : StableHlo.TRef sig ⟨S1000000x6, .f32⟩) main_call3.v3 mulf,
    StableHlo.TRef.ternary main_call3.v1 (.of main_v66 : StableHlo.TRef sig ⟨S1000000x6, .f32⟩) main_call3.v3 main_call3.call0.v0 select,
    StableHlo.binary main_v67 main_arg9 main_v68 ((fun l r => Host.dotGeneral dot_S1000000x6_S6x3_S1000000x3_1_0_0_1_n_n none l r) : (⟨S1000000x6, .f32⟩ : BufTy).Contents (Elt F) → (⟨S6x3, .f32⟩ : BufTy).Contents (Elt F) → (⟨S1000000x3, .f32⟩ : BufTy).Contents (Elt F)),
    StableHlo.unary main_arg10 main_v69 (broadcastInDim S1x3 ![1] bcast_S3_S1x3_1 : (⟨S3, .f32⟩ : BufTy).Contents (Elt F) → (⟨S1x3, .f32⟩ : BufTy).Contents (Elt F)),
    StableHlo.unary main_v69 main_v70 (broadcastInDim S1000000x3 ![0, 1] bcast_S1x3_S1000000x3_0_1 : (⟨S1x3, .f32⟩ : BufTy).Contents (Elt F) → (⟨S1000000x3, .f32⟩ : BufTy).Contents (Elt F)),
    StableHlo.binary main_v68 main_v70 main_v71 (addf : (⟨S1000000x3, .f32⟩ : BufTy).Contents (Elt F) → (⟨S1000000x3, .f32⟩ : BufTy).Contents (Elt F) → (⟨S1000000x3, .f32⟩ : BufTy).Contents (Elt F)),
    StableHlo.TRef.nullary main_call4.cst (constant S_ .f32 0x00000000#32),
    StableHlo.TRef.unary main_call4.cst main_call4.v0 (broadcastInDim S1000000x3 ![] bcast_S_S1000000x3),
    StableHlo.TRef.binary (.of main_v71 : StableHlo.TRef sig ⟨S1000000x3, .f32⟩) main_call4.v0 main_call4.v1 (cmpf .oge),
    StableHlo.TRef.nullary main_call4.cst_0 (constant S_ .f32 0x3C23D70A#32),
    StableHlo.TRef.unary main_call4.cst_0 main_call4.v2 (broadcastInDim S1000000x3 ![] bcast_S_S1000000x3),
    StableHlo.TRef.binary main_call4.v2 (.of main_v71 : StableHlo.TRef sig ⟨S1000000x3, .f32⟩) main_call4.v3 mulf,
    StableHlo.TRef.ternary main_call4.v1 (.of main_v71 : StableHlo.TRef sig ⟨S1000000x3, .f32⟩) main_call4.v3 main_call4.call0.v0 select,
    StableHlo.TRef.nullary main_call5.cst (constant S_ .f32 0xFF800000#32),
    StableHlo.TRef.binary (.of main_v72 : StableHlo.TRef sig ⟨S1000000x3, .f32⟩) main_call5.cst main_call5.v0 (fun x v => Host.reduce FloatOps.maximumf x v reducesTo_S1000000x3_S3_d0 h_S_),
    StableHlo.TRef.nullary main_call5.cst_0 (constant S_ .f32 0xFF800000#32),
    StableHlo.TRef.unary main_call5.cst_0 main_call5.v1 (broadcastInDim S3 ![] bcast_S_S3),
    StableHlo.TRef.binary main_call5.v1 main_call5.v0 main_call5.v2 maximumf,
    StableHlo.TRef.unary main_call5.v2 main_call5.v3 (broadcastInDim S1x3 ![1] bcast_S3_S1x3_1),
    StableHlo.TRef.unary main_call5.v3 main_call5.v4 (broadcastInDim S1000000x3 ![0, 1] bcast_S1x3_S1000000x3_0_1),
    StableHlo.TRef.binary (.of main_v72 : StableHlo.TRef sig ⟨S1000000x3, .f32⟩) main_call5.v4 main_call5.v5 subf,
    StableHlo.TRef.unary main_call5.v5 main_call5.v6 Host.exp,
    StableHlo.TRef.nullary main_call5.cst_1 (constant S_ .f32 0x00000000#32),
    StableHlo.TRef.binary main_call5.v6 main_call5.cst_1 main_call5.v7 (fun x v => Host.reduceAdd x v reducesTo_S1000000x3_S3_d0 h_S_),
    StableHlo.TRef.unary main_call5.v7 main_call5.v8 (broadcastInDim S1x3 ![1] bcast_S3_S1x3_1),
    StableHlo.TRef.unary main_call5.v8 main_call5.v9 Host.log,
    StableHlo.TRef.unary main_call5.v9 main_call5.v10 (broadcastInDim S1000000x3 ![0, 1] bcast_S1x3_S1000000x3_0_1),
    StableHlo.TRef.binary main_call5.v5 main_call5.v10 main_call5.v11 subf ]

-- 126 binds re-associated: the rewrite under the chain recurses once per statement
set_option maxRecDepth 4096 in
set_option maxHeartbeats 4000000 in
/-- @main is that straight line: the two windows and the functions' definitions unfolded at their calls, both
    sides are one chain of `hlo` steps once sequencing is re-associated. -/
theorem main_eq (c : Dev nD) : main (F := F) c = seq ops := by
  simp only [main, main_part0, main_part1, fn_where.body, fn_where_0.body, fn_where_2.body, fn_leaky_relu.body,
    fn_leaky_relu_1.body, fn_log_softmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨
    unary_bufs_sub .., reshape_bufs_sub .., unary_bufs_sub .., reshape_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., unary_bufs_sub .., binary_bufs_sub ..⟩

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefSegs.lean ====
/-
  The straight line of the reference program's operations (`ops`) cut into eight consecutive stretches, one per
  stage buffer: the degree and its inverse square root (`segA1`); the edge normalisation (`segA2`); the
  feature product (`segB`); the aggregation (`segC`); bias and rectifier (`segD`); the two row gathers and
  their concatenation (`segE`); the dense layers (`segF`); the log-softmax (`segG`). Running a concatenation
  is running its parts in turn (`after_append`), and the line is the stretches in order (`ops_split`).
-/
import proofs.«109717_j65541200937586_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second's fold over the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents moved to a typed reference's buffer type and back are the contents. -/
theorem ofBuf_toBuf {T : BufTy} {Val : EltTy → Type} (x : TRef sig T) (v : T.Contents Val) : x.ofBuf (x.toBuf v) = v := by
  obtain ⟨r, h, _, _⟩ := x; subst h; rfl

/-- Operations 1 … 23 of the line. -/
def segA1 : List (HloOp τ sig (Elt F)) :=
  [
    StableHlo.unary main_arg0 main_v0 ((extractStridedSlice S1x16000000 ![0, 0] · slices_S2x16000000_S1x16000000_0_0) : (⟨S2x16000000, .i32⟩ : BufTy).Contents (Elt F) → (⟨S1x16000000, .i32⟩ : BufTy).Contents (Elt F)),
    StableHlo.reshape main_v0 main_v1 rfl shapeCasts_S1x16000000_S16000000,
    StableHlo.unary main_arg0 main_v2 ((extractStridedSlice S1x16000000 ![1, 0] · slices_S2x16000000_S1x16000000_1_0) : (⟨S2x16000000, .i32⟩ : BufTy).Contents (Elt F) → (⟨S1x16000000, .i32⟩ : BufTy).Contents (Elt F)),
    StableHlo.reshape main_v2 main_v3 rfl shapeCasts_S1x16000000_S16000000,
    StableHlo.nullary main_cst (constant S_ .f32 0x00000000#32),
    StableHlo.unary main_cst main_v4 (broadcastInDim S1000000 ![] bcast_S_S1000000 : (⟨S_, .f32⟩ : BufTy).Contents (Elt F) → (⟨S1000000, .f32⟩ : BufTy).Contents (Elt F)),
    StableHlo.unary main_v3 main_v5 (broadcastInDim S16000000x1 ![0] bcast_S16000000_S16000000x1_0 : (⟨S16000000, .i32⟩ : BufTy).Contents (Elt F) → (⟨S16000000x1, .i32⟩ : BufTy).Contents (Elt F)),
    StableHlo.ternary main_v4 main_v5 main_arg1 main_v6 ((fun x i u => Host.scatterAdd scatter_S1000000_S16000000x1_S16000000_n_0_0_1 x i u) : (⟨S1000000, .f32⟩ : BufTy).Contents (Elt F) → (⟨S16000000x1, .i32⟩ : BufTy).Contents (Elt F) → (⟨S16000000, .f32⟩ : BufTy).Contents (Elt F) → (⟨S1000000, .f32⟩ : BufTy).Contents (Elt F)),
    StableHlo.nullary main_cst_0 (constant S_ .f32 0x00000000#32),
    StableHlo.unary main_cst_0 main_v7 (broadcastInDim S1000000 ![] bcast_S_S1000000 : (⟨S_, .f32⟩ : BufTy).Contents (Elt F) → (⟨S1000000, .f32⟩ : BufTy).Contents (Elt F)),
    StableHlo.binary main_v6 main_v7 main_v8 (cmpf .ogt : (⟨S1000000, .f32⟩ : BufTy).Contents (Elt F) → (⟨S1000000, .f32⟩ : BufTy).Contents (Elt F) → (⟨S1000000, .i1⟩ : BufTy).Contents (Elt F)),
    StableHlo.nullary main_cst_1 (constant S_ .f32 0x00000000#32),
    StableHlo.unary main_cst_1 main_v9 (broadcastInDim S1000000 ![] bcast_S_S1000000 : (⟨S_, .f32⟩ : BufTy).Contents (Elt F) → (⟨S1000000, .f32⟩ : BufTy).Contents (Elt F)),
    StableHlo.binary main_v6 main_v9 main_v10 (cmpf .ogt : (⟨S1000000, .f32⟩ : BufTy).Contents (Elt F) → (⟨S1000000, .f32⟩ : BufTy).Contents (Elt F) → (⟨S1000000, .i1⟩ : BufTy).Contents (Elt F)),
    StableHlo.nullary main_cst_2 (constant S_ .f32 0x3F800000#32),
    StableHlo.TRef.unary (.of main_cst_2 : StableHlo.TRef sig ⟨S_, .f32⟩) main_call0.v0 id,
    StableHlo.TRef.unary main_call0.v0 main_call0.v1 (broadcastInDim S1000000 ![] bcast_S_S1000000),
    StableHlo.TRef.ternary (.of main_v10 : StableHlo.TRef sig ⟨S1000000, .i1⟩) (.of main_v6 : StableHlo.TRef sig ⟨S1000000, .f32⟩) main_call0.v1 main_call0.v2 select,
    StableHlo.unary main_v11 main_v12 (Host.rsqrt : (⟨S1000000, .f32⟩ : BufTy).Contents (Elt F) → (⟨S1000000, .f32⟩ : BufTy).Contents (Elt F)),
    StableHlo.nullary main_cst_3 (constant S_ .f32 0x00000000#32),
    StableHlo.TRef.unary (.of main_cst_3 : StableHlo.TRef sig ⟨S_, .f32⟩) main_call1.v0 id,
    StableHlo.TRef.unary main_call1.v0 main_call1.v1 (broadcastInDim S1000000 ![] bcast_S_S1000000),
    StableHlo.TRef.ternary (.of main_v8 : StableHlo.TRef sig ⟨S1000000, .i1⟩) (.of main_v12 : StableHlo.TRef sig ⟨S1000000, .f32⟩) main_call1.v1 main_call1.v2 select ]

/-- Operations 24 … 43 of the line. -/
def segA2 : List (HloOp τ sig (Elt F)) :=
  [
    StableHlo.nullary main_c (constantI S_ 32 0#32),
    StableHlo.unary main_c main_v14 (broadcastInDim S16000000 ![] bcast_S_S16000000 : (⟨S_, .i32⟩ : BufTy).Contents (Elt F) → (⟨S16000000, .i32⟩ : BufTy).Contents (Elt F)),
    StableHlo.binary main_v1 main_v14 main_v15 (cmpi .slt : (⟨S16000000, .i32⟩ : BufTy).Contents (Elt F) → (⟨S16000000, .i32⟩ : BufTy).Contents (Elt F) → (⟨S16000000, .i1⟩ : BufTy).Contents (Elt F)),
    StableHlo.nullary main_c_4 (constantI S_ 32 1000000#32),
    StableHlo.unary main_c_4 main_v16 (broadcastInDim S16000000 ![] bcast_S_S16000000 : (⟨S_, .i32⟩ : BufTy).Contents (Elt F) → (⟨S16000000, .i32⟩ : BufTy).Contents (Elt F)),
    StableHlo.binary main_v1 main_v16 main_v17 (addi : (⟨S16000000, .i32⟩ : BufTy).Contents (Elt F) → (⟨S16000000, .i32⟩ : BufTy).Contents (Elt F) → (⟨S16000000, .i32⟩ : BufTy).Contents (Elt F)),
    StableHlo.ternary main_v15 main_v17 main_v1 main_v18 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    StableHlo.unary main_v18 main_v19 (broadcastInDim S16000000x1 ![0] bcast_S16000000_S16000000x1_0 : (⟨S16000000, .i32⟩ : BufTy).Contents (Elt F) → (⟨S16000000x1, .i32⟩ : BufTy).Contents (Elt F)),
    StableHlo.binary main_v13 main_v19 main_v20 ((fun x i => Host.gather gather_S1000000_S16000000x1_S16000000_n_0_n_n_0_1_1 x i) : (⟨S1000000, .f32⟩ : BufTy).Contents (Elt F) → (⟨S16000000x1, .i32⟩ : BufTy).Contents (Elt F) → (⟨S16000000, .f32⟩ : BufTy).Contents (Elt F)),
    StableHlo.binary main_v20 main_arg1 main_v21 (mulf : (⟨S16000000, .f32⟩ : BufTy).Contents (Elt F) → (⟨S16000000, .f32⟩ : BufTy).Contents (Elt F) → (⟨S16000000, .f32⟩ : BufTy).Contents (Elt F)),
    StableHlo.nullary main_c_5 (constantI S_ 32 0#32),
    StableHlo.unary main_c_5 main_v22 (broadcastInDim S16000000 ![] bcast_S_S16000000 : (⟨S_, .i32⟩ : BufTy).Contents (Elt F) → (⟨S16000000, .i32⟩ : BufTy).Contents (Elt F)),
    StableHlo.binary main_v3 main_v22 main_v23 (cmpi .slt : (⟨S16000000, .i32⟩ : BufTy).Contents (Elt F) → (⟨S16000000, .i32⟩ : BufTy).Contents (Elt F) → (⟨S16000000, .i1⟩ : BufTy).Contents (Elt F)),
    StableHlo.nullary main_c_6 (constantI S_ 32 1000000#32),
    StableHlo.unary main_c_6 main_v24 (broadcastInDim S16000000 ![] bcast_S_S16000000 : (⟨S_, .i32⟩ : BufTy).Contents (Elt F) → (⟨S16000000, .i32⟩ : BufTy).Contents (Elt F)),
    StableHlo.binary main_v3 main_v24 main_v25 (addi : (⟨S16000000, .i32⟩ : BufTy).Contents (Elt F) → (⟨S16000000, .i32⟩ : BufTy).Contents (Elt F) → (⟨S16000000, .i32⟩ : BufTy).Contents (Elt F)),
    StableHlo.ternary main_v23 main_v25 main_v3 main_v26 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    StableHlo.unary main_v26 main_v27 (broadcastInDim S16000000x1 ![0] bcast_S16000000_S16000000x1_0 : (⟨S16000000, .i32⟩ : BufTy).Contents (Elt F) → (⟨S16000000x1, .i32⟩ : BufTy).Contents (Elt F)),
    StableHlo.binary main_v13 main_v27 main_v28 ((fun x i => Host.gather gather_S1000000_S16000000x1_S16000000_n_0_n_n_0_1_1 x i) : (⟨S1000000, .f32⟩ : BufTy).Contents (Elt F) → (⟨S16000000x1, .i32⟩ : BufTy).Contents (Elt F) → (⟨S16000000, .f32⟩ : BufTy).Contents (Elt F)),
    StableHlo.binary main_v21 main_v28 main_v29 (mulf : (⟨S16000000, .f32⟩ : BufTy).Contents (Elt F) → (⟨S16000000, .f32⟩ : BufTy).Contents (Elt F) → (⟨S16000000, .f32⟩ : BufTy).Contents (Elt F)) ]

/-- Operations 44 … 44 of the line. -/
def segB : List (HloOp τ sig (Elt F)) :=
  [
    StableHlo.binary main_arg4 main_arg5 main_v30 ((fun l r => Host.dotGeneral dot_S1000000x3_S3x3_S1000000x3_1_0_0_1_n_n none l r) : (⟨S1000000x3, .f32⟩ : BufTy).Contents (Elt F) → (⟨S3x3, .f32⟩ : BufTy).Contents (Elt F) → (⟨S1000000x3, .f32⟩ : BufTy).Contents (Elt F)) ]

/-- Operations 45 … 60 of the line. -/
def segC : List (HloOp τ sig (Elt F)) :=
  [
    StableHlo.unary main_v29 main_v31 (broadcastInDim S16000000x1 ![0] bcast_S16000000_S16000000x1_0 : (⟨S16000000, .f32⟩ : BufTy).Contents (Elt F) → (⟨S16000000x1, .f32⟩ : BufTy).Contents (Elt F)),
    StableHlo.nullary main_c_7 (constantI S_ 32 0#32),
    StableHlo.unary main_c_7 main_v32 (broadcastInDim S16000000 ![] bcast_S_S16000000 : (⟨S_, .i32⟩ : BufTy).Contents (Elt F) → (⟨S16000000, .i32⟩ : BufTy).Contents (Elt F)),
    StableHlo.binary main_v1 main_v32 main_v33 (cmpi .slt : (⟨S16000000, .i32⟩ : BufTy).Contents (Elt F) → (⟨S16000000, .i32⟩ : BufTy).Contents (Elt F) → (⟨S16000000, .i1⟩ : BufTy).Contents (Elt F)),
    StableHlo.nullary main_c_8 (constantI S_ 32 1000000#32),
    StableHlo.unary main_c_8 main_v34 (broadcastInDim S16000000 ![] bcast_S_S16000000 : (⟨S_, .i32⟩ : BufTy).Contents (Elt F) → (⟨S16000000, .i32⟩ : BufTy).Contents (Elt F)),
    StableHlo.binary main_v1 main_v34 main_v35 (addi : (⟨S16000000, .i32⟩ : BufTy).Contents (Elt F) → (⟨S16000000, .i32⟩ : BufTy).Contents (Elt F) → (⟨S16000000, .i32⟩ : BufTy).Contents (Elt F)),
    StableHlo.ternary main_v33 main_v35 main_v1 main_v36 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    StableHlo.unary main_v36 main_v37 (broadcastInDim S16000000x1 ![0] bcast_S16000000_S16000000x1_0 : (⟨S16000000, .i32⟩ : BufTy).Contents (Elt F) → (⟨S16000000x1, .i32⟩ : BufTy).Contents (Elt F)),
    StableHlo.binary main_v30 main_v37 main_v38 ((fun x i => Host.gather gather_S1000000x3_S16000000x1_S16000000x3_1_0_n_n_0_1_13 x i) : (⟨S1000000x3, .f32⟩ : BufTy).Contents (Elt F) → (⟨S16000000x1, .i32⟩ : BufTy).Contents (Elt F) → (⟨S16000000x3, .f32⟩ : BufTy).Contents (Elt F)),
    StableHlo.unary main_v31 main_v39 (broadcastInDim S16000000x3 ![0, 1] bcast_S16000000x1_S16000000x3_0_1 : (⟨S16000000x1, .f32⟩ : BufTy).Contents (Elt F) → (⟨S16000000x3, .f32⟩ : BufTy).Contents (Elt F)),
    StableHlo.binary main_v39 main_v38 main_v40 (mulf : (⟨S16000000x3, .f32⟩ : BufTy).Contents (Elt F) → (⟨S16000000x3, .f32⟩ : BufTy).Contents (Elt F) → (⟨S16000000x3, .f32⟩ : BufTy).Contents (Elt F)),
    StableHlo.nullary main_cst_9 (constant S_ .f32 0x00000000#32),
    StableHlo.unary main_cst_9 main_v41 (broadcastInDim S1000000x3 ![] bcast_S_S1000000x3 : (⟨S_, .f32⟩ : BufTy).Contents (Elt F) → (⟨S1000000x3, .f32⟩ : BufTy).Contents (Elt F)),
    StableHlo.unary main_v3 main_v42 (broadcastInDim S16000000x1 ![0] bcast_S16000000_S16000000x1_0 : (⟨S16000000, .i32⟩ : BufTy).Contents (Elt F) → (⟨S16000000x1, .i32⟩ : BufTy).Contents (Elt F)),
    StableHlo.ternary main_v41 main_v42 main_v40 main_v43 ((fun x i u => Host.scatterAdd scatter_S1000000x3_S16000000x1_S16000000x3_1_0_0_1 x i u) : (⟨S1000000x3, .f32⟩ : BufTy).Contents (Elt F) → (⟨S16000000x1, .i32⟩ : BufTy).Contents (Elt F) → (⟨S16000000x3, .f32⟩ : BufTy).Contents (Elt F) → (⟨S1000000x3, .f32⟩ : BufTy).Contents (Elt F)) ]

/-- Operations 61 … 70 of the line. -/
def segD : List (HloOp τ sig (Elt F)) :=
  [
    StableHlo.unary main_arg6 main_v44 (broadcastInDim S1x3 ![1] bcast_S3_S1x3_1 : (⟨S3, .f32⟩ : BufTy).Contents (Elt F) → (⟨S1x3, .f32⟩ : BufTy).Contents (Elt F)),
    StableHlo.unary main_v44 main_v45 (broadcastInDim S1000000x3 ![0, 1] bcast_S1x3_S1000000x3_0_1 : (⟨S1x3, .f32⟩ : BufTy).Contents (Elt F) → (⟨S1000000x3, .f32⟩ : BufTy).Contents (Elt F)),
    StableHlo.binary main_v43 main_v45 main_v46 (addf : (⟨S1000000x3, .f32⟩ : BufTy).Contents (Elt F) → (⟨S1000000x3, .f32⟩ : BufTy).Contents (Elt F) → (⟨S1000000x3, .f32⟩ : BufTy).Contents (Elt F)),
    StableHlo.TRef.nullary main_call2.cst (constant S_ .f32 0x00000000#32),
    StableHlo.TRef.unary main_call2.cst main_call2.v0 (broadcastInDim S1000000x3 ![] bcast_S_S1000000x3),
    StableHlo.TRef.binary (.of main_v46 : StableHlo.TRef sig ⟨S1000000x3, .f32⟩) main_call2.v0 main_call2.v1 (cmpf .oge),
    StableHlo.TRef.nullary main_call2.cst_0 (constant S_ .f32 0x3C23D70A#32),
    StableHlo.TRef.unary main_call2.cst_0 main_call2.v2 (broadcastInDim S1000000x3 ![] bcast_S_S1000000x3),
    StableHlo.TRef.binary main_call2.v2 (.of main_v46 : StableHlo.TRef sig ⟨S1000000x3, .f32⟩) main_call2.v3 mulf,
    StableHlo.TRef.ternary main_call2.v1 (.of main_v46 : StableHlo.TRef sig ⟨S1000000x3, .f32⟩) main_call2.v3 main_call2.call0.v0 select ]

/-- Operations 71 … 89 of the line. -/
def segE : List (HloOp τ sig (Elt F)) :=
  [
    StableHlo.nullary main_c_10 (constantI S_ 32 0#32),
    StableHlo.unary main_c_10 main_v48 (broadcastInDim S1000000 ![] bcast_S_S1000000 : (⟨S_, .i32⟩ : BufTy).Contents (Elt F) → (⟨S1000000, .i32⟩ : BufTy).Contents (Elt F)),
    StableHlo.binary main_arg2 main_v48 main_v49 (cmpi .slt : (⟨S1000000, .i32⟩ : BufTy).Contents (Elt F) → (⟨S1000000, .i32⟩ : BufTy).Contents (Elt F) → (⟨S1000000, .i1⟩ : BufTy).Contents (Elt F)),
    StableHlo.nullary main_c_11 (constantI S_ 32 1000000#32),
    StableHlo.unary main_c_11 main_v50 (broadcastInDim S1000000 ![] bcast_S_S1000000 : (⟨S_, .i32⟩ : BufTy).Contents (Elt F) → (⟨S1000000, .i32⟩ : BufTy).Contents (Elt F)),
    StableHlo.binary main_arg2 main_v50 main_v51 (addi : (⟨S1000000, .i32⟩ : BufTy).Contents (Elt F) → (⟨S1000000, .i32⟩ : BufTy).Contents (Elt F) → (⟨S1000000, .i32⟩ : BufTy).Contents (Elt F)),
    StableHlo.ternary main_v49 main_v51 main_arg2 main_v52 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v52 main_v53 (broadcastInDim S1000000x1 ![0] bcast_S1000000_S1000000x1_0 : (⟨S1000000, .i32⟩ : BufTy).Contents (Elt F) → (⟨S1000000x1, .i32⟩ : BufTy).Contents (Elt F)),
    StableHlo.binary main_v47 main_v53 main_v54 ((fun x i => Host.gather gather_S1000000x3_S1000000x1_S1000000x3_1_0_n_n_0_1_13 x i) : (⟨S1000000x3, .f32⟩ : BufTy).Contents (Elt F) → (⟨S1000000x1, .i32⟩ : BufTy).Contents (Elt F) → (⟨S1000000x3, .f32⟩ : BufTy).Contents (Elt F)),
    StableHlo.nullary main_c_12 (constantI S_ 32 0#32),
    StableHlo.unary main_c_12 main_v55 (broadcastInDim S1000000 ![] bcast_S_S1000000 : (⟨S_, .i32⟩ : BufTy).Contents (Elt F) → (⟨S1000000, .i32⟩ : BufTy).Contents (Elt F)),
    StableHlo.binary main_arg3 main_v55 main_v56 (cmpi .slt : (⟨S1000000, .i32⟩ : BufTy).Contents (Elt F) → (⟨S1000000, .i32⟩ : BufTy).Contents (Elt F) → (⟨S1000000, .i1⟩ : BufTy).Contents (Elt F)),
    StableHlo.nullary main_c_13 (constantI S_ 32 1000000#32),
    StableHlo.unary main_c_13 main_v57 (broadcastInDim S1000000 ![] bcast_S_S1000000 : (⟨S_, .i32⟩ : BufTy).Contents (Elt F) → (⟨S1000000, .i32⟩ : BufTy).Contents (Elt F)),
    StableHlo.binary main_arg3 main_v57 main_v58 (addi : (⟨S1000000, .i32⟩ : BufTy).Contents (Elt F) → (⟨S1000000, .i32⟩ : BufTy).Contents (Elt F) → (⟨S1000000, .i32⟩ : BufTy).Contents (Elt F)),
    StableHlo.ternary main_v56 main_v58 main_arg3 main_v59 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v59 main_v60 (broadcastInDim S1000000x1 ![0] bcast_S1000000_S1000000x1_0 : (⟨S1000000, .i32⟩ : BufTy).Contents (Elt F) → (⟨S1000000x1, .i32⟩ : BufTy).Contents (Elt F)),
    StableHlo.binary main_v47 main_v60 main_v61 ((fun x i => Host.gather gather_S1000000x3_S1000000x1_S1000000x3_1_0_n_n_0_1_13 x i) : (⟨S1000000x3, .f32⟩ : BufTy).Contents (Elt F) → (⟨S1000000x1, .i32⟩ : BufTy).Contents (Elt F) → (⟨S1000000x3, .f32⟩ : BufTy).Contents (Elt F)),
    StableHlo.binary main_v54 main_v61 main_v62 ((fun a b => concatenate S1000000x6 1 [⟨S1000000x3, a⟩, ⟨S1000000x3, b⟩] concatenates_S1000000x3_S1000000x3_S1000000x6_d1) : (⟨S1000000x3, .f32⟩ : BufTy).Contents (Elt F) → (⟨S1000000x3, .f32⟩ : BufTy).Contents (Elt F) → (⟨S1000000x6, .f32⟩ : BufTy).Contents (Elt F)) ]

/-- Operations 90 … 111 of the line. -/
def segF : List (HloOp τ sig (Elt F)) :=
  [
    StableHlo.binary main_v62 main_arg7 main_v63 ((fun l r => Host.dotGeneral dot_S1000000x6_S6x6_S1000000x6_1_0_0_1_n_n none l r) : (⟨S1000000x6, .f32⟩ : BufTy).Contents (Elt F) → (⟨S6x6, .f32⟩ : BufTy).Contents (Elt F) → (⟨S1000000x6, .f32⟩ : BufTy).Contents (Elt F)),
    StableHlo.unary main_arg8 main_v64 (broadcastInDim S1x6 ![1] bcast_S6_S1x6_1 : (⟨S6, .f32⟩ : BufTy).Contents (Elt F) → (⟨S1x6, .f32⟩ : BufTy).Contents (Elt F)),
    StableHlo.unary main_v64 main_v65 (broadcastInDim S1000000x6 ![0, 1] bcast_S1x6_S1000000x6_0_1 : (⟨S1x6, .f32⟩ : BufTy).Contents (Elt F) → (⟨S1000000x6, .f32⟩ : BufTy).Contents (Elt F)),
    StableHlo.binary main_v63 main_v65 main_v66 (addf : (⟨S1000000x6, .f32⟩ : BufTy).Contents (Elt F) → (⟨S1000000x6, .f32⟩ : BufTy).Contents (Elt F) → (⟨S1000000x6, .f32⟩ : BufTy).Contents (Elt F)),
    StableHlo.TRef.nullary main_call3.cst (constant S_ .f32 0x00000000#32),
    StableHlo.TRef.unary main_call3.cst main_call3.v0 (broadcastInDim S1000000x6 ![] bcast_S_S1000000x6),
    StableHlo.TRef.binary (.of main_v66 : StableHlo.TRef sig ⟨S1000000x6, .f32⟩) main_call3.v0 main_call3.v1 (cmpf .oge),
    StableHlo.TRef.nullary main_call3.cst_0 (constant S_ .f32 0x3C23D70A#32),
    StableHlo.TRef.unary main_call3.cst_0 main_call3.v2 (broadcastInDim S1000000x6 ![] bcast_S_S1000000x6),
    StableHlo.TRef.binary main_call3.v2 (.of main_v66 : StableHlo.TRef sig ⟨S1000000x6, .f32⟩) main_call3.v3 mulf,
    StableHlo.TRef.ternary main_call3.v1 (.of main_v66 : StableHlo.TRef sig ⟨S1000000x6, .f32⟩) main_call3.v3 main_call3.call0.v0 select,
    StableHlo.binary main_v67 main_arg9 main_v68 ((fun l r => Host.dotGeneral dot_S1000000x6_S6x3_S1000000x3_1_0_0_1_n_n none l r) : (⟨S1000000x6, .f32⟩ : BufTy).Contents (Elt F) → (⟨S6x3, .f32⟩ : BufTy).Contents (Elt F) → (⟨S1000000x3, .f32⟩ : BufTy).Contents (Elt F)),
    StableHlo.unary main_arg10 main_v69 (broadcastInDim S1x3 ![1] bcast_S3_S1x3_1 : (⟨S3, .f32⟩ : BufTy).Contents (Elt F) → (⟨S1x3, .f32⟩ : BufTy).Contents (Elt F)),
    StableHlo.unary main_v69 main_v70 (broadcastInDim S1000000x3 ![0, 1] bcast_S1x3_S1000000x3_0_1 : (⟨S1x3, .f32⟩ : BufTy).Contents (Elt F) → (⟨S1000000x3, .f32⟩ : BufTy).Contents (Elt F)),
    StableHlo.binary main_v68 main_v70 main_v71 (addf : (⟨S1000000x3, .f32⟩ : BufTy).Contents (Elt F) → (⟨S1000000x3, .f32⟩ : BufTy).Contents (Elt F) → (⟨S1000000x3, .f32⟩ : BufTy).Contents (Elt F)),
    StableHlo.TRef.nullary main_call4.cst (constant S_ .f32 0x00000000#32),
    StableHlo.TRef.unary main_call4.cst main_call4.v0 (broadcastInDim S1000000x3 ![] bcast_S_S1000000x3),
    StableHlo.TRef.binary (.of main_v71 : StableHlo.TRef sig ⟨S1000000x3, .f32⟩) main_call4.v0 main_call4.v1 (cmpf .oge),
    StableHlo.TRef.nullary main_call4.cst_0 (constant S_ .f32 0x3C23D70A#32),
    StableHlo.TRef.unary main_call4.cst_0 main_call4.v2 (broadcastInDim S1000000x3 ![] bcast_S_S1000000x3),
    StableHlo.TRef.binary main_call4.v2 (.of main_v71 : StableHlo.TRef sig ⟨S1000000x3, .f32⟩) main_call4.v3 mulf,
    StableHlo.TRef.ternary main_call4.v1 (.of main_v71 : StableHlo.TRef sig ⟨S1000000x3, .f32⟩) main_call4.v3 main_call4.call0.v0 select ]

/-- Operations 112 … 126 of the line. -/
def segG : List (HloOp τ sig (Elt F)) :=
  [
    StableHlo.TRef.nullary main_call5.cst (constant S_ .f32 0xFF800000#32),
    StableHlo.TRef.binary (.of main_v72 : StableHlo.TRef sig ⟨S1000000x3, .f32⟩) main_call5.cst main_call5.v0 (fun x v => Host.reduce FloatOps.maximumf x v reducesTo_S1000000x3_S3_d0 h_S_),
    StableHlo.TRef.nullary main_call5.cst_0 (constant S_ .f32 0xFF800000#32),
    StableHlo.TRef.unary main_call5.cst_0 main_call5.v1 (broadcastInDim S3 ![] bcast_S_S3),
    StableHlo.TRef.binary main_call5.v1 main_call5.v0 main_call5.v2 maximumf,
    StableHlo.TRef.unary main_call5.v2 main_call5.v3 (broadcastInDim S1x3 ![1] bcast_S3_S1x3_1),
    StableHlo.TRef.unary main_call5.v3 main_call5.v4 (broadcastInDim S1000000x3 ![0, 1] bcast_S1x3_S1000000x3_0_1),
    StableHlo.TRef.binary (.of main_v72 : StableHlo.TRef sig ⟨S1000000x3, .f32⟩) main_call5.v4 main_call5.v5 subf,
    StableHlo.TRef.unary main_call5.v5 main_call5.v6 Host.exp,
    StableHlo.TRef.nullary main_call5.cst_1 (constant S_ .f32 0x00000000#32),
    StableHlo.TRef.binary main_call5.v6 main_call5.cst_1 main_call5.v7 (fun x v => Host.reduceAdd x v reducesTo_S1000000x3_S3_d0 h_S_),
    StableHlo.TRef.unary main_call5.v7 main_call5.v8 (broadcastInDim S1x3 ![1] bcast_S3_S1x3_1),
    StableHlo.TRef.unary main_call5.v8 main_call5.v9 Host.log,
    StableHlo.TRef.unary main_call5.v9 main_call5.v10 (broadcastInDim S1000000x3 ![0, 1] bcast_S1x3_S1000000x3_0_1),
    StableHlo.TRef.binary main_call5.v5 main_call5.v10 main_call5.v11 subf ]

/-- The line is the stretches in order. -/
theorem ops_split :
    (ops : List (HloOp τ sig (Elt F))) = segA1 ++ (segA2 ++ (segB ++ (segC ++ (segD ++ (segE ++ (segF ++ segG)))))) := rfl

end Cert.ReferenceIdeal.RefRun

end
-- ==== Proof.RefSegA.lean ====
/-
  What the first three stretches of the reference's line leave (the degree and its inverse square root, the edge
  normalisation, the feature product).

  For a stretch of the line, from ANY contents `W` on entry: the stretch's stage buffer ends at the stage's function
  of the contents of the buffers the stretch reads, and each buffer a later stretch still reads is left as it
  was. Each of these is the fold unrolled one operation at a time: at its own result buffer an operation's result
  is its function of its operands' contents, at any other buffer what was there before. The reductions and
  gathers are kept folded throughout: the equations never look inside them.
-/
import proofs.«109717_j65541200937586_2_alg».proof.Proof.RefSegs
import proofs.«109717_j65541200937586_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather

theorem segA1_v1 (W : Valuation τ sig (Elt F)) : after segA1 W (main_v1 : DevRef τ sig) = srcOf (W (main_arg0 : DevRef τ sig)) := by
  unfold segA1; after_results_simp; rfl
theorem segA1_v3 (W : Valuation τ sig (Elt F)) : after segA1 W (main_v3 : DevRef τ sig) = dstOf (W (main_arg0 : DevRef τ sig)) := by
  unfold segA1; after_results_simp; rfl
theorem segA1_v13 (W : Valuation τ sig (Elt F)) :
    after segA1 W (main_v13 : DevRef τ sig) = dinvOf (degOf (W (main_arg0 : DevRef τ sig)) (W (main_arg1 : DevRef τ sig))) := by
  unfold segA1; after_results_simp; simp only [ofBuf_toBuf]; rfl
theorem segA1_main_arg1 (W : Valuation τ sig (Elt F)) :
    after segA1 W (main_arg1 : DevRef τ sig) = W (main_arg1 : DevRef τ sig) := by
  unfold segA1; after_results_simp
theorem segA1_main_arg2 (W : Valuation τ sig (Elt F)) :
    after segA1 W (main_arg2 : DevRef τ sig) = W (main_arg2 : DevRef τ sig) := by
  unfold segA1; after_results_simp
theorem segA1_main_arg3 (W : Valuation τ sig (Elt F)) :
    after segA1 W (main_arg3 : DevRef τ sig) = W (main_arg3 : DevRef τ sig) := by
  unfold segA1; after_results_simp
theorem segA1_main_arg4 (W : Valuation τ sig (Elt F)) :
    after segA1 W (main_arg4 : DevRef τ sig) = W (main_arg4 : DevRef τ sig) := by
  unfold segA1; after_results_simp
theorem segA1_main_arg5 (W : Valuation τ sig (Elt F)) :
    after segA1 W (main_arg5 : DevRef τ sig) = W (main_arg5 : DevRef τ sig) := by
  unfold segA1; after_results_simp
theorem segA1_main_arg6 (W : Valuation τ sig (Elt F)) :
    after segA1 W (main_arg6 : DevRef τ sig) = W (main_arg6 : DevRef τ sig) := by
  unfold segA1; after_results_simp
theorem segA1_main_arg7 (W : Valuation τ sig (Elt F)) :
    after segA1 W (main_arg7 : DevRef τ sig) = W (main_arg7 : DevRef τ sig) := by
  unfold segA1; after_results_simp
theorem segA1_main_arg8 (W : Valuation τ sig (Elt F)) :
    after segA1 W (main_arg8 : DevRef τ sig) = W (main_arg8 : DevRef τ sig) := by
  unfold segA1; after_results_simp
theorem segA1_main_arg9 (W : Valuation τ sig (Elt F)) :
    after segA1 W (main_arg9 : DevRef τ sig) = W (main_arg9 : DevRef τ sig) := by
  unfold segA1; after_results_simp
theorem segA1_main_arg10 (W : Valuation τ sig (Elt F)) :
    after segA1 W (main_arg10 : DevRef τ sig) = W (main_arg10 : DevRef τ sig) := by
  unfold segA1; after_results_simp

theorem segA2_v29 (W : Valuation τ sig (Elt F)) :
    after segA2 W (main_v29 : DevRef τ sig)
      = mulf (mulf (Host.gather gather_S1000000_S16000000x1_S16000000_n_0_n_n_0_1_1 (W (main_v13 : DevRef τ sig)) (wrap16M (W (main_v1 : DevRef τ sig))))
            (W (main_arg1 : DevRef τ sig)))
          (Host.gather gather_S1000000_S16000000x1_S16000000_n_0_n_n_0_1_1 (W (main_v13 : DevRef τ sig)) (wrap16M (W (main_v3 : DevRef τ sig)))) := by
  unfold segA2; after_results_simp; rfl
theorem segA2_main_v1 (W : Valuation τ sig (Elt F)) :
    after segA2 W (main_v1 : DevRef τ sig) = W (main_v1 : DevRef τ sig) := by
  unfold segA2; after_results_simp
theorem segA2_main_v3 (W : Valuation τ sig (Elt F)) :
    after segA2 W (main_v3 : DevRef τ sig) = W (main_v3 : DevRef τ sig) := by
  unfold segA2; after_results_simp
theorem segA2_main_arg2 (W : Valuation τ sig (Elt F)) :
    after segA2 W (main_arg2 : DevRef τ sig) = W (main_arg2 : DevRef τ sig) := by
  unfold segA2; after_results_simp
theorem segA2_main_arg3 (W : Valuation τ sig (Elt F)) :
    after segA2 W (main_arg3 : DevRef τ sig) = W (main_arg3 : DevRef τ sig) := by
  unfold segA2; after_results_simp
theorem segA2_main_arg4 (W : Valuation τ sig (Elt F)) :
    after segA2 W (main_arg4 : DevRef τ sig) = W (main_arg4 : DevRef τ sig) := by
  unfold segA2; after_results_simp
theorem segA2_main_arg5 (W : Valuation τ sig (Elt F)) :
    after segA2 W (main_arg5 : DevRef τ sig) = W (main_arg5 : DevRef τ sig) := by
  unfold segA2; after_results_simp
theorem segA2_main_arg6 (W : Valuation τ sig (Elt F)) :
    after segA2 W (main_arg6 : DevRef τ sig) = W (main_arg6 : DevRef τ sig) := by
  unfold segA2; after_results_simp
theorem segA2_main_arg7 (W : Valuation τ sig (Elt F)) :
    after segA2 W (main_arg7 : DevRef τ sig) = W (main_arg7 : DevRef τ sig) := by
  unfold segA2; after_results_simp
theorem segA2_main_arg8 (W : Valuation τ sig (Elt F)) :
    after segA2 W (main_arg8 : DevRef τ sig) = W (main_arg8 : DevRef τ sig) := by
  unfold segA2; after_results_simp
theorem segA2_main_arg9 (W : Valuation τ sig (Elt F)) :
    after segA2 W (main_arg9 : DevRef τ sig) = W (main_arg9 : DevRef τ sig) := by
  unfold segA2; after_results_simp
theorem segA2_main_arg10 (W : Valuation τ sig (Elt F)) :
    after segA2 W (main_arg10 : DevRef τ sig) = W (main_arg10 : DevRef τ sig) := by
  unfold segA2; after_results_simp

theorem segB_v30 (W : Valuation τ sig (Elt F)) :
    after segB W (main_v30 : DevRef τ sig) = xOf (W (main_arg4 : DevRef τ sig)) (W (main_arg5 : DevRef τ sig)) := by
  unfold segB; after_results_simp; rfl
theorem segB_main_v1 (W : Valuation τ sig (Elt F)) :
    after segB W (main_v1 : DevRef τ sig) = W (main_v1 : DevRef τ sig) := by
  unfold segB; after_results_simp
theorem segB_main_v3 (W : Valuation τ sig (Elt F)) :
    after segB W (main_v3 : DevRef τ sig) = W (main_v3 : DevRef τ sig) := by
  unfold segB; after_results_simp
theorem segB_main_v29 (W : Valuation τ sig (Elt F)) :
    after segB W (main_v29 : DevRef τ sig) = W (main_v29 : DevRef τ sig) := by
  unfold segB; after_results_simp
theorem segB_main_arg2 (W : Valuation τ sig (Elt F)) :
    after segB W (main_arg2 : DevRef τ sig) = W (main_arg2 : DevRef τ sig) := by
  unfold segB; after_results_simp
theorem segB_main_arg3 (W : Valuation τ sig (Elt F)) :
    after segB W (main_arg3 : DevRef τ sig) = W (main_arg3 : DevRef τ sig) := by
  unfold segB; after_results_simp
theorem segB_main_arg6 (W : Valuation τ sig (Elt F)) :
    after segB W (main_arg6 : DevRef τ sig) = W (main_arg6 : DevRef τ sig) := by
  unfold segB; after_results_simp
theorem segB_main_arg7 (W : Valuation τ sig (Elt F)) :
    after segB W (main_arg7 : DevRef τ sig) = W (main_arg7 : DevRef τ sig) := by
  unfold segB; after_results_simp
theorem segB_main_arg8 (W : Valuation τ sig (Elt F)) :
    after segB W (main_arg8 : DevRef τ sig) = W (main_arg8 : DevRef τ sig) := by
  unfold segB; after_results_simp
theorem segB_main_arg9 (W : Valuation τ sig (Elt F)) :
    after segB W (main_arg9 : DevRef τ sig) = W (main_arg9 : DevRef τ sig) := by
  unfold segB; after_results_simp
theorem segB_main_arg10 (W : Valuation τ sig (Elt F)) :
    after segB W (main_arg10 : DevRef τ sig) = W (main_arg10 : DevRef τ sig) := by
  unfold segB; after_results_simp

end Cert.ReferenceIdeal.RefRun

end
-- ==== Proof.RefSegC.lean ====
/-
  What the last five stretches of the reference's line leave (the aggregation, bias and rectifier, the two row
  gathers and their concatenation, the dense layers, the log-softmax).

  For a stretch of the line, from ANY contents `W` on entry: the stretch's stage buffer ends at the stage's function
  of the contents of the buffers the stretch reads, and each buffer a later stretch still reads is left as it
  was. Each of these is the fold unrolled one operation at a time: at its own result buffer an operation's result
  is its function of its operands' contents, at any other buffer what was there before. The reductions and
  gathers are kept folded throughout: the equations never look inside them.
-/
import proofs.«109717_j65541200937586_2_alg».proof.Proof.RefSegs
import proofs.«109717_j65541200937586_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather

theorem segC_v43 (W : Valuation τ sig (Elt F)) :
    after segC W (main_v43 : DevRef τ sig)
      = Host.scatterAdd scatter_S1000000x3_S16000000x1_S16000000x3_1_0_0_1
          (broadcastInDim S1000000x3 ![] bcast_S_S1000000x3 (constant S_ .f32 0x00000000#32))
          (broadcastInDim S16000000x1 ![0] bcast_S16000000_S16000000x1_0 (W (main_v3 : DevRef τ sig)))
          (mulf
            (broadcastInDim S16000000x3 ![0, 1] bcast_S16000000x1_S16000000x3_0_1
              (broadcastInDim S16000000x1 ![0] bcast_S16000000_S16000000x1_0 (W (main_v29 : DevRef τ sig))))
            (Host.gather gather_S1000000x3_S16000000x1_S16000000x3_1_0_n_n_0_1_13 (W (main_v30 : DevRef τ sig)) (wrap16M (W (main_v1 : DevRef τ sig))))) := by
  unfold segC; after_results_simp; rfl
theorem segC_main_arg2 (W : Valuation τ sig (Elt F)) :
    after segC W (main_arg2 : DevRef τ sig) = W (main_arg2 : DevRef τ sig) := by
  unfold segC; after_results_simp
theorem segC_main_arg3 (W : Valuation τ sig (Elt F)) :
    after segC W (main_arg3 : DevRef τ sig) = W (main_arg3 : DevRef τ sig) := by
  unfold segC; after_results_simp
theorem segC_main_arg6 (W : Valuation τ sig (Elt F)) :
    after segC W (main_arg6 : DevRef τ sig) = W (main_arg6 : DevRef τ sig) := by
  unfold segC; after_results_simp
theorem segC_main_arg7 (W : Valuation τ sig (Elt F)) :
    after segC W (main_arg7 : DevRef τ sig) = W (main_arg7 : DevRef τ sig) := by
  unfold segC; after_results_simp
theorem segC_main_arg8 (W : Valuation τ sig (Elt F)) :
    after segC W (main_arg8 : DevRef τ sig) = W (main_arg8 : DevRef τ sig) := by
  unfold segC; after_results_simp
theorem segC_main_arg9 (W : Valuation τ sig (Elt F)) :
    after segC W (main_arg9 : DevRef τ sig) = W (main_arg9 : DevRef τ sig) := by
  unfold segC; after_results_simp
theorem segC_main_arg10 (W : Valuation τ sig (Elt F)) :
    after segC W (main_arg10 : DevRef τ sig) = W (main_arg10 : DevRef τ sig) := by
  unfold segC; after_results_simp

theorem segD_v47 (W : Valuation τ sig (Elt F)) :
    after segD W (main_v47 : DevRef τ sig) = convOf (W (main_v43 : DevRef τ sig)) (W (main_arg6 : DevRef τ sig)) := by
  unfold segD; after_results_simp; simp only [ofBuf_toBuf]; rfl
theorem segD_main_arg2 (W : Valuation τ sig (Elt F)) :
    after segD W (main_arg2 : DevRef τ sig) = W (main_arg2 : DevRef τ sig) := by
  unfold segD; after_results_simp
theorem segD_main_arg3 (W : Valuation τ sig (Elt F)) :
    after segD W (main_arg3 : DevRef τ sig) = W (main_arg3 : DevRef τ sig) := by
  unfold segD; after_results_simp
theorem segD_main_arg7 (W : Valuation τ sig (Elt F)) :
    after segD W (main_arg7 : DevRef τ sig) = W (main_arg7 : DevRef τ sig) := by
  unfold segD; after_results_simp
theorem segD_main_arg8 (W : Valuation τ sig (Elt F)) :
    after segD W (main_arg8 : DevRef τ sig) = W (main_arg8 : DevRef τ sig) := by
  unfold segD; after_results_simp
theorem segD_main_arg9 (W : Valuation τ sig (Elt F)) :
    after segD W (main_arg9 : DevRef τ sig) = W (main_arg9 : DevRef τ sig) := by
  unfold segD; after_results_simp
theorem segD_main_arg10 (W : Valuation τ sig (Elt F)) :
    after segD W (main_arg10 : DevRef τ sig) = W (main_arg10 : DevRef τ sig) := by
  unfold segD; after_results_simp

theorem segE_v62 (W : Valuation τ sig (Elt F)) :
    after segE W (main_v62 : DevRef τ sig) = hOf (W (main_arg2 : DevRef τ sig)) (W (main_arg3 : DevRef τ sig)) (W (main_v47 : DevRef τ sig)) := by
  unfold segE; after_results_simp; rfl
theorem segE_main_arg7 (W : Valuation τ sig (Elt F)) :
    after segE W (main_arg7 : DevRef τ sig) = W (main_arg7 : DevRef τ sig) := by
  unfold segE; after_results_simp
theorem segE_main_arg8 (W : Valuation τ sig (Elt F)) :
    after segE W (main_arg8 : DevRef τ sig) = W (main_arg8 : DevRef τ sig) := by
  unfold segE; after_results_simp
theorem segE_main_arg9 (W : Valuation τ sig (Elt F)) :
    after segE W (main_arg9 : DevRef τ sig) = W (main_arg9 : DevRef τ sig) := by
  unfold segE; after_results_simp
theorem segE_main_arg10 (W : Valuation τ sig (Elt F)) :
    after segE W (main_arg10 : DevRef τ sig) = W (main_arg10 : DevRef τ sig) := by
  unfold segE; after_results_simp

theorem segF_v72 (W : Valuation τ sig (Elt F)) :
    after segF W (main_v72 : DevRef τ sig)
      = logitsOf (W (main_v62 : DevRef τ sig)) (W (main_arg7 : DevRef τ sig)) (W (main_arg8 : DevRef τ sig)) (W (main_arg9 : DevRef τ sig)) (W (main_arg10 : DevRef τ sig)) := by
  unfold segF; after_results_simp; simp only [ofBuf_toBuf]; rfl

theorem segG_v73 (W : Valuation τ sig (Elt F)) : after segG W (main_v73 : DevRef τ sig) = lsmOf (W (main_v72 : DevRef τ sig)) := by
  unfold segG; after_results_simp; simp only [ofBuf_toBuf]; rfl

end Cert.ReferenceIdeal.RefRun

end
-- ==== Proof.RefRun.lean ====
/-
  The straight line of the reference program's operations (`ops`) leaves, at the result buffer, the
  composition of the named stages (RefStages.lean) at the argument buffers: `out_eq`.

  The line is its eight stretches in order; each stretch leaves its stage buffer at the stage's function of what
  it reads and passes on what later stretches read; composing these from the last stretch back to the first gives
  the stages composed at the launch contents of the arguments.
-/
import proofs.«109717_j65541200937586_2_alg».proof.Proof.RefSegA
import proofs.«109717_j65541200937586_2_alg».proof.Proof.RefSegC

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The line leaves at the result buffer the stages composed at the argument buffers. -/
theorem out_eq (V : Valuation τ sig (Elt F)) :
    after ops V (main_v73 : DevRef τ sig)
      = lsmOf (logitsOf (hOf (V (main_arg2 : DevRef τ sig)) (V (main_arg3 : DevRef τ sig))
          (convOf (aggOf (V (main_arg0 : DevRef τ sig)) (normOf (V (main_arg0 : DevRef τ sig)) (V (main_arg1 : DevRef τ sig)))
              (xOf (V (main_arg4 : DevRef τ sig)) (V (main_arg5 : DevRef τ sig))))
            (V (main_arg6 : DevRef τ sig))))
          (V (main_arg7 : DevRef τ sig)) (V (main_arg8 : DevRef τ sig)) (V (main_arg9 : DevRef τ sig))
          (V (main_arg10 : DevRef τ sig))) := by
  rw [ops_split]
  simp only [after_append]
  rw [segG_v73, segF_v72]
  rw [segE_v62, segE_main_arg7, segE_main_arg8, segE_main_arg9, segE_main_arg10]
  rw [segD_v47, segD_main_arg2, segD_main_arg3, segD_main_arg7, segD_main_arg8, segD_main_arg9, segD_main_arg10]
  rw [segC_v43, segC_main_arg6, segC_main_arg2, segC_main_arg3, segC_main_arg7, segC_main_arg8, segC_main_arg9, segC_main_arg10]
  rw [segB_v30, segB_main_v1, segB_main_v3, segB_main_v29, segB_main_arg6, segB_main_arg2, segB_main_arg3, segB_main_arg7, segB_main_arg8, segB_main_arg9, segB_main_arg10]
  rw [segA2_v29, segA2_main_v1, segA2_main_v3, segA2_main_arg4, segA2_main_arg5, segA2_main_arg6, segA2_main_arg2, segA2_main_arg3, segA2_main_arg7, segA2_main_arg8, segA2_main_arg9, segA2_main_arg10]
  rw [segA1_v13, segA1_v1, segA1_v3, segA1_main_arg1, segA1_main_arg4, segA1_main_arg5, segA1_main_arg6, segA1_main_arg2, segA1_main_arg3, segA1_main_arg7, segA1_main_arg8, segA1_main_arg9, segA1_main_arg10]
  rfl

end Cert.ReferenceIdeal.RefRun

end
-- ==== Proof.RefFrame.lean ====
/-
  The reference program leaves its arguments as they were: no operation of the straight line writes an
  argument buffer, so the fold of the operations at an argument buffer is what was there at launch
  (`argK_eq`: at each operation the argument is a buffer other than the one written), and with the run
  (`run_main`) every weakly fair execution terminates with each argument unchanged (`frame`).
-/
import proofs.«109717_j65541200937586_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

theorem arg10_eq (V : Valuation τ sig (Elt F)) :
    after ops V (main_arg10 : DevRef τ sig) = V (main_arg10 : DevRef τ sig) := by
  after_results_simp

/-- For any float values, from any memory with zero counters: every weakly fair execution of @main terminates
    and each argument buffer ends as it was at launch. -/
theorem frame (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨ (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_main m ρ)

end Cert.ReferenceIdeal.RefRun

end
-- ==== Proof.LibReal.lean ====
/-
  Real-valued extended reals.

  On the extended reals the laws that a rearrangement of a computation needs — distributivity, cancelling, moving a
  factor across a sum — fail at the infinities. A computation whose inputs are finite never leaves the reals as long as
  it adds, subtracts, multiplies, takes maxima and finite sums, divides by a nonzero real, takes the reciprocal square
  root of a positive real, exponentials and logistic values. This file is that closure, stated with the predicate
  `IsReal x` ("x is the coercion of a real number"), together with the sign facts a later division needs (a logistic
  value is positive; a sum of nonnegative reals is nonnegative).

  Generic; nothing mentions a program.
-/
import Idealize.ShloMosaic.PureOps.Ideal

noncomputable section

namespace Cert.Lib.Real

open Idealize.ShloMosaic

/-- `x` is (the coercion of) a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption

/-- A finite sum of reals is a real. -/
theorem IsReal.sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The exact quotient of a real by a nonzero real is a real. -/
theorem IsReal.div {x : EReal} (hx : IsReal x) {r : ℝ} (hr : r ≠ 0) : IsReal (Ideal.div x (r : EReal)) := by
  obtain ⟨a, rfl⟩ := hx
  rw [Ideal.div_coe hr, ← EReal.coe_mul]
  exact ⟨_, rfl⟩

/-- The exponential of a real is a real. -/
theorem IsReal.exp {x : EReal} (hx : IsReal x) : IsReal (Ideal.exp x) := by
  obtain ⟨a, rfl⟩ := hx; exact ⟨Real.exp a, Ideal.exp_coe a⟩

/-- The logistic value of a real is a POSITIVE real. -/
theorem logistic_coe_pos (a : ℝ) : ∃ r : ℝ, 0 < r ∧ Ideal.logistic (a : EReal) = (r : EReal) :=
  ⟨(1 + Real.exp (-a))⁻¹, inv_pos.mpr (by positivity), Ideal.logistic_coe a⟩

theorem IsReal.logistic {x : EReal} (hx : IsReal x) : IsReal (Ideal.logistic x) := by
  obtain ⟨a, rfl⟩ := hx
  obtain ⟨r, -, hr⟩ := logistic_coe_pos a
  exact ⟨r, hr⟩

/-- The reciprocal square root of a POSITIVE real is a real. -/
theorem isReal_rsqrt_of_pos {r : ℝ} (hr : 0 < r) : IsReal (Ideal.rsqrt (r : EReal)) := by
  refine ⟨(Real.sqrt r)⁻¹, ?_⟩
  rw [Ideal.rsqrt_coe, if_neg (not_lt.mpr hr.le), if_neg hr.ne']

/-- A finite sum of nonnegative reals, coerced, is a nonnegative real. -/
theorem sum_coe_nonneg {ι : Type} (s : Finset ι) (f : ι → ℝ) (h : ∀ i ∈ s, 0 ≤ f i) :
    ∃ r : ℝ, 0 ≤ r ∧ (∑ i ∈ s, ((f i : ℝ) : EReal)) = (r : EReal) := by
  classical
  refine ⟨∑ i ∈ s, f i, Finset.sum_nonneg h, ?_⟩
  induction s using Finset.induction_on with
  | empty => simp
  | insert a s ha ih =>
    rw [Finset.sum_insert ha, Finset.sum_insert ha, ih fun i hi => h i (Finset.mem_insert_of_mem hi), EReal.coe_add]

end Cert.Lib.Real

end
-- ==== Proof.RefFinite.lean ====
/-
  Every logit of the reference program is a real number when the float inputs are.

  At the ideal instance a float is an extended real. A value computed from real inputs by sums, products,
  selections between reals, re-indexings (broadcasts, gathers, a concatenation), finite sums (the accumulating
  scatter, the contraction of a dense layer) and the inverse square root of a POSITIVE real never leaves the
  reals. The one place an infinity could arise is the inverse square root of a zero degree; the program guards it:
  where the degree is not positive the normalisation is the constant 0, and the inverse square root is only read
  where the degree is positive. `AllReal x`: every entry of `x` is a real number; one closure lemma per
  operation, one per stage, and `logits_real` for the stages composed.
-/
import proofs.«109717_j65541200937586_2_alg».proof.Proof.RefStages
import proofs.«109717_j65541200937586_2_alg».proof.Proof.LibReal
import Idealize.ShloMosaic.PureOps.Ideal

noncomputable section

namespace Cert.ReferenceIdeal.RefRun

open Cert.ReferenceIdeal Cert.ReferenceIdeal.Gen Idealize.ShloMosaic Cert.Lib.Real

/-- Every entry is a real number: neither infinity. -/
def AllReal {S : Shape} (x : FVec Ideal S .f32) : Prop := ∀ i, x i ≠ ⊥ ∧ x i ≠ ⊤

theorem isReal_ne_bot_top {x : EReal} (h : IsReal x) : x ≠ ⊥ ∧ x ≠ ⊤ := by
  obtain ⟨r, rfl⟩ := h; exact ⟨EReal.coe_ne_bot r, EReal.coe_ne_top r⟩

theorem isReal_of_ne {x : EReal} (hb : x ≠ ⊥) (ht : x ≠ ⊤) : IsReal x := by
  induction x using EReal.rec with
  | bot => exact absurd rfl hb
  | top => exact absurd rfl ht
  | coe r => exact ⟨r, rfl⟩

/-- An entry of an all-real array is (the coercion of) a real number. -/
theorem AllReal.isReal {S : Shape} {x : FVec Ideal S .f32} (h : AllReal x) (i : S.Idx) : IsReal (x i) :=
  isReal_of_ne (h i).1 (h i).2

theorem AllReal.of_isReal {S : Shape} {x : FVec Ideal S .f32} (h : ∀ i, IsReal (x i)) : AllReal x :=
  fun i => isReal_ne_bot_top (h i)

/-! ## The operations -/

section Ops
variable {S T : Shape}

theorem AllReal.addf {x y : FVec Ideal S .f32} (hx : AllReal x) (hy : AllReal y) : AllReal (addf x y) :=
  AllReal.of_isReal fun i => (hx.isReal i).add (hy.isReal i)

theorem AllReal.mulf {x y : FVec Ideal S .f32} (hx : AllReal x) (hy : AllReal y) : AllReal (mulf x y) :=
  AllReal.of_isReal fun i => (hx.isReal i).mul (hy.isReal i)

theorem select_apply {α : Type} (c : IVec S 1) (a b : S.Idx → α) (i : S.Idx) :
    select c a b i = if c i = 1 then a i else b i := rfl

theorem AllReal.select (c : IVec S 1) {a b : FVec Ideal S .f32} (ha : AllReal a) (hb : AllReal b) :
    AllReal (select c a b) := by
  intro i; rw [select_apply]; split
  · exact ha i
  · exact hb i

/-- A re-indexing of reals: a broadcast. -/
theorem AllReal.broadcastInDim (dims : Fin S.rank → Fin T.rank) (h : S.BroadcastsInDim T dims) {x : FVec Ideal S .f32}
    (hx : AllReal x) : AllReal (broadcastInDim T dims h x) :=
  fun _ => hx _

/-- A re-indexing of reals: a gather, whatever the indices. -/
theorem AllReal.gather {si : Shape} {w : Nat} (d : GatherDims S si T) {x : FVec Ideal S .f32} (hx : AllReal x)
    (idx : IVec si w) : AllReal (Host.gather d x idx) :=
  fun _ => hx _

/-- A bit pattern whose exponent field is not all ones denotes a real. -/
theorem isReal_ieee {e m w : Nat} (b : BitVec w) (h : (b.extractLsb' m e).toNat ≠ 2 ^ e - 1) : IsReal (Ideal.ieee e m b) := by
  unfold Ideal.ieee
  simp only [if_neg h]
  split <;> exact ⟨_, rfl⟩

theorem AllReal.constant (b : BitVec 32) (h : (b.extractLsb' 23 8).toNat ≠ 2 ^ 8 - 1) :
    AllReal (constant S .f32 b : FVec Ideal S .f32) :=
  AllReal.of_isReal fun _ => isReal_ieee b h

/-- The accumulating scatter: each entry is the operand's plus a finite sum of update entries. -/
theorem AllReal.scatterAdd {si u : Shape} {w : Nat} (d : ScatterDims S si u) {x : FVec Ideal S .f32} (hx : AllReal x)
    (idx : IVec si w) {upd : FVec Ideal u .f32} (hu : AllReal upd) : AllReal (Host.scatterAdd d x idx upd) := by
  refine AllReal.of_isReal fun i => ?_
  show IsReal (x i + ∑ j ∈ Finset.univ.filter (fun j => d.resultIdx? j idx = some i), upd j)
  exact (hx.isReal i).add (IsReal.sum _ _ fun j _ => hu.isReal j)

/-- The dense product: each entry is a finite sum of products. -/
theorem AllReal.dotGeneral {sr : Shape} (d : DotDims S sr T) {l : FVec Ideal S .f32} (hl : AllReal l)
    {r : FVec Ideal sr .f32} (hr : AllReal r) : AllReal (Host.dotGeneral d none l r) := by
  refine AllReal.of_isReal fun j => ?_
  show IsReal ((0 : EReal) + ∑ k : d.contr.Idx, l (d.lhsIdx j k) * r (d.rhsIdx j k))
  exact isReal_zero.add (IsReal.sum _ _ fun k _ => (hl.isReal _).mul (hr.isReal _))

end Ops

/-! ## The stages -/

theorem AllReal.degOf (ei : IVec S2x16000000 32) {ew : FVec Ideal S16000000 .f32} (hew : AllReal ew) :
    AllReal (degOf ei ew) :=
  AllReal.scatterAdd _ (AllReal.broadcastInDim _ _ (AllReal.constant _ (by decide))) _ hew

theorem cmp_ogt_eq_one {x y : EReal} (h : Ideal.cmp .ogt x y = 1#1) : y < x := by
  unfold Ideal.cmp at h
  by_contra hn
  simp [hn] at h

/-- The zero pattern denotes 0. -/
theorem ofBits_zero : Ideal.ofBits .f32 0x00000000#32 = 0 := by
  simp [Ideal.ofBits, Ideal.ieee]

/-- The guarded inverse square root of the degree is real everywhere: where the degree is positive it is the inverse
    square root of a positive real, elsewhere the constant 0. -/
theorem AllReal.dinvOf {deg : FVec Ideal S1000000 .f32} (h : AllReal deg) : AllReal (dinvOf deg) := by
  refine AllReal.of_isReal fun i => ?_
  unfold RefRun.dinvOf
  rw [select_apply]
  split
  · next hc =>
    show IsReal (Ideal.rsqrt (Idealize.ShloMosaic.select _ deg _ i))
    rw [select_apply, if_pos hc]
    have hpos : (0 : EReal) < deg i := by
      have := cmp_ogt_eq_one (x := deg i) (y := Ideal.ofBits .f32 0x00000000#32) hc
      rwa [ofBits_zero] at this
    obtain ⟨r, hr⟩ := h.isReal i
    rw [hr] at hpos ⊢
    exact isReal_rsqrt_of_pos (by exact_mod_cast hpos)
  · exact isReal_ieee (e := 8) (m := 23) (0x00000000#32 : BitVec 32) (by decide)

theorem AllReal.normOf (ei : IVec S2x16000000 32) {ew : FVec Ideal S16000000 .f32} (hew : AllReal ew) :
    AllReal (normOf ei ew) :=
  AllReal.mulf (AllReal.mulf (AllReal.gather _ (AllReal.dinvOf (AllReal.degOf ei hew)) _) hew)
    (AllReal.gather _ (AllReal.dinvOf (AllReal.degOf ei hew)) _)

theorem AllReal.xOf {emb : FVec Ideal S1000000x3 .f32} (hemb : AllReal emb) {w : FVec Ideal S3x3 .f32} (hw : AllReal w) :
    AllReal (xOf emb w) :=
  AllReal.dotGeneral _ hemb hw

theorem AllReal.aggOf (ei : IVec S2x16000000 32) {nrm : FVec Ideal S16000000 .f32} (hn : AllReal nrm)
    {x : FVec Ideal S1000000x3 .f32} (hx : AllReal x) : AllReal (aggOf ei nrm x) :=
  AllReal.scatterAdd _ (AllReal.broadcastInDim _ _ (AllReal.constant _ (by decide))) _
    (AllReal.mulf (AllReal.broadcastInDim _ _ (AllReal.broadcastInDim _ _ hn)) (AllReal.gather _ hx _))

theorem AllReal.leaky3 {x : FVec Ideal S1000000x3 .f32} (hx : AllReal x) : AllReal (leaky3 x) :=
  AllReal.select _ hx (AllReal.mulf (AllReal.broadcastInDim _ _ (AllReal.constant _ (by decide))) hx)

theorem AllReal.leaky6 {x : FVec Ideal S1000000x6 .f32} (hx : AllReal x) : AllReal (leaky6 x) :=
  AllReal.select _ hx (AllReal.mulf (AllReal.broadcastInDim _ _ (AllReal.constant _ (by decide))) hx)

theorem AllReal.convOf {agg : FVec Ideal S1000000x3 .f32} (ha : AllReal agg) {b : FVec Ideal S3 .f32} (hb : AllReal b) :
    AllReal (convOf agg b) :=
  AllReal.leaky3 (AllReal.addf ha (AllReal.broadcastInDim _ _ (AllReal.broadcastInDim _ _ hb)))

/-- A concatenation of two all-real arrays is all real: each entry is an entry of one of the two. -/
theorem AllReal.hOf (home away : IVec S1000000 32) {xc : FVec Ideal S1000000x3 .f32} (hx : AllReal xc) :
    AllReal (hOf home away xc) := by
  refine AllReal.of_isReal fun j => ?_
  unfold RefRun.hOf concatenate
  dsimp only
  have hall : ∀ p ∈ ([⟨S1000000x3, Host.gather gather_S1000000x3_S1000000x1_S1000000x3_1_0_n_n_0_1_13 xc (wrap1M home)⟩,
      ⟨S1000000x3, Host.gather gather_S1000000x3_S1000000x1_S1000000x3_1_0_n_n_0_1_13 xc (wrap1M away)⟩] :
        List ((s : Shape) × (s.Idx → EReal))), ∀ i, IsReal (p.2 i) := by
    intro p hp i
    rcases List.mem_cons.1 hp with rfl | hp
    · exact (AllReal.gather _ hx _).isReal i
    · rcases List.mem_cons.1 hp with rfl | hp
      · exact (AllReal.gather _ hx _).isReal i
      · exact absurd hp (List.not_mem_nil)
  exact hall _ (List.getElem_mem _) _

theorem AllReal.logitsOf {h : FVec Ideal S1000000x6 .f32} (hh : AllReal h) {w1 : FVec Ideal S6x6 .f32} (hw1 : AllReal w1)
    {b1 : FVec Ideal S6 .f32} (hb1 : AllReal b1) {w3 : FVec Ideal S6x3 .f32} (hw3 : AllReal w3)
    {b3 : FVec Ideal S3 .f32} (hb3 : AllReal b3) : AllReal (logitsOf h w1 b1 w3 b3) :=
  AllReal.leaky3 (AllReal.addf
    (AllReal.dotGeneral _
      (AllReal.leaky6 (AllReal.addf (AllReal.dotGeneral _ hh hw1)
        (AllReal.broadcastInDim _ _ (AllReal.broadcastInDim _ _ hb1))))
      hw3)
    (AllReal.broadcastInDim _ _ (AllReal.broadcastInDim _ _ hb3)))

/-- Every logit is a real number when the float inputs are. -/
theorem logits_real (ei : IVec S2x16000000 32) (home away : IVec S1000000 32)
    {ew : FVec Ideal S16000000 .f32} (hew : AllReal ew) {emb : FVec Ideal S1000000x3 .f32} (hemb : AllReal emb)
    {w : FVec Ideal S3x3 .f32} (hw : AllReal w) {b : FVec Ideal S3 .f32} (hb : AllReal b)
    {w1 : FVec Ideal S6x6 .f32} (hw1 : AllReal w1) {b1 : FVec Ideal S6 .f32} (hb1 : AllReal b1)
    {w3 : FVec Ideal S6x3 .f32} (hw3 : AllReal w3) {b3 : FVec Ideal S3 .f32} (hb3 : AllReal b3) :
    AllReal (logitsOf (hOf home away (convOf (aggOf ei (normOf ei ew) (xOf emb w)) b)) w1 b1 w3 b3) :=
  AllReal.logitsOf
    (AllReal.hOf home away (AllReal.convOf (AllReal.aggOf ei (AllReal.normOf ei hew) (AllReal.xOf hemb hw)) hb))
    hw1 hb1 hw3 hb3

end Cert.ReferenceIdeal.RefRun

end
-- ==== Proof.PreReal.lean ====
import proofs.«109717_j65541200937586_2_alg».proof.Pre_finite_inputs
import proofs.«109717_j65541200937586_2_alg».proof.Proof.Gen.Pre_finite_inputs
import Idealize.ShloMosaic.Lib.ReduceAll
import Idealize.ShloMosaic.Lib.ValueIdx
import Idealize.ShloMosaic.PureOps.Ideal.Laws

/-! # The precondition decoded, at the ideal values

The precondition is, for each of the eight float arguments, the conjunction over all its entries of `|x| < +∞` (a
comparison against the infinity's pattern, reduced by `and` from the constant 1), and the conjunction of the eight. A
reduction by `and` into one entry that is 1 had a 1 at every operand entry; on the extended reals `|x| = max x (-x)`
below `⊤` excludes both infinities. No entry is ever enumerated. -/

noncomputable section

namespace Cert.Pre_finite_inputs.PreReal

open Idealize.ShloMosaic Cert.Pre_finite_inputs Cert.Pre_finite_inputs.Gen

/-- The rank-0 shape has one index. -/
instance : Subsingleton S_.Idx := ⟨fun a b => funext fun d => d.elim0⟩

/-- The infinity's pattern denotes `⊤`. -/
theorem ofBits_inf : Ideal.ofBits .f32 0x7F800000#32 = (⊤ : EReal) := by
  simp [Ideal.ofBits, Ideal.ieee]

/-- An ordered "less than" that came out 1 holds. -/
theorem lt_of_cmp_olt {x y : EReal} (h : Ideal.cmp .olt x y = 1#1) : x < y := by
  unfold Ideal.cmp at h
  by_contra hn
  simp [hn] at h

/-- `|x| < +∞` on the extended reals: `x` is neither infinity. -/
theorem ne_bot_top_of_abs_lt_top {x : EReal} (h : max x (-x) < ⊤) : x ≠ ⊥ ∧ x ≠ ⊤ := by
  constructor
  · rintro rfl
    simp at h
  · rintro rfl
    simp at h

/-- One conjunct of the precondition, read back: the `and` over all entries of `|a i| < +∞` is 1, so no entry of `a`
    is an infinity. -/
theorem all_of_reduce {S : Shape} {axes : List (Fin S.rank)} (a : FVec Ideal S .f32)
    (bc : S_.BroadcastsInDim S (![] : Fin 0 → Fin S.rank)) (hr : S.ReducesTo axes S_) (hu : 0 < S_.numel) (j : S_.Idx)
    (h : Host.reduce IntOp.andi
          (cmpf .olt (Host.absf a) (broadcastInDim S ![] bc (constant (F := Ideal) S_ .f32 0x7F800000#32)))
          (constantI S_ 1 1#1) hr hu j = 1#1) (i : S.Idx) : (a i : EReal) ≠ ⊥ ∧ (a i : EReal) ≠ ⊤ := by
  have hi := Host.reduce_andi_all _ _ hr hu j h i
  have hc : Ideal.cmp .olt (max (a i : EReal) (-(a i : EReal))) (Ideal.ofBits .f32 0x7F800000#32) = 1#1 := hi
  have hlt := lt_of_cmp_olt hc
  rw [ofBits_inf] at hlt
  exact ne_bot_top_of_abs_lt_top hlt

/-- A conjunction of two `i1` arrays that is 1 at an index has both 1 there. -/
theorem andi_at {S : Shape} {x y : IVec S 1} {i : S.Idx} (h : andi x y i = 1#1) : x i = 1#1 ∧ y i = 1#1 :=
  IntOp.andi_eq_one.1 h

/-- Under the precondition no entry of any float argument is an infinity (arguments 0, 2 and 3 are the integer ones). -/
theorem inputs_real (a0 : IVec S2x16000000 32) (a1 : FVec Ideal S16000000 .f32) (a2 a3 : IVec S1000000 32)
    (a4 : FVec Ideal S1000000x3 .f32) (a5 : FVec Ideal S3x3 .f32) (a6 : FVec Ideal S3 .f32)
    (a7 : FVec Ideal S6x6 .f32) (a8 : FVec Ideal S6 .f32) (a9 : FVec Ideal S6x3 .f32) (a10 : FVec Ideal S3 .f32)
    (h : fn (F := Ideal) a0 a1 a2 a3 a4 a5 a6 a7 a8 a9 a10 = fun _ => 1#1) :
    (∀ i, (a1 i : EReal) ≠ ⊥ ∧ (a1 i : EReal) ≠ ⊤) ∧ (∀ i, (a4 i : EReal) ≠ ⊥ ∧ (a4 i : EReal) ≠ ⊤)
    ∧ (∀ i, (a5 i : EReal) ≠ ⊥ ∧ (a5 i : EReal) ≠ ⊤) ∧ (∀ i, (a6 i : EReal) ≠ ⊥ ∧ (a6 i : EReal) ≠ ⊤)
    ∧ (∀ i, (a7 i : EReal) ≠ ⊥ ∧ (a7 i : EReal) ≠ ⊤) ∧ (∀ i, (a8 i : EReal) ≠ ⊥ ∧ (a8 i : EReal) ≠ ⊤)
    ∧ (∀ i, (a9 i : EReal) ≠ ⊥ ∧ (a9 i : EReal) ≠ ⊤) ∧ (∀ i, (a10 i : EReal) ≠ ⊥ ∧ (a10 i : EReal) ≠ ⊤) := by
  have h0 := congrFun h ValueIdx.ix0
  dsimp only [fn, fn_part1, fn_part2] at h0
  obtain ⟨h33, h37⟩ := andi_at h0
  obtain ⟨h28, h32⟩ := andi_at h33
  obtain ⟨h23, h27⟩ := andi_at h28
  obtain ⟨h18, h22⟩ := andi_at h23
  obtain ⟨h13, h17⟩ := andi_at h18
  obtain ⟨h8, h12⟩ := andi_at h13
  obtain ⟨h3, h7⟩ := andi_at h8
  exact ⟨all_of_reduce a1 _ _ _ _ h3, all_of_reduce a4 _ _ _ _ h7, all_of_reduce a5 _ _ _ _ h12,
    all_of_reduce a6 _ _ _ _ h17, all_of_reduce a7 _ _ _ _ h22, all_of_reduce a8 _ _ _ _ h27,
    all_of_reduce a9 _ _ _ _ h32, all_of_reduce a10 _ _ _ _ h37⟩

end Cert.Pre_finite_inputs.PreReal

end
-- ==== Proof.lean ====
/-
  A graph-convolution layer, a two-layer perceptron on gathered rows and a log-softmax down the batch axis, computed
  two ways. Both programs share their host operations on the graph: the weighted in-degree by scatter-add, its inverse
  square root where positive, the edge normalisation, the gather of transformed rows at the edge sources, their
  scatter-add at the destinations, and the two batch gathers set side by side. One program does the four dense stages
  as tiled kernel regions over blocks of 8000 rows: the node transform (a 3 × 3 product), bias with the leaky
  rectifier, the perceptron fused with a running column maximum and a running sum of exponentials (rescaled by
  exp(old max − new max) whenever the maximum moves, kept in two scratch rows from tile to tile and written out after
  the last tile), and the final subtraction logit − column max − log column sum. The other does them as whole-array
  host operations, its log-softmax subtracting the column maximum and then the logarithm of the sum of the shifted
  exponentials.

  The frames. Each kernel program is eleven items — host stretches and four regions — run one after the other; a
  stretch applies its operations, a region leaves its output arrays at what its write-backs leave and everything else
  as entered; no item writes an argument. The three plain regions have one case; the third region has three (first
  tile: the running rows are reset; middle tiles; last tile: the rows are written out), its invariant carrying the
  running rows from tile to tile. The reference is one straight line of host operations.

  The values, at the extended reals. A matrix-unit product into zeros is the host's dot product; bias, rectifier and
  subtraction act entry by entry; so the regions' arrays are the reference's stages of the same inputs. For the last
  stage, the running rows obey max and sum recurrences over the 125 tiles whose closed form — every logit being a real
  number, which the finiteness of the inputs gives through sums, products, selects, gathers and the inverse square
  root of a positive real — is the column maximum and the sum of exponentials shifted by it: the reference's two-pass
  form.
-/
import proofs.«109717_j65541200937586_2_alg».proof.Defs
import proofs.«109717_j65541200937586_2_alg».proof.Proof.Gen.Kernel
import proofs.«109717_j65541200937586_2_alg».proof.Proof.Gen.KernelIdeal
import proofs.«109717_j65541200937586_2_alg».proof.Proof.Gen.ReferenceIdeal
import proofs.«109717_j65541200937586_2_alg».proof.Proof.Gen.Pre_finite_inputs
import proofs.«109717_j65541200937586_2_alg».proof.Proof.KClaimsb
import proofs.«109717_j65541200937586_2_alg».proof.Proof.KValue2
import proofs.«109717_j65541200937586_2_alg».proof.Proof.RefRun
import proofs.«109717_j65541200937586_2_alg».proof.Proof.RefFrame
import proofs.«109717_j65541200937586_2_alg».proof.Proof.RefFinite
import proofs.«109717_j65541200937586_2_alg».proof.Proof.PreReal

noncomputable section

namespace Cert.Proof

open Idealize.ShloMosaic Idealize.SL.Sem

/-- The word-level kernel program runs and leaves its arguments unchanged. -/
theorem frame_kernel : Cert.frame_Kernel := fun m ρ _ => Cert.Kernel.KFrame.frame m ρ

/-- So does its reading at the extended reals. -/
theorem frame_kernelIdeal : Cert.frame_KernelIdeal := fun m ρ _ => Cert.KernelIdeal.KFrame.frame m ρ

/-- And the reference. -/
theorem frame_referenceIdeal : Cert.frame_ReferenceIdeal := fun m ρ _ => Cert.ReferenceIdeal.RefRun.frame m ρ

/-- The idealization rewrote nothing. -/
theorem preserves : Cert.preserves_Kernel_KernelIdeal := trivial

/-- From memories agreeing on the arguments both programs end with the same result array. -/
theorem algebraic : Cert.algebraic_KernelIdeal_ReferenceIdeal := by
  intro m ρ m' ρ' hpre hagree
  refine ⟨fun c => Cert.KernelIdeal.KFrame.W11 (F := Ideal) m ρ c (Proc.devRef .tc Cert.KernelIdeal.main_v61), Cert.KernelIdeal.KFrame.run_value m ρ, ?_⟩
  refine (θ_run Cert.ReferenceIdeal.defs _ _).mono (fun r h c => ?_) (Cert.ReferenceIdeal.RefRun.run_main (F := Ideal) m' ρ')
  obtain ⟨e0, e1, e2, e3, e4, e5, e6, e7, e8, e9, e10⟩ := hagree c
  refine ⟨?_, (h c Cert.ReferenceIdeal.main_arg0).trans (Cert.ReferenceIdeal.RefRun.arg0_eq _), (h c Cert.ReferenceIdeal.main_arg1).trans (Cert.ReferenceIdeal.RefRun.arg1_eq _),
    (h c Cert.ReferenceIdeal.main_arg2).trans (Cert.ReferenceIdeal.RefRun.arg2_eq _), (h c Cert.ReferenceIdeal.main_arg3).trans (Cert.ReferenceIdeal.RefRun.arg3_eq _),
    (h c Cert.ReferenceIdeal.main_arg4).trans (Cert.ReferenceIdeal.RefRun.arg4_eq _), (h c Cert.ReferenceIdeal.main_arg5).trans (Cert.ReferenceIdeal.RefRun.arg5_eq _),
    (h c Cert.ReferenceIdeal.main_arg6).trans (Cert.ReferenceIdeal.RefRun.arg6_eq _), (h c Cert.ReferenceIdeal.main_arg7).trans (Cert.ReferenceIdeal.RefRun.arg7_eq _),
    (h c Cert.ReferenceIdeal.main_arg8).trans (Cert.ReferenceIdeal.RefRun.arg8_eq _), (h c Cert.ReferenceIdeal.main_arg9).trans (Cert.ReferenceIdeal.RefRun.arg9_eq _),
    (h c Cert.ReferenceIdeal.main_arg10).trans (Cert.ReferenceIdeal.RefRun.arg10_eq _)⟩
  -- the result buffer: the reference's stages at its arguments, which are the kernel's
  refine (h c Cert.ReferenceIdeal.main_v73).trans ((Cert.ReferenceIdeal.RefRun.out_eq _).trans ?_)
  obtain ⟨h1, h4, h5, h6, h7, h8, h9, h10⟩ := Cert.Pre_finite_inputs.PreReal.inputs_real _ _ _ _ _ _ _ _ _ _ _ (hpre c)
  have hlog := Cert.KernelIdeal.KFrame.W10_logits m ρ c
  have hz : ∀ i, Cert.KernelIdeal.KFrame.Zk m ρ c i ≠ ⊥ ∧ Cert.KernelIdeal.KFrame.Zk m ρ c i ≠ ⊤ := by
    have hr := Cert.ReferenceIdeal.RefRun.logits_real (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) h1 h4 h5 h6 h7 h8 h9 h10
    intro i
    rw [show Cert.KernelIdeal.KFrame.Zk m ρ c = _ from hlog]
    exact hr i
  have e0' : StableHlo.launchContents m' c (Proc.devRef .tc Cert.ReferenceIdeal.main_arg0) = m ((c.tc : Thread Cert.KernelIdeal.nD Cert.KernelIdeal.τ).loc Cert.KernelIdeal.main_arg0) := e0
  have e1' : StableHlo.launchContents m' c (Proc.devRef .tc Cert.ReferenceIdeal.main_arg1) = m ((c.tc : Thread Cert.KernelIdeal.nD Cert.KernelIdeal.τ).loc Cert.KernelIdeal.main_arg1) := e1
  have e2' : StableHlo.launchContents m' c (Proc.devRef .tc Cert.ReferenceIdeal.main_arg2) = m ((c.tc : Thread Cert.KernelIdeal.nD Cert.KernelIdeal.τ).loc Cert.KernelIdeal.main_arg2) := e2
  have e3' : StableHlo.launchContents m' c (Proc.devRef .tc Cert.ReferenceIdeal.main_arg3) = m ((c.tc : Thread Cert.KernelIdeal.nD Cert.KernelIdeal.τ).loc Cert.KernelIdeal.main_arg3) := e3
  have e4' : StableHlo.launchContents m' c (Proc.devRef .tc Cert.ReferenceIdeal.main_arg4) = m ((c.tc : Thread Cert.KernelIdeal.nD Cert.KernelIdeal.τ).loc Cert.KernelIdeal.main_arg4) := e4
  have e5' : StableHlo.launchContents m' c (Proc.devRef .tc Cert.ReferenceIdeal.main_arg5) = m ((c.tc : Thread Cert.KernelIdeal.nD Cert.KernelIdeal.τ).loc Cert.KernelIdeal.main_arg5) := e5
  have e6' : StableHlo.launchContents m' c (Proc.devRef .tc Cert.ReferenceIdeal.main_arg6) = m ((c.tc : Thread Cert.KernelIdeal.nD Cert.KernelIdeal.τ).loc Cert.KernelIdeal.main_arg6) := e6
  have e7' : StableHlo.launchContents m' c (Proc.devRef .tc Cert.ReferenceIdeal.main_arg7) = m ((c.tc : Thread Cert.KernelIdeal.nD Cert.KernelIdeal.τ).loc Cert.KernelIdeal.main_arg7) := e7
  have e8' : StableHlo.launchContents m' c (Proc.devRef .tc Cert.ReferenceIdeal.main_arg8) = m ((c.tc : Thread Cert.KernelIdeal.nD Cert.KernelIdeal.τ).loc Cert.KernelIdeal.main_arg8) := e8
  have e9' : StableHlo.launchContents m' c (Proc.devRef .tc Cert.ReferenceIdeal.main_arg9) = m ((c.tc : Thread Cert.KernelIdeal.nD Cert.KernelIdeal.τ).loc Cert.KernelIdeal.main_arg9) := e9
  have e10' : StableHlo.launchContents m' c (Proc.devRef .tc Cert.ReferenceIdeal.main_arg10) = m ((c.tc : Thread Cert.KernelIdeal.nD Cert.KernelIdeal.τ).loc Cert.KernelIdeal.main_arg10) := e10
  rw [e0', e1', e2', e3', e4', e5', e6', e7', e8', e9', e10']
  exact ((Cert.KernelIdeal.KFrame.result_eq m ρ c hz).trans (congrArg Cert.ReferenceIdeal.RefRun.lsmOf hlog)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
